-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg15 : FVec F S64x64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  main_v73

def fn_part3 {F : FTy → Type} [FloatOps F] (main_arg12 : FVec F S64 .f32) (main_arg13 : FVec F S64x64 .f32) (main_arg14 : FVec F S64 .f32) (main_arg15 : FVec F S64x64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_v48 main_v49 main_v50

def fn_part1 {F : FTy → Type} [FloatOps F] (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : FVec F S100000x1 .f32) (main_arg2 : IVec S2x1600000 32) (main_arg3 : FVec F S128 .f32) (main_arg4 : FVec F S128 .f32) (main_arg5 : FVec F S128x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S5000x1 : Shape := ⟨2, ![5000, 1]⟩
abbrev S_ : Shape := ⟨0, ![]⟩
abbrev S1600000x1 : Shape := ⟨2, ![1600000, 1]⟩
abbrev S1600000x128 : Shape := ⟨2, ![1600000, 128]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩
abbrev S100000x384 : Shape := ⟨2, ![100000, 384]⟩

abbrev nBuf : Space → Nat
  | .hbm => 110
  | .vmem => 61
  | .smem => 0
  | _ => 0

abbrev bufTy : (tb : Table) → Fin (tcTables nBuf tb) → BufTy
  | .hbm, ⟨0, _⟩ => ⟨S100000x128, .f32⟩
  | .hbm, ⟨1, _⟩ => ⟨S100000x1, .f32⟩
  | .hbm, ⟨2, _⟩ => ⟨S2x1600000, .i32⟩
  | .hbm, ⟨3, _⟩ => ⟨S128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S_, .f32⟩
  | .hbm, ⟨58, _⟩ => ⟨S100000x64, .f32⟩
  | .hbm, ⟨59, _⟩ => ⟨S1600000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x64, .f32⟩
  | .hbm, ⟨102, _⟩ => ⟨S_, .f32⟩
  | .hbm, ⟨103, _⟩ => ⟨S100000x64, .f32⟩
  | .hbm, ⟨104, _⟩ => ⟨S1600000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x384, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x64, .f32⟩
  | .local _ .vmem, ⟨59, _⟩ => ⟨S5000x64, .f32⟩
  | .local _ .vmem, ⟨60, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_3 : Ref sig .tc := ⟨.hbm, 48, rfl⟩
abbrev main_v26 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_6 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_9 : Ref sig .tc := ⟨.hbm, 78, rfl⟩
abbrev main_v50 : Ref sig .tc := ⟨.hbm, 79, rfl⟩
abbrev main_v51 : Ref sig .tc := ⟨.hbm, 80, rfl⟩
abbrev main_c_10 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg2_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem2_1 : DmaSem sig := 60

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  concatenates_S100000x64_S100000x64_S100000x64_S100000x64_S100000x64_S100000x64_S100000x384_d1 : Shape.Concatenates [S100000x64, S100000x64, S100000x64, S100000x64, S100000x64, S100000x64] S100000x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S100000x64.size a
  hwx6_4 : ∀ i : grid6.Coords, EltTy.bits .f32 = 32 ∨ (Rect.block (s := S100000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v13) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v25) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v49) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v49) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v61) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v71) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg13) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v73) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v73) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg15) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S2x1600000 : Shape := ⟨2, ![2, 1600000]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1x128 : Shape := ⟨2, ![1, 128]⟩
abbrev S1600000x1 : Shape := ⟨2, ![1600000, 1]⟩
abbrev S1600000x128 : Shape := ⟨2, ![1600000, 128]⟩
abbrev S100000x64 : Shape := ⟨2, ![100000, 64]⟩
abbrev S1x64 : Shape := ⟨2, ![1, 64]⟩
abbrev S1600000x64 : Shape := ⟨2, ![1600000, 64]⟩
abbrev S100000x384 : Shape := ⟨2, ![100000, 384]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S100000x1, .f32⟩
  | 2 => ⟨S2x1600000, .i32⟩
  | 3 => ⟨S128, .f32⟩
  | 4 => ⟨S128, .f32⟩
  | 5 => ⟨S128x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S100000x128, .f32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S100000x64, .f32⟩
  | 81 => ⟨S1x64, .f32⟩
  | 82 => ⟨S100000x64, .f32⟩
  | 83 => ⟨S100000x64, .f32⟩
  | 84 => ⟨S100000x64, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x64, .f32⟩
  | 94 => ⟨S_, .f32⟩
  | 95 => ⟨S100000x64, .f32⟩
  | 96 => ⟨S1600000x1, .i32⟩
  | 97 => ⟨S100000x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S100000x64, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000x64, .f32⟩
  | 118 => ⟨S100000x64, .f32⟩
  | 119 => ⟨S1x64, .f32⟩
  | 120 => ⟨S100000x64, .f32⟩
  | 121 => ⟨S100000x64, .f32⟩
  | 122 => ⟨S100000x64, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S100000x64, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x64, .f32⟩
  | 23 => ⟨S_, .f32⟩
  | 24 => ⟨S100000x64, .f32⟩
  | 25 => ⟨S1600000x1, .i32⟩
  | 26 => ⟨S100000x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S100000x64, .f32⟩
  | 33 => ⟨S100000x64, .f32⟩
  | 34 => ⟨S100000x64, .f32⟩
  | 35 => ⟨S100000x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst_1 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_c_2 : Ref sig .tc := ⟨.hbm, 66, rfl⟩
abbrev main_v25 : Ref sig .tc := ⟨.hbm, 67, rfl⟩
abbrev main_v26 : Ref sig .tc := ⟨.hbm, 68, rfl⟩
abbrev main_c_3 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_4 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_5 : Ref sig .tc := ⟨.hbm, 85, rfl⟩
abbrev main_v41 : Ref sig .tc := ⟨.hbm, 86, rfl⟩
abbrev main_v42 : Ref sig .tc := ⟨.hbm, 87, rfl⟩
abbrev main_c_6 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_cst_7 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_c_8 : Ref sig .tc := ⟨.hbm, 104, rfl⟩
abbrev main_v57 : Ref sig .tc := ⟨.hbm, 105, rfl⟩
abbrev main_v58 : Ref sig .tc := ⟨.hbm, 106, rfl⟩
abbrev main_c_9 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_10 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_11 : Ref sig .tc := ⟨.hbm, 123, rfl⟩
abbrev main_v73 : Ref sig .tc := ⟨.hbm, 124, rfl⟩
abbrev main_v74 : Ref sig .tc := ⟨.hbm, 125, rfl⟩
abbrev main_c_12 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_13 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_c_14 : Ref sig .tc := ⟨.hbm, 142, rfl⟩
abbrev main_v89 : Ref sig .tc := ⟨.hbm, 143, rfl⟩
abbrev main_v90 : Ref sig .tc := ⟨.hbm, 144, rfl⟩
abbrev main_c_15 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_16 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  concatenates_S100000x64_S100000x64_S100000x64_S100000x64_S100000x64_S100000x64_S100000x384_d1 : Shape.Concatenates [S100000x64, S100000x64, S100000x64, S100000x64, S100000x64, S100000x64] S100000x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RunCond.lean ====
/-
  The program's run with every region's record given: every weakly fair execution of the host program ends, and at
  the end each buffer that outlives the kernels holds the last of the valuations the segments thread from the launch
  memory — host stretches folded over it, each region's results written in.  The frame claim reads the argument
  buffers off this; the value claim reads the result buffer.
-/
import proofs.«132860_j13426067767700_1_alg».proof.Proof.Gen.KernelIdeal.Regions

set_option maxRecDepth 1196

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given the eight regions' records between the valuations `V1 … V15`, the run ends with every buffer outside the
    kernels' scopes at the last valuation `V16`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (hpre7 c), hpost7 c, sep_mono .rfl (hE8 c)⟩)
    (hinit := ?_) (QY := fun c s => ∀ b ∈ Pipeline.ucRefs τ sig, s.mem (((c : Thread nD τ)).1, b) = V16 m outs c b)
    (hfin := fun c s' => ?_) (hQ := fun _ h => h)
  · -- at the launch the buffers are held at the launch memory, and the rest makes the first side state on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every held buffer is read against the final memory
    unfold StableHlo.held
    iintro ⟨Hh, HSI⟩
    imodintro
    iapply (pointsTo_read_all (Pipeline.ucRefs τ sig) (fun b => (((c : Thread nD τ)).1, b)) (V16 m outs c) s')
    isplitl [Hh] <;> iassumption

end Cert.KernelIdeal.Frm

end
-- ==== Proof.Reg0.lean ====
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__bn_stats_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved, the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs hold after each point -/

/-- The accumulation. What the two outputs' staging buffers (windows 2 and 3: the running sum and the running sum of
    squares) hold after the body at position `n`: at the first point the body zeroes both and adds the point's
    contribution; at a later point it adds the point's contribution to what the point before left (the buffers are
    not written back between). -/
def outsAt0 (c : Dev nD) : (n : ℕ) → n < cfg0.N → Vec F S1x128 .f32 × Vec F S1x128 .f32
  | 0, hn => (k0_pay4 (iblk0 V c 0 ⟨0, hn⟩) (iblk0 V c 1 ⟨0, hn⟩) (k0_pay1 (F := F)),
              k0_pay5 (iblk0 V c 0 ⟨0, hn⟩) (iblk0 V c 1 ⟨0, hn⟩) (k0_pay2 (F := F)))
  | n + 1, hn => (k0_pay4 (iblk0 V c 0 ⟨n + 1, hn⟩) (iblk0 V c 1 ⟨n + 1, hn⟩) (outsAt0 c n (Nat.lt_of_succ_lt hn)).1,
                  k0_pay5 (iblk0 V c 0 ⟨n + 1, hn⟩) (iblk0 V c 1 ⟨n + 1, hn⟩) (outsAt0 c n (Nat.lt_of_succ_lt hn)).2)

/-- `outsAt0` at the first point. -/
theorem outsAt0_zero (c : Dev nD) (hn : 0 < cfg0.N) :
    outsAt0 V c 0 hn = (k0_pay4 (iblk0 V c 0 ⟨0, hn⟩) (iblk0 V c 1 ⟨0, hn⟩) (k0_pay1 (F := F)),
                        k0_pay5 (iblk0 V c 0 ⟨0, hn⟩) (iblk0 V c 1 ⟨0, hn⟩) (k0_pay2 (F := F))) := rfl

/-- `outsAt0` at a later point: the point's contribution added to what the point before left. -/
theorem outsAt0_succ (c : Dev nD) (n : ℕ) (hn : n + 1 < cfg0.N) :
    outsAt0 V c (n + 1) hn = (k0_pay4 (iblk0 V c 0 ⟨n + 1, hn⟩) (iblk0 V c 1 ⟨n + 1, hn⟩) (outsAt0 V c n (Nat.lt_of_succ_lt hn)).1,
                              k0_pay5 (iblk0 V c 0 ⟨n + 1, hn⟩) (iblk0 V c 1 ⟨n + 1, hn⟩) (outsAt0 V c n (Nat.lt_of_succ_lt hn)).2) := rfl

/-! ## The pipeline's proof data -/

/-- The proof data of pipeline 0 on core `c`: the arrays as the region finds them (`V`); after the body at
    point `t` each input's buffer at its block and the outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S1x128 := Rect.unit (s := S1x128) ![0, 0] S1x128.size inb_S1x128_S1x128_0_0

/-- The zero offsets, however spelt. -/
theorem hz : (![0, 0] : Fin 2 → Nat) = fun _ => 0 := by funext a; fin_cases a <;> rfl

/-! ## The body's branch condition -/

/-- The condition of the body's conditional, from the grid coordinates (the scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 20 = 0 :=
  (by decide +kernel : ∀ t : Fin grid0.N, cond0_0 (grid0.coords t) ↔ t.val % 20 = 0)

/-! ## The body's triples, one per case of the conditional -/

set_option maxHeartbeats 1000000 in
/-- At the first point (the conditional taken): on whole staging memrefs, the inputs' at read contents `x0`, `x1` and
    the outputs' at anything, the body zeroes both outputs, reads them back and leaves the point's column sums added
    to the zeros; the inputs' memrefs are as they were. -/
theorem sound_kernel0_A (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole)
    (hc0 : cond0_0 i) (x0 : Vec F S5000x128 .f32) (x1 : Vec F S5000x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay4 x0 x1 (k0_pay1 (F := F)))
            ∗ owns (c : Thread nD τ) arg4 fullShare (k0_pay5 x0 x1 (k0_pay2 (F := F)))) -∗ K ⟨⟩))
      ⊢ wp frame (wpE (defs₀ (F := F)) Variants.none c none) E (cc0__bn_stats_kernel i arg1 harg1 arg2 harg2 arg3 harg3 arg4 harg4) K := by
  simp only [cc0__bn_stats_kernel_eq_skeleton]; unfold cc0__bn_stats_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons_self, View.mem_set_unit_zero (S := S1x128) hz inb_S1x128_S1x128_0_0 y⟩)]
    sl_unfold_words
    rw [View.canon_cons_unit_zero (S := S1x128) hz, View.readCov_unit_zero (S := S1x128) _ hz]
    simp only [View.readAt_eq_ld, View.ld_unit_zero (S := S5000x128) hz, View.ld_unit_zero (S := S5000x1) hz]
  iexists _; isplitr
  swap; · iexact H3
  ipureintro
  rw [View.read_writes_eq_canon _ _ _ (fun y => ⟨_, List.mem_cons_self, View.mem_set_unit_zero (S := S1x128) hz inb_S1x128_S1x128_0_0 y⟩)]
  sl_unfold_words
  rw [View.canon_cons_unit_zero (S := S1x128) hz, View.readCov_unit_zero (S := S1x128) _ hz]
  simp only [View.readAt_eq_ld, View.ld_unit_zero (S := S5000x128) hz, View.ld_unit_zero (S := S5000x1) hz]

set_option maxHeartbeats 1000000 in
/-- At a later point (the conditional not taken): the outputs' memrefs at running contents `xo2`, `xo3`, the body leaves
    the point's column sums added to them. -/
theorem sound_kernel0_B (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole)
    (hc0 : ¬cond0_0 i) (x0 : Vec F S5000x128 .f32) (x1 : Vec F S5000x1 .f32) (xo2 xo3 : Vec F S1x128 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay4 x0 x1 xo2)
            ∗ owns (c : Thread nD τ) arg4 fullShare (k0_pay5 x0 x1 xo3)) -∗ K ⟨⟩))
      ⊢ wp frame (wpE (defs₀ (F := F)) Variants.none c none) E (cc0__bn_stats_kernel i arg1 harg1 arg2 harg2 arg3 harg3 arg4 harg4) K := by
  simp only [cc0__bn_stats_kernel_eq_skeleton]; unfold cc0__bn_stats_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons_self, View.mem_set_unit_zero (S := S1x128) hz inb_S1x128_S1x128_0_0 y⟩)]
    rw [View.canon_cons_unit_zero (S := S1x128) hz]
    simp only [View.readAt_eq_ld, View.ld_unit_zero (S := S5000x128) hz, View.ld_unit_zero (S := S5000x1) hz, View.ld_unit_zero (S := S1x128) hz]
  iexists _; isplitr
  swap; · iexact H3
  ipureintro
  rw [View.read_writes_eq_canon _ _ _ (fun y => ⟨_, List.mem_cons_self, View.mem_set_unit_zero (S := S1x128) hz inb_S1x128_S1x128_0_0 y⟩)]
  rw [View.canon_cons_unit_zero (S := S1x128) hz]
  simp only [View.readAt_eq_ld, View.ld_unit_zero (S := S5000x128) hz, View.ld_unit_zero (S := S5000x1) hz, View.ld_unit_zero (S := S1x128) hz]

/-! ## The outputs at a point, by the case the point is in -/

/-- `outsAt0` at the first point. -/
theorem outsAt0_A (c : Dev nD) (t : Fin cfg0.N) (h0 : t.val % 20 = 0) :
    outsAt0 V c t.val t.isLt = (k0_pay4 (iblk0 V c 0 t) (iblk0 V c 1 t) (k0_pay1 (F := F)),
                                k0_pay5 (iblk0 V c 0 t) (iblk0 V c 1 t) (k0_pay2 (F := F))) := by
  obtain ⟨n, hn⟩ := t
  have hN : n < 20 := lt_of_lt_of_eq hn (show cfg0.N = 20 from N_0)
  cases n with
  | zero => rfl
  | succ n => exfalso; dsimp only at h0; omega

/-- `outsAt0` at a later point: over what the point before left. -/
theorem outsAt0_B (c : Dev nD) (t : Fin cfg0.N) (h0 : ¬t.val % 20 = 0) :
    outsAt0 V c t.val t.isLt =
      (k0_pay4 (iblk0 V c 0 t) (iblk0 V c 1 t) (outsAt0 V c (t.val - 1) (Nat.lt_of_le_of_lt (Nat.sub_le _ _) t.isLt)).1,
       k0_pay5 (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => rfl

theorem outsAt0_A_fst (c : Dev nD) (t : Fin cfg0.N) (h0 : t.val % 20 = 0) :
    (outsAt0 V c t.val t.isLt).1 = k0_pay4 (iblk0 V c 0 t) (iblk0 V c 1 t) (k0_pay1 (F := F)) := by rw [outsAt0_A V c t h0]
theorem outsAt0_A_snd (c : Dev nD) (t : Fin cfg0.N) (h0 : t.val % 20 = 0) :
    (outsAt0 V c t.val t.isLt).2 = k0_pay5 (iblk0 V c 0 t) (iblk0 V c 1 t) (k0_pay2 (F := F)) := by rw [outsAt0_A V c t h0]
theorem outsAt0_B_fst (c : Dev nD) (t : Fin cfg0.N) (h0 : ¬t.val % 20 = 0) :
    (outsAt0 V c t.val t.isLt).1 = k0_pay4 (iblk0 V c 0 t) (iblk0 V c 1 t) (outsAt0 V c (t.val - 1) (Nat.lt_of_le_of_lt (Nat.sub_le _ _) t.isLt)).1 := by rw [outsAt0_B V c t h0]
theorem outsAt0_B_snd (c : Dev nD) (t : Fin cfg0.N) (h0 : ¬t.val % 20 = 0) :
    (outsAt0 V c t.val t.isLt).2 = k0_pay5 (iblk0 V c 0 t) (iblk0 V c 1 t) (outsAt0 V c (t.val - 1) (Nat.lt_of_le_of_lt (Nat.sub_le _ _) t.isLt)).2 := by rw [outsAt0_B V c t h0]

/-- At a later point output window 2's current staging buffer holds what the body left at the point before: the
    point is not the first, the buffer was not written back between, the window is live and uncut. -/
theorem before0_2_B (c : Dev nD) (t : Fin cfg0.N) (h0 : ¬t.val % 20 = 0) (d) :
    (dat0 V c).before 2 t d = (outsAt0 V c (t.val - 1) (Nat.lt_of_le_of_lt (Nat.sub_le _ _) t.isLt)).1 := by
  have hN : t.val < 20 := lt_of_lt_of_eq t.isLt (show cfg0.N = 20 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same of output window 3. -/
theorem before0_3_B (c : Dev nD) (t : Fin cfg0.N) (h0 : ¬t.val % 20 = 0) (d) :
    (dat0 V c).before 3 t d = (outsAt0 V c (t.val - 1) (Nat.lt_of_le_of_lt (Nat.sub_le _ _) t.isLt)).2 := by
  have hN : t.val < 20 := lt_of_lt_of_eq t.isLt (show cfg0.N = 20 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the closed form of the condition says which case the
    point is in; at a later point each output's memref holds what the point before left; so the case's triple applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 20 = 0
  · rw [outsAt0_A_fst V c t h0, outsAt0_A_snd V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B_fst V c t h0, outsAt0_B_snd V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0_0 t).mp h)) (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.Reg1.lean ====
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: `cc1__bn_norm_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved, the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved, the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved, the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved, the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved, the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

/-! ## What the body leaves in the output window's buffer -/

/-- Window 6's staging buffer after the body, from the input windows' blocks: its one store as a piece. The body
    reads the variance block (window 3) before the mean block (window 2). -/
def out1_6 (x0 : Vec F S5000x128 .f32) (x1 : Vec F S5000x1 .f32) (x2 x3 x4 x5 : Vec F S1x128 .f32) : Vec F S5000x128 .f32 :=
  View.canon [⟨r1_0, k1_pay1 (View.ld x0 r1_0) (View.ld x1 r1_1) (View.ld x3 r1_2) (View.ld x2 r1_2) (View.ld x4 r1_2) (View.ld x5 r1_2)⟩]

/-- Its store tiles the buffer, so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_6` of the inputs': the body's load of
    the output buffer reads contents nothing uses, and its store through the whole rectangle overwrites them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x1 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bn_norm_kernel i arg1 harg1 arg2 harg2 arg3 harg3 arg4 harg4 arg5 harg5 arg6 harg6 arg7 harg7) K := by
  simp only [cc1__bn_norm_kernel_eq_skeleton]; unfold cc1__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.Reg2.lean ====
/- The per-region half of the frame proof for region 2 (custom_call 2, `cc2__combine_linear_tanh_kernel`), at a PARAMETER `V`:
   the TensorCore's buffer contents when the region is entered. Each window's block at a point (`iblk2`), what the
   body leaves in the output window's staging buffer as the canon of its one whole-rectangle store over the input
   blocks (`out2_4`), the body's triple (`sound_kernel2`), the proof data (`dat2`) and the body obligation
   (`body_obligation2`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved, and the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S5000x64 := Rect.unit (s := S5000x64) ![0, 0] S5000x64.size inb_S5000x64_S5000x64_0_0

/-! ## What the body leaves in the output window's buffer -/

/-- Window 4's staging buffer after the body, from the input windows' blocks: its one store, through the whole
    rectangle, of the payload over the loaded inputs. -/
def out2_4 (x0 : Vec F S5000x128 .f32) (x1 : Vec F S5000x128 .f32) (x2 : Vec F S128x64 .f32) (x3 : Vec F S1x64 .f32) : Vec F S5000x64 .f32 :=
  View.canon [⟨r2_3, k2_pay1 (View.ld x0 r2_0) (View.ld x1 r2_0) (View.ld x2 r2_1) (View.ld x3 r2_2)⟩]

/-- The store's rectangle is the whole buffer, so it covers it. -/
theorem cover2_4 (p0 : Vec F S5000x64 .f32) (y : S5000x64.Idx) :
    ∃ pc ∈ ([⟨r2_3, p0⟩] : List (View.Piece (Elt F) S5000x64 .f32)), y ∈ pc.1.set :=
  View.cover_of_tiled [⟨r2_3, p0⟩] S5000x64.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x128 .f32) (x1 : Vec F S5000x128 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_linear_tanh_kernel i arg1 harg1 arg2 harg2 arg3 harg3 arg4 harg4 arg5 harg5) K := by
  simp only [cc2__combine_linear_tanh_kernel_eq_skeleton]; unfold cc2__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.Reg3.lean ====
/- The per-region half of the frame proof for region 3 (custom_call 3, `cc3__combine_linear_tanh_kernel`), at a PARAMETER `V`:
   the TensorCore's buffer contents when the region is entered. Each window's block at a point (`iblk3`), what the
   body leaves in the output window's staging buffer as the canon of its one whole-rectangle store over the input
   blocks (`out3_4`), the body's triple (`sound_kernel3`), the proof data (`dat3`) and the body obligation
   (`body_obligation3`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, and the buffer still holds the previous point's block, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out3_4 (x0 : Vec F S5000x64 .f32) (x1 : Vec F S5000x64 .f32) (x2 : Vec F S64x64 .f32) (x3 : Vec F S1x64 .f32) : Vec F S5000x64 .f32 :=
  View.canon [⟨r3_0, k3_pay1 (View.ld x0 r3_0) (View.ld x1 r3_0) (View.ld x2 r3_1) (View.ld x3 r3_2)⟩]

/-- The store's rectangle is the whole buffer, so it covers it. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `xW` and the output's at anything, runs to
    the continuation holding the inputs' as they were and the output's at `out3_4` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_linear_tanh_kernel i arg1 harg1 arg2 harg2 arg3 harg3 arg4 harg4 arg5 harg5) K := by
  simp only [cc3__combine_linear_tanh_kernel_eq_skeleton]; unfold cc3__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at point `t`
    each input's buffer at its block and the output's at `out3_4` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.Reg4.lean ====
/- The per-region half of the frame proof for region 4 (custom_call 4, `cc4__combine_linear_tanh_kernel`), at a PARAMETER `V`:
   the TensorCore's buffer contents when the region is entered. Each window's block at a point (`iblk4`), what the
   body leaves in the output window's staging buffer as the canon of its one whole-rectangle store over the input
   blocks (`out4_4`), the body's triple (`sound_kernel4`), the proof data (`dat4`) and the body obligation
   (`body_obligation4`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved, and the buffer still holds the previous point's block, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out4_4 (x0 : Vec F S5000x64 .f32) (x1 : Vec F S5000x64 .f32) (x2 : Vec F S64x64 .f32) (x3 : Vec F S1x64 .f32) : Vec F S5000x64 .f32 :=
  View.canon [⟨r4_0, k4_pay1 (View.ld x0 r4_0) (View.ld x1 r4_0) (View.ld x2 r4_1) (View.ld x3 r4_2)⟩]

/-- The store's rectangle is the whole buffer, so it covers it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_linear_tanh_kernel i arg1 harg1 arg2 harg2 arg3 harg3 arg4 harg4 arg5 harg5) K := by
  simp only [cc4__combine_linear_tanh_kernel_eq_skeleton]; unfold cc4__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at point `t`
    each input's buffer at its block and the output's at `out4_4` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frm

end
-- ==== Proof.Reg5.lean ====
/- The per-region half of the frame proof for region 5 (custom_call 5, `cc5__combine_linear_tanh_kernel`), at a PARAMETER `V`:
   the TensorCore's buffer contents when the region is entered. Each window's block at a point (`iblk5`), what the
   body leaves in the output window's staging buffer as the canon of its one whole-rectangle store over the input
   blocks (`out5_4`), the body's triple (`sound_kernel5`), the proof data (`dat5`) and the body obligation
   (`body_obligation5`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved, and the buffer still holds the previous point's block, which is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out5_4 (x0 : Vec F S5000x64 .f32) (x1 : Vec F S5000x64 .f32) (x2 : Vec F S64x64 .f32) (x3 : Vec F S1x64 .f32) : Vec F S5000x64 .f32 :=
  View.canon [⟨r5_0, k5_pay1 (View.ld x0 r5_0) (View.ld x1 r5_0) (View.ld x2 r5_1) (View.ld x3 r5_2)⟩]

/-- The store's rectangle is the whole buffer, so it covers it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents `xW` and the output's at anything, runs to
    the continuation holding the inputs' as they were and the output's at `out5_4` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_linear_tanh_kernel i arg1 harg1 arg2 harg2 arg3 harg3 arg4 harg4 arg5 harg5) K := by
  simp only [cc5__combine_linear_tanh_kernel_eq_skeleton]; unfold cc5__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and the output's at `out5_4` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frm

end
-- ==== Proof.Reg6.lean ====
/- The per-region half of the frame proof for region 6 (custom_call 6, `cc6__combine_linear_tanh_kernel`), at a PARAMETER `V`:
   the TensorCore's buffer contents when the region is entered. Each window's block at a point (`iblk6`), what the
   body leaves in the output window's staging buffer as the canon of its one whole-rectangle store over the input
   blocks (`out6_4`), the body's triple (`sound_kernel6`), the proof data (`dat6`) and the body obligation
   (`body_obligation6`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved, and the buffer still holds the previous point's block, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out6_4 (x0 : Vec F S5000x64 .f32) (x1 : Vec F S5000x64 .f32) (x2 : Vec F S64x64 .f32) (x3 : Vec F S1x64 .f32) : Vec F S5000x64 .f32 :=
  View.canon [⟨r6_0, k6_pay1 (View.ld x0 r6_0) (View.ld x1 r6_0) (View.ld x2 r6_1) (View.ld x3 r6_2)⟩]

/-- The store's rectangle is the whole buffer, so it covers it. -/
theorem cover6_4 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The kernel body on whole staging memrefs, the inputs' at read contents `xW` and the output's at anything, runs to
    the continuation holding the inputs' as they were and the output's at `out6_4` of the inputs'. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_linear_tanh_kernel i arg1 harg1 arg2 harg2 arg3 harg3 arg4 harg4 arg5 harg5) K := by
  simp only [cc6__combine_linear_tanh_kernel_eq_skeleton]; unfold cc6__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at point `t`
    each input's buffer at its block and the output's at `out6_4` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frm

end
-- ==== Proof.Reg7.lean ====
/- The per-region half of the frame proof for region 7 (custom_call 7, `cc7__linear_tanh_kernel`), at a PARAMETER `V`:
   the TensorCore's buffer contents when the region is entered. Each window's block at a point (`iblk7`), what the
   body leaves in the output window's staging buffer as the canon of its one whole-rectangle store over the input
   blocks (`out7_2`), the body's triple (`sound_kernel7`), the proof data (`dat7`) and the body obligation
   (`body_obligation7`). The body loads its output staging buffer before storing it whole: the loaded value is read by
   nothing, and the store overwrites every index, so what the buffer held before does not matter. -/
import proofs.«132860_j13426067767700_1_alg».proof.Proof.Gen.KernelIdeal.Launch
import proofs.«132860_j13426067767700_1_alg».proof.Proof.Gen.KernelIdeal.Skeleton
import proofs.«132860_j13426067767700_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved, and the buffer still holds the previous point's block, which is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S64x64 := Rect.unit (s := S64x64) ![0, 0] S64x64.size inb_S64x64_S64x64_0_0

/-! ## What the body leaves in the output window's buffer -/

/-- Window 2's staging buffer after the body, from the input windows' blocks: its one store, through the whole
    rectangle, of the payload over the loaded inputs. -/
def out7_2 (x0 : Vec F S5000x64 .f32) (x1 : Vec F S64x64 .f32) : Vec F S5000x64 .f32 :=
  View.canon [⟨r7_0, k7_pay1 (View.ld x0 r7_0) (View.ld x1 r7_1)⟩]

/-- The store's rectangle is the whole buffer, so it covers it. -/
theorem cover7_2 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body's triple -/

set_option maxHeartbeats 1000000 in
/-- The kernel body on whole staging memrefs, the inputs' at read contents `xW` and the output's at anything, runs to
    the continuation holding the inputs' as they were and the output's at `out7_2` of the inputs'. -/
theorem sound_kernel7 (c : Dev nD) (E : Set ℕ) (i : grid7.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__linear_tanh_kernel i arg1 harg1 arg2 harg2 arg3 harg3) K := by
  simp only [cc7__linear_tanh_kernel_eq_skeleton]; unfold cc7__linear_tanh_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point `t`
    each input's buffer at its block and the output's at `out7_2` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frm

end
-- ==== Proof.RunDefs.lean ====
/-
  The valuations the program's segments thread, as named stages.  `S1` is the launch memory after the first host
  stretch; a region's exit stage is its entry stage with the region's result arrays replaced by what its pipeline
  wrote back (`L`: the fold of the points' blocks over the array); a host stretch's exit stage is the stretch folded
  over its entry stage.  The family `outs` records what each region leaves, and each stage is the generated
  valuation of the same index read through that family.
-/
import proofs.«132860_j13426067767700_1_alg».proof.Proof.Gen.KernelIdeal.Regions
import proofs.«132860_j13426067767700_1_alg».proof.Proof.Reg0
import proofs.«132860_j13426067767700_1_alg».proof.Proof.Reg1
import proofs.«132860_j13426067767700_1_alg».proof.Proof.Reg2
import proofs.«132860_j13426067767700_1_alg».proof.Proof.Reg3
import proofs.«132860_j13426067767700_1_alg».proof.Proof.Reg4
import proofs.«132860_j13426067767700_1_alg».proof.Proof.Reg5
import proofs.«132860_j13426067767700_1_alg».proof.Proof.Reg6
import proofs.«132860_j13426067767700_1_alg».proof.Proof.Reg7

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The stages -/

/-- After the first host stretch: region 0's entry. -/
def S1 (c : Dev nD) : Valuation τ sig (Elt F) := V1 m c
/-- What region 0 leaves: its arrays at the pipeline's final contents, every other buffer as entered. -/
def L0 (c : Dev nD) : Valuation τ sig (Elt F) :=
  Pipeline.withArrays spec0 c (S1 m c) fun w => (dat0 (fun c b => S1 m c b) c).arrAt w cfg0.N
/-- Region 0's exit: its entry stage with its results written in. -/
def S2 (c : Dev nD) : Valuation τ sig (Elt F) :=
  Function.update (Function.update (S1 m c) main_v4_0 (L0 m c main_v4_0)) main_v4_1 (L0 m c main_v4_1)
/-- After the host stretch that follows region 0. -/
def S3 (c : Dev nD) : Valuation τ sig (Elt F) := StableHlo.after hostOps1 (S2 m c)
/-- What region 1 leaves: its arrays at the pipeline's final contents, every other buffer as entered. -/
def L1 (c : Dev nD) : Valuation τ sig (Elt F) :=
  Pipeline.withArrays spec1 c (S3 m c) fun w => (dat1 (fun c b => S3 m c b) c).arrAt w cfg1.N
/-- Region 1's exit: its entry stage with its result written in. -/
def S4 (c : Dev nD) : Valuation τ sig (Elt F) :=
  Function.update (S3 m c) main_v13 (L1 m c main_v13)
/-- After the host stretch that follows region 1. -/
def S5 (c : Dev nD) : Valuation τ sig (Elt F) := StableHlo.after hostOps2 (S4 m c)
/-- What region 2 leaves: its arrays at the pipeline's final contents, every other buffer as entered. -/
def L2 (c : Dev nD) : Valuation τ sig (Elt F) :=
  Pipeline.withArrays spec2 c (S5 m c) fun w => (dat2 (fun c b => S5 m c b) c).arrAt w cfg2.N
/-- Region 2's exit: its entry stage with its result written in. -/
def S6 (c : Dev nD) : Valuation τ sig (Elt F) :=
  Function.update (S5 m c) main_v25 (L2 m c main_v25)
/-- After the host stretch that follows region 2. -/
def S7 (c : Dev nD) : Valuation τ sig (Elt F) := StableHlo.after hostOps3 (S6 m c)
/-- What region 3 leaves: its arrays at the pipeline's final contents, every other buffer as entered. -/
def L3 (c : Dev nD) : Valuation τ sig (Elt F) :=
  Pipeline.withArrays spec3 c (S7 m c) fun w => (dat3 (fun c b => S7 m c b) c).arrAt w cfg3.N
/-- Region 3's exit: its entry stage with its result written in. -/
def S8 (c : Dev nD) : Valuation τ sig (Elt F) :=
  Function.update (S7 m c) main_v37 (L3 m c main_v37)
/-- After the host stretch that follows region 3. -/
def S9 (c : Dev nD) : Valuation τ sig (Elt F) := StableHlo.after hostOps4 (S8 m c)
/-- What region 4 leaves: its arrays at the pipeline's final contents, every other buffer as entered. -/
def L4 (c : Dev nD) : Valuation τ sig (Elt F) :=
  Pipeline.withArrays spec4 c (S9 m c) fun w => (dat4 (fun c b => S9 m c b) c).arrAt w cfg4.N
/-- Region 4's exit: its entry stage with its result written in. -/
def S10 (c : Dev nD) : Valuation τ sig (Elt F) :=
  Function.update (S9 m c) main_v49 (L4 m c main_v49)
/-- After the host stretch that follows region 4. -/
def S11 (c : Dev nD) : Valuation τ sig (Elt F) := StableHlo.after hostOps5 (S10 m c)
/-- What region 5 leaves: its arrays at the pipeline's final contents, every other buffer as entered. -/
def L5 (c : Dev nD) : Valuation τ sig (Elt F) :=
  Pipeline.withArrays spec5 c (S11 m c) fun w => (dat5 (fun c b => S11 m c b) c).arrAt w cfg5.N
/-- Region 5's exit: its entry stage with its result written in. -/
def S12 (c : Dev nD) : Valuation τ sig (Elt F) :=
  Function.update (S11 m c) main_v61 (L5 m c main_v61)
/-- After the host stretch that follows region 5. -/
def S13 (c : Dev nD) : Valuation τ sig (Elt F) := StableHlo.after hostOps6 (S12 m c)
/-- What region 6 leaves: its arrays at the pipeline's final contents, every other buffer as entered. -/
def L6 (c : Dev nD) : Valuation τ sig (Elt F) :=
  Pipeline.withArrays spec6 c (S13 m c) fun w => (dat6 (fun c b => S13 m c b) c).arrAt w cfg6.N
/-- Region 6's exit: its entry stage with its result written in. -/
def S14 (c : Dev nD) : Valuation τ sig (Elt F) :=
  Function.update (S13 m c) main_v73 (L6 m c main_v73)
/-- What region 7 leaves: its arrays at the pipeline's final contents, every other buffer as entered. -/
def L7 (c : Dev nD) : Valuation τ sig (Elt F) :=
  Pipeline.withArrays spec7 c (S14 m c) fun w => (dat7 (fun c b => S14 m c b) c).arrAt w cfg7.N
/-- Region 7's exit: its entry stage with its result written in. -/
def S15 (c : Dev nD) : Valuation τ sig (Elt F) :=
  Function.update (S14 m c) main_v74 (L7 m c main_v74)
/-- After the host stretch that follows region 7. -/
def S16 (c : Dev nD) : Valuation τ sig (Elt F) := StableHlo.after hostOps8 (S15 m c)

/-- What each region leaves, as the family the generated valuations are written over. -/
def outs : Outs (F := F) := fun J r c => match J with | 2 => L0 m c r | 4 => L1 m c r | 6 => L2 m c r | 8 => L3 m c r | 10 => L4 m c r | 12 => L5 m c r | 14 => L6 m c r | _ => L7 m c r

/-! ## Each stage is the generated valuation of its index -/

theorem S1_eq (c : Dev nD) : V1 m c = S1 m c := rfl
theorem S2_eq (c : Dev nD) : V2 m (outs m) c = S2 m c :=
  congrArg (fun W : Valuation τ sig (Elt F) => Function.update (Function.update W main_v4_0 (L0 m c main_v4_0)) main_v4_1 (L0 m c main_v4_1)) (S1_eq m c)
theorem S3_eq (c : Dev nD) : V3 m (outs m) c = S3 m c := congrArg (StableHlo.after hostOps1) (S2_eq m c)
theorem S4_eq (c : Dev nD) : V4 m (outs m) c = S4 m c :=
  congrArg (fun W : Valuation τ sig (Elt F) => Function.update W main_v13 (L1 m c main_v13)) (S3_eq m c)
theorem S5_eq (c : Dev nD) : V5 m (outs m) c = S5 m c := congrArg (StableHlo.after hostOps2) (S4_eq m c)
theorem S6_eq (c : Dev nD) : V6 m (outs m) c = S6 m c :=
  congrArg (fun W : Valuation τ sig (Elt F) => Function.update W main_v25 (L2 m c main_v25)) (S5_eq m c)
theorem S7_eq (c : Dev nD) : V7 m (outs m) c = S7 m c := congrArg (StableHlo.after hostOps3) (S6_eq m c)
theorem S8_eq (c : Dev nD) : V8 m (outs m) c = S8 m c :=
  congrArg (fun W : Valuation τ sig (Elt F) => Function.update W main_v37 (L3 m c main_v37)) (S7_eq m c)
theorem S9_eq (c : Dev nD) : V9 m (outs m) c = S9 m c := congrArg (StableHlo.after hostOps4) (S8_eq m c)
theorem S10_eq (c : Dev nD) : V10 m (outs m) c = S10 m c :=
  congrArg (fun W : Valuation τ sig (Elt F) => Function.update W main_v49 (L4 m c main_v49)) (S9_eq m c)
theorem S11_eq (c : Dev nD) : V11 m (outs m) c = S11 m c := congrArg (StableHlo.after hostOps5) (S10_eq m c)
theorem S12_eq (c : Dev nD) : V12 m (outs m) c = S12 m c :=
  congrArg (fun W : Valuation τ sig (Elt F) => Function.update W main_v61 (L5 m c main_v61)) (S11_eq m c)
theorem S13_eq (c : Dev nD) : V13 m (outs m) c = S13 m c := congrArg (StableHlo.after hostOps6) (S12_eq m c)
theorem S14_eq (c : Dev nD) : V14 m (outs m) c = S14 m c :=
  congrArg (fun W : Valuation τ sig (Elt F) => Function.update W main_v73 (L6 m c main_v73)) (S13_eq m c)
theorem S15_eq (c : Dev nD) : V15 m (outs m) c = S15 m c :=
  congrArg (fun W : Valuation τ sig (Elt F) => Function.update W main_v74 (L7 m c main_v74)) (S14_eq m c)
theorem S16_eq (c : Dev nD) : V16 m (outs m) c = S16 m c := congrArg (StableHlo.after hostOps8) (S15_eq m c)

/-- The same, read at the TensorCore's references, as the regions' proof data take their entry contents. -/
theorem stage1_fun : ((fun c b => S1 m c b) : (c : Dev nD) → (b : Ref sig .tc) → Buf (Elt F) ((c : Thread nD τ).loc b)) = ((fun c b => V1 m c b) : (c : Dev nD) → (b : Ref sig .tc) → Buf (Elt F) ((c : Thread nD τ).loc b)) :=
  funext fun c => funext fun b => (congrFun (S1_eq m c) b).symm
theorem stage3_fun : ((fun c b => S3 m c b) : (c : Dev nD) → (b : Ref sig .tc) → Buf (Elt F) ((c : Thread nD τ).loc b)) = ((fun c b => V3 m (outs m) c b) : (c : Dev nD) → (b : Ref sig .tc) → Buf (Elt F) ((c : Thread nD τ).loc b)) :=
  funext fun c => funext fun b => (congrFun (S3_eq m c) b).symm
theorem stage5_fun : ((fun c b => S5 m c b) : (c : Dev nD) → (b : Ref sig .tc) → Buf (Elt F) ((c : Thread nD τ).loc b)) = ((fun c b => V5 m (outs m) c b) : (c : Dev nD) → (b : Ref sig .tc) → Buf (Elt F) ((c : Thread nD τ).loc b)) :=
  funext fun c => funext fun b => (congrFun (S5_eq m c) b).symm
theorem stage7_fun : ((fun c b => S7 m c b) : (c : Dev nD) → (b : Ref sig .tc) → Buf (Elt F) ((c : Thread nD τ).loc b)) = ((fun c b => V7 m (outs m) c b) : (c : Dev nD) → (b : Ref sig .tc) → Buf (Elt F) ((c : Thread nD τ).loc b)) :=
  funext fun c => funext fun b => (congrFun (S7_eq m c) b).symm
theorem stage9_fun : ((fun c b => S9 m c b) : (c : Dev nD) → (b : Ref sig .tc) → Buf (Elt F) ((c : Thread nD τ).loc b)) = ((fun c b => V9 m (outs m) c b) : (c : Dev nD) → (b : Ref sig .tc) → Buf (Elt F) ((c : Thread nD τ).loc b)) :=
  funext fun c => funext fun b => (congrFun (S9_eq m c) b).symm
theorem stage11_fun : ((fun c b => S11 m c b) : (c : Dev nD) → (b : Ref sig .tc) → Buf (Elt F) ((c : Thread nD τ).loc b)) = ((fun c b => V11 m (outs m) c b) : (c : Dev nD) → (b : Ref sig .tc) → Buf (Elt F) ((c : Thread nD τ).loc b)) :=
  funext fun c => funext fun b => (congrFun (S11_eq m c) b).symm
theorem stage13_fun : ((fun c b => S13 m c b) : (c : Dev nD) → (b : Ref sig .tc) → Buf (Elt F) ((c : Thread nD τ).loc b)) = ((fun c b => V13 m (outs m) c b) : (c : Dev nD) → (b : Ref sig .tc) → Buf (Elt F) ((c : Thread nD τ).loc b)) :=
  funext fun c => funext fun b => (congrFun (S13_eq m c) b).symm
theorem stage14_fun : ((fun c b => S14 m c b) : (c : Dev nD) → (b : Ref sig .tc) → Buf (Elt F) ((c : Thread nD τ).loc b)) = ((fun c b => V14 m (outs m) c b) : (c : Dev nD) → (b : Ref sig .tc) → Buf (Elt F) ((c : Thread nD τ).loc b)) :=
  funext fun c => funext fun b => (congrFun (S14_eq m c) b).symm

/-! ## The proof data family -/

/-- Every pipeline's proof data, each at its region's entry stage. -/
def pdats : (p : Fin 8) → (c : Dev nD) → Dat τ (Elt F) Unit ℕ (UR sig nD τ) ℕ (cfgs p) c
  | ⟨0, _⟩ => fun c => dat0 (fun c b => S1 m c b) c
  | ⟨1, _⟩ => fun c => dat1 (fun c b => S3 m c b) c
  | ⟨2, _⟩ => fun c => dat2 (fun c b => S5 m c b) c
  | ⟨3, _⟩ => fun c => dat3 (fun c b => S7 m c b) c
  | ⟨4, _⟩ => fun c => dat4 (fun c b => S9 m c b) c
  | ⟨5, _⟩ => fun c => dat5 (fun c b => S11 m c b) c
  | ⟨6, _⟩ => fun c => dat6 (fun c b => S13 m c b) c
  | ⟨7, _⟩ => fun c => dat7 (fun c b => S14 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- Held buffers at equal valuations are the same thread state. -/
theorem held_of_eq {W W' : Valuation τ sig (Elt F)} (h : W = W') (c : Dev nD) :
    (iprop(StableHlo.held (c : Thread nD τ) (Pipeline.ucRefs τ sig) W ∗ R c) : sProp 𝕄) ⊢ iprop(StableHlo.held (c : Thread nD τ) (Pipeline.ucRefs τ sig) W' ∗ R c) :=
  h ▸ .rfl

end Cert.KernelIdeal.Frm

end
-- ==== Proof.RunReg0.lean ====
/-
  Region 0's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 0 -/

/-- The region's proof data is the literal one at its entry stage. -/
theorem pd0 (c : Dev nD) : pdats m 0 c = dat0 (fun c b => S1 m c b) c := rfl

/-- Region 0 leaves in `main_v4_0` what its pipeline wrote back through window 2. -/
theorem left0_2 (c : Dev nD) : L0 m c main_v4_0 = (pdats m 0 c).arrAt 2 cfg0.N := by
  unfold L0
  exact Pipeline.withArrays_arr spec0 launch0.win.arr_inj c (S1 m c) (fun w => (dat0 (fun c b => S1 m c b) c).arrAt w cfg0.N) 2
/-- Region 0 leaves in `main_v4_1` what its pipeline wrote back through window 3. -/
theorem left0_3 (c : Dev nD) : L0 m c main_v4_1 = (pdats m 0 c).arrAt 3 cfg0.N := by
  unfold L0
  exact Pipeline.withArrays_arr spec0 launch0.win.arr_inj c (S1 m c) (fun w => (dat0 (fun c b => S1 m c b) c).arrAt w cfg0.N) 3
theorem vout0_3 (c : Dev nD) : S2 m c main_v4_1 = L0 m c main_v4_1 := by
  unfold S2
  exact Function.update_self (Proc.devRef .tc main_v4_1 : DevRef τ sig) (L0 m c main_v4_1) (Function.update (S1 m c) (Proc.devRef .tc main_v4_0 : DevRef τ sig) (L0 m c main_v4_0))
theorem vout0_2 (c : Dev nD) : S2 m c main_v4_0 = L0 m c main_v4_0 := by
  unfold S2
  exact (Function.update_of_ne (StableHlo.devRef_ne_of_ne (by decide) : (Proc.devRef .tc main_v4_0 : DevRef τ sig) ≠ (Proc.devRef .tc main_v4_1 : DevRef τ sig)) (L0 m c main_v4_1) (Function.update (S1 m c) (Proc.devRef .tc main_v4_0 : DevRef τ sig) (L0 m c main_v4_0))).trans
    (Function.update_self (Proc.devRef .tc main_v4_0 : DevRef τ sig) (L0 m c main_v4_0) (S1 m c))
/-- A buffer other than the region's results is as the region found it. -/
theorem keep0 (c : Dev nD) (r : Ref sig .tc) (h0 : r ≠ main_v4_0) (h1 : r ≠ main_v4_1) : S2 m c r = S1 m c r := by
  unfold S2
  exact (Function.update_of_ne (StableHlo.devRef_ne_of_ne h1) (L0 m c main_v4_1) (Function.update (S1 m c) (Proc.devRef .tc main_v4_0 : DevRef τ sig) (L0 m c main_v4_0))).trans
    (Function.update_of_ne (StableHlo.devRef_ne_of_ne h0) (L0 m c main_v4_0) (S1 m c))
theorem hF0_0 (c : Dev nD) : (pdats m 0 c).arrAt 0 cfg0.N = S2 m c main_arg0 :=
  ((pdats m 0 c).arrAt_in 0 rfl cfg0.N).trans ((A_eq0 (fun c b => S1 m c b) c 0).trans (keep0 m c main_arg0 (by decide) (by decide)).symm)
theorem hF0_1 (c : Dev nD) : (pdats m 0 c).arrAt 1 cfg0.N = S2 m c main_arg1 :=
  ((pdats m 0 c).arrAt_in 1 rfl cfg0.N).trans ((A_eq0 (fun c b => S1 m c b) c 1).trans (keep0 m c main_arg1 (by decide) (by decide)).symm)
theorem hF0_2 (c : Dev nD) : (pdats m 0 c).arrAt 2 cfg0.N = S2 m c main_v4_0 :=
  (left0_2 m c).symm.trans (vout0_2 m c).symm
theorem hF0_3 (c : Dev nD) : (pdats m 0 c).arrAt 3 cfg0.N = S2 m c main_v4_1 :=
  (left0_3 m c).symm.trans (vout0_3 m c).symm
theorem hF0 (c : Dev nD) : ∀ w : Fin 4, (pdats m 0 c).arrAt w cfg0.N = S2 m c (Pipeline.arrRef spec0 w) := by
  intro w
  fin_cases w
  · exact hF0_0 m c
  · exact hF0_1 m c
  · exact hF0_2 m c
  · exact hF0_3 m c
theorem hrest0 (c : Dev nD) : ∀ b, b ∉ Finset.univ.image (Pipeline.arrRef spec0) → S2 m c b = S1 m c b :=
  fun b hb => keep0 m c b (fun e => hb (e ▸ Finset.mem_image.mpr ⟨2, Finset.mem_univ _, rfl⟩))
    (fun e => hb (e ▸ Finset.mem_image.mpr ⟨3, Finset.mem_univ _, rfl⟩))

set_option backward.isDefEq.respectTransparency.types false in
/-- Region 0 over the held buffers: entered at its entry stage, left at its exit stage. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => S1 m c b) c).loose
  hwaits := Pipeline.hwaits_of_owed_zero _ _ _ _ L lv 0 fun _ _ => rfl
  pre c := iprop(StableHlo.held (c : Thread nD τ) (Pipeline.ucRefs τ sig) (S1 m c) ∗ R c)
  post c := iprop(StableHlo.held (c : Thread nD τ) (Pipeline.ucRefs τ sig) (S2 m c) ∗ R c)
  X c := iprop(∃ r, prngReg c r)
  Y c := iprop(∃ r, prngReg c r)
  Z c := Pipeline.unscopedRest (Ix := Unit) (Name := ℕ) (U := UR sig nD τ) (Lvl := ℕ) spec0 c (fun b => S1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => S1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => S1 m c b) (fun b => S2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg1.lean ====
/-
  Region 1's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 1 -/

/-- The region's proof data is the literal one at its entry stage. -/
theorem pd1 (c : Dev nD) : pdats m 1 c = dat1 (fun c b => S3 m c b) c := rfl

/-- Region 1 leaves in `main_v13` what its pipeline wrote back through window 6. -/
theorem left1_6 (c : Dev nD) : L1 m c main_v13 = (pdats m 1 c).arrAt 6 cfg1.N := by
  unfold L1
  exact Pipeline.withArrays_arr spec1 launch1.win.arr_inj c (S3 m c) (fun w => (dat1 (fun c b => S3 m c b) c).arrAt w cfg1.N) 6
theorem vout1_6 (c : Dev nD) : S4 m c main_v13 = L1 m c main_v13 := by
  unfold S4
  exact Function.update_self (Proc.devRef .tc main_v13 : DevRef τ sig) (L1 m c main_v13) (S3 m c)
/-- A buffer other than the region's result is as the region found it. -/
theorem keep1 (c : Dev nD) (b : Ref sig .tc) (h : b ≠ main_v13) : S4 m c b = S3 m c b := by
  unfold S4
  exact Function.update_of_ne (StableHlo.devRef_ne_of_ne h) (L1 m c main_v13) (S3 m c)
theorem hF1_0 (c : Dev nD) : (pdats m 1 c).arrAt 0 cfg1.N = S4 m c main_arg0 :=
  ((pdats m 1 c).arrAt_in 0 rfl cfg1.N).trans ((A_eq1 (fun c b => S3 m c b) c 0).trans (keep1 m c main_arg0 (by decide)).symm)
theorem hF1_1 (c : Dev nD) : (pdats m 1 c).arrAt 1 cfg1.N = S4 m c main_arg1 :=
  ((pdats m 1 c).arrAt_in 1 rfl cfg1.N).trans ((A_eq1 (fun c b => S3 m c b) c 1).trans (keep1 m c main_arg1 (by decide)).symm)
theorem hF1_2 (c : Dev nD) : (pdats m 1 c).arrAt 2 cfg1.N = S4 m c main_v6 :=
  ((pdats m 1 c).arrAt_in 2 rfl cfg1.N).trans ((A_eq1 (fun c b => S3 m c b) c 2).trans (keep1 m c main_v6 (by decide)).symm)
theorem hF1_3 (c : Dev nD) : (pdats m 1 c).arrAt 3 cfg1.N = S4 m c main_v10 :=
  ((pdats m 1 c).arrAt_in 3 rfl cfg1.N).trans ((A_eq1 (fun c b => S3 m c b) c 3).trans (keep1 m c main_v10 (by decide)).symm)
theorem hF1_4 (c : Dev nD) : (pdats m 1 c).arrAt 4 cfg1.N = S4 m c main_v11 :=
  ((pdats m 1 c).arrAt_in 4 rfl cfg1.N).trans ((A_eq1 (fun c b => S3 m c b) c 4).trans (keep1 m c main_v11 (by decide)).symm)
theorem hF1_5 (c : Dev nD) : (pdats m 1 c).arrAt 5 cfg1.N = S4 m c main_v12 :=
  ((pdats m 1 c).arrAt_in 5 rfl cfg1.N).trans ((A_eq1 (fun c b => S3 m c b) c 5).trans (keep1 m c main_v12 (by decide)).symm)
theorem hF1_6 (c : Dev nD) : (pdats m 1 c).arrAt 6 cfg1.N = S4 m c main_v13 :=
  (left1_6 m c).symm.trans (vout1_6 m c).symm
theorem hF1 (c : Dev nD) : ∀ w : Fin 7, (pdats m 1 c).arrAt w cfg1.N = S4 m c (Pipeline.arrRef spec1 w) := by
  intro w
  fin_cases w
  · exact hF1_0 m c
  · exact hF1_1 m c
  · exact hF1_2 m c
  · exact hF1_3 m c
  · exact hF1_4 m c
  · exact hF1_5 m c
  · exact hF1_6 m c
theorem hrest1 (c : Dev nD) : ∀ b, b ∉ Finset.univ.image (Pipeline.arrRef spec1) → S4 m c b = S3 m c b :=
  fun b hb => keep1 m c b (fun e => hb (e ▸ Finset.mem_image.mpr ⟨6, Finset.mem_univ _, rfl⟩))

set_option backward.isDefEq.respectTransparency.types false in
/-- Region 1 over the held buffers: entered at its entry stage, left at its exit stage. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => S3 m c b) c).loose
  hwaits := Pipeline.hwaits_of_owed_zero _ _ _ _ L lv 1 fun _ _ => rfl
  pre c := iprop(StableHlo.held (c : Thread nD τ) (Pipeline.ucRefs τ sig) (S3 m c) ∗ R c)
  post c := iprop(StableHlo.held (c : Thread nD τ) (Pipeline.ucRefs τ sig) (S4 m c) ∗ R c)
  X c := iprop(∃ r, prngReg c r)
  Y c := iprop(∃ r, prngReg c r)
  Z c := Pipeline.unscopedRest (Ix := Unit) (Name := ℕ) (U := UR sig nD τ) (Lvl := ℕ) spec1 c (fun b => S3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => S3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => S3 m c b) (fun b => S4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg2.lean ====
/-
  Region 2's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 2 -/

/-- The region's proof data is the literal one at its entry stage. -/
theorem pd2 (c : Dev nD) : pdats m 2 c = dat2 (fun c b => S5 m c b) c := rfl

/-- Region 2 leaves in `main_v25` what its pipeline wrote back through window 4. -/
theorem left2_4 (c : Dev nD) : L2 m c main_v25 = (pdats m 2 c).arrAt 4 cfg2.N := by
  unfold L2
  exact Pipeline.withArrays_arr spec2 launch2.win.arr_inj c (S5 m c) (fun w => (dat2 (fun c b => S5 m c b) c).arrAt w cfg2.N) 4
theorem vout2_4 (c : Dev nD) : S6 m c main_v25 = L2 m c main_v25 := by
  unfold S6
  exact Function.update_self (Proc.devRef .tc main_v25 : DevRef τ sig) (L2 m c main_v25) (S5 m c)
/-- A buffer other than the region's result is as the region found it. -/
theorem keep2 (c : Dev nD) (b : Ref sig .tc) (h : b ≠ main_v25) : S6 m c b = S5 m c b := by
  unfold S6
  exact Function.update_of_ne (StableHlo.devRef_ne_of_ne h) (L2 m c main_v25) (S5 m c)
theorem hF2_0 (c : Dev nD) : (pdats m 2 c).arrAt 0 cfg2.N = S6 m c main_v13 :=
  ((pdats m 2 c).arrAt_in 0 rfl cfg2.N).trans ((A_eq2 (fun c b => S5 m c b) c 0).trans (keep2 m c main_v13 (by decide)).symm)
theorem hF2_1 (c : Dev nD) : (pdats m 2 c).arrAt 1 cfg2.N = S6 m c main_v23 :=
  ((pdats m 2 c).arrAt_in 1 rfl cfg2.N).trans ((A_eq2 (fun c b => S5 m c b) c 1).trans (keep2 m c main_v23 (by decide)).symm)
theorem hF2_2 (c : Dev nD) : (pdats m 2 c).arrAt 2 cfg2.N = S6 m c main_arg5 :=
  ((pdats m 2 c).arrAt_in 2 rfl cfg2.N).trans ((A_eq2 (fun c b => S5 m c b) c 2).trans (keep2 m c main_arg5 (by decide)).symm)
theorem hF2_3 (c : Dev nD) : (pdats m 2 c).arrAt 3 cfg2.N = S6 m c main_v24 :=
  ((pdats m 2 c).arrAt_in 3 rfl cfg2.N).trans ((A_eq2 (fun c b => S5 m c b) c 3).trans (keep2 m c main_v24 (by decide)).symm)
theorem hF2_4 (c : Dev nD) : (pdats m 2 c).arrAt 4 cfg2.N = S6 m c main_v25 :=
  (left2_4 m c).symm.trans (vout2_4 m c).symm
theorem hF2 (c : Dev nD) : ∀ w : Fin 5, (pdats m 2 c).arrAt w cfg2.N = S6 m c (Pipeline.arrRef spec2 w) := by
  intro w
  fin_cases w
  · exact hF2_0 m c
  · exact hF2_1 m c
  · exact hF2_2 m c
  · exact hF2_3 m c
  · exact hF2_4 m c
theorem hrest2 (c : Dev nD) : ∀ b, b ∉ Finset.univ.image (Pipeline.arrRef spec2) → S6 m c b = S5 m c b :=
  fun b hb => keep2 m c b (fun e => hb (e ▸ Finset.mem_image.mpr ⟨4, Finset.mem_univ _, rfl⟩))

set_option backward.isDefEq.respectTransparency.types false in
/-- Region 2 over the held buffers: entered at its entry stage, left at its exit stage. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => S5 m c b) c).loose
  hwaits := Pipeline.hwaits_of_owed_zero _ _ _ _ L lv 2 fun _ _ => rfl
  pre c := iprop(StableHlo.held (c : Thread nD τ) (Pipeline.ucRefs τ sig) (S5 m c) ∗ R c)
  post c := iprop(StableHlo.held (c : Thread nD τ) (Pipeline.ucRefs τ sig) (S6 m c) ∗ R c)
  X c := iprop(∃ r, prngReg c r)
  Y c := iprop(∃ r, prngReg c r)
  Z c := Pipeline.unscopedRest (Ix := Unit) (Name := ℕ) (U := UR sig nD τ) (Lvl := ℕ) spec2 c (fun b => S5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => S5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => S5 m c b) (fun b => S6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg3.lean ====
/-
  Region 3's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 3 -/

/-- The region's proof data is the literal one at its entry stage. -/
theorem pd3 (c : Dev nD) : pdats m 3 c = dat3 (fun c b => S7 m c b) c := rfl

/-- Region 3 leaves in `main_v37` what its pipeline wrote back through window 4. -/
theorem left3_4 (c : Dev nD) : L3 m c main_v37 = (pdats m 3 c).arrAt 4 cfg3.N := by
  unfold L3
  exact Pipeline.withArrays_arr spec3 launch3.win.arr_inj c (S7 m c) (fun w => (dat3 (fun c b => S7 m c b) c).arrAt w cfg3.N) 4
theorem vout3_4 (c : Dev nD) : S8 m c main_v37 = L3 m c main_v37 := by
  unfold S8
  exact Function.update_self (Proc.devRef .tc main_v37 : DevRef τ sig) (L3 m c main_v37) (S7 m c)
/-- A buffer other than the region's result is as the region found it. -/
theorem keep3 (c : Dev nD) (b : Ref sig .tc) (h : b ≠ main_v37) : S8 m c b = S7 m c b := by
  unfold S8
  exact Function.update_of_ne (StableHlo.devRef_ne_of_ne h) (L3 m c main_v37) (S7 m c)
theorem hF3_0 (c : Dev nD) : (pdats m 3 c).arrAt 0 cfg3.N = S8 m c main_v25 :=
  ((pdats m 3 c).arrAt_in 0 rfl cfg3.N).trans ((A_eq3 (fun c b => S7 m c b) c 0).trans (keep3 m c main_v25 (by decide)).symm)
theorem hF3_1 (c : Dev nD) : (pdats m 3 c).arrAt 1 cfg3.N = S8 m c main_v35 :=
  ((pdats m 3 c).arrAt_in 1 rfl cfg3.N).trans ((A_eq3 (fun c b => S7 m c b) c 1).trans (keep3 m c main_v35 (by decide)).symm)
theorem hF3_2 (c : Dev nD) : (pdats m 3 c).arrAt 2 cfg3.N = S8 m c main_arg7 :=
  ((pdats m 3 c).arrAt_in 2 rfl cfg3.N).trans ((A_eq3 (fun c b => S7 m c b) c 2).trans (keep3 m c main_arg7 (by decide)).symm)
theorem hF3_3 (c : Dev nD) : (pdats m 3 c).arrAt 3 cfg3.N = S8 m c main_v36 :=
  ((pdats m 3 c).arrAt_in 3 rfl cfg3.N).trans ((A_eq3 (fun c b => S7 m c b) c 3).trans (keep3 m c main_v36 (by decide)).symm)
theorem hF3_4 (c : Dev nD) : (pdats m 3 c).arrAt 4 cfg3.N = S8 m c main_v37 :=
  (left3_4 m c).symm.trans (vout3_4 m c).symm
theorem hF3 (c : Dev nD) : ∀ w : Fin 5, (pdats m 3 c).arrAt w cfg3.N = S8 m c (Pipeline.arrRef spec3 w) := by
  intro w
  fin_cases w
  · exact hF3_0 m c
  · exact hF3_1 m c
  · exact hF3_2 m c
  · exact hF3_3 m c
  · exact hF3_4 m c
theorem hrest3 (c : Dev nD) : ∀ b, b ∉ Finset.univ.image (Pipeline.arrRef spec3) → S8 m c b = S7 m c b :=
  fun b hb => keep3 m c b (fun e => hb (e ▸ Finset.mem_image.mpr ⟨4, Finset.mem_univ _, rfl⟩))

set_option backward.isDefEq.respectTransparency.types false in
/-- Region 3 over the held buffers: entered at its entry stage, left at its exit stage. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => S7 m c b) c).loose
  hwaits := Pipeline.hwaits_of_owed_zero _ _ _ _ L lv 3 fun _ _ => rfl
  pre c := iprop(StableHlo.held (c : Thread nD τ) (Pipeline.ucRefs τ sig) (S7 m c) ∗ R c)
  post c := iprop(StableHlo.held (c : Thread nD τ) (Pipeline.ucRefs τ sig) (S8 m c) ∗ R c)
  X c := iprop(∃ r, prngReg c r)
  Y c := iprop(∃ r, prngReg c r)
  Z c := Pipeline.unscopedRest (Ix := Unit) (Name := ℕ) (U := UR sig nD τ) (Lvl := ℕ) spec3 c (fun b => S7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => S7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => S7 m c b) (fun b => S8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg4.lean ====
/-
  Region 4's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 4 -/

/-- The region's proof data is the literal one at its entry stage. -/
theorem pd4 (c : Dev nD) : pdats m 4 c = dat4 (fun c b => S9 m c b) c := rfl

/-- Region 4 leaves in `main_v49` what its pipeline wrote back through window 4. -/
theorem left4_4 (c : Dev nD) : L4 m c main_v49 = (pdats m 4 c).arrAt 4 cfg4.N := by
  unfold L4
  exact Pipeline.withArrays_arr spec4 launch4.win.arr_inj c (S9 m c) (fun w => (dat4 (fun c b => S9 m c b) c).arrAt w cfg4.N) 4
theorem vout4_4 (c : Dev nD) : S10 m c main_v49 = L4 m c main_v49 := by
  unfold S10
  exact Function.update_self (Proc.devRef .tc main_v49 : DevRef τ sig) (L4 m c main_v49) (S9 m c)
/-- A buffer other than the region's result is as the region found it. -/
theorem keep4 (c : Dev nD) (b : Ref sig .tc) (h : b ≠ main_v49) : S10 m c b = S9 m c b := by
  unfold S10
  exact Function.update_of_ne (StableHlo.devRef_ne_of_ne h) (L4 m c main_v49) (S9 m c)
theorem hF4_0 (c : Dev nD) : (pdats m 4 c).arrAt 0 cfg4.N = S10 m c main_v37 :=
  ((pdats m 4 c).arrAt_in 0 rfl cfg4.N).trans ((A_eq4 (fun c b => S9 m c b) c 0).trans (keep4 m c main_v37 (by decide)).symm)
theorem hF4_1 (c : Dev nD) : (pdats m 4 c).arrAt 1 cfg4.N = S10 m c main_v47 :=
  ((pdats m 4 c).arrAt_in 1 rfl cfg4.N).trans ((A_eq4 (fun c b => S9 m c b) c 1).trans (keep4 m c main_v47 (by decide)).symm)
theorem hF4_2 (c : Dev nD) : (pdats m 4 c).arrAt 2 cfg4.N = S10 m c main_arg9 :=
  ((pdats m 4 c).arrAt_in 2 rfl cfg4.N).trans ((A_eq4 (fun c b => S9 m c b) c 2).trans (keep4 m c main_arg9 (by decide)).symm)
theorem hF4_3 (c : Dev nD) : (pdats m 4 c).arrAt 3 cfg4.N = S10 m c main_v48 :=
  ((pdats m 4 c).arrAt_in 3 rfl cfg4.N).trans ((A_eq4 (fun c b => S9 m c b) c 3).trans (keep4 m c main_v48 (by decide)).symm)
theorem hF4_4 (c : Dev nD) : (pdats m 4 c).arrAt 4 cfg4.N = S10 m c main_v49 :=
  (left4_4 m c).symm.trans (vout4_4 m c).symm
theorem hF4 (c : Dev nD) : ∀ w : Fin 5, (pdats m 4 c).arrAt w cfg4.N = S10 m c (Pipeline.arrRef spec4 w) := by
  intro w
  fin_cases w
  · exact hF4_0 m c
  · exact hF4_1 m c
  · exact hF4_2 m c
  · exact hF4_3 m c
  · exact hF4_4 m c
theorem hrest4 (c : Dev nD) : ∀ b, b ∉ Finset.univ.image (Pipeline.arrRef spec4) → S10 m c b = S9 m c b :=
  fun b hb => keep4 m c b (fun e => hb (e ▸ Finset.mem_image.mpr ⟨4, Finset.mem_univ _, rfl⟩))

set_option backward.isDefEq.respectTransparency.types false in
/-- Region 4 over the held buffers: entered at its entry stage, left at its exit stage. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => S9 m c b) c).loose
  hwaits := Pipeline.hwaits_of_owed_zero _ _ _ _ L lv 4 fun _ _ => rfl
  pre c := iprop(StableHlo.held (c : Thread nD τ) (Pipeline.ucRefs τ sig) (S9 m c) ∗ R c)
  post c := iprop(StableHlo.held (c : Thread nD τ) (Pipeline.ucRefs τ sig) (S10 m c) ∗ R c)
  X c := iprop(∃ r, prngReg c r)
  Y c := iprop(∃ r, prngReg c r)
  Z c := Pipeline.unscopedRest (Ix := Unit) (Name := ℕ) (U := UR sig nD τ) (Lvl := ℕ) spec4 c (fun b => S9 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => S9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => S9 m c b) (fun b => S10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg5.lean ====
/-
  Region 5's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 5 -/

/-- The region's proof data is the literal one at its entry stage. -/
theorem pd5 (c : Dev nD) : pdats m 5 c = dat5 (fun c b => S11 m c b) c := rfl

/-- Region 5 leaves in `main_v61` what its pipeline wrote back through window 4. -/
theorem left5_4 (c : Dev nD) : L5 m c main_v61 = (pdats m 5 c).arrAt 4 cfg5.N := by
  unfold L5
  exact Pipeline.withArrays_arr spec5 launch5.win.arr_inj c (S11 m c) (fun w => (dat5 (fun c b => S11 m c b) c).arrAt w cfg5.N) 4
theorem vout5_4 (c : Dev nD) : S12 m c main_v61 = L5 m c main_v61 := by
  unfold S12
  exact Function.update_self (Proc.devRef .tc main_v61 : DevRef τ sig) (L5 m c main_v61) (S11 m c)
/-- A buffer other than the region's result is as the region found it. -/
theorem keep5 (c : Dev nD) (b : Ref sig .tc) (h : b ≠ main_v61) : S12 m c b = S11 m c b := by
  unfold S12
  exact Function.update_of_ne (StableHlo.devRef_ne_of_ne h) (L5 m c main_v61) (S11 m c)
theorem hF5_0 (c : Dev nD) : (pdats m 5 c).arrAt 0 cfg5.N = S12 m c main_v49 :=
  ((pdats m 5 c).arrAt_in 0 rfl cfg5.N).trans ((A_eq5 (fun c b => S11 m c b) c 0).trans (keep5 m c main_v49 (by decide)).symm)
theorem hF5_1 (c : Dev nD) : (pdats m 5 c).arrAt 1 cfg5.N = S12 m c main_v59 :=
  ((pdats m 5 c).arrAt_in 1 rfl cfg5.N).trans ((A_eq5 (fun c b => S11 m c b) c 1).trans (keep5 m c main_v59 (by decide)).symm)
theorem hF5_2 (c : Dev nD) : (pdats m 5 c).arrAt 2 cfg5.N = S12 m c main_arg11 :=
  ((pdats m 5 c).arrAt_in 2 rfl cfg5.N).trans ((A_eq5 (fun c b => S11 m c b) c 2).trans (keep5 m c main_arg11 (by decide)).symm)
theorem hF5_3 (c : Dev nD) : (pdats m 5 c).arrAt 3 cfg5.N = S12 m c main_v60 :=
  ((pdats m 5 c).arrAt_in 3 rfl cfg5.N).trans ((A_eq5 (fun c b => S11 m c b) c 3).trans (keep5 m c main_v60 (by decide)).symm)
theorem hF5_4 (c : Dev nD) : (pdats m 5 c).arrAt 4 cfg5.N = S12 m c main_v61 :=
  (left5_4 m c).symm.trans (vout5_4 m c).symm
theorem hF5 (c : Dev nD) : ∀ w : Fin 5, (pdats m 5 c).arrAt w cfg5.N = S12 m c (Pipeline.arrRef spec5 w) := by
  intro w
  fin_cases w
  · exact hF5_0 m c
  · exact hF5_1 m c
  · exact hF5_2 m c
  · exact hF5_3 m c
  · exact hF5_4 m c
theorem hrest5 (c : Dev nD) : ∀ b, b ∉ Finset.univ.image (Pipeline.arrRef spec5) → S12 m c b = S11 m c b :=
  fun b hb => keep5 m c b (fun e => hb (e ▸ Finset.mem_image.mpr ⟨4, Finset.mem_univ _, rfl⟩))

set_option backward.isDefEq.respectTransparency.types false in
/-- Region 5 over the held buffers: entered at its entry stage, left at its exit stage. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => S11 m c b) c).loose
  hwaits := Pipeline.hwaits_of_owed_zero _ _ _ _ L lv 5 fun _ _ => rfl
  pre c := iprop(StableHlo.held (c : Thread nD τ) (Pipeline.ucRefs τ sig) (S11 m c) ∗ R c)
  post c := iprop(StableHlo.held (c : Thread nD τ) (Pipeline.ucRefs τ sig) (S12 m c) ∗ R c)
  X c := iprop(∃ r, prngReg c r)
  Y c := iprop(∃ r, prngReg c r)
  Z c := Pipeline.unscopedRest (Ix := Unit) (Name := ℕ) (U := UR sig nD τ) (Lvl := ℕ) spec5 c (fun b => S11 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => S11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => S11 m c b) (fun b => S12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg6.lean ====
/-
  Region 6's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 6 -/

/-- The region's proof data is the literal one at its entry stage. -/
theorem pd6 (c : Dev nD) : pdats m 6 c = dat6 (fun c b => S13 m c b) c := rfl

/-- Region 6 leaves in `main_v73` what its pipeline wrote back through window 4. -/
theorem left6_4 (c : Dev nD) : L6 m c main_v73 = (pdats m 6 c).arrAt 4 cfg6.N := by
  unfold L6
  exact Pipeline.withArrays_arr spec6 launch6.win.arr_inj c (S13 m c) (fun w => (dat6 (fun c b => S13 m c b) c).arrAt w cfg6.N) 4
theorem vout6_4 (c : Dev nD) : S14 m c main_v73 = L6 m c main_v73 := by
  unfold S14
  exact Function.update_self (Proc.devRef .tc main_v73 : DevRef τ sig) (L6 m c main_v73) (S13 m c)
/-- A buffer other than the region's result is as the region found it. -/
theorem keep6 (c : Dev nD) (b : Ref sig .tc) (h : b ≠ main_v73) : S14 m c b = S13 m c b := by
  unfold S14
  exact Function.update_of_ne (StableHlo.devRef_ne_of_ne h) (L6 m c main_v73) (S13 m c)
theorem hF6_0 (c : Dev nD) : (pdats m 6 c).arrAt 0 cfg6.N = S14 m c main_v61 :=
  ((pdats m 6 c).arrAt_in 0 rfl cfg6.N).trans ((A_eq6 (fun c b => S13 m c b) c 0).trans (keep6 m c main_v61 (by decide)).symm)
theorem hF6_1 (c : Dev nD) : (pdats m 6 c).arrAt 1 cfg6.N = S14 m c main_v71 :=
  ((pdats m 6 c).arrAt_in 1 rfl cfg6.N).trans ((A_eq6 (fun c b => S13 m c b) c 1).trans (keep6 m c main_v71 (by decide)).symm)
theorem hF6_2 (c : Dev nD) : (pdats m 6 c).arrAt 2 cfg6.N = S14 m c main_arg13 :=
  ((pdats m 6 c).arrAt_in 2 rfl cfg6.N).trans ((A_eq6 (fun c b => S13 m c b) c 2).trans (keep6 m c main_arg13 (by decide)).symm)
theorem hF6_3 (c : Dev nD) : (pdats m 6 c).arrAt 3 cfg6.N = S14 m c main_v72 :=
  ((pdats m 6 c).arrAt_in 3 rfl cfg6.N).trans ((A_eq6 (fun c b => S13 m c b) c 3).trans (keep6 m c main_v72 (by decide)).symm)
theorem hF6_4 (c : Dev nD) : (pdats m 6 c).arrAt 4 cfg6.N = S14 m c main_v73 :=
  (left6_4 m c).symm.trans (vout6_4 m c).symm
theorem hF6 (c : Dev nD) : ∀ w : Fin 5, (pdats m 6 c).arrAt w cfg6.N = S14 m c (Pipeline.arrRef spec6 w) := by
  intro w
  fin_cases w
  · exact hF6_0 m c
  · exact hF6_1 m c
  · exact hF6_2 m c
  · exact hF6_3 m c
  · exact hF6_4 m c
theorem hrest6 (c : Dev nD) : ∀ b, b ∉ Finset.univ.image (Pipeline.arrRef spec6) → S14 m c b = S13 m c b :=
  fun b hb => keep6 m c b (fun e => hb (e ▸ Finset.mem_image.mpr ⟨4, Finset.mem_univ _, rfl⟩))

set_option backward.isDefEq.respectTransparency.types false in
/-- Region 6 over the held buffers: entered at its entry stage, left at its exit stage. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => S13 m c b) c).loose
  hwaits := Pipeline.hwaits_of_owed_zero _ _ _ _ L lv 6 fun _ _ => rfl
  pre c := iprop(StableHlo.held (c : Thread nD τ) (Pipeline.ucRefs τ sig) (S13 m c) ∗ R c)
  post c := iprop(StableHlo.held (c : Thread nD τ) (Pipeline.ucRefs τ sig) (S14 m c) ∗ R c)
  X c := iprop(∃ r, prngReg c r)
  Y c := iprop(∃ r, prngReg c r)
  Z c := Pipeline.unscopedRest (Ix := Unit) (Name := ℕ) (U := UR sig nD τ) (Lvl := ℕ) spec6 c (fun b => S13 m c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b => S13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => S13 m c b) (fun b => S14 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunReg7.lean ====
/-
  Region 7's record over the held buffers: its windows' arrays are split out of the buffers held at its entry stage, the pipeline runs against the region's proof data, and the arrays go back at its exit stage — the region's results at what the pipeline wrote back, every other buffer as found.
-/
import proofs.«132860_j13426067767700_1_alg».proof.Proof.RunDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 7 -/

/-- The region's proof data is the literal one at its entry stage. -/
theorem pd7 (c : Dev nD) : pdats m 7 c = dat7 (fun c b => S14 m c b) c := rfl

/-- Region 7 leaves in `main_v74` what its pipeline wrote back through window 2. -/
theorem left7_2 (c : Dev nD) : L7 m c main_v74 = (pdats m 7 c).arrAt 2 cfg7.N := by
  unfold L7
  exact Pipeline.withArrays_arr spec7 launch7.win.arr_inj c (S14 m c) (fun w => (dat7 (fun c b => S14 m c b) c).arrAt w cfg7.N) 2
theorem vout7_2 (c : Dev nD) : S15 m c main_v74 = L7 m c main_v74 := by
  unfold S15
  exact Function.update_self (Proc.devRef .tc main_v74 : DevRef τ sig) (L7 m c main_v74) (S14 m c)
/-- A buffer other than the region's result is as the region found it. -/
theorem keep7 (c : Dev nD) (b : Ref sig .tc) (h : b ≠ main_v74) : S15 m c b = S14 m c b := by
  unfold S15
  exact Function.update_of_ne (StableHlo.devRef_ne_of_ne h) (L7 m c main_v74) (S14 m c)
theorem hF7_0 (c : Dev nD) : (pdats m 7 c).arrAt 0 cfg7.N = S15 m c main_v73 :=
  ((pdats m 7 c).arrAt_in 0 rfl cfg7.N).trans ((A_eq7 (fun c b => S14 m c b) c 0).trans (keep7 m c main_v73 (by decide)).symm)
theorem hF7_1 (c : Dev nD) : (pdats m 7 c).arrAt 1 cfg7.N = S15 m c main_arg15 :=
  ((pdats m 7 c).arrAt_in 1 rfl cfg7.N).trans ((A_eq7 (fun c b => S14 m c b) c 1).trans (keep7 m c main_arg15 (by decide)).symm)
theorem hF7_2 (c : Dev nD) : (pdats m 7 c).arrAt 2 cfg7.N = S15 m c main_v74 :=
  (left7_2 m c).symm.trans (vout7_2 m c).symm
theorem hF7 (c : Dev nD) : ∀ w : Fin 3, (pdats m 7 c).arrAt w cfg7.N = S15 m c (Pipeline.arrRef spec7 w) := by
  intro w
  fin_cases w
  · exact hF7_0 m c
  · exact hF7_1 m c
  · exact hF7_2 m c
theorem hrest7 (c : Dev nD) : ∀ b, b ∉ Finset.univ.image (Pipeline.arrRef spec7) → S15 m c b = S14 m c b :=
  fun b hb => keep7 m c b (fun e => hb (e ▸ Finset.mem_image.mpr ⟨2, Finset.mem_univ _, rfl⟩))

set_option backward.isDefEq.respectTransparency.types false in
/-- Region 7 over the held buffers: entered at its entry stage, left at its exit stage. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => S14 m c b) c).loose
  hwaits := Pipeline.hwaits_of_owed_zero _ _ _ _ L lv 7 fun _ _ => rfl
  pre c := iprop(StableHlo.held (c : Thread nD τ) (Pipeline.ucRefs τ sig) (S14 m c) ∗ R c)
  post c := iprop(StableHlo.held (c : Thread nD τ) (Pipeline.ucRefs τ sig) (S15 m c) ∗ R c)
  X c := iprop(∃ r, prngReg c r)
  Y c := iprop(∃ r, prngReg c r)
  Z c := Pipeline.unscopedRest (Ix := Unit) (Name := ℕ) (U := UR sig nD τ) (Lvl := ℕ) spec7 c (fun b => S14 m c b)
  hentry c := by
    rw [Pipeline.ownSems0_none]
    have hsplit := Pipeline.arrays_of_unscopedBufs (p := 7) (pcfgs (F := F)) adm (pdats m) launch7.win launch7.arr_whole c
      ((pdats m 7 c).share_full fun _ => rfl) (fun b => S14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (fun b => S14 m c b) (fun b => S15 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.RunMain.lean ====
/-
  The run of the whole program from the eight regions' records: every weakly fair execution ends with each buffer that outlives the kernels at the last valuation; the argument buffers are read off it unchanged.
-/
import proofs.«132860_j13426067767700_1_alg».proof.Proof.RunCond
import proofs.«132860_j13426067767700_1_alg».proof.Proof.RunReg0
import proofs.«132860_j13426067767700_1_alg».proof.Proof.RunReg1
import proofs.«132860_j13426067767700_1_alg».proof.Proof.RunReg2
import proofs.«132860_j13426067767700_1_alg».proof.Proof.RunReg3
import proofs.«132860_j13426067767700_1_alg».proof.Proof.RunReg4
import proofs.«132860_j13426067767700_1_alg».proof.Proof.RunReg5
import proofs.«132860_j13426067767700_1_alg».proof.Proof.RunReg6
import proofs.«132860_j13426067767700_1_alg».proof.Proof.RunReg7

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

set_option backward.isDefEq.respectTransparency.types false in
/-- Every weakly fair execution of the program from memory `m` ends, nothing faulting, with every buffer that
    outlives the kernels at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => held_of_eq (S1_eq m c) c) (fun c => held_of_eq (S2_eq m c).symm c)
    (reg1 m) (fun c => held_of_eq (S3_eq m c) c) (fun c => held_of_eq (S4_eq m c).symm c)
    (reg2 m) (fun c => held_of_eq (S5_eq m c) c) (fun c => held_of_eq (S6_eq m c).symm c)
    (reg3 m) (fun c => held_of_eq (S7_eq m c) c) (fun c => held_of_eq (S8_eq m c).symm c)
    (reg4 m) (fun c => held_of_eq (S9_eq m c) c) (fun c => held_of_eq (S10_eq m c).symm c)
    (reg5 m) (fun c => held_of_eq (S11_eq m c) c) (fun c => held_of_eq (S12_eq m c).symm c)
    (reg6 m) (fun c => held_of_eq (S13_eq m c) c) (fun c => held_of_eq (S14_eq m c).symm c)
    (reg7 m) (fun c => held_of_eq (S14_eq m c) c) (fun c => held_of_eq (S15_eq m c).symm c)

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => ⟨(h c _ (mem_uc main_arg0 (by decide))).trans (V16_main_arg0 m (outs m) c),
    (h c _ (mem_uc main_arg1 (by decide))).trans (V16_main_arg1 m (outs m) c),
    (h c _ (mem_uc main_arg2 (by decide))).trans (V16_main_arg2 m (outs m) c),
    (h c _ (mem_uc main_arg3 (by decide))).trans (V16_main_arg3 m (outs m) c),
    (h c _ (mem_uc main_arg4 (by decide))).trans (V16_main_arg4 m (outs m) c),
    (h c _ (mem_uc main_arg5 (by decide))).trans (V16_main_arg5 m (outs m) c),
    (h c _ (mem_uc main_arg6 (by decide))).trans (V16_main_arg6 m (outs m) c),
    (h c _ (mem_uc main_arg7 (by decide))).trans (V16_main_arg7 m (outs m) c),
    (h c _ (mem_uc main_arg8 (by decide))).trans (V16_main_arg8 m (outs m) c),
    (h c _ (mem_uc main_arg9 (by decide))).trans (V16_main_arg9 m (outs m) c),
    (h c _ (mem_uc main_arg10 (by decide))).trans (V16_main_arg10 m (outs m) c),
    (h c _ (mem_uc main_arg11 (by decide))).trans (V16_main_arg11 m (outs m) c),
    (h c _ (mem_uc main_arg12 (by decide))).trans (V16_main_arg12 m (outs m) c),
    (h c _ (mem_uc main_arg13 (by decide))).trans (V16_main_arg13 m (outs m) c),
    (h c _ (mem_uc main_arg14 (by decide))).trans (V16_main_arg14 m (outs m) c),
    (h c _ (mem_uc main_arg15 (by decide))).trans (V16_main_arg15 m (outs m) c)⟩)
    (run_main m ρ)

end Cert.KernelIdeal.Frm

end
-- ==== Proof.KRunCond.lean ====
/-
  The program's run with every region's record given: every weakly fair execution of the host program ends, and at
  the end each buffer that outlives the kernels holds the last of the valuations the segments thread from the launch
  memory — host stretches folded over it, each region's results written in.  The frame claim reads the argument
  buffers off this; the value claim reads the result buffer.
-/
import proofs.«132860_j13426067767700_1_alg».proof.Proof.Gen.Kernel.Regions

set_option maxRecDepth 1196

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given the eight regions' records between the valuations `V1 … V15`, the run ends with every buffer outside the
    kernels' scopes at the last valuation `V16`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 8) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 9 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE8 : ∀ c : Dev nD, E 8 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V7 m outs c) ∗ E 3 c) ⊢ R3.pre c)
    (hpost3 : ∀ c : Dev nD, R3.post c ⊢ iprop(StableHlo.held (c : Thread nD τ) (Pipeline.ucRefs τ sig) (V8 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V11 m outs c) ∗ E 5 c) ⊢ R5.pre c)
    (hpost5 : ∀ c : Dev nD, R5.post c ⊢ iprop(StableHlo.held (c : Thread nD τ) (Pipeline.ucRefs τ sig) (V12 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V13 m outs c) ∗ E 6 c) ⊢ R6.pre c)
    (hpost6 : ∀ c : Dev nD, R6.post c ⊢ iprop(StableHlo.held (c : Thread nD τ) (Pipeline.ucRefs τ sig) (V14 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V14 m outs c) ∗ E 7 c) ⊢ R7.pre c)
    (hpost7 : ∀ c : Dev nD, R7.post c ⊢ iprop(StableHlo.held (c : Thread nD τ) (Pipeline.ucRefs τ sig) (V15 m outs c) ∗ E 8 c)) :
    θ_run defs (onTc (τ := τ) (main (F := F))) ⟨m, fun _ => 0, ρ⟩ (fun r => ∀ c : Dev nD,
      ∀ b ∈ Pipeline.ucRefs τ sig, r.2.mem (((c : Thread nD τ)).1, b) = V16 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7)
    (fun c Q => by
      rewrite [main_chain c, Seg.run_eq_chain,
        show (segs m outs 𝒱₀ L lv E ι pdats R0 R1 R2 R3 R4 R5 R6 R7 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          Prog.lift (.customCall (Pipeline.entry 7) ()),
          StableHlo.seq hostOps8 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, hpre0 c, hpost0 c, hpre1 c, hpost1 c, hpre2 c, hpost2 c, hpre3 c, hpost3 c, hpre4 c, hpost4 c, hpre5 c, hpost5 c, hpre6 c, (hpost6 c).trans (hpre7 c), hpost7 c, sep_mono .rfl (hE8 c)⟩)
    (hinit := ?_) (QY := fun c s => ∀ b ∈ Pipeline.ucRefs τ sig, s.mem (((c : Thread nD τ)).1, b) = V16 m outs c b)
    (hfin := fun c s' => ?_) (hQ := fun _ h => h)
  · -- at the launch the buffers are held at the launch memory, and the rest makes the first side state on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end every held buffer is read against the final memory
    unfold StableHlo.held
    iintro ⟨Hh, HSI⟩
    imodintro
    iapply (pointsTo_read_all (Pipeline.ucRefs τ sig) (fun b => (((c : Thread nD τ)).1, b)) (V16 m outs c) s')
    isplitl [Hh] <;> iassumption

end Cert.Kernel.Frm

end
-- ==== Proof.KReg0.lean ====
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: `cc0__bn_stats_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block index
    has not moved, the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block index
    has not moved, the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs hold after each point -/

/-- The accumulation. What the two outputs' staging buffers (windows 2 and 3: the running sum and the running sum of
    squares) hold after the body at position `n`: at the first point the body zeroes both and adds the point's
    contribution; at a later point it adds the point's contribution to what the point before left (the buffers are
    not written back between). -/
def outsAt0 (c : Dev nD) : (n : ℕ) → n < cfg0.N → Vec F S1x128 .f32 × Vec F S1x128 .f32
  | 0, hn => (k0_pay4 (iblk0 V c 0 ⟨0, hn⟩) (iblk0 V c 1 ⟨0, hn⟩) (k0_pay1 (F := F)),
              k0_pay5 (iblk0 V c 0 ⟨0, hn⟩) (iblk0 V c 1 ⟨0, hn⟩) (k0_pay2 (F := F)))
  | n + 1, hn => (k0_pay4 (iblk0 V c 0 ⟨n + 1, hn⟩) (iblk0 V c 1 ⟨n + 1, hn⟩) (outsAt0 c n (Nat.lt_of_succ_lt hn)).1,
                  k0_pay5 (iblk0 V c 0 ⟨n + 1, hn⟩) (iblk0 V c 1 ⟨n + 1, hn⟩) (outsAt0 c n (Nat.lt_of_succ_lt hn)).2)

/-- `outsAt0` at the first point. -/
theorem outsAt0_zero (c : Dev nD) (hn : 0 < cfg0.N) :
    outsAt0 V c 0 hn = (k0_pay4 (iblk0 V c 0 ⟨0, hn⟩) (iblk0 V c 1 ⟨0, hn⟩) (k0_pay1 (F := F)),
                        k0_pay5 (iblk0 V c 0 ⟨0, hn⟩) (iblk0 V c 1 ⟨0, hn⟩) (k0_pay2 (F := F))) := rfl

/-- `outsAt0` at a later point: the point's contribution added to what the point before left. -/
theorem outsAt0_succ (c : Dev nD) (n : ℕ) (hn : n + 1 < cfg0.N) :
    outsAt0 V c (n + 1) hn = (k0_pay4 (iblk0 V c 0 ⟨n + 1, hn⟩) (iblk0 V c 1 ⟨n + 1, hn⟩) (outsAt0 V c n (Nat.lt_of_succ_lt hn)).1,
                              k0_pay5 (iblk0 V c 0 ⟨n + 1, hn⟩) (iblk0 V c 1 ⟨n + 1, hn⟩) (outsAt0 V c n (Nat.lt_of_succ_lt hn)).2) := rfl

/-! ## The pipeline's proof data -/

/-- The proof data of pipeline 0 on core `c`: the arrays as the region finds them (`V`); after the body at
    point `t` each input's buffer at its block and the outputs' at `outsAt0`; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's accesses -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S1x128 := Rect.unit (s := S1x128) ![0, 0] S1x128.size inb_S1x128_S1x128_0_0

/-- The zero offsets, however spelt. -/
theorem hz : (![0, 0] : Fin 2 → Nat) = fun _ => 0 := by funext a; fin_cases a <;> rfl

/-! ## The body's branch condition -/

/-- The condition of the body's conditional, from the grid coordinates (the scalar chain substituted). -/
abbrev cond0_0 (i : grid0.Coords) : Prop := (Scalar.cmpi .ne (Scalar.extui (Scalar.cmpi .eq (BitVec.ofNat 32 (i 0).val) 0#32)) 0#32) = 1#1
/-- It holds at the first point only: decided over the grid. -/
theorem hcond0_0 : ∀ t : Fin cfg0.N, cond0_0 (grid0.coords t) ↔ t.val % 20 = 0 :=
  (by decide +kernel : ∀ t : Fin grid0.N, cond0_0 (grid0.coords t) ↔ t.val % 20 = 0)

/-! ## The body's triples, one per case of the conditional -/

set_option maxHeartbeats 1000000 in
/-- At the first point (the conditional taken): on whole staging memrefs, the inputs' at read contents `x0`, `x1` and
    the outputs' at anything, the body zeroes both outputs, reads them back and leaves the point's column sums added
    to the zeros; the inputs' memrefs are as they were. -/
theorem sound_kernel0_A (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole)
    (hc0 : cond0_0 i) (x0 : Vec F S5000x128 .f32) (x1 : Vec F S5000x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay4 x0 x1 (k0_pay1 (F := F)))
            ∗ owns (c : Thread nD τ) arg4 fullShare (k0_pay5 x0 x1 (k0_pay2 (F := F)))) -∗ K ⟨⟩))
      ⊢ wp frame (wpE (defs₀ (F := F)) Variants.none c none) E (cc0__bn_stats_kernel i arg1 harg1 arg2 harg2 arg3 harg3 arg4 harg4) K := by
  simp only [cc0__bn_stats_kernel_eq_skeleton]; unfold cc0__bn_stats_kernel_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons_self, View.mem_set_unit_zero (S := S1x128) hz inb_S1x128_S1x128_0_0 y⟩)]
    sl_unfold_words
    rw [View.canon_cons_unit_zero (S := S1x128) hz, View.readCov_unit_zero (S := S1x128) _ hz]
    simp only [View.readAt_eq_ld, View.ld_unit_zero (S := S5000x128) hz, View.ld_unit_zero (S := S5000x1) hz]
  iexists _; isplitr
  swap; · iexact H3
  ipureintro
  rw [View.read_writes_eq_canon _ _ _ (fun y => ⟨_, List.mem_cons_self, View.mem_set_unit_zero (S := S1x128) hz inb_S1x128_S1x128_0_0 y⟩)]
  sl_unfold_words
  rw [View.canon_cons_unit_zero (S := S1x128) hz, View.readCov_unit_zero (S := S1x128) _ hz]
  simp only [View.readAt_eq_ld, View.ld_unit_zero (S := S5000x128) hz, View.ld_unit_zero (S := S5000x1) hz]

set_option maxHeartbeats 1000000 in
/-- At a later point (the conditional not taken): the outputs' memrefs at running contents `xo2`, `xo3`, the body leaves
    the point's column sums added to them. -/
theorem sound_kernel0_B (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole)
    (hc0 : ¬cond0_0 i) (x0 : Vec F S5000x128 .f32) (x1 : Vec F S5000x1 .f32) (xo2 xo3 : Vec F S1x128 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3
        ∗ (iprop(owns (c : Thread nD τ) arg1 fullShare x0 ∗ owns (c : Thread nD τ) arg2 fullShare x1
            ∗ owns (c : Thread nD τ) arg3 fullShare (k0_pay4 x0 x1 xo2)
            ∗ owns (c : Thread nD τ) arg4 fullShare (k0_pay5 x0 x1 xo3)) -∗ K ⟨⟩))
      ⊢ wp frame (wpE (defs₀ (F := F)) Variants.none c none) E (cc0__bn_stats_kernel i arg1 harg1 arg2 harg2 arg3 harg3 arg4 harg4) K := by
  simp only [cc0__bn_stats_kernel_eq_skeleton]; unfold cc0__bn_stats_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_cons_self, View.mem_set_unit_zero (S := S1x128) hz inb_S1x128_S1x128_0_0 y⟩)]
    rw [View.canon_cons_unit_zero (S := S1x128) hz]
    simp only [View.readAt_eq_ld, View.ld_unit_zero (S := S5000x128) hz, View.ld_unit_zero (S := S5000x1) hz, View.ld_unit_zero (S := S1x128) hz]
  iexists _; isplitr
  swap; · iexact H3
  ipureintro
  rw [View.read_writes_eq_canon _ _ _ (fun y => ⟨_, List.mem_cons_self, View.mem_set_unit_zero (S := S1x128) hz inb_S1x128_S1x128_0_0 y⟩)]
  rw [View.canon_cons_unit_zero (S := S1x128) hz]
  simp only [View.readAt_eq_ld, View.ld_unit_zero (S := S5000x128) hz, View.ld_unit_zero (S := S5000x1) hz, View.ld_unit_zero (S := S1x128) hz]

/-! ## The outputs at a point, by the case the point is in -/

/-- `outsAt0` at the first point. -/
theorem outsAt0_A (c : Dev nD) (t : Fin cfg0.N) (h0 : t.val % 20 = 0) :
    outsAt0 V c t.val t.isLt = (k0_pay4 (iblk0 V c 0 t) (iblk0 V c 1 t) (k0_pay1 (F := F)),
                                k0_pay5 (iblk0 V c 0 t) (iblk0 V c 1 t) (k0_pay2 (F := F))) := by
  obtain ⟨n, hn⟩ := t
  have hN : n < 20 := lt_of_lt_of_eq hn (show cfg0.N = 20 from N_0)
  cases n with
  | zero => rfl
  | succ n => exfalso; dsimp only at h0; omega

/-- `outsAt0` at a later point: over what the point before left. -/
theorem outsAt0_B (c : Dev nD) (t : Fin cfg0.N) (h0 : ¬t.val % 20 = 0) :
    outsAt0 V c t.val t.isLt =
      (k0_pay4 (iblk0 V c 0 t) (iblk0 V c 1 t) (outsAt0 V c (t.val - 1) (Nat.lt_of_le_of_lt (Nat.sub_le _ _) t.isLt)).1,
       k0_pay5 (iblk0 V c 0 t) (iblk0 V c 1 t) (outsAt0 V c (t.val - 1) (Nat.lt_of_le_of_lt (Nat.sub_le _ _) t.isLt)).2) := by
  obtain ⟨n, hn⟩ := t
  cases n with
  | zero => exact absurd (Nat.zero_mod _) h0
  | succ n => rfl

theorem outsAt0_A_fst (c : Dev nD) (t : Fin cfg0.N) (h0 : t.val % 20 = 0) :
    (outsAt0 V c t.val t.isLt).1 = k0_pay4 (iblk0 V c 0 t) (iblk0 V c 1 t) (k0_pay1 (F := F)) := by rw [outsAt0_A V c t h0]
theorem outsAt0_A_snd (c : Dev nD) (t : Fin cfg0.N) (h0 : t.val % 20 = 0) :
    (outsAt0 V c t.val t.isLt).2 = k0_pay5 (iblk0 V c 0 t) (iblk0 V c 1 t) (k0_pay2 (F := F)) := by rw [outsAt0_A V c t h0]
theorem outsAt0_B_fst (c : Dev nD) (t : Fin cfg0.N) (h0 : ¬t.val % 20 = 0) :
    (outsAt0 V c t.val t.isLt).1 = k0_pay4 (iblk0 V c 0 t) (iblk0 V c 1 t) (outsAt0 V c (t.val - 1) (Nat.lt_of_le_of_lt (Nat.sub_le _ _) t.isLt)).1 := by rw [outsAt0_B V c t h0]
theorem outsAt0_B_snd (c : Dev nD) (t : Fin cfg0.N) (h0 : ¬t.val % 20 = 0) :
    (outsAt0 V c t.val t.isLt).2 = k0_pay5 (iblk0 V c 0 t) (iblk0 V c 1 t) (outsAt0 V c (t.val - 1) (Nat.lt_of_le_of_lt (Nat.sub_le _ _) t.isLt)).2 := by rw [outsAt0_B V c t h0]

/-- At a later point output window 2's current staging buffer holds what the body left at the point before: the
    point is not the first, the buffer was not written back between, the window is live and uncut. -/
theorem before0_2_B (c : Dev nD) (t : Fin cfg0.N) (h0 : ¬t.val % 20 = 0) (d) :
    (dat0 V c).before 2 t d = (outsAt0 V c (t.val - 1) (Nat.lt_of_le_of_lt (Nat.sub_le _ _) t.isLt)).1 := by
  have hN : t.val < 20 := lt_of_lt_of_eq t.isLt (show cfg0.N = 20 from N_0)
  rw [Dat.before_out_kept _ 2 rfl t (by omega) (Bool.eq_false_iff.mpr fun h => by have := (flush0_2 _).mp h; dsimp only at this; omega)
    (fun _ => rfl) (fun _ _ => rfl)]
  dsimp only [dat0]
/-- The same of output window 3. -/
theorem before0_3_B (c : Dev nD) (t : Fin cfg0.N) (h0 : ¬t.val % 20 = 0) (d) :
    (dat0 V c).before 3 t d = (outsAt0 V c (t.val - 1) (Nat.lt_of_le_of_lt (Nat.sub_le _ _) t.isLt)).2 := by
  have hN : t.val < 20 := lt_of_lt_of_eq t.isLt (show cfg0.N = 20 from N_0)
  rw [Dat.before_out_kept _ 3 rfl t (by omega) (Bool.eq_false_iff.mpr fun h => by have := (flush0_3 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 800000 in
/-- The body at any point: the inputs' memrefs hold their blocks; the closed form of the condition says which case the
    point is in; at a later point each output's memref holds what the point before left; so the case's triple applies;
    the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 20 = 0
  · rw [outsAt0_A_fst V c t h0, outsAt0_A_snd V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond0_0 t).mpr h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B_fst V c t h0, outsAt0_B_snd V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond0_0 t).mp h)) (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.KReg1.lean ====
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural check recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: `cc1__bn_norm_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved, the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the block index
    has not moved, the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the block index
    has not moved, the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): unfetched, the block index
    has not moved, the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): unfetched, the block index
    has not moved, the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): unfetched, the block index
    has not moved, the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0

/-! ## What the body leaves in the output window's buffer -/

/-- Window 6's staging buffer after the body, from the input windows' blocks: its one store as a piece. The body
    reads the variance block (window 3) before the mean block (window 2). -/
def out1_6 (x0 : Vec F S5000x128 .f32) (x1 : Vec F S5000x1 .f32) (x2 x3 x4 x5 : Vec F S1x128 .f32) : Vec F S5000x128 .f32 :=
  View.canon [⟨r1_0, k1_pay1 (View.ld x0 r1_0) (View.ld x1 r1_1) (View.ld x3 r1_2) (View.ld x2 r1_2) (View.ld x4 r1_2) (View.ld x5 r1_2)⟩]

/-- Its store tiles the buffer, so it covers it. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_6` of the inputs': the body's load of
    the output buffer reads contents nothing uses, and its store through the whole rectangle overwrites them. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole)
    (x0 : Vec F S5000x128 .f32) (x1 : Vec F S5000x1 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__bn_norm_kernel i arg1 harg1 arg2 harg2 arg3 harg3 arg4 harg4 arg5 harg5 arg6 harg6 arg7 harg7) K := by
  simp only [cc1__bn_norm_kernel_eq_skeleton]; unfold cc1__bn_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and the output's at `out1_6` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant
    and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.KReg2.lean ====
/- The per-region half of the frame proof for region 2 (custom_call 2, `cc2__combine_linear_tanh_kernel`), at a PARAMETER `V`:
   the TensorCore's buffer contents when the region is entered. Each window's block at a point (`iblk2`), what the
   body leaves in the output window's staging buffer as the canon of its one whole-rectangle store over the input
   blocks (`out2_4`), the body's triple (`sound_kernel2`), the proof data (`dat2`) and the body obligation
   (`body_obligation2`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): unfetched, the block index
    has not moved, and the buffer still holds the previous point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S5000x128 := Rect.unit (s := S5000x128) ![0, 0] S5000x128.size inb_S5000x128_S5000x128_0_0
abbrev r2_1 : Rect S128x64 := Rect.unit (s := S128x64) ![0, 0] S128x64.size inb_S128x64_S128x64_0_0
abbrev r2_2 : Rect S1x64 := Rect.unit (s := S1x64) ![0, 0] S1x64.size inb_S1x64_S1x64_0_0
abbrev r2_3 : Rect S5000x64 := Rect.unit (s := S5000x64) ![0, 0] S5000x64.size inb_S5000x64_S5000x64_0_0

/-! ## What the body leaves in the output window's buffer -/

/-- Window 4's staging buffer after the body, from the input windows' blocks: its one store, through the whole
    rectangle, of the payload over the loaded inputs. -/
def out2_4 (x0 : Vec F S5000x128 .f32) (x1 : Vec F S5000x128 .f32) (x2 : Vec F S128x64 .f32) (x3 : Vec F S1x64 .f32) : Vec F S5000x64 .f32 :=
  View.canon [⟨r2_3, k2_pay1 (View.ld x0 r2_0) (View.ld x1 r2_0) (View.ld x2 r2_1) (View.ld x3 r2_2)⟩]

/-- The store's rectangle is the whole buffer, so it covers it. -/
theorem cover2_4 (p0 : Vec F S5000x64 .f32) (y : S5000x64.Idx) :
    ∃ pc ∈ ([⟨r2_3, p0⟩] : List (View.Piece (Elt F) S5000x64 .f32)), y ∈ pc.1.set :=
  View.cover_of_tiled [⟨r2_3, p0⟩] S5000x64.size (by rfl) y

/-! ## The body's triple -/

set_option maxHeartbeats 1000000 in
/-- The kernel body on whole staging memrefs, the inputs' at read contents `xW` and the output's at anything, runs to
    the continuation holding the inputs' as they were and the output's at `out2_4` of the inputs'. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x128 .f32) (x1 : Vec F S5000x128 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__combine_linear_tanh_kernel i arg1 harg1 arg2 harg2 arg3 harg3 arg4 harg4 arg5 harg5) K := by
  simp only [cc2__combine_linear_tanh_kernel_eq_skeleton]; unfold cc2__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.KReg3.lean ====
/- The per-region half of the frame proof for region 3 (custom_call 3, `cc3__combine_linear_tanh_kernel`), at a PARAMETER `V`:
   the TensorCore's buffer contents when the region is entered. Each window's block at a point (`iblk3`), what the
   body leaves in the output window's staging buffer as the canon of its one whole-rectangle store over the input
   blocks (`out3_4`), the body's triple (`sound_kernel3`), the proof data (`dat3`) and the body obligation
   (`body_obligation3`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block index
    has not moved, and the buffer still holds the previous point's block, which is this point's. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0
abbrev r3_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out3_4 (x0 : Vec F S5000x64 .f32) (x1 : Vec F S5000x64 .f32) (x2 : Vec F S64x64 .f32) (x3 : Vec F S1x64 .f32) : Vec F S5000x64 .f32 :=
  View.canon [⟨r3_0, k3_pay1 (View.ld x0 r3_0) (View.ld x1 r3_0) (View.ld x2 r3_1) (View.ld x3 r3_2)⟩]

/-- The store's rectangle is the whole buffer, so it covers it. -/
theorem cover3_4 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at read contents `xW` and the output's at anything, runs to
    the continuation holding the inputs' as they were and the output's at `out3_4` of the inputs'. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_linear_tanh_kernel i arg1 harg1 arg2 harg2 arg3 harg3 arg4 harg4 arg5 harg5) K := by
  simp only [cc3__combine_linear_tanh_kernel_eq_skeleton]; unfold cc3__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays as the region finds them (`V`); after the body at point `t`
    each input's buffer at its block and the output's at `out3_4` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.KReg4.lean ====
/- The per-region half of the frame proof for region 4 (custom_call 4, `cc4__combine_linear_tanh_kernel`), at a PARAMETER `V`:
   the TensorCore's buffer contents when the region is entered. Each window's block at a point (`iblk4`), what the
   body leaves in the output window's staging buffer as the canon of its one whole-rectangle store over the input
   blocks (`out4_4`), the body's triple (`sound_kernel4`), the proof data (`dat4`) and the body obligation
   (`body_obligation4`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): unfetched, the block index
    has not moved, and the buffer still holds the previous point's block, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out4_4 (x0 : Vec F S5000x64 .f32) (x1 : Vec F S5000x64 .f32) (x2 : Vec F S64x64 .f32) (x3 : Vec F S1x64 .f32) : Vec F S5000x64 .f32 :=
  View.canon [⟨r4_0, k4_pay1 (View.ld x0 r4_0) (View.ld x1 r4_0) (View.ld x2 r4_1) (View.ld x3 r4_2)⟩]

/-- The store's rectangle is the whole buffer, so it covers it. -/
theorem cover4_4 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 1000000 in
/-- The kernel body on whole staging memrefs, the inputs' at read contents `xW` and the output's at anything, runs to
    the continuation holding the inputs' as they were and the output's at `out4_4` of the inputs'. -/
theorem sound_kernel4 (c : Dev nD) (E : Set ℕ) (i : grid4.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__combine_linear_tanh_kernel i arg1 harg1 arg2 harg2 arg3 harg3 arg4 harg4 arg5 harg5) K := by
  simp only [cc4__combine_linear_tanh_kernel_eq_skeleton]; unfold cc4__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-! ## The pipeline's proof data -/

/-- The proof data of pipeline 4 on core `c`: the arrays as the region finds them (`V`); after the body at point `t`
    each input's buffer at its block and the output's at `out4_4` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frm

end
-- ==== Proof.KReg5.lean ====
/- The per-region half of the frame proof for region 5 (custom_call 5, `cc5__combine_linear_tanh_kernel`), at a PARAMETER `V`:
   the TensorCore's buffer contents when the region is entered. Each window's block at a point (`iblk5`), what the
   body leaves in the output window's staging buffer as the canon of its one whole-rectangle store over the input
   blocks (`out5_4`), the body's triple (`sound_kernel5`), the proof data (`dat5`) and the body obligation
   (`body_obligation5`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block index
    has not moved, and the buffer still holds the previous point's block, which is this point's. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S5000x64 := Rect.unit (s := S5000x64) ![0, 0] S5000x64.size inb_S5000x64_S5000x64_0_0
abbrev r5_1 : Rect S64x64 := Rect.unit (s := S64x64) ![0, 0] S64x64.size inb_S64x64_S64x64_0_0
abbrev r5_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out5_4 (x0 : Vec F S5000x64 .f32) (x1 : Vec F S5000x64 .f32) (x2 : Vec F S64x64 .f32) (x3 : Vec F S1x64 .f32) : Vec F S5000x64 .f32 :=
  View.canon [⟨r5_0, k5_pay1 (View.ld x0 r5_0) (View.ld x1 r5_0) (View.ld x2 r5_1) (View.ld x3 r5_2)⟩]

/-- The store's rectangle is the whole buffer, so it covers it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at read contents `xW` and the output's at anything, runs to
    the continuation holding the inputs' as they were and the output's at `out5_4` of the inputs'. -/
theorem sound_kernel5 (c : Dev nD) (E : Set ℕ) (i : grid5.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__combine_linear_tanh_kernel i arg1 harg1 arg2 harg2 arg3 harg3 arg4 harg4 arg5 harg5) K := by
  simp only [cc5__combine_linear_tanh_kernel_eq_skeleton]; unfold cc5__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them (`V`); after the body at point `t`
    each input's buffer at its block and the output's at `out5_4` of the input blocks; the invariant is the scoped
    rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frm

end
-- ==== Proof.KReg6.lean ====
/- The per-region half of the frame proof for region 6 (custom_call 6, `cc6__combine_linear_tanh_kernel`), at a PARAMETER `V`:
   the TensorCore's buffer contents when the region is entered. Each window's block at a point (`iblk6`), what the
   body leaves in the output window's staging buffer as the canon of its one whole-rectangle store over the input
   blocks (`out6_4`), the body's triple (`sound_kernel6`), the proof data (`dat6`) and the body obligation
   (`body_obligation6`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s (`hA`) and whose body leaves the block in place (`hafter`): unfetched, the block index
    has not moved, and the buffer still holds the previous point's block, which is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s (`hA`) and whose body leaves the block in place (`hafter`): unfetched, the block index
    has not moved, and the buffer still holds the previous point's block, which is this point's. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s (`hA`) and whose body leaves the block in place (`hafter`): unfetched, the block index
    has not moved, and the buffer still holds the previous point's block, which is this point's. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0

/-! ## What the body leaves in the output window's buffer -/

/-- Window 4's staging buffer after the body, from the input windows' blocks: its one store, through the whole
    rectangle, of the payload over the loaded inputs. -/
def out6_4 (x0 : Vec F S5000x64 .f32) (x1 : Vec F S5000x64 .f32) (x2 : Vec F S64x64 .f32) (x3 : Vec F S1x64 .f32) : Vec F S5000x64 .f32 :=
  View.canon [⟨r6_0, k6_pay1 (View.ld x0 r6_0) (View.ld x1 r6_0) (View.ld x2 r6_1) (View.ld x3 r6_2)⟩]

/-- The store's rectangle is the whole buffer, so it covers it. -/
theorem cover6_4 (p0 : Vec F S5000x64 .f32) (y : S5000x64.Idx) :
    ∃ pc ∈ ([⟨r6_0, p0⟩] : List (View.Piece (Elt F) S5000x64 .f32)), y ∈ pc.1.set :=
  View.cover_of_tiled [⟨r6_0, p0⟩] S5000x64.size (by rfl) y

/-! ## The body's triple -/

set_option maxHeartbeats 1000000 in
/-- The kernel body on whole staging memrefs, the inputs' at read contents `xW` and the output's at anything, runs to
    the continuation holding the inputs' as they were and the output's at `out6_4` of the inputs'. -/
theorem sound_kernel6 (c : Dev nD) (E : Set ℕ) (i : grid6.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S64x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out6_4 x0 x1 x2 x3)) -∗ K ⟨⟩))
      ⊢ wp frame (wpE (defs₀ (F := F)) Variants.none c none) E (cc6__combine_linear_tanh_kernel i arg1 harg1 arg2 harg2 arg3 harg3 arg4 harg4 arg5 harg5) K := by
  simp only [cc6__combine_linear_tanh_kernel_eq_skeleton]; unfold cc6__combine_linear_tanh_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover6_4 _)

/-! ## The pipeline's proof data -/

/-- The proof data of pipeline 6 on core `c`: the arrays as the region finds them (`V`); after the body at point `t`
    each input's buffer at its block and the output's at `out6_4` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 (iblk6 V c 0 t) (iblk6 V c 1 t) (iblk6 V c 2 t) (iblk6 V c 3 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).Φ t.succ = (dat6 V c).Φ t.castSucc from rfl,
    show (dat6 V c).owesAt () t.succ = (dat6 V c).owesAt () t.castSucc from rfl,
    after6_0, after6_1, after6_2, after6_3, after6_4]
  iintro ⟨HΦ, Ho, ⟨%d0, H0⟩, ⟨%d1, H1⟩, ⟨%d2, H2⟩, ⟨%d3, H3⟩, ⟨%d4, H4⟩⟩
  iapply (sound_kernel6 c Set.univ (grid6.coords t) _ _ _ _ _ _ _ _ _ _ (iblk6 V c 0 t) (iblk6 V c 1 t) (iblk6 V c 2 t) (iblk6 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frm

end
-- ==== Proof.KReg7.lean ====
/- The per-region half of the frame proof for region 7 (custom_call 7, `cc7__linear_tanh_kernel`), at a PARAMETER `V`:
   the TensorCore's buffer contents when the region is entered. Each window's block at a point (`iblk7`), what the
   body leaves in the output window's staging buffer as the canon of its one whole-rectangle store over the input
   blocks (`out7_2`), the body's triple (`sound_kernel7`), the proof data (`dat7`) and the body obligation
   (`body_obligation7`). The body loads its output staging buffer before storing it whole: the loaded value is read by
   nothing, and the store overwrites every index, so what the buffer held before does not matter. -/
import proofs.«132860_j13426067767700_1_alg».proof.Proof.Gen.Kernel.Launch
import proofs.«132860_j13426067767700_1_alg».proof.Proof.Gen.Kernel.Skeleton
import proofs.«132860_j13426067767700_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block index
    has not moved, and the buffer still holds the previous point's block, which is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block index
    has not moved, and the buffer still holds the previous point's block, which is this point's. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

abbrev r7_0 : Rect S5000x64 := Rect.unit (s := S5000x64) ![0, 0] S5000x64.size inb_S5000x64_S5000x64_0_0
abbrev r7_1 : Rect S64x64 := Rect.unit (s := S64x64) ![0, 0] S64x64.size inb_S64x64_S64x64_0_0

/-! ## What the body leaves in the output window's buffer -/

/-- Window 2's staging buffer after the body, from the input windows' blocks: its one store, through the whole
    rectangle, of the payload over the loaded inputs. -/
def out7_2 (x0 : Vec F S5000x64 .f32) (x1 : Vec F S64x64 .f32) : Vec F S5000x64 .f32 :=
  View.canon [⟨r7_0, k7_pay1 (View.ld x0 r7_0) (View.ld x1 r7_1)⟩]

/-- The store's rectangle is the whole buffer, so it covers it. -/
theorem cover7_2 (p0 : Vec F S5000x64 .f32) (y : S5000x64.Idx) :
    ∃ pc ∈ ([⟨r7_0, p0⟩] : List (View.Piece (Elt F) S5000x64 .f32)), y ∈ pc.1.set :=
  View.cover_of_tiled [⟨r7_0, p0⟩] S5000x64.size (by rfl) y

/-! ## The body's triple -/

set_option maxHeartbeats 1000000 in
/-- The kernel body on whole staging memrefs, the inputs' at read contents `xW` and the output's at anything, runs to
    the continuation holding the inputs' as they were and the output's at `out7_2` of the inputs'. -/
theorem sound_kernel7 (c : Dev nD) (E : Set ℕ) (i : grid7.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__linear_tanh_kernel i arg1 harg1 arg2 harg2 arg3 harg3) K := by
  simp only [cc7__linear_tanh_kernel_eq_skeleton]; unfold cc7__linear_tanh_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-! ## The pipeline's proof data -/

/-- The proof data of pipeline 7 on core `c`: the arrays as the region finds them (`V`); after the body at point `t`
    each input's buffer at its block and the output's at `out7_2` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frm

end
-- ==== Proof.KRunDefs.lean ====
/-
  The valuations the program's segments thread, as named stages.  `S1` is the launch memory after the first host
  stretch; a region's exit stage is its entry stage with the region's result arrays replaced by what its pipeline
  wrote back (`L`: the fold of the points' blocks over the array); a host stretch's exit stage is the stretch folded
  over its entry stage.  The family `outs` records what each region leaves, and each stage is the generated
  valuation of the same index read through that family.
-/
import proofs.«132860_j13426067767700_1_alg».proof.Proof.Gen.Kernel.Regions
import proofs.«132860_j13426067767700_1_alg».proof.Proof.KReg0
import proofs.«132860_j13426067767700_1_alg».proof.Proof.KReg1
import proofs.«132860_j13426067767700_1_alg».proof.Proof.KReg2
import proofs.«132860_j13426067767700_1_alg».proof.Proof.KReg3
import proofs.«132860_j13426067767700_1_alg».proof.Proof.KReg4
import proofs.«132860_j13426067767700_1_alg».proof.Proof.KReg5
import proofs.«132860_j13426067767700_1_alg».proof.Proof.KReg6
import proofs.«132860_j13426067767700_1_alg».proof.Proof.KReg7

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The stages -/

/-- After the first host stretch: region 0's entry. -/
def S1 (c : Dev nD) : Valuation τ sig (Elt F) := V1 m c
/-- What region 0 leaves: its arrays at the pipeline's final contents, every other buffer as entered. -/
def L0 (c : Dev nD) : Valuation τ sig (Elt F) :=
  Pipeline.withArrays spec0 c (S1 m c) fun w => (dat0 (fun c b => S1 m c b) c).arrAt w cfg0.N
/-- Region 0's exit: its entry stage with its results written in. -/
def S2 (c : Dev nD) : Valuation τ sig (Elt F) :=
  Function.update (Function.update (S1 m c) main_v4_0 (L0 m c main_v4_0)) main_v4_1 (L0 m c main_v4_1)
/-- After the host stretch that follows region 0. -/
def S3 (c : Dev nD) : Valuation τ sig (Elt F) := StableHlo.after hostOps1 (S2 m c)
/-- What region 1 leaves: its arrays at the pipeline's final contents, every other buffer as entered. -/
def L1 (c : Dev nD) : Valuation τ sig (Elt F) :=
  Pipeline.withArrays spec1 c (S3 m c) fun w => (dat1 (fun c b => S3 m c b) c).arrAt w cfg1.N
/-- Region 1's exit: its entry stage with its result written in. -/
def S4 (c : Dev nD) : Valuation τ sig (Elt F) :=
  Function.update (S3 m c) main_v13 (L1 m c main_v13)
/-- After the host stretch that follows region 1. -/
def S5 (c : Dev nD) : Valuation τ sig (Elt F) := StableHlo.after hostOps2 (S4 m c)
/-- What region 2 leaves: its arrays at the pipeline's final contents, every other buffer as entered. -/
def L2 (c : Dev nD) : Valuation τ sig (Elt F) :=
  Pipeline.withArrays spec2 c (S5 m c) fun w => (dat2 (fun c b => S5 m c b) c).arrAt w cfg2.N
/-- Region 2's exit: its entry stage with its result written in. -/
def S6 (c : Dev nD) : Valuation τ sig (Elt F) :=
  Function.update (S5 m c) main_v25 (L2 m c main_v25)
/-- After the host stretch that follows region 2. -/
def S7 (c : Dev nD) : Valuation τ sig (Elt F) := StableHlo.after hostOps3 (S6 m c)
/-- What region 3 leaves: its arrays at the pipeline's final contents, every other buffer as entered. -/
def L3 (c : Dev nD) : Valuation τ sig (Elt F) :=
  Pipeline.withArrays spec3 c (S7 m c) fun w => (dat3 (fun c b => S7 m c b) c).arrAt w cfg3.N
/-- Region 3's exit: its entry stage with its result written in. -/
def S8 (c : Dev nD) : Valuation τ sig (Elt F) :=
  Function.update (S7 m c) main_v37 (L3 m c main_v37)
/-- After the host stretch that follows region 3. -/
def S9 (c : Dev nD) : Valuation τ sig (Elt F) := StableHlo.after hostOps4 (S8 m c)
/-- What region 4 leaves: its arrays at the pipeline's final contents, every other buffer as entered. -/
def L4 (c : Dev nD) : Valuation τ sig (Elt F) :=
  Pipeline.withArrays spec4 c (S9 m c) fun w => (dat4 (fun c b => S9 m c b) c).arrAt w cfg4.N
/-- Region 4's exit: its entry stage with its result written in. -/
def S10 (c : Dev nD) : Valuation τ sig (Elt F) :=
  Function.update (S9 m c) main_v49 (L4 m c main_v49)
/-- After the host stretch that follows region 4. -/
def S11 (c : Dev nD) : Valuation τ sig (Elt F) := StableHlo.after hostOps5 (S10 m c)
/-- What region 5 leaves: its arrays at the pipeline's final contents, every other buffer as entered. -/
def L5 (c : Dev nD) : Valuation τ sig (Elt F) :=
  Pipeline.withArrays spec5 c (S11 m c) fun w => (dat5 (fun c b => S11 m c b) c).arrAt w cfg5.N
/-- Region 5's exit: its entry stage with its result written in. -/
def S12 (c : Dev nD) : Valuation τ sig (Elt F) :=
  Function.update (S11 m c) main_v61 (L5 m c main_v61)
/-- After the host stretch that follows region 5. -/
def S13 (c : Dev nD) : Valuation τ sig (Elt F) := StableHlo.after hostOps6 (S12 m c)
/-- What region 6 leaves: its arrays at the pipeline's final contents, every other buffer as entered. -/
def L6 (c : Dev nD) : Valuation τ sig (Elt F) :=
  Pipeline.withArrays spec6 c (S13 m c) fun w => (dat6 (fun c b => S13 m c b) c).arrAt w cfg6.N
/-- Region 6's exit: its entry stage with its result written in. -/
def S14 (c : Dev nD) : Valuation τ sig (Elt F) :=
  Function.update (S13 m c) main_v73 (L6 m c main_v73)
/-- What region 7 leaves: its arrays at the pipeline's final contents, every other buffer as entered. -/
def L7 (c : Dev nD) : Valuation τ sig (Elt F) :=
  Pipeline.withArrays spec7 c (S14 m c) fun w => (dat7 (fun c b => S14 m c b) c).arrAt w cfg7.N
/-- Region 7's exit: its entry stage with its result written in. -/
def S15 (c : Dev nD) : Valuation τ sig (Elt F) :=
  Function.update (S14 m c) main_v74 (L7 m c main_v74)
/-- After the host stretch that follows region 7. -/
def S16 (c : Dev nD) : Valuation τ sig (Elt F) := StableHlo.after hostOps8 (S15 m c)

/-- What each region leaves, as the family the generated valuations are written over. -/
def outs : Outs (F := F) := fun J r c => match J with | 2 => L0 m c r | 4 => L1 m c r | 6 => L2 m c r | 8 => L3 m c r | 10 => L4 m c r | 12 => L5 m c r | 14 => L6 m c r | _ => L7 m c r

/-! ## Each stage is the generated valuation of its index -/

theorem S1_eq (c : Dev nD) : V1 m c = S1 m c := rfl
theorem S2_eq (c : Dev nD) : V2 m (outs m) c = S2 m c :=
  congrArg (fun W : Valuation τ sig (Elt F) => Function.update (Function.update W main_v4_0 (L0 m c main_v4_0)) main_v4_1 (L0 m c main_v4_1)) (S1_eq m c)
theorem S3_eq (c : Dev nD) : V3 m (outs m) c = S3 m c := congrArg (StableHlo.after hostOps1) (S2_eq m c)
theorem S4_eq (c : Dev nD) : V4 m (outs m) c = S4 m c :=
  congrArg (fun W : Valuation τ sig (Elt F) => Function.update W main_v13 (L1 m c main_v13)) (S3_eq m c)
theorem S5_eq (c : Dev nD) : V5 m (outs m) c = S5 m c := congrArg (StableHlo.after hostOps2) (S4_eq m c)
theorem S6_eq (c : Dev nD) : V6 m (outs m) c = S6 m c :=
  congrArg (fun W : Valuation τ sig (Elt F) => Function.update W main_v25 (L2 m c main_v25)) (S5_eq m c)
theorem S7_eq (c : Dev nD) : V7 m (outs m) c = S7 m c := congrArg (StableHlo.after hostOps3) (S6_eq m c)
theorem S8_eq (c : Dev nD) : V8 m (outs m) c = S8 m c :=
  congrArg (fun W : Valuation τ sig (Elt F) => Function.update W main_v37 (L3 m c main_v37)) (S7_eq m c)
theorem S9_eq (c : Dev nD) : V9 m (outs m) c = S9 m c := congrArg (StableHlo.after hostOps4) (S8_eq m c)
theorem S10_eq (c : Dev nD) : V10 m (outs m) c = S10 m c :=
  congrArg (fun W : Valuation τ sig (Elt F) => Function.update W main_v49 (L4 m c main_v49)) (S9_eq m c)
theorem S11_eq (c : Dev nD) : V11 m (outs m) c = S11 m c := congrArg (StableHlo.after hostOps5) (S10_eq m c)
theorem S12_eq (c : Dev nD) : V12 m (outs m) c = S12 m c :=
  congrArg (fun W : Valuation τ sig (Elt F) => Function.update W main_v61 (L5 m c main_v61)) (S11_eq m c)
theorem S13_eq (c : Dev nD) : V13 m (outs m) c = S13 m c := congrArg (StableHlo.after hostOps6) (S12_eq m c)
theorem S14_eq (c : Dev nD) : V14 m (outs m) c = S14 m c :=
  congrArg (fun W : Valuation τ sig (Elt F) => Function.update W main_v73 (L6 m c main_v73)) (S13_eq m c)
theorem S15_eq (c : Dev nD) : V15 m (outs m) c = S15 m c :=
  congrArg (fun W : Valuation τ sig (Elt F) => Function.update W main_v74 (L7 m c main_v74)) (S14_eq m c)
theorem S16_eq (c : Dev nD) : V16 m (outs m) c = S16 m c := congrArg (StableHlo.after hostOps8) (S15_eq m c)

/-- The same, read at the TensorCore's references, as the regions' proof data take their entry contents. -/
theorem stage1_fun : ((fun c b => S1 m c b) : (c : Dev nD) → (b : Ref sig .tc) → Buf (Elt F) ((c : Thread nD τ).loc b)) = ((fun c b => V1 m c b) : (c : Dev nD) → (b : Ref sig .tc) → Buf (Elt F) ((c : Thread nD τ).loc b)) :=
  funext fun c => funext fun b => (congrFun (S1_eq m c) b).symm
theorem stage3_fun : ((fun c b => S3 m c b) : (c : Dev nD) → (b : Ref sig .tc) → Buf (Elt F) ((c : Thread nD τ).loc b)) = ((fun c b => V3 m (outs m) c b) : (c : Dev nD) → (b : Ref sig .tc) → Buf (Elt F) ((c : Thread nD τ).loc b)) :=
  funext fun c => funext fun b => (congrFun (S3_eq m c) b).symm
theorem stage5_fun : ((fun c b => S5 m c b) : (c : Dev nD) → (b : Ref sig .tc) → Buf (Elt F) ((c : Thread nD τ).loc b)) = ((fun c b => V5 m (outs m) c b) : (c : Dev nD) → (b : Ref sig .tc) → Buf (Elt F) ((c : Thread nD τ).loc b)) :=
  funext fun c => funext fun b => (congrFun (S5_eq m c) b).symm
theorem stage7_fun : ((fun c b => S7 m c b) : (c : Dev nD) → (b : Ref sig .tc) → Buf (Elt F) ((c : Thread nD τ).loc b)) = ((fun c b => V7 m (outs m) c b) : (c : Dev nD) → (b : Ref sig .tc) → Buf (Elt F) ((c : Thread nD τ).loc b)) :=
  funext fun c => funext fun b => (congrFun (S7_eq m c) b).symm
theorem stage9_fun : ((fun c b => S9 m c b) : (c : Dev nD) → (b : Ref sig .tc) → Buf (Elt F) ((c : Thread nD τ).loc b)) = ((fun c b => V9 m (outs m) c b) : (c : Dev nD) → (b : Ref sig .tc) → Buf (Elt F) ((c : Thread nD τ).loc b)) :=
  funext fun c => funext fun b => (congrFun (S9_eq m c) b).symm
theorem stage11_fun : ((fun c b => S11 m c b) : (c : Dev nD) → (b : Ref sig .tc) → Buf (Elt F) ((c : Thread nD τ).loc b)) = ((fun c b => V11 m (outs m) c b) : (c : Dev nD) → (b : Ref sig .tc) → Buf (Elt F) ((c : Thread nD τ).loc b)) :=
  funext fun c => funext fun b => (congrFun (S11_eq m c) b).symm
theorem stage13_fun : ((fun c b => S13 m c b) : (c : Dev nD) → (b : Ref sig .tc) → Buf (Elt F) ((c : Thread nD τ).loc b)) = ((fun c b => V13 m (outs m) c b) : (c : Dev nD) → (b : Ref sig .tc) → Buf (Elt F) ((c : Thread nD τ).loc b)) :=
  funext fun c => funext fun b => (congrFun (S13_eq m c) b).symm
theorem stage14_fun : ((fun c b => S14 m c b) : (c : Dev nD) → (b : Ref sig .tc) → Buf (Elt F) ((c : Thread nD τ).loc b)) = ((fun c b => V14 m (outs m) c b) : (c : Dev nD) → (b : Ref sig .tc) → Buf (Elt F) ((c : Thread nD τ).loc b)) :=
  funext fun c => funext fun b => (congrFun (S14_eq m c) b).symm

/-! ## The proof data family -/

/-- Every pipeline's proof data, each at its region's entry stage. -/
def pdats : (p : Fin 8) → (c : Dev nD) → Dat τ (Elt F) Unit ℕ (UR sig nD τ) ℕ (cfgs p) c
  | ⟨0, _⟩ => fun c => dat0 (fun c b => S1 m c b) c
  | ⟨1, _⟩ => fun c => dat1 (fun c b => S3 m c b) c
  | ⟨2, _⟩ => fun c => dat2 (fun c b => S5 m c b) c
  | ⟨3, _⟩ => fun c => dat3 (fun c b => S7 m c b) c
  | ⟨4, _⟩ => fun c => dat4 (fun c b => S9 m c b) c
  | ⟨5, _⟩ => fun c => dat5 (fun c b => S11 m c b) c
  | ⟨6, _⟩ => fun c => dat6 (fun c b => S13 m c b) c
  | ⟨7, _⟩ => fun c => dat7 (fun c b => S14 m c b) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- Held buffers at equal valuations are the same thread state. -/
theorem held_of_eq {W W' : Valuation τ sig (Elt F)} (h : W = W') (c : Dev nD) :
    (iprop(StableHlo.held (c : Thread nD τ) (Pipeline.ucRefs τ sig) W ∗ R c) : sProp 𝕄) ⊢ iprop(StableHlo.held (c : Thread nD τ) (Pipeline.ucRefs τ sig) W' ∗ R c) :=
  h ▸ .rfl

end Cert.Kernel.Frm

end
-- ==== Proof.KRunReg0.lean ====
/-
  Region 0's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 0 -/

/-- The region's proof data is the literal one at its entry stage. -/
theorem pd0 (c : Dev nD) : pdats m 0 c = dat0 (fun c b => S1 m c b) c := rfl

/-- Region 0 leaves in `main_v4_0` what its pipeline wrote back through window 2. -/
theorem left0_2 (c : Dev nD) : L0 m c main_v4_0 = (pdats m 0 c).arrAt 2 cfg0.N := by
  unfold L0
  exact Pipeline.withArrays_arr spec0 launch0.win.arr_inj c (S1 m c) (fun w => (dat0 (fun c b => S1 m c b) c).arrAt w cfg0.N) 2
/-- Region 0 leaves in `main_v4_1` what its pipeline wrote back through window 3. -/
theorem left0_3 (c : Dev nD) : L0 m c main_v4_1 = (pdats m 0 c).arrAt 3 cfg0.N := by
  unfold L0
  exact Pipeline.withArrays_arr spec0 launch0.win.arr_inj c (S1 m c) (fun w => (dat0 (fun c b => S1 m c b) c).arrAt w cfg0.N) 3
theorem vout0_3 (c : Dev nD) : S2 m c main_v4_1 = L0 m c main_v4_1 := by
  unfold S2
  exact Function.update_self (Proc.devRef .tc main_v4_1 : DevRef τ sig) (L0 m c main_v4_1) (Function.update (S1 m c) (Proc.devRef .tc main_v4_0 : DevRef τ sig) (L0 m c main_v4_0))
theorem vout0_2 (c : Dev nD) : S2 m c main_v4_0 = L0 m c main_v4_0 := by
  unfold S2
  exact (Function.update_of_ne (StableHlo.devRef_ne_of_ne (by decide) : (Proc.devRef .tc main_v4_0 : DevRef τ sig) ≠ (Proc.devRef .tc main_v4_1 : DevRef τ sig)) (L0 m c main_v4_1) (Function.update (S1 m c) (Proc.devRef .tc main_v4_0 : DevRef τ sig) (L0 m c main_v4_0))).trans
    (Function.update_self (Proc.devRef .tc main_v4_0 : DevRef τ sig) (L0 m c main_v4_0) (S1 m c))
/-- A buffer other than the region's results is as the region found it. -/
theorem keep0 (c : Dev nD) (r : Ref sig .tc) (h0 : r ≠ main_v4_0) (h1 : r ≠ main_v4_1) : S2 m c r = S1 m c r := by
  unfold S2
  exact (Function.update_of_ne (StableHlo.devRef_ne_of_ne h1) (L0 m c main_v4_1) (Function.update (S1 m c) (Proc.devRef .tc main_v4_0 : DevRef τ sig) (L0 m c main_v4_0))).trans
    (Function.update_of_ne (StableHlo.devRef_ne_of_ne h0) (L0 m c main_v4_0) (S1 m c))
theorem hF0_0 (c : Dev nD) : (pdats m 0 c).arrAt 0 cfg0.N = S2 m c main_arg0 :=
  ((pdats m 0 c).arrAt_in 0 rfl cfg0.N).trans ((A_eq0 (fun c b => S1 m c b) c 0).trans (keep0 m c main_arg0 (by decide) (by decide)).symm)
theorem hF0_1 (c : Dev nD) : (pdats m 0 c).arrAt 1 cfg0.N = S2 m c main_arg1 :=
  ((pdats m 0 c).arrAt_in 1 rfl cfg0.N).trans ((A_eq0 (fun c b => S1 m c b) c 1).trans (keep0 m c main_arg1 (by decide) (by decide)).symm)
theorem hF0_2 (c : Dev nD) : (pdats m 0 c).arrAt 2 cfg0.N = S2 m c main_v4_0 :=
  (left0_2 m c).symm.trans (vout0_2 m c).symm
theorem hF0_3 (c : Dev nD) : (pdats m 0 c).arrAt 3 cfg0.N = S2 m c main_v4_1 :=
  (left0_3 m c).symm.trans (vout0_3 m c).symm
theorem hF0 (c : Dev nD) : ∀ w : Fin 4, (pdats m 0 c).arrAt w cfg0.N = S2 m c (Pipeline.arrRef spec0 w) := by
  intro w
  fin_cases w
  · exact hF0_0 m c
  · exact hF0_1 m c
  · exact hF0_2 m c
  · exact hF0_3 m c
theorem hrest0 (c : Dev nD) : ∀ b, b ∉ Finset.univ.image (Pipeline.arrRef spec0) → S2 m c b = S1 m c b :=
  fun b hb => keep0 m c b (fun e => hb (e ▸ Finset.mem_image.mpr ⟨2, Finset.mem_univ _, rfl⟩))
    (fun e => hb (e ▸ Finset.mem_image.mpr ⟨3, Finset.mem_univ _, rfl⟩))

set_option backward.isDefEq.respectTransparency.types false in
/-- Region 0 over the held buffers: entered at its entry stage, left at its exit stage. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => S1 m c b) c).loose
  hwaits := Pipeline.hwaits_of_owed_zero _ _ _ _ L lv 0 fun _ _ => rfl
  pre c := iprop(StableHlo.held (c : Thread nD τ) (Pipeline.ucRefs τ sig) (S1 m c) ∗ R c)
  post c := iprop(StableHlo.held (c : Thread nD τ) (Pipeline.ucRefs τ sig) (S2 m c) ∗ R c)
  X c := iprop(∃ r, prngReg c r)
  Y c := iprop(∃ r, prngReg c r)
  Z c := Pipeline.unscopedRest (Ix := Unit) (Name := ℕ) (U := UR sig nD τ) (Lvl := ℕ) spec0 c (fun b => S1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => S1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => S1 m c b) (fun b => S2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg1.lean ====
/-
  Region 1's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 1 -/

/-- The region's proof data is the literal one at its entry stage. -/
theorem pd1 (c : Dev nD) : pdats m 1 c = dat1 (fun c b => S3 m c b) c := rfl

/-- Region 1 leaves in `main_v13` what its pipeline wrote back through window 6. -/
theorem left1_6 (c : Dev nD) : L1 m c main_v13 = (pdats m 1 c).arrAt 6 cfg1.N := by
  unfold L1
  exact Pipeline.withArrays_arr spec1 launch1.win.arr_inj c (S3 m c) (fun w => (dat1 (fun c b => S3 m c b) c).arrAt w cfg1.N) 6
theorem vout1_6 (c : Dev nD) : S4 m c main_v13 = L1 m c main_v13 := by
  unfold S4
  exact Function.update_self (Proc.devRef .tc main_v13 : DevRef τ sig) (L1 m c main_v13) (S3 m c)
/-- A buffer other than the region's result is as the region found it. -/
theorem keep1 (c : Dev nD) (b : Ref sig .tc) (h : b ≠ main_v13) : S4 m c b = S3 m c b := by
  unfold S4
  exact Function.update_of_ne (StableHlo.devRef_ne_of_ne h) (L1 m c main_v13) (S3 m c)
theorem hF1_0 (c : Dev nD) : (pdats m 1 c).arrAt 0 cfg1.N = S4 m c main_arg0 :=
  ((pdats m 1 c).arrAt_in 0 rfl cfg1.N).trans ((A_eq1 (fun c b => S3 m c b) c 0).trans (keep1 m c main_arg0 (by decide)).symm)
theorem hF1_1 (c : Dev nD) : (pdats m 1 c).arrAt 1 cfg1.N = S4 m c main_arg1 :=
  ((pdats m 1 c).arrAt_in 1 rfl cfg1.N).trans ((A_eq1 (fun c b => S3 m c b) c 1).trans (keep1 m c main_arg1 (by decide)).symm)
theorem hF1_2 (c : Dev nD) : (pdats m 1 c).arrAt 2 cfg1.N = S4 m c main_v6 :=
  ((pdats m 1 c).arrAt_in 2 rfl cfg1.N).trans ((A_eq1 (fun c b => S3 m c b) c 2).trans (keep1 m c main_v6 (by decide)).symm)
theorem hF1_3 (c : Dev nD) : (pdats m 1 c).arrAt 3 cfg1.N = S4 m c main_v10 :=
  ((pdats m 1 c).arrAt_in 3 rfl cfg1.N).trans ((A_eq1 (fun c b => S3 m c b) c 3).trans (keep1 m c main_v10 (by decide)).symm)
theorem hF1_4 (c : Dev nD) : (pdats m 1 c).arrAt 4 cfg1.N = S4 m c main_v11 :=
  ((pdats m 1 c).arrAt_in 4 rfl cfg1.N).trans ((A_eq1 (fun c b => S3 m c b) c 4).trans (keep1 m c main_v11 (by decide)).symm)
theorem hF1_5 (c : Dev nD) : (pdats m 1 c).arrAt 5 cfg1.N = S4 m c main_v12 :=
  ((pdats m 1 c).arrAt_in 5 rfl cfg1.N).trans ((A_eq1 (fun c b => S3 m c b) c 5).trans (keep1 m c main_v12 (by decide)).symm)
theorem hF1_6 (c : Dev nD) : (pdats m 1 c).arrAt 6 cfg1.N = S4 m c main_v13 :=
  (left1_6 m c).symm.trans (vout1_6 m c).symm
theorem hF1 (c : Dev nD) : ∀ w : Fin 7, (pdats m 1 c).arrAt w cfg1.N = S4 m c (Pipeline.arrRef spec1 w) := by
  intro w
  fin_cases w
  · exact hF1_0 m c
  · exact hF1_1 m c
  · exact hF1_2 m c
  · exact hF1_3 m c
  · exact hF1_4 m c
  · exact hF1_5 m c
  · exact hF1_6 m c
theorem hrest1 (c : Dev nD) : ∀ b, b ∉ Finset.univ.image (Pipeline.arrRef spec1) → S4 m c b = S3 m c b :=
  fun b hb => keep1 m c b (fun e => hb (e ▸ Finset.mem_image.mpr ⟨6, Finset.mem_univ _, rfl⟩))

set_option backward.isDefEq.respectTransparency.types false in
/-- Region 1 over the held buffers: entered at its entry stage, left at its exit stage. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => S3 m c b) c).loose
  hwaits := Pipeline.hwaits_of_owed_zero _ _ _ _ L lv 1 fun _ _ => rfl
  pre c := iprop(StableHlo.held (c : Thread nD τ) (Pipeline.ucRefs τ sig) (S3 m c) ∗ R c)
  post c := iprop(StableHlo.held (c : Thread nD τ) (Pipeline.ucRefs τ sig) (S4 m c) ∗ R c)
  X c := iprop(∃ r, prngReg c r)
  Y c := iprop(∃ r, prngReg c r)
  Z c := Pipeline.unscopedRest (Ix := Unit) (Name := ℕ) (U := UR sig nD τ) (Lvl := ℕ) spec1 c (fun b => S3 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => S3 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => S3 m c b) (fun b => S4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg2.lean ====
/-
  Region 2's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 2 -/

/-- The region's proof data is the literal one at its entry stage. -/
theorem pd2 (c : Dev nD) : pdats m 2 c = dat2 (fun c b => S5 m c b) c := rfl

/-- Region 2 leaves in `main_v25` what its pipeline wrote back through window 4. -/
theorem left2_4 (c : Dev nD) : L2 m c main_v25 = (pdats m 2 c).arrAt 4 cfg2.N := by
  unfold L2
  exact Pipeline.withArrays_arr spec2 launch2.win.arr_inj c (S5 m c) (fun w => (dat2 (fun c b => S5 m c b) c).arrAt w cfg2.N) 4
theorem vout2_4 (c : Dev nD) : S6 m c main_v25 = L2 m c main_v25 := by
  unfold S6
  exact Function.update_self (Proc.devRef .tc main_v25 : DevRef τ sig) (L2 m c main_v25) (S5 m c)
/-- A buffer other than the region's result is as the region found it. -/
theorem keep2 (c : Dev nD) (b : Ref sig .tc) (h : b ≠ main_v25) : S6 m c b = S5 m c b := by
  unfold S6
  exact Function.update_of_ne (StableHlo.devRef_ne_of_ne h) (L2 m c main_v25) (S5 m c)
theorem hF2_0 (c : Dev nD) : (pdats m 2 c).arrAt 0 cfg2.N = S6 m c main_v13 :=
  ((pdats m 2 c).arrAt_in 0 rfl cfg2.N).trans ((A_eq2 (fun c b => S5 m c b) c 0).trans (keep2 m c main_v13 (by decide)).symm)
theorem hF2_1 (c : Dev nD) : (pdats m 2 c).arrAt 1 cfg2.N = S6 m c main_v23 :=
  ((pdats m 2 c).arrAt_in 1 rfl cfg2.N).trans ((A_eq2 (fun c b => S5 m c b) c 1).trans (keep2 m c main_v23 (by decide)).symm)
theorem hF2_2 (c : Dev nD) : (pdats m 2 c).arrAt 2 cfg2.N = S6 m c main_arg5 :=
  ((pdats m 2 c).arrAt_in 2 rfl cfg2.N).trans ((A_eq2 (fun c b => S5 m c b) c 2).trans (keep2 m c main_arg5 (by decide)).symm)
theorem hF2_3 (c : Dev nD) : (pdats m 2 c).arrAt 3 cfg2.N = S6 m c main_v24 :=
  ((pdats m 2 c).arrAt_in 3 rfl cfg2.N).trans ((A_eq2 (fun c b => S5 m c b) c 3).trans (keep2 m c main_v24 (by decide)).symm)
theorem hF2_4 (c : Dev nD) : (pdats m 2 c).arrAt 4 cfg2.N = S6 m c main_v25 :=
  (left2_4 m c).symm.trans (vout2_4 m c).symm
theorem hF2 (c : Dev nD) : ∀ w : Fin 5, (pdats m 2 c).arrAt w cfg2.N = S6 m c (Pipeline.arrRef spec2 w) := by
  intro w
  fin_cases w
  · exact hF2_0 m c
  · exact hF2_1 m c
  · exact hF2_2 m c
  · exact hF2_3 m c
  · exact hF2_4 m c
theorem hrest2 (c : Dev nD) : ∀ b, b ∉ Finset.univ.image (Pipeline.arrRef spec2) → S6 m c b = S5 m c b :=
  fun b hb => keep2 m c b (fun e => hb (e ▸ Finset.mem_image.mpr ⟨4, Finset.mem_univ _, rfl⟩))

set_option backward.isDefEq.respectTransparency.types false in
/-- Region 2 over the held buffers: entered at its entry stage, left at its exit stage. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => S5 m c b) c).loose
  hwaits := Pipeline.hwaits_of_owed_zero _ _ _ _ L lv 2 fun _ _ => rfl
  pre c := iprop(StableHlo.held (c : Thread nD τ) (Pipeline.ucRefs τ sig) (S5 m c) ∗ R c)
  post c := iprop(StableHlo.held (c : Thread nD τ) (Pipeline.ucRefs τ sig) (S6 m c) ∗ R c)
  X c := iprop(∃ r, prngReg c r)
  Y c := iprop(∃ r, prngReg c r)
  Z c := Pipeline.unscopedRest (Ix := Unit) (Name := ℕ) (U := UR sig nD τ) (Lvl := ℕ) spec2 c (fun b => S5 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => S5 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => S5 m c b) (fun b => S6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg3.lean ====
/-
  Region 3's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 3 -/

/-- The region's proof data is the literal one at its entry stage. -/
theorem pd3 (c : Dev nD) : pdats m 3 c = dat3 (fun c b => S7 m c b) c := rfl

/-- Region 3 leaves in `main_v37` what its pipeline wrote back through window 4. -/
theorem left3_4 (c : Dev nD) : L3 m c main_v37 = (pdats m 3 c).arrAt 4 cfg3.N := by
  unfold L3
  exact Pipeline.withArrays_arr spec3 launch3.win.arr_inj c (S7 m c) (fun w => (dat3 (fun c b => S7 m c b) c).arrAt w cfg3.N) 4
theorem vout3_4 (c : Dev nD) : S8 m c main_v37 = L3 m c main_v37 := by
  unfold S8
  exact Function.update_self (Proc.devRef .tc main_v37 : DevRef τ sig) (L3 m c main_v37) (S7 m c)
/-- A buffer other than the region's result is as the region found it. -/
theorem keep3 (c : Dev nD) (b : Ref sig .tc) (h : b ≠ main_v37) : S8 m c b = S7 m c b := by
  unfold S8
  exact Function.update_of_ne (StableHlo.devRef_ne_of_ne h) (L3 m c main_v37) (S7 m c)
theorem hF3_0 (c : Dev nD) : (pdats m 3 c).arrAt 0 cfg3.N = S8 m c main_v25 :=
  ((pdats m 3 c).arrAt_in 0 rfl cfg3.N).trans ((A_eq3 (fun c b => S7 m c b) c 0).trans (keep3 m c main_v25 (by decide)).symm)
theorem hF3_1 (c : Dev nD) : (pdats m 3 c).arrAt 1 cfg3.N = S8 m c main_v35 :=
  ((pdats m 3 c).arrAt_in 1 rfl cfg3.N).trans ((A_eq3 (fun c b => S7 m c b) c 1).trans (keep3 m c main_v35 (by decide)).symm)
theorem hF3_2 (c : Dev nD) : (pdats m 3 c).arrAt 2 cfg3.N = S8 m c main_arg7 :=
  ((pdats m 3 c).arrAt_in 2 rfl cfg3.N).trans ((A_eq3 (fun c b => S7 m c b) c 2).trans (keep3 m c main_arg7 (by decide)).symm)
theorem hF3_3 (c : Dev nD) : (pdats m 3 c).arrAt 3 cfg3.N = S8 m c main_v36 :=
  ((pdats m 3 c).arrAt_in 3 rfl cfg3.N).trans ((A_eq3 (fun c b => S7 m c b) c 3).trans (keep3 m c main_v36 (by decide)).symm)
theorem hF3_4 (c : Dev nD) : (pdats m 3 c).arrAt 4 cfg3.N = S8 m c main_v37 :=
  (left3_4 m c).symm.trans (vout3_4 m c).symm
theorem hF3 (c : Dev nD) : ∀ w : Fin 5, (pdats m 3 c).arrAt w cfg3.N = S8 m c (Pipeline.arrRef spec3 w) := by
  intro w
  fin_cases w
  · exact hF3_0 m c
  · exact hF3_1 m c
  · exact hF3_2 m c
  · exact hF3_3 m c
  · exact hF3_4 m c
theorem hrest3 (c : Dev nD) : ∀ b, b ∉ Finset.univ.image (Pipeline.arrRef spec3) → S8 m c b = S7 m c b :=
  fun b hb => keep3 m c b (fun e => hb (e ▸ Finset.mem_image.mpr ⟨4, Finset.mem_univ _, rfl⟩))

set_option backward.isDefEq.respectTransparency.types false in
/-- Region 3 over the held buffers: entered at its entry stage, left at its exit stage. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (fun c b => S7 m c b) c).loose
  hwaits := Pipeline.hwaits_of_owed_zero _ _ _ _ L lv 3 fun _ _ => rfl
  pre c := iprop(StableHlo.held (c : Thread nD τ) (Pipeline.ucRefs τ sig) (S7 m c) ∗ R c)
  post c := iprop(StableHlo.held (c : Thread nD τ) (Pipeline.ucRefs τ sig) (S8 m c) ∗ R c)
  X c := iprop(∃ r, prngReg c r)
  Y c := iprop(∃ r, prngReg c r)
  Z c := Pipeline.unscopedRest (Ix := Unit) (Name := ℕ) (U := UR sig nD τ) (Lvl := ℕ) spec3 c (fun b => S7 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => S7 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => S7 m c b) (fun b => S8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg4.lean ====
/-
  Region 4's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 4 -/

/-- The region's proof data is the literal one at its entry stage. -/
theorem pd4 (c : Dev nD) : pdats m 4 c = dat4 (fun c b => S9 m c b) c := rfl

/-- Region 4 leaves in `main_v49` what its pipeline wrote back through window 4. -/
theorem left4_4 (c : Dev nD) : L4 m c main_v49 = (pdats m 4 c).arrAt 4 cfg4.N := by
  unfold L4
  exact Pipeline.withArrays_arr spec4 launch4.win.arr_inj c (S9 m c) (fun w => (dat4 (fun c b => S9 m c b) c).arrAt w cfg4.N) 4
theorem vout4_4 (c : Dev nD) : S10 m c main_v49 = L4 m c main_v49 := by
  unfold S10
  exact Function.update_self (Proc.devRef .tc main_v49 : DevRef τ sig) (L4 m c main_v49) (S9 m c)
/-- A buffer other than the region's result is as the region found it. -/
theorem keep4 (c : Dev nD) (b : Ref sig .tc) (h : b ≠ main_v49) : S10 m c b = S9 m c b := by
  unfold S10
  exact Function.update_of_ne (StableHlo.devRef_ne_of_ne h) (L4 m c main_v49) (S9 m c)
theorem hF4_0 (c : Dev nD) : (pdats m 4 c).arrAt 0 cfg4.N = S10 m c main_v37 :=
  ((pdats m 4 c).arrAt_in 0 rfl cfg4.N).trans ((A_eq4 (fun c b => S9 m c b) c 0).trans (keep4 m c main_v37 (by decide)).symm)
theorem hF4_1 (c : Dev nD) : (pdats m 4 c).arrAt 1 cfg4.N = S10 m c main_v47 :=
  ((pdats m 4 c).arrAt_in 1 rfl cfg4.N).trans ((A_eq4 (fun c b => S9 m c b) c 1).trans (keep4 m c main_v47 (by decide)).symm)
theorem hF4_2 (c : Dev nD) : (pdats m 4 c).arrAt 2 cfg4.N = S10 m c main_arg9 :=
  ((pdats m 4 c).arrAt_in 2 rfl cfg4.N).trans ((A_eq4 (fun c b => S9 m c b) c 2).trans (keep4 m c main_arg9 (by decide)).symm)
theorem hF4_3 (c : Dev nD) : (pdats m 4 c).arrAt 3 cfg4.N = S10 m c main_v48 :=
  ((pdats m 4 c).arrAt_in 3 rfl cfg4.N).trans ((A_eq4 (fun c b => S9 m c b) c 3).trans (keep4 m c main_v48 (by decide)).symm)
theorem hF4_4 (c : Dev nD) : (pdats m 4 c).arrAt 4 cfg4.N = S10 m c main_v49 :=
  (left4_4 m c).symm.trans (vout4_4 m c).symm
theorem hF4 (c : Dev nD) : ∀ w : Fin 5, (pdats m 4 c).arrAt w cfg4.N = S10 m c (Pipeline.arrRef spec4 w) := by
  intro w
  fin_cases w
  · exact hF4_0 m c
  · exact hF4_1 m c
  · exact hF4_2 m c
  · exact hF4_3 m c
  · exact hF4_4 m c
theorem hrest4 (c : Dev nD) : ∀ b, b ∉ Finset.univ.image (Pipeline.arrRef spec4) → S10 m c b = S9 m c b :=
  fun b hb => keep4 m c b (fun e => hb (e ▸ Finset.mem_image.mpr ⟨4, Finset.mem_univ _, rfl⟩))

set_option backward.isDefEq.respectTransparency.types false in
/-- Region 4 over the held buffers: entered at its entry stage, left at its exit stage. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => S9 m c b) c).loose
  hwaits := Pipeline.hwaits_of_owed_zero _ _ _ _ L lv 4 fun _ _ => rfl
  pre c := iprop(StableHlo.held (c : Thread nD τ) (Pipeline.ucRefs τ sig) (S9 m c) ∗ R c)
  post c := iprop(StableHlo.held (c : Thread nD τ) (Pipeline.ucRefs τ sig) (S10 m c) ∗ R c)
  X c := iprop(∃ r, prngReg c r)
  Y c := iprop(∃ r, prngReg c r)
  Z c := Pipeline.unscopedRest (Ix := Unit) (Name := ℕ) (U := UR sig nD τ) (Lvl := ℕ) spec4 c (fun b => S9 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b => S9 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b => S9 m c b) (fun b => S10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg5.lean ====
/-
  Region 5's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 5 -/

/-- The region's proof data is the literal one at its entry stage. -/
theorem pd5 (c : Dev nD) : pdats m 5 c = dat5 (fun c b => S11 m c b) c := rfl

/-- Region 5 leaves in `main_v61` what its pipeline wrote back through window 4. -/
theorem left5_4 (c : Dev nD) : L5 m c main_v61 = (pdats m 5 c).arrAt 4 cfg5.N := by
  unfold L5
  exact Pipeline.withArrays_arr spec5 launch5.win.arr_inj c (S11 m c) (fun w => (dat5 (fun c b => S11 m c b) c).arrAt w cfg5.N) 4
theorem vout5_4 (c : Dev nD) : S12 m c main_v61 = L5 m c main_v61 := by
  unfold S12
  exact Function.update_self (Proc.devRef .tc main_v61 : DevRef τ sig) (L5 m c main_v61) (S11 m c)
/-- A buffer other than the region's result is as the region found it. -/
theorem keep5 (c : Dev nD) (b : Ref sig .tc) (h : b ≠ main_v61) : S12 m c b = S11 m c b := by
  unfold S12
  exact Function.update_of_ne (StableHlo.devRef_ne_of_ne h) (L5 m c main_v61) (S11 m c)
theorem hF5_0 (c : Dev nD) : (pdats m 5 c).arrAt 0 cfg5.N = S12 m c main_v49 :=
  ((pdats m 5 c).arrAt_in 0 rfl cfg5.N).trans ((A_eq5 (fun c b => S11 m c b) c 0).trans (keep5 m c main_v49 (by decide)).symm)
theorem hF5_1 (c : Dev nD) : (pdats m 5 c).arrAt 1 cfg5.N = S12 m c main_v59 :=
  ((pdats m 5 c).arrAt_in 1 rfl cfg5.N).trans ((A_eq5 (fun c b => S11 m c b) c 1).trans (keep5 m c main_v59 (by decide)).symm)
theorem hF5_2 (c : Dev nD) : (pdats m 5 c).arrAt 2 cfg5.N = S12 m c main_arg11 :=
  ((pdats m 5 c).arrAt_in 2 rfl cfg5.N).trans ((A_eq5 (fun c b => S11 m c b) c 2).trans (keep5 m c main_arg11 (by decide)).symm)
theorem hF5_3 (c : Dev nD) : (pdats m 5 c).arrAt 3 cfg5.N = S12 m c main_v60 :=
  ((pdats m 5 c).arrAt_in 3 rfl cfg5.N).trans ((A_eq5 (fun c b => S11 m c b) c 3).trans (keep5 m c main_v60 (by decide)).symm)
theorem hF5_4 (c : Dev nD) : (pdats m 5 c).arrAt 4 cfg5.N = S12 m c main_v61 :=
  (left5_4 m c).symm.trans (vout5_4 m c).symm
theorem hF5 (c : Dev nD) : ∀ w : Fin 5, (pdats m 5 c).arrAt w cfg5.N = S12 m c (Pipeline.arrRef spec5 w) := by
  intro w
  fin_cases w
  · exact hF5_0 m c
  · exact hF5_1 m c
  · exact hF5_2 m c
  · exact hF5_3 m c
  · exact hF5_4 m c
theorem hrest5 (c : Dev nD) : ∀ b, b ∉ Finset.univ.image (Pipeline.arrRef spec5) → S12 m c b = S11 m c b :=
  fun b hb => keep5 m c b (fun e => hb (e ▸ Finset.mem_image.mpr ⟨4, Finset.mem_univ _, rfl⟩))

set_option backward.isDefEq.respectTransparency.types false in
/-- Region 5 over the held buffers: entered at its entry stage, left at its exit stage. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (fun c b => S11 m c b) c).loose
  hwaits := Pipeline.hwaits_of_owed_zero _ _ _ _ L lv 5 fun _ _ => rfl
  pre c := iprop(StableHlo.held (c : Thread nD τ) (Pipeline.ucRefs τ sig) (S11 m c) ∗ R c)
  post c := iprop(StableHlo.held (c : Thread nD τ) (Pipeline.ucRefs τ sig) (S12 m c) ∗ R c)
  X c := iprop(∃ r, prngReg c r)
  Y c := iprop(∃ r, prngReg c r)
  Z c := Pipeline.unscopedRest (Ix := Unit) (Name := ℕ) (U := UR sig nD τ) (Lvl := ℕ) spec5 c (fun b => S11 m c b)
  hentry c := by
    rw [Pipeline.ownSems0_none]
    have hsplit := Pipeline.arrays_of_unscopedBufs (p := 5) (pcfgs (F := F)) adm (pdats m) launch5.win launch5.arr_whole c
      ((pdats m 5 c).share_full fun _ => rfl) (fun b => S11 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (fun b => S11 m c b) (fun b => S12 m c b) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg6.lean ====
/-
  Region 6's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 6 -/

/-- The region's proof data is the literal one at its entry stage. -/
theorem pd6 (c : Dev nD) : pdats m 6 c = dat6 (fun c b => S13 m c b) c := rfl

/-- Region 6 leaves in `main_v73` what its pipeline wrote back through window 4. -/
theorem left6_4 (c : Dev nD) : L6 m c main_v73 = (pdats m 6 c).arrAt 4 cfg6.N := by
  unfold L6
  exact Pipeline.withArrays_arr spec6 launch6.win.arr_inj c (S13 m c) (fun w => (dat6 (fun c b => S13 m c b) c).arrAt w cfg6.N) 4
theorem vout6_4 (c : Dev nD) : S14 m c main_v73 = L6 m c main_v73 := by
  unfold S14
  exact Function.update_self (Proc.devRef .tc main_v73 : DevRef τ sig) (L6 m c main_v73) (S13 m c)
/-- A buffer other than the region's result is as the region found it. -/
theorem keep6 (c : Dev nD) (b : Ref sig .tc) (h : b ≠ main_v73) : S14 m c b = S13 m c b := by
  unfold S14
  exact Function.update_of_ne (StableHlo.devRef_ne_of_ne h) (L6 m c main_v73) (S13 m c)
theorem hF6_0 (c : Dev nD) : (pdats m 6 c).arrAt 0 cfg6.N = S14 m c main_v61 :=
  ((pdats m 6 c).arrAt_in 0 rfl cfg6.N).trans ((A_eq6 (fun c b => S13 m c b) c 0).trans (keep6 m c main_v61 (by decide)).symm)
theorem hF6_1 (c : Dev nD) : (pdats m 6 c).arrAt 1 cfg6.N = S14 m c main_v71 :=
  ((pdats m 6 c).arrAt_in 1 rfl cfg6.N).trans ((A_eq6 (fun c b => S13 m c b) c 1).trans (keep6 m c main_v71 (by decide)).symm)
theorem hF6_2 (c : Dev nD) : (pdats m 6 c).arrAt 2 cfg6.N = S14 m c main_arg13 :=
  ((pdats m 6 c).arrAt_in 2 rfl cfg6.N).trans ((A_eq6 (fun c b => S13 m c b) c 2).trans (keep6 m c main_arg13 (by decide)).symm)
theorem hF6_3 (c : Dev nD) : (pdats m 6 c).arrAt 3 cfg6.N = S14 m c main_v72 :=
  ((pdats m 6 c).arrAt_in 3 rfl cfg6.N).trans ((A_eq6 (fun c b => S13 m c b) c 3).trans (keep6 m c main_v72 (by decide)).symm)
theorem hF6_4 (c : Dev nD) : (pdats m 6 c).arrAt 4 cfg6.N = S14 m c main_v73 :=
  (left6_4 m c).symm.trans (vout6_4 m c).symm
theorem hF6 (c : Dev nD) : ∀ w : Fin 5, (pdats m 6 c).arrAt w cfg6.N = S14 m c (Pipeline.arrRef spec6 w) := by
  intro w
  fin_cases w
  · exact hF6_0 m c
  · exact hF6_1 m c
  · exact hF6_2 m c
  · exact hF6_3 m c
  · exact hF6_4 m c
theorem hrest6 (c : Dev nD) : ∀ b, b ∉ Finset.univ.image (Pipeline.arrRef spec6) → S14 m c b = S13 m c b :=
  fun b hb => keep6 m c b (fun e => hb (e ▸ Finset.mem_image.mpr ⟨4, Finset.mem_univ _, rfl⟩))

set_option backward.isDefEq.respectTransparency.types false in
/-- Region 6 over the held buffers: entered at its entry stage, left at its exit stage. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => S13 m c b) c).loose
  hwaits := Pipeline.hwaits_of_owed_zero _ _ _ _ L lv 6 fun _ _ => rfl
  pre c := iprop(StableHlo.held (c : Thread nD τ) (Pipeline.ucRefs τ sig) (S13 m c) ∗ R c)
  post c := iprop(StableHlo.held (c : Thread nD τ) (Pipeline.ucRefs τ sig) (S14 m c) ∗ R c)
  X c := iprop(∃ r, prngReg c r)
  Y c := iprop(∃ r, prngReg c r)
  Z c := Pipeline.unscopedRest (Ix := Unit) (Name := ℕ) (U := UR sig nD τ) (Lvl := ℕ) spec6 c (fun b => S13 m c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b => S13 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b => S13 m c b) (fun b => S14 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunReg7.lean ====
/-
  Region 7's record over the held buffers: its windows' arrays are split out of the buffers held at its entry stage, the pipeline runs against the region's proof data, and the arrays go back at its exit stage — the region's results at what the pipeline wrote back, every other buffer as found.
-/
import proofs.«132860_j13426067767700_1_alg».proof.Proof.KRunDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## Region 7 -/

/-- The region's proof data is the literal one at its entry stage. -/
theorem pd7 (c : Dev nD) : pdats m 7 c = dat7 (fun c b => S14 m c b) c := rfl

/-- Region 7 leaves in `main_v74` what its pipeline wrote back through window 2. -/
theorem left7_2 (c : Dev nD) : L7 m c main_v74 = (pdats m 7 c).arrAt 2 cfg7.N := by
  unfold L7
  exact Pipeline.withArrays_arr spec7 launch7.win.arr_inj c (S14 m c) (fun w => (dat7 (fun c b => S14 m c b) c).arrAt w cfg7.N) 2
theorem vout7_2 (c : Dev nD) : S15 m c main_v74 = L7 m c main_v74 := by
  unfold S15
  exact Function.update_self (Proc.devRef .tc main_v74 : DevRef τ sig) (L7 m c main_v74) (S14 m c)
/-- A buffer other than the region's result is as the region found it. -/
theorem keep7 (c : Dev nD) (b : Ref sig .tc) (h : b ≠ main_v74) : S15 m c b = S14 m c b := by
  unfold S15
  exact Function.update_of_ne (StableHlo.devRef_ne_of_ne h) (L7 m c main_v74) (S14 m c)
theorem hF7_0 (c : Dev nD) : (pdats m 7 c).arrAt 0 cfg7.N = S15 m c main_v73 :=
  ((pdats m 7 c).arrAt_in 0 rfl cfg7.N).trans ((A_eq7 (fun c b => S14 m c b) c 0).trans (keep7 m c main_v73 (by decide)).symm)
theorem hF7_1 (c : Dev nD) : (pdats m 7 c).arrAt 1 cfg7.N = S15 m c main_arg15 :=
  ((pdats m 7 c).arrAt_in 1 rfl cfg7.N).trans ((A_eq7 (fun c b => S14 m c b) c 1).trans (keep7 m c main_arg15 (by decide)).symm)
theorem hF7_2 (c : Dev nD) : (pdats m 7 c).arrAt 2 cfg7.N = S15 m c main_v74 :=
  (left7_2 m c).symm.trans (vout7_2 m c).symm
theorem hF7 (c : Dev nD) : ∀ w : Fin 3, (pdats m 7 c).arrAt w cfg7.N = S15 m c (Pipeline.arrRef spec7 w) := by
  intro w
  fin_cases w
  · exact hF7_0 m c
  · exact hF7_1 m c
  · exact hF7_2 m c
theorem hrest7 (c : Dev nD) : ∀ b, b ∉ Finset.univ.image (Pipeline.arrRef spec7) → S15 m c b = S14 m c b :=
  fun b hb => keep7 m c b (fun e => hb (e ▸ Finset.mem_image.mpr ⟨2, Finset.mem_univ _, rfl⟩))

set_option backward.isDefEq.respectTransparency.types false in
/-- Region 7 over the held buffers: entered at its entry stage, left at its exit stage. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (fun c b => S14 m c b) c).loose
  hwaits := Pipeline.hwaits_of_owed_zero _ _ _ _ L lv 7 fun _ _ => rfl
  pre c := iprop(StableHlo.held (c : Thread nD τ) (Pipeline.ucRefs τ sig) (S14 m c) ∗ R c)
  post c := iprop(StableHlo.held (c : Thread nD τ) (Pipeline.ucRefs τ sig) (S15 m c) ∗ R c)
  X c := iprop(∃ r, prngReg c r)
  Y c := iprop(∃ r, prngReg c r)
  Z c := Pipeline.unscopedRest (Ix := Unit) (Name := ℕ) (U := UR sig nD τ) (Lvl := ℕ) spec7 c (fun b => S14 m c b)
  hentry c := by
    rw [Pipeline.ownSems0_none]
    have hsplit := Pipeline.arrays_of_unscopedBufs (p := 7) (pcfgs (F := F)) adm (pdats m) launch7.win launch7.arr_whole c
      ((pdats m 7 c).share_full fun _ => rfl) (fun b => S14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (fun b => S14 m c b) (fun b => S15 m c b) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frm

end
-- ==== Proof.KRunMain.lean ====
/-
  The run of the whole program from the eight regions' records: every weakly fair execution ends with each buffer that outlives the kernels at the last valuation; the argument buffers are read off it unchanged.
-/
import proofs.«132860_j13426067767700_1_alg».proof.Proof.KRunCond
import proofs.«132860_j13426067767700_1_alg».proof.Proof.KRunReg0
import proofs.«132860_j13426067767700_1_alg».proof.Proof.KRunReg1
import proofs.«132860_j13426067767700_1_alg».proof.Proof.KRunReg2
import proofs.«132860_j13426067767700_1_alg».proof.Proof.KRunReg3
import proofs.«132860_j13426067767700_1_alg».proof.Proof.KRunReg4
import proofs.«132860_j13426067767700_1_alg».proof.Proof.KRunReg5
import proofs.«132860_j13426067767700_1_alg».proof.Proof.KRunReg6
import proofs.«132860_j13426067767700_1_alg».proof.Proof.KRunReg7

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The run -/

variable (ρ : Dev nD → PrngReg)

set_option backward.isDefEq.respectTransparency.types false in
/-- Every weakly fair execution of the program from memory `m` ends, nothing faulting, with every buffer that
    outlives the kernels at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V16 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => held_of_eq (S1_eq m c) c) (fun c => held_of_eq (S2_eq m c).symm c)
    (reg1 m) (fun c => held_of_eq (S3_eq m c) c) (fun c => held_of_eq (S4_eq m c).symm c)
    (reg2 m) (fun c => held_of_eq (S5_eq m c) c) (fun c => held_of_eq (S6_eq m c).symm c)
    (reg3 m) (fun c => held_of_eq (S7_eq m c) c) (fun c => held_of_eq (S8_eq m c).symm c)
    (reg4 m) (fun c => held_of_eq (S9_eq m c) c) (fun c => held_of_eq (S10_eq m c).symm c)
    (reg5 m) (fun c => held_of_eq (S11_eq m c) c) (fun c => held_of_eq (S12_eq m c).symm c)
    (reg6 m) (fun c => held_of_eq (S13_eq m c) c) (fun c => held_of_eq (S14_eq m c).symm c)
    (reg7 m) (fun c => held_of_eq (S14_eq m c) c) (fun c => held_of_eq (S15_eq m c).symm c)

/-- An unscoped TensorCore reference is among those the run holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the argument arrays end as launched (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)) :=
  (θ_run defs _ _).mono (fun r h c => ⟨(h c _ (mem_uc main_arg0 (by decide))).trans (V16_main_arg0 m (outs m) c),
    (h c _ (mem_uc main_arg1 (by decide))).trans (V16_main_arg1 m (outs m) c),
    (h c _ (mem_uc main_arg2 (by decide))).trans (V16_main_arg2 m (outs m) c),
    (h c _ (mem_uc main_arg3 (by decide))).trans (V16_main_arg3 m (outs m) c),
    (h c _ (mem_uc main_arg4 (by decide))).trans (V16_main_arg4 m (outs m) c),
    (h c _ (mem_uc main_arg5 (by decide))).trans (V16_main_arg5 m (outs m) c),
    (h c _ (mem_uc main_arg6 (by decide))).trans (V16_main_arg6 m (outs m) c),
    (h c _ (mem_uc main_arg7 (by decide))).trans (V16_main_arg7 m (outs m) c),
    (h c _ (mem_uc main_arg8 (by decide))).trans (V16_main_arg8 m (outs m) c),
    (h c _ (mem_uc main_arg9 (by decide))).trans (V16_main_arg9 m (outs m) c),
    (h c _ (mem_uc main_arg10 (by decide))).trans (V16_main_arg10 m (outs m) c),
    (h c _ (mem_uc main_arg11 (by decide))).trans (V16_main_arg11 m (outs m) c),
    (h c _ (mem_uc main_arg12 (by decide))).trans (V16_main_arg12 m (outs m) c),
    (h c _ (mem_uc main_arg13 (by decide))).trans (V16_main_arg13 m (outs m) c),
    (h c _ (mem_uc main_arg14 (by decide))).trans (V16_main_arg14 m (outs m) c),
    (h c _ (mem_uc main_arg15 (by decide))).trans (V16_main_arg15 m (outs m) c)⟩)
    (run_main m ρ)

end Cert.Kernel.Frm

end
-- ==== Proof.Spec.lean ====
/-
  The mathematics of the certificate, stated once over plain index functions into the extended reals and
  importing no program.  A node feature matrix `X` (rows = nodes) is scaled row-wise by an importance
  column, normalised column-wise by its batch statistics, and pushed through graph layers
  `h ↦ tanh ((h + A h) · W + b)`, where `A h` is the neighbour sum (opaque here: both programs compute it
  by the same host operations).  The two programs differ in how they take the column variance — the mean of
  squares minus the squared mean against the mean of squared deviations — and in the order in which the
  row sums are grouped; both differences vanish over finite entries.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- A matrix and a vector of extended reals, indexed as the printed shapes index them. -/
abbrev Arr2 (n k : ℕ) : Type := (⟨2, ![n, k]⟩ : Shape).Idx → EReal
abbrev Arr1 (n : ℕ) : Type := (⟨1, ![n]⟩ : Shape).Idx → EReal

/-- The row count as both programs spell it (the f32 word of 100000.0), and the variance offset (the f32 word
    nearest 1e-5).  Only the first is ever evaluated. -/
def cnt : EReal := Ideal.ofBits .f32 0x47C35000#32
def eps : EReal := Ideal.ofBits .f32 0x3727C5AC#32

variable {n k o : ℕ}

/-- Each row of `X` times that row's importance. -/
def scaled (X : Arr2 n k) (imp : Arr2 n 1) : Arr2 n k := fun i => X i * imp (ix2 (i 0) 0)

/-- The sum of column `j` over all rows. -/
def colSum (x : Arr2 n k) (j : Fin k) : EReal := ∑ r : Fin n, x (ix2 r j)

/-- The column mean. -/
def mean (x : Arr2 n k) (j : Fin k) : EReal := Ideal.div (colSum x j) cnt

/-- The column variance as mean of squares minus squared mean. -/
def varMoments (x : Arr2 n k) (j : Fin k) : EReal :=
  Ideal.div (colSum (fun i => x i * x i) j) cnt - mean x j * mean x j

/-- The column variance as mean of squared deviations from the mean. -/
def varCentered (x : Arr2 n k) (j : Fin k) : EReal :=
  Ideal.div (colSum (fun i => (x i - mean x (i 1)) * (x i - mean x (i 1))) j) cnt

/-- Column-wise normalisation with scale `gamma` and shift `beta`. -/
def normalize (x : Arr2 n k) (mu var : Fin k → EReal) (gamma beta : Arr1 k) : Arr2 n k :=
  fun i => (x i - mu (i 1)) * Ideal.rsqrt (var (i 1) + eps) * gamma (ix1 (i 1)) + beta (ix1 (i 1))

/-- One graph layer: `tanh ((h + agg) · W + b)`, entry by entry. -/
def layer (h agg : Arr2 n k) (W : Arr2 k o) (b : Arr1 o) : Arr2 n o :=
  fun i => Ideal.tanh ((∑ κ : Fin k, (h (ix2 (i 0) κ) + agg (ix2 (i 0) κ)) * W (ix2 κ (i 1))) + b (ix1 (i 1)))

/-- The last projection: `tanh (h · W)`. -/
def proj (h : Arr2 n k) (W : Arr2 k o) : Arr2 n o :=
  fun i => Ideal.tanh (∑ κ : Fin k, h (ix2 (i 0) κ) * W (ix2 κ (i 1)))

end Cert.Spec

end
-- ==== Proof.SpecLaws.lean ====
/-
  Laws of the specification's functions over the extended reals: the row count's value, the two spellings of the
  column variance agree on finite entries, a column sum regroups into twenty blocks of five thousand rows, a running
  sum is the sum, and finiteness is kept by products and finite sums.
-/
import proofs.«132860_j13426067767700_1_alg».proof.Proof.Spec
import Mathlib.Algebra.BigOperators.Fin
import Mathlib.Algebra.BigOperators.Ring.Finset
import Mathlib.Logic.Equiv.Fin.Basic
import Mathlib.Tactic.Ring
import Mathlib.Tactic.FieldSimp
import Mathlib.Tactic.NormNum
import Mathlib.Tactic.Linarith

noncomputable section

namespace Cert.Spec

open Idealize.ShloMosaic Idealize.ShloMosaic.ValueIdx
open scoped BigOperators

/-- The row count's word denotes one hundred thousand. -/
theorem cnt_eq : cnt = ((100000 : ℝ) : EReal) := by
  unfold cnt
  simp [Ideal.ofBits, Ideal.ieee, -EReal.coe_mul]; norm_num

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coordinates of an index built from coordinates. -/
theorem ix2_zero {n0 n1 : ℕ} (a : Fin n0) (b : Fin n1) : (ix2 a b) 0 = a := rfl
theorem ix2_one {n0 n1 : ℕ} (a : Fin n0) (b : Fin n1) : (ix2 a b) 1 = b := rfl

/-! ## Finiteness -/

/-- A product of finite extended reals is finite. -/
theorem finite_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- A sum of two finite extended reals is finite. -/
theorem finite_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- A difference of two finite extended reals is finite. -/
theorem finite_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- A finite sum of finite extended reals is finite. -/
theorem finite_finset_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-- A sum of finite extended reals over a finite index type is finite. -/
theorem finite_sum {ι : Type*} [Fintype ι] {f : ι → EReal} (hf : ∀ i, ∃ r : ℝ, f i = (r : EReal)) :
    ∃ r : ℝ, ∑ i, f i = (r : EReal) := finite_finset_sum Finset.univ hf

/-- The hyperbolic tangent of a finite extended real is finite. -/
theorem finite_tanh {a : EReal} (ha : ∃ r : ℝ, a = (r : EReal)) : ∃ r : ℝ, Ideal.tanh a = (r : EReal) := by
  obtain ⟨r, rfl⟩ := ha; exact ⟨Real.tanh r, rfl⟩

/-- A finite extended real over the row count is finite. -/
theorem finite_div_cnt {a : EReal} (ha : ∃ r : ℝ, a = (r : EReal)) : ∃ r : ℝ, Ideal.div a cnt = (r : EReal) := by
  obtain ⟨r, rfl⟩ := ha
  exact ⟨r * (1 / 100000), by rw [cnt_eq, Ideal.div_coe (by norm_num), EReal.coe_mul]⟩

/-- A column sum of a matrix of finite entries is finite. -/
theorem finite_colSum {n k : ℕ} {x : Arr2 n k} (hx : ∀ i, ∃ r : ℝ, x i = (r : EReal)) (j : Fin k) :
    ∃ r : ℝ, colSum x j = (r : EReal) := finite_sum (fun r => hx (ix2 r j))

/-- A column mean of a matrix of finite entries is finite. -/
theorem finite_mean {n k : ℕ} {x : Arr2 n k} (hx : ∀ i, ∃ r : ℝ, x i = (r : EReal)) (j : Fin k) :
    ∃ r : ℝ, mean x j = (r : EReal) := finite_div_cnt (finite_colSum hx j)

/-! ## The two variances -/

/-- Over the reals: the mean of squares minus the squared mean is the mean of squared deviations from the mean. -/
theorem real_var_identity {ι : Type*} (s : Finset ι) (f : ι → ℝ) (n : ℝ) (hn : n ≠ 0) (hcard : (s.card : ℝ) = n) :
    (∑ a ∈ s, f a * f a) * (1 / n) - ((∑ a ∈ s, f a) * (1 / n)) * ((∑ a ∈ s, f a) * (1 / n)) =
      (∑ a ∈ s, (f a - (∑ a ∈ s, f a) * (1 / n)) * (f a - (∑ a ∈ s, f a) * (1 / n))) * (1 / n) := by
  have hS : ∑ a ∈ s, f a = n * ((∑ a ∈ s, f a) * (1 / n)) := by field_simp
  generalize (∑ a ∈ s, f a) * (1 / n) = μ at hS ⊢
  have h1 : ∑ a ∈ s, (f a - μ) * (f a - μ)
      = (∑ a ∈ s, f a * f a) - 2 * μ * (∑ a ∈ s, f a) + s.card * (μ * μ) := by
    have : ∀ a, (f a - μ) * (f a - μ) = f a * f a - 2 * μ * f a + μ * μ := fun a => by ring
    simp only [this, Finset.sum_add_distrib, Finset.sum_sub_distrib, ← Finset.mul_sum, Finset.sum_const, nsmul_eq_mul]
    ring
  rw [h1, hS, hcard]
  field_simp
  ring

/-- On finite entries the two spellings of the column variance agree. -/
theorem var_eq {k : ℕ} (x : Arr2 100000 k) (hx : ∀ i, ∃ r : ℝ, x i = (r : EReal)) (j : Fin k) :
    varMoments x j = varCentered x j := by
  choose r hr using hx
  obtain rfl : x = fun i => (r i : EReal) := funext hr
  have hc : (100000 : ℝ) ≠ 0 := by norm_num
  have hmean : ∀ j' : Fin k, mean (fun i => (r i : EReal)) j'
      = (((∑ a : Fin 100000, r (ix2 a j')) * (1 / 100000) : ℝ) : EReal) := by
    intro j'
    unfold mean colSum
    rw [cnt_eq, Ideal.div_coe hc, ← coe_sum, ← EReal.coe_mul]
  unfold varMoments varCentered colSum
  simp only [ix2_one]
  simp only [hmean]
  rw [cnt_eq, Ideal.div_coe hc, Ideal.div_coe hc]
  simp only [← EReal.coe_mul, ← EReal.coe_sub, ← coe_sum]
  rw [real_var_identity Finset.univ (fun a : Fin 100000 => r (ix2 a j)) 100000 hc (by simp)]

/-! ## Regrouping a sum -/

/-- A sum over `m * n` indices is the sum over `m` blocks of the sums over each block's `n` indices. -/
theorem sum_blocks {M : Type*} [AddCommMonoid M] {N : ℕ} (m n : ℕ) (hN : N = m * n) (f : Fin N → M) :
    ∑ r, f r = ∑ t : Fin m, ∑ y : Fin n, f ⟨t.val * n + y.val, by
      subst hN
      exact Nat.lt_of_lt_of_le (Nat.add_lt_add_left y.isLt _)
        (by rw [← Nat.succ_mul]; exact Nat.mul_le_mul_right _ t.isLt)⟩ := by
  subst hN
  rw [← Equiv.sum_comp finProdFinEquiv f, Fintype.sum_prod_type]
  refine Finset.sum_congr rfl (fun t _ => Finset.sum_congr rfl (fun y _ => ?_))
  congr 1
  refine Fin.ext ?_
  simp [finProdFinEquiv, Nat.mul_comm, Nat.add_comm]

/-- A column sum over the hundred thousand rows is the sum over twenty blocks of five thousand rows. -/
theorem colSum_blocks {k : ℕ} (x : Arr2 100000 k) (j : Fin k) :
    colSum x j = ∑ t : Fin 20, ∑ y : Fin 5000, x (ix2 ⟨t.val * 5000 + y.val, by omega⟩ j) := by
  unfold colSum
  exact sum_blocks 20 5000 (by norm_num) (fun r : Fin 100000 => x (ix2 r j))

/-! ## A running sum -/

/-- A running sum started at `0 + f 0` and extended one term at a time is, after `N` steps, the sum of the first
    `N + 1` terms. -/
theorem accum_eq (f acc : ℕ → EReal) (N : ℕ) (h0 : acc 0 = 0 + f 0)
    (hs : ∀ t, t < N → acc (t + 1) = acc t + f (t + 1)) :
    acc N = ∑ t : Fin (N + 1), f t.val := by
  have key : ∀ M, M ≤ N → acc M = ∑ t : Fin (M + 1), f t.val := by
    intro M
    induction M with
    | zero => intro _; rw [h0, zero_add]; simp
    | succ M ih =>
      intro hM
      rw [hs M (by omega), ih (by omega), Fin.sum_univ_castSucc (n := M + 1)]
      simp
  exact key N le_rfl

/-- The same over a range. -/
theorem accum_eq_range (f acc : ℕ → EReal) (N : ℕ) (h0 : acc 0 = 0 + f 0)
    (hs : ∀ t, t < N → acc (t + 1) = acc t + f (t + 1)) :
    acc N = ∑ t ∈ Finset.range (N + 1), f t := by
  rw [accum_eq f acc N h0 hs, Finset.sum_range]

end Cert.Spec

end
-- ==== Proof.Val0.lean ====
import proofs.«132860_j13426067767700_1_alg».proof.Proof.Reg0
import proofs.«132860_j13426067767700_1_alg».proof.Proof.Spec
import proofs.«132860_j13426067767700_1_alg».proof.Proof.SpecLaws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)
open scoped BigOperators

/-! # Region 0 read as values: the two running column sums -/

/-! ## Layout operations at an index -/

/-- A `[a, 1]` column broadcast to `[a, b]` reads, at `(p, c)`, the column's entry of row `p`. -/
theorem k0_broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The scaled block at `(p, q)`: the block's entry times its row's importance. -/
theorem k0_pay3_apply (v3 : FVec Ideal S5000x128 .f32) (v4 : FVec Ideal S5000x1 .f32) (p : Fin 5000) (q : Fin 128) :
    k0_pay3 v3 v4 (ix2 p q) = v3 (ix2 p q) * v4 (ix2 p (0 : Fin 1)) := by
  unfold k0_pay3
  rw [mulf_apply, k0_broadcastTo_a1_ab_apply]

/-- A lane sum over the rows of a `[5000, 128]` block, at column `q`. -/
theorem k0_rowsum_apply (src : FVec Ideal S5000x128 .f32) (hφ : FKind.Formats .f32) (hacc : (0x00000000#32 : BitVec 32) = 0x00000000#32) (q : Fin 128) :
    multiReduction .add [0] S128 src 0x00000000#32 reduces_S5000x128_S128 hφ hacc (ix1 q) = ∑ r : Fin 5000, src (ix2 r q) := by
  refine (Ideal.multiReduction_add_single src 0x00000000#32 reduces_S5000x128_S128 hφ hacc (ix1 q)).trans ?_
  refine Finset.sum_congr rfl fun r _ => congrArg src ?_
  funext ax
  match ax with
  | ⟨0, _⟩ => rfl
  | ⟨1, _⟩ => rfl

/-- The running column sum after a point, at column `q`: what the buffer held plus the point's block's column sum. -/
theorem k0_pay4_apply (v3 : FVec Ideal S5000x128 .f32) (v4 : FVec Ideal S5000x1 .f32) (v7 : FVec Ideal S1x128 .f32) (u : Fin 1) (q : Fin 128) :
    k0_pay4 v3 v4 v7 (ix2 u q) = v7 (ix2 u q) + ∑ r : Fin 5000, v3 (ix2 r q) * v4 (ix2 r (0 : Fin 1)) := by
  unfold k0_pay4
  rw [addf_apply, shapeCast_self, shapeCast_a_1a_apply, k0_rowsum_apply]
  simp only [k0_pay3_apply]

/-- The running column sum of squares after a point, at column `q`. -/
theorem k0_pay5_apply (v3 : FVec Ideal S5000x128 .f32) (v4 : FVec Ideal S5000x1 .f32) (v13 : FVec Ideal S1x128 .f32) (u : Fin 1) (q : Fin 128) :
    k0_pay5 v3 v4 v13 (ix2 u q) = v13 (ix2 u q) + ∑ r : Fin 5000, (v3 (ix2 r q) * v4 (ix2 r (0 : Fin 1))) * (v3 (ix2 r q) * v4 (ix2 r (0 : Fin 1))) := by
  unfold k0_pay5
  rw [addf_apply, shapeCast_self, shapeCast_a_1a_apply, k0_rowsum_apply]
  simp only [mulf_apply, k0_pay3_apply]

/-- The zero blocks the first point stores. -/
theorem k0_pay1_apply (i : S1x128.Idx) : (k0_pay1 (F := Ideal)) i = 0 := by
  unfold k0_pay1
  rw [broadcast_apply]
  exact Ideal.ofBits_zero_f32
theorem k0_pay2_apply (i : S1x128.Idx) : (k0_pay2 (F := Ideal)) i = 0 := by
  unfold k0_pay2
  rw [broadcast_apply]
  exact Ideal.ofBits_zero_f32

/-! ## The blocks as rows of the arrays -/

variable (V : (c : Dev nD) → (b : Ref sig .tc) → Buf (Elt Ideal) ((c : Thread nD τ).loc b))

/-- The printed index maps over the grid: the row-blocked inputs' block index at point `t` is `(t, 0)`, the
    outputs' is `(0, 0)` throughout. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- A row of a block is a row of the array. -/
theorem k0_row_lt (n : ℕ) (hn : n < cfg0.N) (p : Fin 5000) : n * 5000 + p.val < 100000 := by
  have hN : n < 20 := lt_of_lt_of_eq hn (show cfg0.N = 20 from N_0)
  have := p.isLt
  omega

/-- The feature block at point `t` is rows `5000 t … 5000 t + 4999` of the feature array. -/
theorem iblk0_0_apply (c : Dev nD) (t : Fin cfg0.N) (p : Fin 5000) (q : Fin 128) :
    (iblk0 V c 0 t : Vec Ideal S5000x128 .f32) (ix2 p q)
      = (V c main_arg0 : S100000x128.Idx → EReal) (ix2 ⟨t.val * 5000 + p.val, k0_row_lt t.val t.isLt p⟩ q) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * q.val = q.val; rw [e1]; omega

/-- The importance block at point `t` is the same rows of the importance column. -/
theorem iblk0_1_apply (c : Dev nD) (t : Fin cfg0.N) (p : Fin 5000) :
    (iblk0 V c 1 t : Vec Ideal S5000x1 .f32) (ix2 p (0 : Fin 1))
      = (V c main_arg1 : S100000x1.Idx → EReal) (ix2 ⟨t.val * 5000 + p.val, k0_row_lt t.val t.isLt p⟩ (0 : Fin 1)) := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 5000 + 1 * p.val = t.val * 5000 + p.val; rw [e0]; omega
  | ⟨1, _⟩ => show win0_1.index t 1 * 1 + 1 * 0 = 0; rw [e1]

/-! ## The running sums -/

/-- A running sum over the twenty points that starts at zero plus the first block's column sum and adds each later
    block's column sum is, after the last point, the column sum over all the rows. -/
theorem k0_running_colSum (g : Cert.Spec.Arr2 100000 128) (q : Fin 128) (acc : (n : ℕ) → n < cfg0.N → EReal)
    (h0 : ∀ hn, acc 0 hn = 0 + ∑ y : Fin 5000, g (ix2 ⟨0 * 5000 + y.val, k0_row_lt 0 hn y⟩ q))
    (hs : ∀ n (hn : n + 1 < cfg0.N), acc (n + 1) hn
      = acc n (Nat.lt_of_succ_lt hn) + ∑ y : Fin 5000, g (ix2 ⟨(n + 1) * 5000 + y.val, k0_row_lt (n + 1) hn y⟩ q))
    (h19 : 19 < cfg0.N) : acc 19 h19 = Cert.Spec.colSum g q := by
  have hN : cfg0.N = 20 := N_0
  let f : ℕ → EReal := fun n => if h : n < cfg0.N then ∑ y : Fin 5000, g (ix2 ⟨n * 5000 + y.val, k0_row_lt n h y⟩ q) else 0
  let a : ℕ → EReal := fun n => if h : n < cfg0.N then acc n h else 0
  have key := Cert.Spec.accum_eq f a 19 (by
      show (if h : 0 < cfg0.N then acc 0 h else 0) = 0 + (if h : 0 < cfg0.N then ∑ y : Fin 5000, g (ix2 ⟨0 * 5000 + y.val, k0_row_lt 0 h y⟩ q) else 0)
      rw [dif_pos (by omega), dif_pos (by omega)]; exact h0 _)
    (fun n hn => by
      show (if h : n + 1 < cfg0.N then acc (n + 1) h else 0) = (if h : n < cfg0.N then acc n h else 0)
        + (if h : n + 1 < cfg0.N then ∑ y : Fin 5000, g (ix2 ⟨(n + 1) * 5000 + y.val, k0_row_lt (n + 1) h y⟩ q) else 0)
      rw [dif_pos (by omega), dif_pos (by omega), dif_pos (by omega)]; exact hs n _)
  have ha : a 19 = acc 19 h19 := dif_pos h19
  rw [← ha, key, Cert.Spec.colSum_blocks]
  refine Finset.sum_congr rfl fun t _ => ?_
  show (if h : t.val < cfg0.N then ∑ y : Fin 5000, g (ix2 ⟨t.val * 5000 + y.val, k0_row_lt t.val h y⟩ q) else 0) = _
  rw [dif_pos (by have := t.isLt; omega)]

/-- The scaled features: each row of the feature array times its importance. -/
abbrev k0_sc (c : Dev nD) : Cert.Spec.Arr2 100000 128 :=
  Cert.Spec.scaled (V c main_arg0 : S100000x128.Idx → EReal) (V c main_arg1 : S100000x1.Idx → EReal)

/-- The two input blocks at a point, typed as the vectors the body loads. -/
abbrev k0_xblk (c : Dev nD) (t : Fin cfg0.N) : FVec Ideal S5000x128 .f32 := iblk0 V c 0 t
abbrev k0_wblk (c : Dev nD) (t : Fin cfg0.N) : FVec Ideal S5000x1 .f32 := iblk0 V c 1 t

/-- A block's scaled entry is the scaled array's. -/
theorem k0_blk_scaled (c : Dev nD) (t : Fin cfg0.N) (p : Fin 5000) (q : Fin 128) :
    k0_xblk V c t (ix2 p q) * k0_wblk V c t (ix2 p (0 : Fin 1))
      = k0_sc V c (ix2 ⟨t.val * 5000 + p.val, k0_row_lt t.val t.isLt p⟩ q) := by
  rw [show k0_xblk V c t (ix2 p q) = _ from iblk0_0_apply V c t p q, show k0_wblk V c t (ix2 p (0 : Fin 1)) = _ from iblk0_1_apply V c t p]
  rfl

/-- After the last point the first output's buffer holds the column sums of the scaled features. -/
theorem last0_2 (c : Dev nD) (h19 : 19 < cfg0.N) (u : Fin 1) (q : Fin 128) :
    (outsAt0 V c 19 h19).1 (ix2 u q) = Cert.Spec.colSum (k0_sc V c) q := by
  refine k0_running_colSum (k0_sc V c) q (fun n hn => (outsAt0 V c n hn).1 (ix2 u q)) (fun hn => ?_) (fun n hn => ?_) h19
  · show (outsAt0 V c 0 hn).1 (ix2 u q) = _
    rw [outsAt0_zero]
    show k0_pay4 (iblk0 V c 0 ⟨0, hn⟩) (iblk0 V c 1 ⟨0, hn⟩) (k0_pay1 (F := Ideal)) (ix2 u q) = _
    rw [k0_pay4_apply, k0_pay1_apply]
    exact congrArg _ (Finset.sum_congr rfl fun y _ => k0_blk_scaled V c ⟨0, hn⟩ y q)
  · show (outsAt0 V c (n + 1) hn).1 (ix2 u q) = (outsAt0 V c n _).1 (ix2 u q) + _
    rw [outsAt0_succ]
    show k0_pay4 (iblk0 V c 0 ⟨n + 1, hn⟩) (iblk0 V c 1 ⟨n + 1, hn⟩) (outsAt0 V c n _).1 (ix2 u q) = _
    rw [k0_pay4_apply]
    exact congrArg _ (Finset.sum_congr rfl fun y _ => k0_blk_scaled V c ⟨n + 1, hn⟩ y q)

/-- After the last point the second output's buffer holds the column sums of the squared scaled features. -/
theorem last0_3 (c : Dev nD) (h19 : 19 < cfg0.N) (u : Fin 1) (q : Fin 128) :
    (outsAt0 V c 19 h19).2 (ix2 u q) = Cert.Spec.colSum (fun k => k0_sc V c k * k0_sc V c k) q := by
  refine k0_running_colSum (fun k => k0_sc V c k * k0_sc V c k) q (fun n hn => (outsAt0 V c n hn).2 (ix2 u q)) (fun hn => ?_) (fun n hn => ?_) h19
  · show (outsAt0 V c 0 hn).2 (ix2 u q) = _
    rw [outsAt0_zero]
    show k0_pay5 (iblk0 V c 0 ⟨0, hn⟩) (iblk0 V c 1 ⟨0, hn⟩) (k0_pay2 (F := Ideal)) (ix2 u q) = _
    rw [k0_pay5_apply, k0_pay2_apply]
    exact congrArg _ (Finset.sum_congr rfl fun y _ => congrArg (fun z : EReal => z * z) (k0_blk_scaled V c ⟨0, hn⟩ y q))
  · show (outsAt0 V c (n + 1) hn).2 (ix2 u q) = (outsAt0 V c n _).2 (ix2 u q) + _
    rw [outsAt0_succ]
    show k0_pay5 (iblk0 V c 0 ⟨n + 1, hn⟩) (iblk0 V c 1 ⟨n + 1, hn⟩) (outsAt0 V c n _).2 (ix2 u q) = _
    rw [k0_pay5_apply]
    exact congrArg _ (Finset.sum_congr rfl fun y _ => congrArg (fun z : EReal => z * z) (k0_blk_scaled V c ⟨n + 1, hn⟩ y q))

/-! ## From the last point's write-back to the arrays -/

/-- The last point. -/
abbrev k0_tLast : Fin cfg0.N := ⟨19, by decide⟩

/-- Output window 2's array after the run. -/
abbrev G0_2 (c : Dev nD) : Buf (Elt Ideal) ((c : Thread nD τ).loc main_v4_0) :=
  fun i => Cert.Spec.colSum (k0_sc V c) (i 1)

/-- The one write-back, at the last point, writes it: block (0, 0) of the `[1, 128]` array read through zero offsets is
    the array. -/
theorem flushed0_2_eq (c : Dev nD) (t : Fin cfg0.N) (hf : (cfg0.win 2).flush t = true) :
    (dat0 V c).flushed 2 t = ((cfg0.win 2).blk t).view.read (Elt Ideal) (G0_2 V c) := by
  have hN : cfg0.N = 20 := N_0
  have h1 : t.val = 19 := by have := (flush0_2 t).mp hf; have := t.isLt; omega
  have hval : (outsAt0 V c t.val t.isLt).1 = G0_2 V c := by
    funext i
    obtain ⟨u, q, rfl⟩ : ∃ (u : Fin 1) (q : Fin 128), i = ix2 u q := ⟨i 0, i 1, eq_ix2 i⟩
    obtain ⟨n, hn⟩ := t
    obtain rfl : n = 19 := h1
    exact last0_2 V c hn u q
  obtain ⟨-, -, -, -, e20, e21, e30, e31⟩ := idx_facts0 t
  show (cfg0.win 2).cut (grid0.coords t) ((dat0 V c).after 2 t) = _
  rw [after0_2, hval]
  have hz' : (fun a => win0_2.index t a * main_v4_0.ty.shape.size a) = fun _ => 0 := funext fun a => by
    match a with
    | ⟨0, _⟩ => show win0_2.index t 0 * _ = 0; rw [e20, Nat.zero_mul]
    | ⟨1, _⟩ => show win0_2.index t 1 * _ = 0; rw [e21, Nat.zero_mul]
  exact (Memref.read_access_unit_zero (Elt Ideal) main_v4_0 hz' (fun a => by rw [congrFun hz' a]; simp) (G0_2 V c)).symm

/-- Output window 3's array after the run. -/
abbrev G0_3 (c : Dev nD) : Buf (Elt Ideal) ((c : Thread nD τ).loc main_v4_1) :=
  fun i => Cert.Spec.colSum (fun k => k0_sc V c k * k0_sc V c k) (i 1)

/-- The one write-back, at the last point, writes it: block (0, 0) of the `[1, 128]` array read through zero offsets is
    the array. -/
theorem flushed0_3_eq (c : Dev nD) (t : Fin cfg0.N) (hf : (cfg0.win 3).flush t = true) :
    (dat0 V c).flushed 3 t = ((cfg0.win 3).blk t).view.read (Elt Ideal) (G0_3 V c) := by
  have hN : cfg0.N = 20 := N_0
  have h1 : t.val = 19 := by have := (flush0_3 t).mp hf; have := t.isLt; omega
  have hval : (outsAt0 V c t.val t.isLt).2 = G0_3 V c := by
    funext i
    obtain ⟨u, q, rfl⟩ : ∃ (u : Fin 1) (q : Fin 128), i = ix2 u q := ⟨i 0, i 1, eq_ix2 i⟩
    obtain ⟨n, hn⟩ := t
    obtain rfl : n = 19 := h1
    exact last0_3 V c hn u q
  obtain ⟨-, -, -, -, e20, e21, e30, e31⟩ := idx_facts0 t
  show (cfg0.win 3).cut (grid0.coords t) ((dat0 V c).after 3 t) = _
  rw [after0_3, hval]
  have hz' : (fun a => win0_3.index t a * main_v4_1.ty.shape.size a) = fun _ => 0 := funext fun a => by
    match a with
    | ⟨0, _⟩ => show win0_3.index t 0 * _ = 0; rw [e30, Nat.zero_mul]
    | ⟨1, _⟩ => show win0_3.index t 1 * _ = 0; rw [e31, Nat.zero_mul]
  exact (Memref.read_access_unit_zero (Elt Ideal) main_v4_1 hz' (fun a => by rw [congrFun hz' a]; simp) (G0_3 V c)).symm

/-- THE FIRST OUTPUT ARRAY after the run: the column sums of the scaled features (the last point's block covers it). -/
theorem final0_2 (c : Dev nD) : ((dat0 V c).arrAt 2 cfg0.N : S1x128.Idx → EReal)
    = fun i => Cert.Spec.colSum (Cert.Spec.scaled (V c main_arg0 : S100000x128.Idx → EReal) (V c main_arg1 : S100000x1.Idx → EReal)) (i 1) :=
  (dat0 V c).arrAt_eq_of_cover 2 (G0_2 V c) (flushed0_2_eq V c) fun i =>
    ⟨k0_tLast, (flush0_2 k0_tLast).mpr rfl, by
      show i ∈ ((View.whole main_v4_0).slice (win0_2.rect k0_tLast)).set
      rw [View.set_slice_whole, Rect.mem_set_unit]
      intro a
      have h0 : (i 0 : Nat) < 1 := (i 0).isLt
      have h1 : (i 1 : Nat) < 128 := (i 1).isLt
      match a with
      | ⟨0, _⟩ => show win0_2.index k0_tLast 0 * win0_2.size 0 ≤ (i 0 : Nat) ∧ (i 0 : Nat) < win0_2.index k0_tLast 0 * win0_2.size 0 + win0_2.xsize (grid0.coords k0_tLast) 0
                  rw [show win0_2.index k0_tLast 0 * win0_2.size 0 = 0 from by decide +kernel, show win0_2.xsize (grid0.coords k0_tLast) 0 = 1 from by decide +kernel]; omega
      | ⟨1, _⟩ => show win0_2.index k0_tLast 1 * win0_2.size 1 ≤ (i 1 : Nat) ∧ (i 1 : Nat) < win0_2.index k0_tLast 1 * win0_2.size 1 + win0_2.xsize (grid0.coords k0_tLast) 1
                  rw [show win0_2.index k0_tLast 1 * win0_2.size 1 = 0 from by decide +kernel, show win0_2.xsize (grid0.coords k0_tLast) 1 = 128 from by decide +kernel]; omega⟩

/-- THE SECOND OUTPUT ARRAY after the run: the column sums of the squared scaled features. -/
theorem final0_3 (c : Dev nD) : ((dat0 V c).arrAt 3 cfg0.N : S1x128.Idx → EReal)
    = fun i => Cert.Spec.colSum (fun k => Cert.Spec.scaled (V c main_arg0 : S100000x128.Idx → EReal) (V c main_arg1 : S100000x1.Idx → EReal) k
        * Cert.Spec.scaled (V c main_arg0 : S100000x128.Idx → EReal) (V c main_arg1 : S100000x1.Idx → EReal) k) (i 1) :=
  (dat0 V c).arrAt_eq_of_cover 3 (G0_3 V c) (flushed0_3_eq V c) fun i =>
    ⟨k0_tLast, (flush0_3 k0_tLast).mpr rfl, by
      show i ∈ ((View.whole main_v4_1).slice (win0_3.rect k0_tLast)).set
      rw [View.set_slice_whole, Rect.mem_set_unit]
      intro a
      have h0 : (i 0 : Nat) < 1 := (i 0).isLt
      have h1 : (i 1 : Nat) < 128 := (i 1).isLt
      match a with
      | ⟨0, _⟩ => show win0_3.index k0_tLast 0 * win0_3.size 0 ≤ (i 0 : Nat) ∧ (i 0 : Nat) < win0_3.index k0_tLast 0 * win0_3.size 0 + win0_3.xsize (grid0.coords k0_tLast) 0
                  rw [show win0_3.index k0_tLast 0 * win0_3.size 0 = 0 from by decide +kernel, show win0_3.xsize (grid0.coords k0_tLast) 0 = 1 from by decide +kernel]; omega
      | ⟨1, _⟩ => show win0_3.index k0_tLast 1 * win0_3.size 1 ≤ (i 1 : Nat) ∧ (i 1 : Nat) < win0_3.index k0_tLast 1 * win0_3.size 1 + win0_3.xsize (grid0.coords k0_tLast) 1
                  rw [show win0_3.index k0_tLast 1 * win0_3.size 1 = 0 from by decide +kernel, show win0_3.xsize (grid0.coords k0_tLast) 1 = 128 from by decide +kernel]; omega⟩

end Cert.KernelIdeal.Val

end
-- ==== Proof.Val1.lean ====
/- Region 1's output array after the run, as one whole-array function of the arrays the region finds, index by
   index, at the ideal values: the body's payload at an index (the row-scaled entry less the mean row's entry, times
   the reciprocal square root of the variance row's entry plus the offset, times the scale row's entry, plus the shift
   row's entry), each window's block as a read of its array, what each point writes back as the block of the
   whole-array function, and the blocks' cover of the array. -/
import proofs.«132860_j13426067767700_1_alg».proof.Proof.Reg1
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## One column broadcast over many -/

/-- An `[a, 1]` array broadcast to `[a, b]` reads, at `(p, c)`, the operand's one column at row `p`. -/
theorem colcast1_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- The payload at `(p, q)`, over the blocks of the input, the importance column, the variance row, the mean row, the
    scale row and the shift row. -/
theorem pay1_apply (x0 : Vec Ideal S5000x128 .f32) (x1 : Vec Ideal S5000x1 .f32) (xv xm xg xb : Vec Ideal S1x128 .f32)
    (p : Fin 5000) (q : Fin 128) :
    k1_pay1 x0 x1 xv xm xg xb (ix2 p q)
      = (x0 (ix2 p q) * x1 (ix2 p (0 : Fin 1)) - xm (ix2 (0 : Fin 1) q))
          * Ideal.rsqrt (xv (ix2 (0 : Fin 1) q) + Cert.Spec.eps) * xg (ix2 (0 : Fin 1) q) + xb (ix2 (0 : Fin 1) q) := by
  unfold k1_pay1
  simp only [shapeCast_self]
  rw [addf_apply, mulf_apply, mulf_apply, subf_apply, mulf_apply, colcast1_apply, broadcastTo_1b_ab_apply,
    broadcastTo_1b_ab_apply, broadcastTo_1b_ab_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz1 : (![0, 0] : Fin 2 → Nat) = fun _ => 0 := funext fun a => by fin_cases a <;> rfl

/-- The index maps, decided over the grid: the row-blocked windows sit at block `(t, 0)`, the resident ones at
    `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point `t` is rows `5000 t … 5000 t + 4999` of its array. -/
theorem iblk1_0_apply (c : Dev nD) (t : Fin cfg1.N) (y : S5000x128.Idx) (k : S100000x128.Idx)
    (hk0 : (k 0).val = t.val * 5000 + (y 0).val) (hk1 : (k 1).val = (y 1).val) :
    (iblk1 V c 0 t : Vec Ideal S5000x128 .f32) y = (V c main_arg0 : S100000x128.Idx → EReal) k := by
  obtain ⟨e0, e1, -⟩ := idx_facts1 t
  unfold iblk1
  rw [View.read_apply]
  show V c main_arg0 _ = V c main_arg0 _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- Window 1's block at point `t` is the same rows of the importance column. -/
theorem iblk1_1_apply (c : Dev nD) (t : Fin cfg1.N) (y : S5000x1.Idx) (k : S100000x1.Idx)
    (hk0 : (k 0).val = t.val * 5000 + (y 0).val) (hk1 : (k 1).val = (y 1).val) :
    (iblk1 V c 1 t : Vec Ideal S5000x1 .f32) y = (V c main_arg1 : S100000x1.Idx → EReal) k := by
  obtain ⟨-, -, e0, e1, -⟩ := idx_facts1 t
  unfold iblk1
  rw [View.read_apply]
  show V c main_arg1 _ = V c main_arg1 _
  congr 1
  funext a
  apply Fin.ext
  match a with
  | ⟨0, _⟩ => show win1_1.index t 0 * 5000 + 1 * (y 0).val = (k 0).val; rw [e0, hk0]; omega
  | ⟨1, _⟩ => show win1_1.index t 1 * 1 + 1 * (y 1).val = (k 1).val; rw [e1, hk1]; omega

/-- Window 2's block is its whole array (the mean row) at every point. -/
theorem iblk1_2_eq (c : Dev nD) (t : Fin cfg1.N) :
    (iblk1 V c 2 t : Vec Ideal S1x128 .f32) = (V c main_v6 : S1x128.Idx → EReal) := by
  obtain ⟨-, -, -, -, e0, e1, -⟩ := idx_facts1 t
  funext y
  unfold iblk1
  rw [View.read_apply]
  show V c main_v6 _ = V c main_v6 _
  congr 1
  funext a
  apply Fin.ext
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- Window 3's block is its whole array (the variance row) at every point. -/
theorem iblk1_3_eq (c : Dev nD) (t : Fin cfg1.N) :
    (iblk1 V c 3 t : Vec Ideal S1x128 .f32) = (V c main_v10 : S1x128.Idx → EReal) := by
  obtain ⟨-, -, -, -, -, -, e0, e1, -⟩ := idx_facts1 t
  funext y
  unfold iblk1
  rw [View.read_apply]
  show V c main_v10 _ = V c main_v10 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- Window 4's block is its whole array (the scale row) at every point. -/
theorem iblk1_4_eq (c : Dev nD) (t : Fin cfg1.N) :
    (iblk1 V c 4 t : Vec Ideal S1x128 .f32) = (V c main_v11 : S1x128.Idx → EReal) := by
  obtain ⟨-, -, -, -, -, -, -, -, e0, e1, -⟩ := idx_facts1 t
  funext y
  unfold iblk1
  rw [View.read_apply]
  show V c main_v11 _ = V c main_v11 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- Window 5's block is its whole array (the shift row) at every point. -/
theorem iblk1_5_eq (c : Dev nD) (t : Fin cfg1.N) :
    (iblk1 V c 5 t : Vec Ideal S1x128 .f32) = (V c main_v12 : S1x128.Idx → EReal) := by
  obtain ⟨-, -, -, -, -, -, -, -, -, -, e0, e1, -⟩ := idx_facts1 t
  funext y
  unfold iblk1
  rw [View.read_apply]
  show V c main_v12 _ = V c main_v12 _
  congr 1
  funext a
  apply Fin.ext
  match a with
  | ⟨0, _⟩ => show win1_5.index t 0 * 1 + 1 * (y 0).val = (y 0).val; rw [e0]; omega
  | ⟨1, _⟩ => show win1_5.index t 1 * 128 + 1 * (y 1).val = (y 1).val; rw [e1]; omega

/-! ## What each point writes back, and the array after the run -/

/-- The payload over blocks that read the input and the importance column at rows `T * 5000 + ·` is the normalisation
    of the row-scaled input at the array's index. -/
theorem norm_block1 (A0 : S100000x128.Idx → EReal) (A1 : S100000x1.Idx → EReal) (M Vr G B : S1x128.Idx → EReal)
    (x0 : Vec Ideal S5000x128 .f32) (x1 : Vec Ideal S5000x1 .f32) (T : ℕ)
    (h0 : ∀ (y : S5000x128.Idx) (k : S100000x128.Idx), (k 0).val = T * 5000 + (y 0).val → (k 1).val = (y 1).val → x0 y = A0 k)
    (h1 : ∀ (y : S5000x1.Idx) (k : S100000x1.Idx), (k 0).val = T * 5000 + (y 0).val → (k 1).val = (y 1).val → x1 y = A1 k)
    (y : S5000x128.Idx) (i : S100000x128.Idx) (hi0 : (i 0).val = T * 5000 + (y 0).val) (hi1 : (i 1).val = (y 1).val) :
    k1_pay1 x0 x1 Vr M G B y
      = Cert.Spec.normalize (Cert.Spec.scaled A0 A1) (fun j => M (ix2 (0 : Fin 1) j)) (fun j => Vr (ix2 (0 : Fin 1) j))
          (fun j => G (ix2 (0 : Fin 1) (j 0))) (fun j => B (ix2 (0 : Fin 1) (j 0))) i := by
  obtain ⟨p, q, rfl⟩ : ∃ (p : Fin 5000) (q : Fin 128), y = ix2 p q := ⟨y 0, y 1, eq_ix2 y⟩
  have hq : i 1 = q := Fin.ext hi1
  rw [pay1_apply]
  unfold Cert.Spec.normalize Cert.Spec.scaled
  show _ = (A0 i * A1 (ix2 (i 0) (0 : Fin 1)) - M (ix2 (0 : Fin 1) (i 1))) * Ideal.rsqrt (Vr (ix2 (0 : Fin 1) (i 1)) + Cert.Spec.eps)
      * G (ix2 (0 : Fin 1) (i 1)) + B (ix2 (0 : Fin 1) (i 1))
  rw [hq, h0 (ix2 p q) i hi0 hi1, h1 (ix2 p (0 : Fin 1)) (ix2 (i 0) (0 : Fin 1)) hi0 rfl]

/-- The whole-array function the output ends holding: the normalisation of the row-scaled input by the rows the region
    finds. -/
abbrev G1 (c : Dev nD) : S100000x128.Idx → EReal :=
  Cert.Spec.normalize (Cert.Spec.scaled (V c main_arg0 : S100000x128.Idx → EReal) (V c main_arg1 : S100000x1.Idx → EReal))
    (fun j => (V c main_v6 : S1x128.Idx → EReal) (ix2 (0 : Fin 1) j)) (fun j => (V c main_v10 : S1x128.Idx → EReal) (ix2 (0 : Fin 1) j))
    (fun j => (V c main_v11 : S1x128.Idx → EReal) (ix2 (0 : Fin 1) (j 0))) (fun j => (V c main_v12 : S1x128.Idx → EReal) (ix2 (0 : Fin 1) (j 0)))

/-- What point `t` writes back is block `t` of that function of the arrays as the region finds them. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S5000x1) hz1, View.ld_unit_zero (S := S1x128) hz1]
  rw [iblk1_2_eq, iblk1_3_eq, iblk1_4_eq, iblk1_5_eq]
  obtain ⟨-, -, -, -, -, -, -, -, -, -, -, -, e0, e1⟩ := idx_facts1 t
  funext j
  refine norm_block1 _ _ _ _ _ _ _ _ t.val (fun y k h0 h1 => iblk1_0_apply V c t y k h0 h1)
    (fun y k h0 h1 => iblk1_1_apply V c t y k h0 h1) _ _ ?_ ?_
  · show win1_6.index t 0 * 5000 + 1 * (j 0).val = t.val * 5000 + (j 0).val
    rw [e0]; omega
  · show win1_6.index t 1 * 128 + 1 * (j 1).val = (j 1).val
    rw [e1]; omega

/-- The output array after the run is the normalisation of the row-scaled input by the rows the region finds: every
    block is written back, and row `r` lies in the block of point `r / 5000`. -/
theorem final1 (c : Dev nD) : ((dat1 V c).arrAt 6 cfg1.N : S100000x128.Idx → EReal)
    = Cert.Spec.normalize (Cert.Spec.scaled (V c main_arg0 : S100000x128.Idx → EReal) (V c main_arg1 : S100000x1.Idx → EReal))
        (fun j => (V c main_v6 : S1x128.Idx → EReal) (ValueIdx.ix2 0 j)) (fun j => (V c main_v10 : S1x128.Idx → EReal) (ValueIdx.ix2 0 j))
        (fun j => (V c main_v11 : S1x128.Idx → EReal) (ValueIdx.ix2 0 (j 0))) (fun j => (V c main_v12 : S1x128.Idx → EReal) (ValueIdx.ix2 0 (j 0))) :=
  (dat1 V c).arrAt_eq_of_cover 6 (G1 V c) (fun t _ => flushed1_eq V c t) fun i => by
    have hi0 : (i 0 : Nat) < 100000 := (i 0).isLt
    have hi1 : (i 1 : Nat) < 128 := (i 1).isLt
    have hN : cfg1.N = 20 := N_1
    have hlt : (i 0 : Nat) / 5000 < cfg1.N := by rw [hN]; omega
    obtain ⟨-, -, -, -, -, -, -, -, -, -, -, -, e0, e1⟩ := idx_facts1 ⟨(i 0 : Nat) / 5000, hlt⟩
    refine ⟨⟨(i 0 : Nat) / 5000, hlt⟩, flush1_6 _, ?_⟩
    show i ∈ ((View.whole main_v13).slice (win1_6.rect ⟨(i 0 : Nat) / 5000, hlt⟩)).set
    rw [View.set_slice_whole, Rect.mem_set_unit]
    intro a
    match a with
    | ⟨0, _⟩ =>
      show win1_6.index ⟨(i 0 : Nat) / 5000, hlt⟩ 0 * 5000 ≤ (i 0 : Nat) ∧ (i 0 : Nat) < win1_6.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win1_6.index ⟨(i 0 : Nat) / 5000, hlt⟩ 1 * 128 ≤ (i 1 : Nat) ∧ (i 1 : Nat) < win1_6.index ⟨(i 0 : Nat) / 5000, hlt⟩ 1 * 128 + 128
      rw [e1]; omega

end Cert.KernelIdeal.Val

end
-- ==== Proof.Val2.lean ====
/- Region 2's output array after the run, as one whole-array function of the arrays the region finds, index by
   index, at the ideal values: the body's payload at an index (a contraction over the shared coordinate of the summed
   operands against the weights, plus the bias row, under tanh), each window's block as a read of its array, what each
   point writes back as the block of the whole-array function, and the blocks' cover of the array. -/
import proofs.«132860_j13426067767700_1_alg».proof.Proof.Reg2
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The [5000,128] × [128,64] product into the zero accumulator at `(p, q)`: the sum over the shared coordinate. -/
theorem matmul2_apply (l : FVec Ideal S5000x128 .bf16) (r : FVec Ideal S128x64 .bf16) (p : Fin 5000) (q : Fin 64) :
    matmul (F := Ideal) dot_S5000x128_S128x64_S5000x64_1_0_0_1_n_n none l r (constant (F := Ideal) S5000x64 .f32 0x00000000#32) (ix2 p q)
      = ∑ κ : Fin 128, l (ix2 p κ) * r (ix2 κ q) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k := funext fun a => Fin.ext (by
    match a with
    | ⟨0, _⟩ => exact lhs2_0 _ _
    | ⟨1, _⟩ => exact (lhs2_1 _ _).trans hk)
  have er : dot_S5000x128_S128x64_S5000x64_1_0_0_1_n_n.rhsIdx (ix2 p q)
      ((contrEquiv1 dot_S5000x128_S128x64_S5000x64_1_0_0_1_n_n 128 rfl rfl).symm k) = ix2 k q := funext fun a => Fin.ext (by
    match a with
    | ⟨0, _⟩ => exact (rhs2_0 _ _).trans hk
    | ⟨1, _⟩ => exact rhs2_1 _ _)
  rw [el, er]

/-! ## The body's payload at an index -/

/-- The payload at `(p, q)`: the two loaded blocks added, contracted against the weights, plus the bias row's entry,
    under tanh. -/
theorem pay2_apply (x0 x1 : Vec Ideal S5000x128 .f32) (x2 : Vec Ideal S128x64 .f32) (x3 : Vec Ideal S1x64 .f32) (p : Fin 5000) (q : Fin 64) :
    k2_pay1 x0 x1 x2 x3 (ix2 p q)
      = Ideal.tanh ((∑ κ : Fin 128, (x0 (ix2 p κ) + x1 (ix2 p κ)) * x2 (ix2 κ q)) + x3 (ix2 (0 : Fin 1) q)) := by
  unfold k2_pay1
  simp only [shapeCast_self]
  show Ideal.tanh (_ + _) = _
  rw [matmul2_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: the row-blocked windows sit at block `(t, 0)`, the resident ones
    at `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `5000 t … 5000 t + 4999` of its array. -/
theorem iblk2_0_apply (c : Dev nD) (t : Fin cfg2.N) (y : S5000x128.Idx) (k : S100000x128.Idx)
    (hk0 : (k 0).val = t.val * 5000 + (y 0).val) (hk1 : (k 1).val = (y 1).val) :
    (iblk2 V c 0 t : Vec Ideal S5000x128 .f32) y = (V c main_v13 : S100000x128.Idx → EReal) k := by
  obtain ⟨e0, e1, -⟩ := idx_facts2 t
  unfold iblk2
  rw [View.read_apply]
  show V c main_v13 _ = V c main_v13 _
  congr 1
  funext a
  apply Fin.ext
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- Window 1's block at point `t` is the same rows of its array. -/
theorem iblk2_1_apply (c : Dev nD) (t : Fin cfg2.N) (y : S5000x128.Idx) (k : S100000x128.Idx)
    (hk0 : (k 0).val = t.val * 5000 + (y 0).val) (hk1 : (k 1).val = (y 1).val) :
    (iblk2 V c 1 t : Vec Ideal S5000x128 .f32) y = (V c main_v23 : S100000x128.Idx → EReal) k := by
  obtain ⟨-, -, e0, e1, -⟩ := idx_facts2 t
  unfold iblk2
  rw [View.read_apply]
  show V c main_v23 _ = V c main_v23 _
  congr 1
  funext a
  apply Fin.ext
  match a with
  | ⟨0, _⟩ => show win2_1.index t 0 * 5000 + 1 * (y 0).val = (k 0).val; rw [e0, hk0]; omega
  | ⟨1, _⟩ => show win2_1.index t 1 * 128 + 1 * (y 1).val = (k 1).val; rw [e1, hk1]; omega

/-- Window 2's block is its whole array at every point. -/
theorem iblk2_2_eq (c : Dev nD) (t : Fin cfg2.N) :
    (iblk2 V c 2 t : Vec Ideal S128x64 .f32) = (V c main_arg5 : S128x64.Idx → EReal) := by
  obtain ⟨-, -, -, -, e0, e1, -⟩ := idx_facts2 t
  funext y
  unfold iblk2
  rw [View.read_apply]
  show V c main_arg5 _ = V c main_arg5 _
  congr 1
  funext a
  apply Fin.ext
  match a with
  | ⟨0, _⟩ => show win2_2.index t 0 * 128 + 1 * (y 0).val = (y 0).val; rw [e0]; omega
  | ⟨1, _⟩ => show win2_2.index t 1 * 64 + 1 * (y 1).val = (y 1).val; rw [e1]; omega

/-- Window 3's block is its whole array at every point. -/
theorem iblk2_3_eq (c : Dev nD) (t : Fin cfg2.N) :
    (iblk2 V c 3 t : Vec Ideal S1x64 .f32) = (V c main_v24 : S1x64.Idx → EReal) := by
  obtain ⟨-, -, -, -, -, -, e0, e1, -⟩ := idx_facts2 t
  funext y
  unfold iblk2
  rw [View.read_apply]
  show V c main_v24 _ = V c main_v24 _
  congr 1
  funext a
  apply Fin.ext
  match a with
  | ⟨0, _⟩ => show win2_3.index t 0 * 1 + 1 * (y 0).val = (y 0).val; rw [e0]; omega
  | ⟨1, _⟩ => show win2_3.index t 1 * 64 + 1 * (y 1).val = (y 1).val; rw [e1]; omega

/-! ## What each point writes back, and the array after the run -/

/-- The payload over blocks that read the two row-blocked arrays at rows `T * 5000 + ·` is the layer at the array's
    index. -/
theorem layer_block2 (A0 A1 : S100000x128.Idx → EReal) (W : S128x64.Idx → EReal) (B : S1x64.Idx → EReal)
    (x0 x1 : Vec Ideal S5000x128 .f32) (T : ℕ)
    (h0 : ∀ (y : S5000x128.Idx) (k : S100000x128.Idx), (k 0).val = T * 5000 + (y 0).val → (k 1).val = (y 1).val → x0 y = A0 k)
    (h1 : ∀ (y : S5000x128.Idx) (k : S100000x128.Idx), (k 0).val = T * 5000 + (y 0).val → (k 1).val = (y 1).val → x1 y = A1 k)
    (y : S5000x64.Idx) (i : S100000x64.Idx) (hi0 : (i 0).val = T * 5000 + (y 0).val) (hi1 : (i 1).val = (y 1).val) :
    k2_pay1 x0 x1 W B y = Cert.Spec.layer A0 A1 W (fun j => B (ix2 (0 : Fin 1) (j 0))) i := by
  obtain ⟨p, q, rfl⟩ : ∃ (p : Fin 5000) (q : Fin 64), y = ix2 p q := ⟨y 0, y 1, eq_ix2 y⟩
  have hq : i 1 = q := Fin.ext hi1
  rw [pay2_apply]
  unfold Cert.Spec.layer
  show Ideal.tanh (_ + B (ix2 (0 : Fin 1) q)) = Ideal.tanh (_ + B (ix2 (0 : Fin 1) (i 1)))
  rw [hq]
  congr 2
  refine Finset.sum_congr rfl fun κ _ => ?_
  rw [h0 (ix2 p κ) (ix2 (i 0) κ) hi0 rfl, h1 (ix2 p κ) (ix2 (i 0) κ) hi0 rfl]

/-- The whole-array function the output ends holding: the layer of the arrays the region finds. -/
abbrev G2 (c : Dev nD) : S100000x64.Idx → EReal :=
  Cert.Spec.layer (V c main_v13 : S100000x128.Idx → EReal) (V c main_v23 : S100000x128.Idx → EReal)
    (V c main_arg5 : S128x64.Idx → EReal) (fun j => (V c main_v24 : S1x64.Idx → EReal) (ix2 (0 : Fin 1) (j 0)))

/-- What point `t` writes back is block `t` of the layer of the arrays as the region finds them. -/
theorem flushed2_eq (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero hz2]
  simp only [View.ld_unit_zero (S := S5000x128) hz2, View.ld_unit_zero (S := S128x64) hz2, View.ld_unit_zero (S := S1x64) hz2]
  rw [iblk2_2_eq, iblk2_3_eq]
  obtain ⟨-, -, -, -, -, -, -, -, e0, e1⟩ := idx_facts2 t
  funext j
  refine layer_block2 _ _ _ _ _ _ t.val (fun y k h0 h1 => iblk2_0_apply V c t y k h0 h1)
    (fun y k h0 h1 => iblk2_1_apply V c t y k h0 h1) _ _ ?_ ?_
  · show win2_4.index t 0 * 5000 + 1 * (j 0).val = t.val * 5000 + (j 0).val
    rw [e0]; omega
  · show win2_4.index t 1 * 64 + 1 * (j 1).val = (j 1).val
    rw [e1]; omega

/-- The output array after the run is the layer of the arrays the region finds: every block is written back, and
    row `r` lies in the block of point `r / 5000`. -/
theorem final2 (c : Dev nD) : ((dat2 V c).arrAt 4 cfg2.N : S100000x64.Idx → EReal)
    = Cert.Spec.layer (V c main_v13 : S100000x128.Idx → EReal) (V c main_v23 : S100000x128.Idx → EReal)
        (V c main_arg5 : S128x64.Idx → EReal) (fun j => (V c main_v24 : S1x64.Idx → EReal) (ValueIdx.ix2 0 (j 0))) :=
  (dat2 V c).arrAt_eq_of_cover 4 (G2 V c) (fun t _ => flushed2_eq V c t) fun i => by
    have hi0 : (i 0 : Nat) < 100000 := (i 0).isLt
    have hi1 : (i 1 : Nat) < 64 := (i 1).isLt
    have hN : cfg2.N = 20 := N_2
    have hlt : (i 0 : Nat) / 5000 < cfg2.N := by rw [hN]; omega
    obtain ⟨-, -, -, -, -, -, -, -, e0, e1⟩ := idx_facts2 ⟨(i 0 : Nat) / 5000, hlt⟩
    refine ⟨⟨(i 0 : Nat) / 5000, hlt⟩, flush2_4 _, ?_⟩
    show i ∈ ((View.whole main_v25).slice (win2_4.rect ⟨(i 0 : Nat) / 5000, hlt⟩)).set
    rw [View.set_slice_whole, Rect.mem_set_unit]
    intro a
    match a with
    | ⟨0, _⟩ =>
      show win2_4.index ⟨(i 0 : Nat) / 5000, hlt⟩ 0 * 5000 ≤ (i 0 : Nat) ∧ (i 0 : Nat) < win2_4.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win2_4.index ⟨(i 0 : Nat) / 5000, hlt⟩ 1 * 64 ≤ (i 1 : Nat) ∧ (i 1 : Nat) < win2_4.index ⟨(i 0 : Nat) / 5000, hlt⟩ 1 * 64 + 64
      rw [e1]; omega

end Cert.KernelIdeal.Val

end
-- ==== Proof.Val3.lean ====
/- Region 3's output array after the run, as one whole-array function of the arrays the region finds, index by
   index, at the ideal values: the body's payload at an index (a contraction over the shared coordinate of the summed
   operands against the weights, plus the bias row, under tanh), each window's block as a read of its array, what each
   point writes back as the block of the whole-array function, and the blocks' cover of the array. -/
import proofs.«132860_j13426067767700_1_alg».proof.Proof.Reg3
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs3_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs3_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs3_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs3_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The [5000,64] × [64,64] product into the zero accumulator at `(p, q)`: the sum over the shared coordinate. -/
theorem matmul3_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ κ : Fin 64, l (ix2 p κ) * r (ix2 κ q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs3_0 _ _
    | ⟨1, _⟩ => exact (lhs3_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs3_0 _ _).trans hk
    | ⟨1, _⟩ => exact rhs3_1 _ _)
  rw [el, er]

/-! ## The body's payload at an index -/

/-- The payload at `(p, q)`: the two loaded blocks added, contracted against the weights, plus the bias row's entry,
    under tanh. -/
theorem pay3_apply (x0 x1 : Vec Ideal S5000x64 .f32) (x2 : Vec Ideal S64x64 .f32) (x3 : Vec Ideal S1x64 .f32) (p : Fin 5000) (q : Fin 64) :
    k3_pay1 x0 x1 x2 x3 (ix2 p q)
      = Ideal.tanh ((∑ κ : Fin 64, (x0 (ix2 p κ) + x1 (ix2 p κ)) * x2 (ix2 κ q)) + x3 (ix2 (0 : Fin 1) q)) := by
  unfold k3_pay1
  simp only [shapeCast_self]
  show Ideal.tanh (_ + _) = _
  rw [matmul3_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz3 : (![0, 0] : Fin 2 → Nat) = fun _ => 0 := funext fun a => by fin_cases a <;> rfl

/-- The printed index maps, decided over the grid: the row-blocked windows sit at block `(t, 0)`, the resident ones
    at `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Window 0's block at point `t` is rows `5000 t … 5000 t + 4999` of its array. -/
theorem iblk3_0_apply (c : Dev nD) (t : Fin cfg3.N) (y : S5000x64.Idx) (k : S100000x64.Idx)
    (hk0 : (k 0).val = t.val * 5000 + (y 0).val) (hk1 : (k 1).val = (y 1).val) :
    (iblk3 V c 0 t : Vec Ideal S5000x64 .f32) y = (V c main_v25 : S100000x64.Idx → EReal) k := by
  obtain ⟨e0, e1, -⟩ := idx_facts3 t
  unfold iblk3
  rw [View.read_apply]
  show V c main_v25 _ = V c main_v25 _
  congr 1
  funext a
  apply Fin.ext
  match a with
  | ⟨0, _⟩ => show win3_0.index t 0 * 5000 + 1 * (y 0).val = (k 0).val; rw [e0, hk0]; omega
  | ⟨1, _⟩ => show win3_0.index t 1 * 64 + 1 * (y 1).val = (k 1).val; rw [e1, hk1]; omega

/-- Window 1's block at point `t` is the same rows of its array. -/
theorem iblk3_1_apply (c : Dev nD) (t : Fin cfg3.N) (y : S5000x64.Idx) (k : S100000x64.Idx)
    (hk0 : (k 0).val = t.val * 5000 + (y 0).val) (hk1 : (k 1).val = (y 1).val) :
    (iblk3 V c 1 t : Vec Ideal S5000x64 .f32) y = (V c main_v35 : S100000x64.Idx → EReal) k := by
  obtain ⟨-, -, e0, e1, -⟩ := idx_facts3 t
  unfold iblk3
  rw [View.read_apply]
  show V c main_v35 _ = V c main_v35 _
  congr 1
  funext a
  apply Fin.ext
  match a with
  | ⟨0, _⟩ => show win3_1.index t 0 * 5000 + 1 * (y 0).val = (k 0).val; rw [e0, hk0]; omega
  | ⟨1, _⟩ => show win3_1.index t 1 * 64 + 1 * (y 1).val = (k 1).val; rw [e1, hk1]; omega

/-- Window 2's block is its whole array at every point. -/
theorem iblk3_2_eq (c : Dev nD) (t : Fin cfg3.N) :
    (iblk3 V c 2 t : Vec Ideal S64x64 .f32) = (V c main_arg7 : S64x64.Idx → EReal) := by
  obtain ⟨-, -, -, -, e0, e1, -⟩ := idx_facts3 t
  funext y
  unfold iblk3
  rw [View.read_apply]
  show V c main_arg7 _ = V c main_arg7 _
  congr 1
  funext a
  apply Fin.ext
  match a with
  | ⟨0, _⟩ => show win3_2.index t 0 * 64 + 1 * (y 0).val = (y 0).val; rw [e0]; omega
  | ⟨1, _⟩ => show win3_2.index t 1 * 64 + 1 * (y 1).val = (y 1).val; rw [e1]; omega

/-- Window 3's block is its whole array at every point. -/
theorem iblk3_3_eq (c : Dev nD) (t : Fin cfg3.N) :
    (iblk3 V c 3 t : Vec Ideal S1x64 .f32) = (V c main_v36 : S1x64.Idx → EReal) := by
  obtain ⟨-, -, -, -, -, -, e0, e1, -⟩ := idx_facts3 t
  funext y
  unfold iblk3
  rw [View.read_apply]
  show V c main_v36 _ = V c main_v36 _
  congr 1
  funext a
  apply Fin.ext
  match a with
  | ⟨0, _⟩ => show win3_3.index t 0 * 1 + 1 * (y 0).val = (y 0).val; rw [e0]; omega
  | ⟨1, _⟩ => show win3_3.index t 1 * 64 + 1 * (y 1).val = (y 1).val; rw [e1]; omega

/-! ## What each point writes back, and the array after the run -/

/-- The payload over blocks that read the two row-blocked arrays at rows `T * 5000 + ·` is the layer at the array's
    index. -/
theorem layer_block3 (A0 A1 : S100000x64.Idx → EReal) (W : S64x64.Idx → EReal) (B : S1x64.Idx → EReal)
    (x0 x1 : Vec Ideal S5000x64 .f32) (T : ℕ)
    (h0 : ∀ (y : S5000x64.Idx) (k : S100000x64.Idx), (k 0).val = T * 5000 + (y 0).val → (k 1).val = (y 1).val → x0 y = A0 k)
    (h1 : ∀ (y : S5000x64.Idx) (k : S100000x64.Idx), (k 0).val = T * 5000 + (y 0).val → (k 1).val = (y 1).val → x1 y = A1 k)
    (y : S5000x64.Idx) (i : S100000x64.Idx) (hi0 : (i 0).val = T * 5000 + (y 0).val) (hi1 : (i 1).val = (y 1).val) :
    k3_pay1 x0 x1 W B y = Cert.Spec.layer A0 A1 W (fun j => B (ix2 (0 : Fin 1) (j 0))) i := by
  obtain ⟨p, q, rfl⟩ : ∃ (p : Fin 5000) (q : Fin 64), y = ix2 p q := ⟨y 0, y 1, eq_ix2 y⟩
  have hq : i 1 = q := Fin.ext hi1
  rw [pay3_apply]
  unfold Cert.Spec.layer
  show Ideal.tanh (_ + B (ix2 (0 : Fin 1) q)) = Ideal.tanh (_ + B (ix2 (0 : Fin 1) (i 1)))
  rw [hq]
  congr 2
  refine Finset.sum_congr rfl fun κ _ => ?_
  rw [h0 (ix2 p κ) (ix2 (i 0) κ) hi0 rfl, h1 (ix2 p κ) (ix2 (i 0) κ) hi0 rfl]

/-- The whole-array function the output ends holding: the layer of the arrays the region finds. -/
abbrev G3 (c : Dev nD) : S100000x64.Idx → EReal :=
  Cert.Spec.layer (V c main_v25 : S100000x64.Idx → EReal) (V c main_v35 : S100000x64.Idx → EReal)
    (V c main_arg7 : S64x64.Idx → EReal) (fun j => (V c main_v36 : S1x64.Idx → EReal) (ix2 (0 : Fin 1) (j 0)))

/-- What point `t` writes back is block `t` of the layer of the arrays as the region finds them. -/
theorem flushed3_eq (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4]
  unfold out3_4
  rw [View.canon_unit_zero hz3]
  simp only [View.ld_unit_zero (S := S5000x64) hz3, View.ld_unit_zero (S := S64x64) hz3, View.ld_unit_zero (S := S1x64) hz3]
  rw [iblk3_2_eq, iblk3_3_eq]
  obtain ⟨-, -, -, -, -, -, -, -, e0, e1⟩ := idx_facts3 t
  funext j
  refine layer_block3 _ _ _ _ _ _ t.val (fun y k h0 h1 => iblk3_0_apply V c t y k h0 h1)
    (fun y k h0 h1 => iblk3_1_apply V c t y k h0 h1) _ _ ?_ ?_
  · show win3_4.index t 0 * 5000 + 1 * (j 0).val = t.val * 5000 + (j 0).val
    rw [e0]; omega
  · show win3_4.index t 1 * 64 + 1 * (j 1).val = (j 1).val
    rw [e1]; omega

/-- The output array after the run is the layer of the arrays the region finds: every block is written back, and
    row `r` lies in the block of point `r / 5000`. -/
theorem final3 (c : Dev nD) : ((dat3 V c).arrAt 4 cfg3.N : S100000x64.Idx → EReal)
    = Cert.Spec.layer (V c main_v25 : S100000x64.Idx → EReal) (V c main_v35 : S100000x64.Idx → EReal)
        (V c main_arg7 : S64x64.Idx → EReal) (fun j => (V c main_v36 : S1x64.Idx → EReal) (ValueIdx.ix2 0 (j 0))) :=
  (dat3 V c).arrAt_eq_of_cover 4 (G3 V c) (fun t _ => flushed3_eq V c t) fun i => by
    have hi0 : (i 0 : Nat) < 100000 := (i 0).isLt
    have hi1 : (i 1 : Nat) < 64 := (i 1).isLt
    have hN : cfg3.N = 20 := N_3
    have hlt : (i 0 : Nat) / 5000 < cfg3.N := by rw [hN]; omega
    obtain ⟨-, -, -, -, -, -, -, -, e0, e1⟩ := idx_facts3 ⟨(i 0 : Nat) / 5000, hlt⟩
    refine ⟨⟨(i 0 : Nat) / 5000, hlt⟩, flush3_4 _, ?_⟩
    show i ∈ ((View.whole main_v37).slice (win3_4.rect ⟨(i 0 : Nat) / 5000, hlt⟩)).set
    rw [View.set_slice_whole, Rect.mem_set_unit]
    intro a
    match a with
    | ⟨0, _⟩ =>
      show win3_4.index ⟨(i 0 : Nat) / 5000, hlt⟩ 0 * 5000 ≤ (i 0 : Nat) ∧ (i 0 : Nat) < win3_4.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win3_4.index ⟨(i 0 : Nat) / 5000, hlt⟩ 1 * 64 ≤ (i 1 : Nat) ∧ (i 1 : Nat) < win3_4.index ⟨(i 0 : Nat) / 5000, hlt⟩ 1 * 64 + 64
      rw [e1]; omega

end Cert.KernelIdeal.Val

end
-- ==== Proof.Val4.lean ====
/- Region 4's output array after the run, as one whole-array function of the arrays the region finds, index by
   index, at the ideal values: the body's payload at an index (a contraction over the shared coordinate of the summed
   operands against the weights, plus the bias row, under tanh), each window's block as a read of its array, what each
   point writes back as the block of the whole-array function, and the blocks' cover of the array. -/
import proofs.«132860_j13426067767700_1_alg».proof.Proof.Reg4
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs4_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs4_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs4_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs4_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The [5000,64] × [64,64] product into the zero accumulator at `(p, q)`: the sum over the shared coordinate. -/
theorem matmul4_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ κ : Fin 64, l (ix2 p κ) * r (ix2 κ q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs4_0 _ _
    | ⟨1, _⟩ => exact (lhs4_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-! ## The body's payload at an index -/

/-- The payload at `(p, q)`: the two loaded blocks added, contracted against the weights, plus the bias row's entry,
    under tanh. -/
theorem pay4_apply (x0 x1 : Vec Ideal S5000x64 .f32) (x2 : Vec Ideal S64x64 .f32) (x3 : Vec Ideal S1x64 .f32) (p : Fin 5000) (q : Fin 64) :
    k4_pay1 x0 x1 x2 x3 (ix2 p q)
      = Ideal.tanh ((∑ κ : Fin 64, (x0 (ix2 p κ) + x1 (ix2 p κ)) * x2 (ix2 κ q)) + x3 (ix2 (0 : Fin 1) q)) := by
  unfold k4_pay1
  simp only [shapeCast_self]
  show Ideal.tanh (_ + _) = _
  rw [matmul4_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the grid: the row-blocked windows sit at block `(t, 0)`, the resident ones
    at `(0, 0)`. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `5000 t … 5000 t + 4999` of its array. -/
theorem iblk4_0_apply (c : Dev nD) (t : Fin cfg4.N) (y : S5000x64.Idx) (k : S100000x64.Idx)
    (hk0 : (k 0).val = t.val * 5000 + (y 0).val) (hk1 : (k 1).val = (y 1).val) :
    (iblk4 V c 0 t : Vec Ideal S5000x64 .f32) y = (V c main_v37 : S100000x64.Idx → EReal) k := by
  obtain ⟨e0, e1, -⟩ := idx_facts4 t
  unfold iblk4
  rw [View.read_apply]
  show V c main_v37 _ = V c main_v37 _
  congr 1
  funext a
  apply Fin.ext
  match a with
  | ⟨0, _⟩ => show win4_0.index t 0 * 5000 + 1 * (y 0).val = (k 0).val; rw [e0, hk0]; omega
  | ⟨1, _⟩ => show win4_0.index t 1 * 64 + 1 * (y 1).val = (k 1).val; rw [e1, hk1]; omega

/-- Window 1's block at point `t` is the same rows of its array. -/
theorem iblk4_1_apply (c : Dev nD) (t : Fin cfg4.N) (y : S5000x64.Idx) (k : S100000x64.Idx)
    (hk0 : (k 0).val = t.val * 5000 + (y 0).val) (hk1 : (k 1).val = (y 1).val) :
    (iblk4 V c 1 t : Vec Ideal S5000x64 .f32) y = (V c main_v47 : S100000x64.Idx → EReal) k := by
  obtain ⟨-, -, e0, e1, -⟩ := idx_facts4 t
  unfold iblk4
  rw [View.read_apply]
  show V c main_v47 _ = V c main_v47 _
  congr 1
  funext a
  apply Fin.ext
  match a with
  | ⟨0, _⟩ => show win4_1.index t 0 * 5000 + 1 * (y 0).val = (k 0).val; rw [e0, hk0]; omega
  | ⟨1, _⟩ => show win4_1.index t 1 * 64 + 1 * (y 1).val = (k 1).val; rw [e1, hk1]; omega

/-- Window 2's block is its whole array at every point. -/
theorem iblk4_2_eq (c : Dev nD) (t : Fin cfg4.N) :
    (iblk4 V c 2 t : Vec Ideal S64x64 .f32) = (V c main_arg9 : S64x64.Idx → EReal) := by
  obtain ⟨-, -, -, -, e0, e1, -⟩ := idx_facts4 t
  funext y
  unfold iblk4
  rw [View.read_apply]
  show V c main_arg9 _ = V c main_arg9 _
  congr 1
  funext a
  apply Fin.ext
  match a with
  | ⟨0, _⟩ => show win4_2.index t 0 * 64 + 1 * (y 0).val = (y 0).val; rw [e0]; omega
  | ⟨1, _⟩ => show win4_2.index t 1 * 64 + 1 * (y 1).val = (y 1).val; rw [e1]; omega

/-- Window 3's block is its whole array at every point. -/
theorem iblk4_3_eq (c : Dev nD) (t : Fin cfg4.N) :
    (iblk4 V c 3 t : Vec Ideal S1x64 .f32) = (V c main_v48 : S1x64.Idx → EReal) := by
  obtain ⟨-, -, -, -, -, -, e0, e1, -⟩ := idx_facts4 t
  funext y
  unfold iblk4
  rw [View.read_apply]
  show V c main_v48 _ = V c main_v48 _
  congr 1
  funext a
  apply Fin.ext
  match a with
  | ⟨0, _⟩ => show win4_3.index t 0 * 1 + 1 * (y 0).val = (y 0).val; rw [e0]; omega
  | ⟨1, _⟩ => show win4_3.index t 1 * 64 + 1 * (y 1).val = (y 1).val; rw [e1]; omega

/-! ## What each point writes back, and the array after the run -/

/-- The payload over blocks that read the two row-blocked arrays at rows `T * 5000 + ·` is the layer at the array's
    index. -/
theorem layer_block4 (A0 A1 : S100000x64.Idx → EReal) (W : S64x64.Idx → EReal) (B : S1x64.Idx → EReal)
    (x0 x1 : Vec Ideal S5000x64 .f32) (T : ℕ)
    (h0 : ∀ (y : S5000x64.Idx) (k : S100000x64.Idx), (k 0).val = T * 5000 + (y 0).val → (k 1).val = (y 1).val → x0 y = A0 k)
    (h1 : ∀ (y : S5000x64.Idx) (k : S100000x64.Idx), (k 0).val = T * 5000 + (y 0).val → (k 1).val = (y 1).val → x1 y = A1 k)
    (y : S5000x64.Idx) (i : S100000x64.Idx) (hi0 : (i 0).val = T * 5000 + (y 0).val) (hi1 : (i 1).val = (y 1).val) :
    k4_pay1 x0 x1 W B y = Cert.Spec.layer A0 A1 W (fun j => B (ix2 (0 : Fin 1) (j 0))) i := by
  obtain ⟨p, q, rfl⟩ : ∃ (p : Fin 5000) (q : Fin 64), y = ix2 p q := ⟨y 0, y 1, eq_ix2 y⟩
  have hq : i 1 = q := Fin.ext hi1
  rw [pay4_apply]
  unfold Cert.Spec.layer
  show Ideal.tanh (_ + B (ix2 (0 : Fin 1) q)) = Ideal.tanh (_ + B (ix2 (0 : Fin 1) (i 1)))
  rw [hq]
  congr 2
  refine Finset.sum_congr rfl fun κ _ => ?_
  rw [h0 (ix2 p κ) (ix2 (i 0) κ) hi0 rfl, h1 (ix2 p κ) (ix2 (i 0) κ) hi0 rfl]

/-- The whole-array function the output ends holding: the layer of the arrays the region finds. -/
abbrev G4 (c : Dev nD) : S100000x64.Idx → EReal :=
  Cert.Spec.layer (V c main_v37 : S100000x64.Idx → EReal) (V c main_v47 : S100000x64.Idx → EReal)
    (V c main_arg9 : S64x64.Idx → EReal) (fun j => (V c main_v48 : S1x64.Idx → EReal) (ix2 (0 : Fin 1) (j 0)))

/-- What point `t` writes back is block `t` of the layer of the arrays as the region finds them. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz4]
  simp only [View.ld_unit_zero (S := S5000x64) hz4, View.ld_unit_zero (S := S64x64) hz4, View.ld_unit_zero (S := S1x64) hz4]
  rw [iblk4_2_eq, iblk4_3_eq]
  obtain ⟨-, -, -, -, -, -, -, -, e0, e1⟩ := idx_facts4 t
  funext j
  refine layer_block4 _ _ _ _ _ _ t.val (fun y k h0 h1 => iblk4_0_apply V c t y k h0 h1)
    (fun y k h0 h1 => iblk4_1_apply V c t y k h0 h1) _ _ ?_ ?_
  · show win4_4.index t 0 * 5000 + 1 * (j 0).val = t.val * 5000 + (j 0).val
    rw [e0]; omega
  · show win4_4.index t 1 * 64 + 1 * (j 1).val = (j 1).val
    rw [e1]; omega

/-- The output array after the run is the layer of the arrays the region finds: every block is written back, and
    row `r` lies in the block of point `r / 5000`. -/
theorem final4 (c : Dev nD) : ((dat4 V c).arrAt 4 cfg4.N : S100000x64.Idx → EReal)
    = Cert.Spec.layer (V c main_v37 : S100000x64.Idx → EReal) (V c main_v47 : S100000x64.Idx → EReal)
        (V c main_arg9 : S64x64.Idx → EReal) (fun j => (V c main_v48 : S1x64.Idx → EReal) (ValueIdx.ix2 0 (j 0))) :=
  (dat4 V c).arrAt_eq_of_cover 4 (G4 V c) (fun t _ => flushed4_eq V c t) fun i => by
    have hi0 : (i 0 : Nat) < 100000 := (i 0).isLt
    have hi1 : (i 1 : Nat) < 64 := (i 1).isLt
    have hN : cfg4.N = 20 := N_4
    have hlt : (i 0 : Nat) / 5000 < cfg4.N := by rw [hN]; omega
    obtain ⟨-, -, -, -, -, -, -, -, e0, e1⟩ := idx_facts4 ⟨(i 0 : Nat) / 5000, hlt⟩
    refine ⟨⟨(i 0 : Nat) / 5000, hlt⟩, flush4_4 _, ?_⟩
    show i ∈ ((View.whole main_v49).slice (win4_4.rect ⟨(i 0 : Nat) / 5000, hlt⟩)).set
    rw [View.set_slice_whole, Rect.mem_set_unit]
    intro a
    match a with
    | ⟨0, _⟩ =>
      show win4_4.index ⟨(i 0 : Nat) / 5000, hlt⟩ 0 * 5000 ≤ (i 0 : Nat) ∧ (i 0 : Nat) < win4_4.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win4_4.index ⟨(i 0 : Nat) / 5000, hlt⟩ 1 * 64 ≤ (i 1 : Nat) ∧ (i 1 : Nat) < win4_4.index ⟨(i 0 : Nat) / 5000, hlt⟩ 1 * 64 + 64
      rw [e1]; omega

end Cert.KernelIdeal.Val

end
-- ==== Proof.Val5.lean ====
/- Region 5's output array after the run, as one whole-array function of the arrays the region finds, index by
   index, at the ideal values: the body's payload at an index (a contraction over the shared coordinate of the summed
   operands against the weights, plus the bias row, under tanh), each window's block as a read of its array, what each
   point writes back as the block of the whole-array function, and the blocks' cover of the array. -/
import proofs.«132860_j13426067767700_1_alg».proof.Proof.Reg5
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs5_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs5_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs5_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs5_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The [5000,64] × [64,64] product into the zero accumulator at `(p, q)`: the sum over the shared coordinate. -/
theorem matmul5_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ κ : Fin 64, l (ix2 p κ) * r (ix2 κ q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs5_0 _ _
    | ⟨1, _⟩ => exact (lhs5_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs5_0 _ _).trans hk
    | ⟨1, _⟩ => exact rhs5_1 _ _)
  rw [el, er]

/-! ## The body's payload at an index -/

/-- The payload at `(p, q)`: the two loaded blocks added, contracted against the weights, plus the bias row's entry,
    under tanh. -/
theorem pay5_apply (x0 x1 : Vec Ideal S5000x64 .f32) (x2 : Vec Ideal S64x64 .f32) (x3 : Vec Ideal S1x64 .f32) (p : Fin 5000) (q : Fin 64) :
    k5_pay1 x0 x1 x2 x3 (ix2 p q)
      = Ideal.tanh ((∑ κ : Fin 64, (x0 (ix2 p κ) + x1 (ix2 p κ)) * x2 (ix2 κ q)) + x3 (ix2 (0 : Fin 1) q)) := by
  unfold k5_pay1
  simp only [shapeCast_self]
  show Ideal.tanh (_ + _) = _
  rw [matmul5_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz5 : (![0, 0] : Fin 2 → Nat) = fun _ => 0 := funext fun a => by fin_cases a <;> rfl

/-- The printed index maps, decided over the grid: the row-blocked windows sit at block `(t, 0)`, the resident ones
    at `(0, 0)`. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Window 0's block at point `t` is rows `5000 t … 5000 t + 4999` of its array. -/
theorem iblk5_0_apply (c : Dev nD) (t : Fin cfg5.N) (y : S5000x64.Idx) (k : S100000x64.Idx)
    (hk0 : (k 0).val = t.val * 5000 + (y 0).val) (hk1 : (k 1).val = (y 1).val) :
    (iblk5 V c 0 t : Vec Ideal S5000x64 .f32) y = (V c main_v49 : S100000x64.Idx → EReal) k := by
  obtain ⟨e0, e1, -⟩ := idx_facts5 t
  unfold iblk5
  rw [View.read_apply]
  show V c main_v49 _ = V c main_v49 _
  congr 1
  funext a
  apply Fin.ext
  match a with
  | ⟨0, _⟩ => show win5_0.index t 0 * 5000 + 1 * (y 0).val = (k 0).val; rw [e0, hk0]; omega
  | ⟨1, _⟩ => show win5_0.index t 1 * 64 + 1 * (y 1).val = (k 1).val; rw [e1, hk1]; omega

/-- Window 1's block at point `t` is the same rows of its array. -/
theorem iblk5_1_apply (c : Dev nD) (t : Fin cfg5.N) (y : S5000x64.Idx) (k : S100000x64.Idx)
    (hk0 : (k 0).val = t.val * 5000 + (y 0).val) (hk1 : (k 1).val = (y 1).val) :
    (iblk5 V c 1 t : Vec Ideal S5000x64 .f32) y = (V c main_v59 : S100000x64.Idx → EReal) k := by
  obtain ⟨-, -, e0, e1, -⟩ := idx_facts5 t
  unfold iblk5
  rw [View.read_apply]
  show V c main_v59 _ = V c main_v59 _
  congr 1
  funext a
  apply Fin.ext
  match a with
  | ⟨0, _⟩ => show win5_1.index t 0 * 5000 + 1 * (y 0).val = (k 0).val; rw [e0, hk0]; omega
  | ⟨1, _⟩ => show win5_1.index t 1 * 64 + 1 * (y 1).val = (k 1).val; rw [e1, hk1]; omega

/-- Window 2's block is its whole array at every point. -/
theorem iblk5_2_eq (c : Dev nD) (t : Fin cfg5.N) :
    (iblk5 V c 2 t : Vec Ideal S64x64 .f32) = (V c main_arg11 : S64x64.Idx → EReal) := by
  obtain ⟨-, -, -, -, e0, e1, -⟩ := idx_facts5 t
  funext y
  unfold iblk5
  rw [View.read_apply]
  show V c main_arg11 _ = V c main_arg11 _
  congr 1
  funext a
  apply Fin.ext
  match a with
  | ⟨0, _⟩ => show win5_2.index t 0 * 64 + 1 * (y 0).val = (y 0).val; rw [e0]; omega
  | ⟨1, _⟩ => show win5_2.index t 1 * 64 + 1 * (y 1).val = (y 1).val; rw [e1]; omega

/-- Window 3's block is its whole array at every point. -/
theorem iblk5_3_eq (c : Dev nD) (t : Fin cfg5.N) :
    (iblk5 V c 3 t : Vec Ideal S1x64 .f32) = (V c main_v60 : S1x64.Idx → EReal) := by
  obtain ⟨-, -, -, -, -, -, e0, e1, -⟩ := idx_facts5 t
  funext y
  unfold iblk5
  rw [View.read_apply]
  show V c main_v60 _ = V c main_v60 _
  congr 1
  funext a
  apply Fin.ext
  match a with
  | ⟨0, _⟩ => show win5_3.index t 0 * 1 + 1 * (y 0).val = (y 0).val; rw [e0]; omega
  | ⟨1, _⟩ => show win5_3.index t 1 * 64 + 1 * (y 1).val = (y 1).val; rw [e1]; omega

/-! ## What each point writes back, and the array after the run -/

/-- The payload over blocks that read the two row-blocked arrays at rows `T * 5000 + ·` is the layer at the array's
    index. -/
theorem layer_block5 (A0 A1 : S100000x64.Idx → EReal) (W : S64x64.Idx → EReal) (B : S1x64.Idx → EReal)
    (x0 x1 : Vec Ideal S5000x64 .f32) (T : ℕ)
    (h0 : ∀ (y : S5000x64.Idx) (k : S100000x64.Idx), (k 0).val = T * 5000 + (y 0).val → (k 1).val = (y 1).val → x0 y = A0 k)
    (h1 : ∀ (y : S5000x64.Idx) (k : S100000x64.Idx), (k 0).val = T * 5000 + (y 0).val → (k 1).val = (y 1).val → x1 y = A1 k)
    (y : S5000x64.Idx) (i : S100000x64.Idx) (hi0 : (i 0).val = T * 5000 + (y 0).val) (hi1 : (i 1).val = (y 1).val) :
    k5_pay1 x0 x1 W B y = Cert.Spec.layer A0 A1 W (fun j => B (ix2 (0 : Fin 1) (j 0))) i := by
  obtain ⟨p, q, rfl⟩ : ∃ (p : Fin 5000) (q : Fin 64), y = ix2 p q := ⟨y 0, y 1, eq_ix2 y⟩
  have hq : i 1 = q := Fin.ext hi1
  rw [pay5_apply]
  unfold Cert.Spec.layer
  show Ideal.tanh (_ + B (ix2 (0 : Fin 1) q)) = Ideal.tanh (_ + B (ix2 (0 : Fin 1) (i 1)))
  rw [hq]
  congr 2
  refine Finset.sum_congr rfl fun κ _ => ?_
  rw [h0 (ix2 p κ) (ix2 (i 0) κ) hi0 rfl, h1 (ix2 p κ) (ix2 (i 0) κ) hi0 rfl]

/-- The whole-array function the output ends holding: the layer of the arrays the region finds. -/
abbrev G5 (c : Dev nD) : S100000x64.Idx → EReal :=
  Cert.Spec.layer (V c main_v49 : S100000x64.Idx → EReal) (V c main_v59 : S100000x64.Idx → EReal)
    (V c main_arg11 : S64x64.Idx → EReal) (fun j => (V c main_v60 : S1x64.Idx → EReal) (ix2 (0 : Fin 1) (j 0)))

/-- What point `t` writes back is block `t` of the layer of the arrays as the region finds them. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5_4
  rw [View.canon_unit_zero hz5]
  simp only [View.ld_unit_zero (S := S5000x64) hz5, View.ld_unit_zero (S := S64x64) hz5, View.ld_unit_zero (S := S1x64) hz5]
  rw [iblk5_2_eq, iblk5_3_eq]
  obtain ⟨-, -, -, -, -, -, -, -, e0, e1⟩ := idx_facts5 t
  funext j
  refine layer_block5 _ _ _ _ _ _ t.val (fun y k h0 h1 => iblk5_0_apply V c t y k h0 h1)
    (fun y k h0 h1 => iblk5_1_apply V c t y k h0 h1) _ _ ?_ ?_
  · show win5_4.index t 0 * 5000 + 1 * (j 0).val = t.val * 5000 + (j 0).val
    rw [e0]; omega
  · show win5_4.index t 1 * 64 + 1 * (j 1).val = (j 1).val
    rw [e1]; omega

/-- The output array after the run is the layer of the arrays the region finds: every block is written back, and
    row `r` lies in the block of point `r / 5000`. -/
theorem final5 (c : Dev nD) : ((dat5 V c).arrAt 4 cfg5.N : S100000x64.Idx → EReal)
    = Cert.Spec.layer (V c main_v49 : S100000x64.Idx → EReal) (V c main_v59 : S100000x64.Idx → EReal)
        (V c main_arg11 : S64x64.Idx → EReal) (fun j => (V c main_v60 : S1x64.Idx → EReal) (ValueIdx.ix2 0 (j 0))) :=
  (dat5 V c).arrAt_eq_of_cover 4 (G5 V c) (fun t _ => flushed5_eq V c t) fun i => by
    have hi0 : (i 0 : Nat) < 100000 := (i 0).isLt
    have hi1 : (i 1 : Nat) < 64 := (i 1).isLt
    have hN : cfg5.N = 20 := N_5
    have hlt : (i 0 : Nat) / 5000 < cfg5.N := by rw [hN]; omega
    obtain ⟨-, -, -, -, -, -, -, -, e0, e1⟩ := idx_facts5 ⟨(i 0 : Nat) / 5000, hlt⟩
    refine ⟨⟨(i 0 : Nat) / 5000, hlt⟩, flush5_4 _, ?_⟩
    show i ∈ ((View.whole main_v61).slice (win5_4.rect ⟨(i 0 : Nat) / 5000, hlt⟩)).set
    rw [View.set_slice_whole, Rect.mem_set_unit]
    intro a
    match a with
    | ⟨0, _⟩ =>
      show win5_4.index ⟨(i 0 : Nat) / 5000, hlt⟩ 0 * 5000 ≤ (i 0 : Nat) ∧ (i 0 : Nat) < win5_4.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win5_4.index ⟨(i 0 : Nat) / 5000, hlt⟩ 1 * 64 ≤ (i 1 : Nat) ∧ (i 1 : Nat) < win5_4.index ⟨(i 0 : Nat) / 5000, hlt⟩ 1 * 64 + 64
      rw [e1]; omega

end Cert.KernelIdeal.Val

end
-- ==== Proof.Val6.lean ====
/- Region 6's output array after the run, as one whole-array function of the arrays the region finds, index by
   index, at the ideal values: the body's payload at an index (a contraction over the shared coordinate of the summed
   operands against the weights, plus the bias row, under tanh), each window's block as a read of its array, what each
   point writes back as the block of the whole-array function, and the blocks' cover of the array. -/
import proofs.«132860_j13426067767700_1_alg».proof.Proof.Reg6
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs6_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs6_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs6_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs6_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The [5000,64] × [64,64] product into the zero accumulator at `(p, q)`: the sum over the shared coordinate. -/
theorem matmul6_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ κ : Fin 64, l (ix2 p κ) * r (ix2 κ q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs6_0 _ _
    | ⟨1, _⟩ => exact (lhs6_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs6_0 _ _).trans hk
    | ⟨1, _⟩ => exact rhs6_1 _ _)
  rw [el, er]

/-! ## The body's payload at an index -/

/-- The payload at `(p, q)`: the two loaded blocks added, contracted against the weights, plus the bias row's entry,
    under tanh. -/
theorem pay6_apply (x0 x1 : Vec Ideal S5000x64 .f32) (x2 : Vec Ideal S64x64 .f32) (x3 : Vec Ideal S1x64 .f32) (p : Fin 5000) (q : Fin 64) :
    k6_pay1 x0 x1 x2 x3 (ix2 p q)
      = Ideal.tanh ((∑ κ : Fin 64, (x0 (ix2 p κ) + x1 (ix2 p κ)) * x2 (ix2 κ q)) + x3 (ix2 (0 : Fin 1) q)) := by
  unfold k6_pay1
  simp only [shapeCast_self]
  show Ideal.tanh (_ + _) = _
  rw [matmul6_apply, broadcastTo_1b_ab_apply]
  rfl

/-! ## The windows' blocks as reads of their arrays -/

-- the TensorCore's buffer contents when the region is entered
variable (V : (c : Dev nD) → (b : Ref sig .tc) → Buf (Elt Ideal) ((c : Thread nD τ).loc b))

theorem hz6 : (![0, 0] : Fin 2 → Nat) = fun _ => 0 := funext fun a => by fin_cases a <;> rfl

/-- The printed index maps, decided over the grid: the row-blocked windows sit at block `(t, 0)`, the resident ones
    at `(0, 0)`. -/
theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Window 0's block at point `t` is rows `5000 t … 5000 t + 4999` of its array. -/
theorem iblk6_0_apply (c : Dev nD) (t : Fin cfg6.N) (y : S5000x64.Idx) (k : S100000x64.Idx)
    (hk0 : (k 0).val = t.val * 5000 + (y 0).val) (hk1 : (k 1).val = (y 1).val) :
    (iblk6 V c 0 t : Vec Ideal S5000x64 .f32) y = (V c main_v61 : S100000x64.Idx → EReal) k := by
  obtain ⟨e0, e1, -⟩ := idx_facts6 t
  unfold iblk6
  rw [View.read_apply]
  show V c main_v61 _ = V c main_v61 _
  congr 1
  funext a
  apply Fin.ext
  match a with
  | ⟨0, _⟩ => show win6_0.index t 0 * 5000 + 1 * (y 0).val = (k 0).val; rw [e0, hk0]; omega
  | ⟨1, _⟩ => show win6_0.index t 1 * 64 + 1 * (y 1).val = (k 1).val; rw [e1, hk1]; omega

/-- Window 1's block at point `t` is the same rows of its array. -/
theorem iblk6_1_apply (c : Dev nD) (t : Fin cfg6.N) (y : S5000x64.Idx) (k : S100000x64.Idx)
    (hk0 : (k 0).val = t.val * 5000 + (y 0).val) (hk1 : (k 1).val = (y 1).val) :
    (iblk6 V c 1 t : Vec Ideal S5000x64 .f32) y = (V c main_v71 : S100000x64.Idx → EReal) k := by
  obtain ⟨-, -, e0, e1, -⟩ := idx_facts6 t
  unfold iblk6
  rw [View.read_apply]
  show V c main_v71 _ = V c main_v71 _
  congr 1
  funext a
  apply Fin.ext
  match a with
  | ⟨0, _⟩ => show win6_1.index t 0 * 5000 + 1 * (y 0).val = (k 0).val; rw [e0, hk0]; omega
  | ⟨1, _⟩ => show win6_1.index t 1 * 64 + 1 * (y 1).val = (k 1).val; rw [e1, hk1]; omega

/-- Window 2's block is its whole array at every point. -/
theorem iblk6_2_eq (c : Dev nD) (t : Fin cfg6.N) :
    (iblk6 V c 2 t : Vec Ideal S64x64 .f32) = (V c main_arg13 : S64x64.Idx → EReal) := by
  obtain ⟨-, -, -, -, e0, e1, -⟩ := idx_facts6 t
  funext y
  unfold iblk6
  rw [View.read_apply]
  show V c main_arg13 _ = V c main_arg13 _
  congr 1
  funext a
  apply Fin.ext
  match a with
  | ⟨0, _⟩ => show win6_2.index t 0 * 64 + 1 * (y 0).val = (y 0).val; rw [e0]; omega
  | ⟨1, _⟩ => show win6_2.index t 1 * 64 + 1 * (y 1).val = (y 1).val; rw [e1]; omega

/-- Window 3's block is its whole array at every point. -/
theorem iblk6_3_eq (c : Dev nD) (t : Fin cfg6.N) :
    (iblk6 V c 3 t : Vec Ideal S1x64 .f32) = (V c main_v72 : S1x64.Idx → EReal) := by
  obtain ⟨-, -, -, -, -, -, e0, e1, -⟩ := idx_facts6 t
  funext y
  unfold iblk6
  rw [View.read_apply]
  show V c main_v72 _ = V c main_v72 _
  congr 1
  funext a
  apply Fin.ext
  match a with
  | ⟨0, _⟩ => show win6_3.index t 0 * 1 + 1 * (y 0).val = (y 0).val; rw [e0]; omega
  | ⟨1, _⟩ => show win6_3.index t 1 * 64 + 1 * (y 1).val = (y 1).val; rw [e1]; omega

/-! ## What each point writes back, and the array after the run -/

/-- The payload over blocks that read the two row-blocked arrays at rows `T * 5000 + ·` is the layer at the array's
    index. -/
theorem layer_block6 (A0 A1 : S100000x64.Idx → EReal) (W : S64x64.Idx → EReal) (B : S1x64.Idx → EReal)
    (x0 x1 : Vec Ideal S5000x64 .f32) (T : ℕ)
    (h0 : ∀ (y : S5000x64.Idx) (k : S100000x64.Idx), (k 0).val = T * 5000 + (y 0).val → (k 1).val = (y 1).val → x0 y = A0 k)
    (h1 : ∀ (y : S5000x64.Idx) (k : S100000x64.Idx), (k 0).val = T * 5000 + (y 0).val → (k 1).val = (y 1).val → x1 y = A1 k)
    (y : S5000x64.Idx) (i : S100000x64.Idx) (hi0 : (i 0).val = T * 5000 + (y 0).val) (hi1 : (i 1).val = (y 1).val) :
    k6_pay1 x0 x1 W B y = Cert.Spec.layer A0 A1 W (fun j => B (ix2 (0 : Fin 1) (j 0))) i := by
  obtain ⟨p, q, rfl⟩ : ∃ (p : Fin 5000) (q : Fin 64), y = ix2 p q := ⟨y 0, y 1, eq_ix2 y⟩
  have hq : i 1 = q := Fin.ext hi1
  rw [pay6_apply]
  unfold Cert.Spec.layer
  show Ideal.tanh (_ + B (ix2 (0 : Fin 1) q)) = Ideal.tanh (_ + B (ix2 (0 : Fin 1) (i 1)))
  rw [hq]
  congr 2
  refine Finset.sum_congr rfl fun κ _ => ?_
  rw [h0 (ix2 p κ) (ix2 (i 0) κ) hi0 rfl, h1 (ix2 p κ) (ix2 (i 0) κ) hi0 rfl]

/-- The whole-array function the output ends holding: the layer of the arrays the region finds. -/
abbrev G6 (c : Dev nD) : S100000x64.Idx → EReal :=
  Cert.Spec.layer (V c main_v61 : S100000x64.Idx → EReal) (V c main_v71 : S100000x64.Idx → EReal)
    (V c main_arg13 : S64x64.Idx → EReal) (fun j => (V c main_v72 : S1x64.Idx → EReal) (ix2 (0 : Fin 1) (j 0)))

/-- What point `t` writes back is block `t` of the layer of the arrays as the region finds them. -/
theorem flushed6_eq (c : Dev nD) (t : Fin cfg6.N) :
    (dat6 V c).flushed 4 t = ((cfg6.win 4).blk t).view.read (Elt Ideal) (G6 V c) := by
  show (cfg6.win 4).cut (grid6.coords t) ((dat6 V c).after 4 t) = _
  rw [after6_4]
  unfold out6_4
  rw [View.canon_unit_zero hz6]
  simp only [View.ld_unit_zero (S := S5000x64) hz6, View.ld_unit_zero (S := S64x64) hz6, View.ld_unit_zero (S := S1x64) hz6]
  rw [iblk6_2_eq, iblk6_3_eq]
  obtain ⟨-, -, -, -, -, -, -, -, e0, e1⟩ := idx_facts6 t
  funext j
  refine layer_block6 _ _ _ _ _ _ t.val (fun y k h0 h1 => iblk6_0_apply V c t y k h0 h1)
    (fun y k h0 h1 => iblk6_1_apply V c t y k h0 h1) _ _ ?_ ?_
  · show win6_4.index t 0 * 5000 + 1 * (j 0).val = t.val * 5000 + (j 0).val
    rw [e0]; omega
  · show win6_4.index t 1 * 64 + 1 * (j 1).val = (j 1).val
    rw [e1]; omega

/-- The output array after the run is the layer of the arrays the region finds: every block is written back, and
    row `r` lies in the block of point `r / 5000`. -/
theorem final6 (c : Dev nD) : ((dat6 V c).arrAt 4 cfg6.N : S100000x64.Idx → EReal)
    = Cert.Spec.layer (V c main_v61 : S100000x64.Idx → EReal) (V c main_v71 : S100000x64.Idx → EReal)
        (V c main_arg13 : S64x64.Idx → EReal) (fun j => (V c main_v72 : S1x64.Idx → EReal) (ValueIdx.ix2 0 (j 0))) :=
  (dat6 V c).arrAt_eq_of_cover 4 (G6 V c) (fun t _ => flushed6_eq V c t) fun i => by
    have hi0 : (i 0 : Nat) < 100000 := (i 0).isLt
    have hi1 : (i 1 : Nat) < 64 := (i 1).isLt
    have hN : cfg6.N = 20 := N_6
    have hlt : (i 0 : Nat) / 5000 < cfg6.N := by rw [hN]; omega
    obtain ⟨-, -, -, -, -, -, -, -, e0, e1⟩ := idx_facts6 ⟨(i 0 : Nat) / 5000, hlt⟩
    refine ⟨⟨(i 0 : Nat) / 5000, hlt⟩, flush6_4 _, ?_⟩
    show i ∈ ((View.whole main_v73).slice (win6_4.rect ⟨(i 0 : Nat) / 5000, hlt⟩)).set
    rw [View.set_slice_whole, Rect.mem_set_unit]
    intro a
    match a with
    | ⟨0, _⟩ =>
      show win6_4.index ⟨(i 0 : Nat) / 5000, hlt⟩ 0 * 5000 ≤ (i 0 : Nat) ∧ (i 0 : Nat) < win6_4.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win6_4.index ⟨(i 0 : Nat) / 5000, hlt⟩ 1 * 64 ≤ (i 1 : Nat) ∧ (i 1 : Nat) < win6_4.index ⟨(i 0 : Nat) / 5000, hlt⟩ 1 * 64 + 64
      rw [e1]; omega

end Cert.KernelIdeal.Val

end
-- ==== Proof.Val7.lean ====
/- Region 7's output array after the run, as one whole-array function of the arrays the region finds, index by
   index, at the ideal values: the body's payload at an index (a contraction over the shared coordinate of the
   loaded block against the weights, under tanh), each window's block as a read of its array, what each
   point writes back as the block of the whole-array function, and the blocks' cover of the array. -/
import proofs.«132860_j13426067767700_1_alg».proof.Proof.Reg7
import proofs.«132860_j13426067767700_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)
open scoped BigOperators

/-! ## The contraction at an index -/

theorem lhs7_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs7_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs7_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs7_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The [5000,64] × [64,64] product into the zero accumulator at `(p, q)`: the sum over the shared coordinate. -/
theorem matmul7_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ κ : Fin 64, l (ix2 p κ) * r (ix2 κ q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs7_0 _ _
    | ⟨1, _⟩ => exact (lhs7_1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs7_0 _ _).trans hk
    | ⟨1, _⟩ => exact rhs7_1 _ _)
  rw [el, er]

/-! ## The body's payload at an index -/

/-- The payload at `(p, q)`: the loaded block contracted against the weights, under tanh. -/
theorem pay7_apply (x0 : Vec Ideal S5000x64 .f32) (x1 : Vec Ideal S64x64 .f32) (p : Fin 5000) (q : Fin 64) :
    k7_pay1 x0 x1 (ix2 p q) = Ideal.tanh (∑ κ : Fin 64, x0 (ix2 p κ) * x1 (ix2 κ q)) := by
  unfold k7_pay1
  simp only [shapeCast_self]
  show Ideal.tanh _ = _
  rw [matmul7_apply]
  rfl

/-! ## The windows' blocks as reads of their arrays -/

-- the TensorCore's buffer contents when the region is entered
variable (V : (c : Dev nD) → (b : Ref sig .tc) → Buf (Elt Ideal) ((c : Thread nD τ).loc b))

theorem hz7 : (![0, 0] : Fin 2 → Nat) = fun _ => 0 := funext fun a => by fin_cases a <;> rfl

/-- The printed index maps, decided over the grid: the row-blocked windows sit at block `(t, 0)`, the resident one
    at `(0, 0)`. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- Window 0's block at point `t` is rows `5000 t … 5000 t + 4999` of its array. -/
theorem iblk7_0_apply (c : Dev nD) (t : Fin cfg7.N) (y : S5000x64.Idx) (k : S100000x64.Idx)
    (hk0 : (k 0).val = t.val * 5000 + (y 0).val) (hk1 : (k 1).val = (y 1).val) :
    (iblk7 V c 0 t : Vec Ideal S5000x64 .f32) y = (V c main_v73 : S100000x64.Idx → EReal) k := by
  obtain ⟨e0, e1, -⟩ := idx_facts7 t
  unfold iblk7
  rw [View.read_apply]
  show V c main_v73 _ = V c main_v73 _
  congr 1
  funext a
  apply Fin.ext
  match a with
  | ⟨0, _⟩ => show win7_0.index t 0 * 5000 + 1 * (y 0).val = (k 0).val; rw [e0, hk0]; omega
  | ⟨1, _⟩ => show win7_0.index t 1 * 64 + 1 * (y 1).val = (k 1).val; rw [e1, hk1]; omega

/-- Window 1's block is its whole array at every point. -/
theorem iblk7_1_eq (c : Dev nD) (t : Fin cfg7.N) :
    (iblk7 V c 1 t : Vec Ideal S64x64 .f32) = (V c main_arg15 : S64x64.Idx → EReal) := by
  obtain ⟨-, -, e0, e1, -⟩ := idx_facts7 t
  funext y
  unfold iblk7
  rw [View.read_apply]
  show V c main_arg15 _ = V c main_arg15 _
  congr 1
  funext a
  apply Fin.ext
  match a with
  | ⟨0, _⟩ => show win7_1.index t 0 * 64 + 1 * (y 0).val = (y 0).val; rw [e0]; omega
  | ⟨1, _⟩ => show win7_1.index t 1 * 64 + 1 * (y 1).val = (y 1).val; rw [e1]; omega

/-! ## What each point writes back, and the array after the run -/

/-- The payload over a block that reads the row-blocked array at rows `T * 5000 + ·` is the projection at the array's
    index. -/
theorem proj_block7 (A0 : S100000x64.Idx → EReal) (W : S64x64.Idx → EReal)
    (x0 : Vec Ideal S5000x64 .f32) (T : ℕ)
    (h0 : ∀ (y : S5000x64.Idx) (k : S100000x64.Idx), (k 0).val = T * 5000 + (y 0).val → (k 1).val = (y 1).val → x0 y = A0 k)
    (y : S5000x64.Idx) (i : S100000x64.Idx) (hi0 : (i 0).val = T * 5000 + (y 0).val) (hi1 : (i 1).val = (y 1).val) :
    k7_pay1 x0 W y = Cert.Spec.proj A0 W i := by
  obtain ⟨p, q, rfl⟩ : ∃ (p : Fin 5000) (q : Fin 64), y = ix2 p q := ⟨y 0, y 1, eq_ix2 y⟩
  have hq : i 1 = q := Fin.ext hi1
  rw [pay7_apply]
  unfold Cert.Spec.proj
  show Ideal.tanh _ = Ideal.tanh _
  rw [hq]
  congr 1
  refine Finset.sum_congr rfl fun κ _ => ?_
  rw [h0 (ix2 p κ) (ix2 (i 0) κ) hi0 rfl]

/-- The whole-array function the output ends holding: the projection of the arrays the region finds. -/
abbrev G7 (c : Dev nD) : S100000x64.Idx → EReal :=
  Cert.Spec.proj (V c main_v73 : S100000x64.Idx → EReal) (V c main_arg15 : S64x64.Idx → EReal)

/-- What point `t` writes back is block `t` of the projection of the arrays as the region finds them. -/
theorem flushed7_eq (c : Dev nD) (t : Fin cfg7.N) :
    (dat7 V c).flushed 2 t = ((cfg7.win 2).blk t).view.read (Elt Ideal) (G7 V c) := by
  show (cfg7.win 2).cut (grid7.coords t) ((dat7 V c).after 2 t) = _
  rw [after7_2]
  unfold out7_2
  rw [View.canon_unit_zero hz7]
  simp only [View.ld_unit_zero (S := S5000x64) hz7, View.ld_unit_zero (S := S64x64) hz7]
  rw [iblk7_1_eq]
  obtain ⟨-, -, -, -, e0, e1⟩ := idx_facts7 t
  funext j
  refine proj_block7 _ _ _ t.val (fun y k h0 h1 => iblk7_0_apply V c t y k h0 h1) _ _ ?_ ?_
  · show win7_2.index t 0 * 5000 + 1 * (j 0).val = t.val * 5000 + (j 0).val
    rw [e0]; omega
  · show win7_2.index t 1 * 64 + 1 * (j 1).val = (j 1).val
    rw [e1]; omega

/-- The output array after the run is the projection of the arrays the region finds: every block is written back, and
    row `r` lies in the block of point `r / 5000`. -/
theorem final7 (c : Dev nD) : ((dat7 V c).arrAt 2 cfg7.N : S100000x64.Idx → EReal)
    = Cert.Spec.proj (V c main_v73 : S100000x64.Idx → EReal) (V c main_arg15 : S64x64.Idx → EReal) :=
  (dat7 V c).arrAt_eq_of_cover 2 (G7 V c) (fun t _ => flushed7_eq V c t) fun i => by
    have hi0 : (i 0 : Nat) < 100000 := (i 0).isLt
    have hi1 : (i 1 : Nat) < 64 := (i 1).isLt
    have hN : cfg7.N = 20 := N_7
    have hlt : (i 0 : Nat) / 5000 < cfg7.N := by rw [hN]; omega
    obtain ⟨-, -, -, -, e0, e1⟩ := idx_facts7 ⟨(i 0 : Nat) / 5000, hlt⟩
    refine ⟨⟨(i 0 : Nat) / 5000, hlt⟩, flush7_2 _, ?_⟩
    show i ∈ ((View.whole main_v74).slice (win7_2.rect ⟨(i 0 : Nat) / 5000, hlt⟩)).set
    rw [View.set_slice_whole, Rect.mem_set_unit]
    intro a
    match a with
    | ⟨0, _⟩ =>
      show win7_2.index ⟨(i 0 : Nat) / 5000, hlt⟩ 0 * 5000 ≤ (i 0 : Nat) ∧ (i 0 : Nat) < win7_2.index ⟨(i 0 : Nat) / 5000, hlt⟩ 0 * 5000 + 5000
      rw [e0]; show (i 0 : Nat) / 5000 * 5000 ≤ (i 0 : Nat) ∧ (i 0 : Nat) < (i 0 : Nat) / 5000 * 5000 + 5000; omega
    | ⟨1, _⟩ =>
      show win7_2.index ⟨(i 0 : Nat) / 5000, hlt⟩ 1 * 64 ≤ (i 1 : Nat) ∧ (i 1 : Nat) < win7_2.index ⟨(i 0 : Nat) / 5000, hlt⟩ 1 * 64 + 64
      rw [e1]; omega

end Cert.KernelIdeal.Val

end
-- ==== Proof.RefRun.lean ====
import proofs.«132860_j13426067767700_1_alg».proof.Defs
import proofs.«132860_j13426067767700_1_alg».proof.Proof.Gen.ReferenceIdeal
import proofs.«132860_j13426067767700_1_alg».proof.Proof.Gen.Pre_finite_inputs
import Idealize.ShloMosaic.Lib.StableHlo.Run

/-! The reference program's @main as a list of its host operations, in order, the outlined variance function (and the
    select it calls) written out at its call site over that call's buffers; and its run: every weakly fair execution
    terminates with each buffer at the operations' fold over the launch contents, the sixteen arguments unchanged. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 81 of 148 (the first window: the edge-index rows, the scaled input and its column mean, the variance function's twenty-two operations at its call, the normalization, the first layer and the second layer's gather). -/
abbrev ops0 : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg1 main_v4 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v4 main_v5 (mulf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x00000000#32),
    StableHlo.binary main_v5 main_cst main_v6 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v7 (broadcastInDim S128 ![] bcast_S_S128 : (⟨S_, .f32⟩ : BufTy).Contents (Elt F) → (⟨S128, .f32⟩ : BufTy).Contents (Elt F)),
    StableHlo.binary main_v6 main_v7 main_v8 (Host.divf : (⟨S128, .f32⟩ : BufTy).Contents (Elt F) → (⟨S128, .f32⟩ : BufTy).Contents (Elt F) → (⟨S128, .f32⟩ : BufTy).Contents (Elt F)),
    StableHlo.nullary main_c (constantI S_ 32 0#32),
    StableHlo.TRef.nullary main_call0.cst (constant S_ .f32 0x00000000#32),
    StableHlo.TRef.binary (.of main_v5 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v5 : StableHlo.TRef sig ⟨S100000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v8 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v5 main_v11 main_v12 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v13 (broadcastInDim S128 ![] bcast_S_S128 : (⟨S_, .f32⟩ : BufTy).Contents (Elt F) → (⟨S128, .f32⟩ : BufTy).Contents (Elt F)),
    StableHlo.binary main_v9 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.rsqrt : (⟨S128, .f32⟩ : BufTy).Contents (Elt F) → (⟨S128, .f32⟩ : BufTy).Contents (Elt F)),
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v17 main_v18 (mulf : (⟨S100000x128, .f32⟩ : BufTy).Contents (Elt F) → (⟨S100000x128, .f32⟩ : BufTy).Contents (Elt F) → (⟨S100000x128, .f32⟩ : BufTy).Contents (Elt F)),
    StableHlo.unary main_arg3 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (mulf : (⟨S100000x128, .f32⟩ : BufTy).Contents (Elt F) → (⟨S100000x128, .f32⟩ : BufTy).Contents (Elt F) → (⟨S100000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)),
    StableHlo.nullary main_c_2 (constantI S_ 32 0#32),
    StableHlo.unary main_c_2 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v32 (broadcastInDim S100000x128 ![] bcast_S_S100000x128 : (⟨S_, .f32⟩ : BufTy).Contents (Elt F) → (⟨S100000x128, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v24 main_v34 main_v35 (addf : (⟨S100000x128, .f32⟩ : BufTy).Contents (Elt F) → (⟨S100000x128, .f32⟩ : BufTy).Contents (Elt F) → (⟨S100000x128, .f32⟩ : BufTy).Contents (Elt F)),
    StableHlo.binary main_v35 main_arg5 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.unary main_v39 main_v40 (Host.tanh : (⟨S100000x64, .f32⟩ : BufTy).Contents (Elt F) → (⟨S100000x64, .f32⟩ : BufTy).Contents (Elt F)),
    StableHlo.nullary main_c_5 (constantI S_ 32 0#32),
    StableHlo.unary main_c_5 main_v41 (broadcastInDim S1600000 ![] bcast_S_S1600000 : (⟨S_, .i32⟩ : BufTy).Contents (Elt F) → (⟨S1600000, .i32⟩ : BufTy).Contents (Elt F)),
    StableHlo.binary main_v1 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_v1 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_v1 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.binary main_v40 main_v46 main_v47 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v48 (broadcastInDim S100000x64 ![] bcast_S_S100000x64 : (⟨S_, .f32⟩ : BufTy).Contents (Elt F) → (⟨S100000x64, .f32⟩ : BufTy).Contents (Elt F)),
    StableHlo.unary main_v3 main_v49 (broadcastInDim S1600000x1 ![0] bcast_S1600000_S1600000x1_0 : (⟨S1600000, .i32⟩ : BufTy).Contents (Elt F) → (⟨S1600000x1, .i32⟩ : BufTy).Contents (Elt F)) ]

/-- @main's operations 82 … 141 of 148 (the second window: the second layer's scatter-add to the fifth layer's product). -/
abbrev ops1 : List (HloOp τ sig (Elt F)) :=
  [ StableHlo.ternary main_v48 main_v49 main_v47 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v40 main_v50 main_v51 (addf : (⟨S100000x64, .f32⟩ : BufTy).Contents (Elt F) → (⟨S100000x64, .f32⟩ : BufTy).Contents (Elt F) → (⟨S100000x64, .f32⟩ : BufTy).Contents (Elt F)),
    StableHlo.binary main_v51 main_arg7 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v54 main_v55 (addf : (⟨S100000x64, .f32⟩ : BufTy).Contents (Elt F) → (⟨S100000x64, .f32⟩ : BufTy).Contents (Elt F) → (⟨S100000x64, .f32⟩ : BufTy).Contents (Elt F)),
    StableHlo.unary main_v55 main_v56 (Host.tanh : (⟨S100000x64, .f32⟩ : BufTy).Contents (Elt F) → (⟨S100000x64, .f32⟩ : BufTy).Contents (Elt F)),
    StableHlo.nullary main_c_8 (constantI S_ 32 0#32),
    StableHlo.unary main_c_8 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v56 main_v62 main_v63 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_10 (constant S_ .f32 0x00000000#32),
    StableHlo.unary main_cst_10 main_v64 (broadcastInDim S100000x64 ![] bcast_S_S100000x64 : (⟨S_, .f32⟩ : BufTy).Contents (Elt F) → (⟨S100000x64, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v56 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v67 main_arg9 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.unary main_v71 main_v72 (Host.tanh : (⟨S100000x64, .f32⟩ : BufTy).Contents (Elt F) → (⟨S100000x64, .f32⟩ : BufTy).Contents (Elt F)),
    StableHlo.nullary main_c_11 (constantI S_ 32 0#32),
    StableHlo.unary main_c_11 main_v73 (broadcastInDim S1600000 ![] bcast_S_S1600000 : (⟨S_, .i32⟩ : BufTy).Contents (Elt F) → (⟨S1600000, .i32⟩ : BufTy).Contents (Elt F)),
    StableHlo.binary main_v1 main_v73 main_v74 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v75 (broadcastInDim S1600000 ![] bcast_S_S1600000 : (⟨S_, .i32⟩ : BufTy).Contents (Elt F) → (⟨S1600000, .i32⟩ : BufTy).Contents (Elt F)),
    StableHlo.binary main_v1 main_v75 main_v76 (addi : (⟨S1600000, .i32⟩ : BufTy).Contents (Elt F) → (⟨S1600000, .i32⟩ : BufTy).Contents (Elt F) → (⟨S1600000, .i32⟩ : BufTy).Contents (Elt F)),
    StableHlo.ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v77 main_v78 (broadcastInDim S1600000x1 ![0] bcast_S1600000_S1600000x1_0 : (⟨S1600000, .i32⟩ : BufTy).Contents (Elt F) → (⟨S1600000x1, .i32⟩ : BufTy).Contents (Elt F)),
    StableHlo.binary main_v72 main_v78 main_v79 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v80 (broadcastInDim S100000x64 ![] bcast_S_S100000x64 : (⟨S_, .f32⟩ : BufTy).Contents (Elt F) → (⟨S100000x64, .f32⟩ : BufTy).Contents (Elt F)),
    StableHlo.unary main_v3 main_v81 (broadcastInDim S1600000x1 ![0] bcast_S1600000_S1600000x1_0 : (⟨S1600000, .i32⟩ : BufTy).Contents (Elt F) → (⟨S1600000x1, .i32⟩ : BufTy).Contents (Elt F)),
    StableHlo.ternary main_v80 main_v81 main_v79 main_v82 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v72 main_v82 main_v83 (addf : (⟨S100000x64, .f32⟩ : BufTy).Contents (Elt F) → (⟨S100000x64, .f32⟩ : BufTy).Contents (Elt F) → (⟨S100000x64, .f32⟩ : BufTy).Contents (Elt F)),
    StableHlo.binary main_v83 main_arg11 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.unary main_v87 main_v88 (Host.tanh : (⟨S100000x64, .f32⟩ : BufTy).Contents (Elt F) → (⟨S100000x64, .f32⟩ : BufTy).Contents (Elt F)),
    StableHlo.nullary main_c_14 (constantI S_ 32 0#32),
    StableHlo.unary main_c_14 main_v89 (broadcastInDim S1600000 ![] bcast_S_S1600000 : (⟨S_, .i32⟩ : BufTy).Contents (Elt F) → (⟨S1600000, .i32⟩ : BufTy).Contents (Elt F)),
    StableHlo.binary main_v1 main_v89 main_v90 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v91 (broadcastInDim S1600000 ![] bcast_S_S1600000 : (⟨S_, .i32⟩ : BufTy).Contents (Elt F) → (⟨S1600000, .i32⟩ : BufTy).Contents (Elt F)),
    StableHlo.binary main_v1 main_v91 main_v92 (addi : (⟨S1600000, .i32⟩ : BufTy).Contents (Elt F) → (⟨S1600000, .i32⟩ : BufTy).Contents (Elt F) → (⟨S1600000, .i32⟩ : BufTy).Contents (Elt F)),
    StableHlo.ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v93 main_v94 (broadcastInDim S1600000x1 ![0] bcast_S1600000_S1600000x1_0 : (⟨S1600000, .i32⟩ : BufTy).Contents (Elt F) → (⟨S1600000x1, .i32⟩ : BufTy).Contents (Elt F)),
    StableHlo.binary main_v88 main_v94 main_v95 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v96 (broadcastInDim S100000x64 ![] bcast_S_S100000x64 : (⟨S_, .f32⟩ : BufTy).Contents (Elt F) → (⟨S100000x64, .f32⟩ : BufTy).Contents (Elt F)),
    StableHlo.unary main_v3 main_v97 (broadcastInDim S1600000x1 ![0] bcast_S1600000_S1600000x1_0 : (⟨S1600000, .i32⟩ : BufTy).Contents (Elt F) → (⟨S1600000x1, .i32⟩ : BufTy).Contents (Elt F)),
    StableHlo.ternary main_v96 main_v97 main_v95 main_v98 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v88 main_v98 main_v99 (addf : (⟨S100000x64, .f32⟩ : BufTy).Contents (Elt F) → (⟨S100000x64, .f32⟩ : BufTy).Contents (Elt F) → (⟨S100000x64, .f32⟩ : BufTy).Contents (Elt F)),
    StableHlo.binary main_v99 main_arg13 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- @main's operations 142 … 148 of 148 (the third window: the fifth layer's bias and tanh, the last product and tanh, the concatenation). -/
abbrev ops2 : List (HloOp τ sig (Elt F)) :=
  [ StableHlo.unary main_arg14 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.unary main_v103 main_v104 (Host.tanh : (⟨S100000x64, .f32⟩ : BufTy).Contents (Elt F) → (⟨S100000x64, .f32⟩ : BufTy).Contents (Elt F)),
    StableHlo.binary main_v104 main_arg15 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v105 main_v106 (Host.tanh : (⟨S100000x64, .f32⟩ : BufTy).Contents (Elt F) → (⟨S100000x64, .f32⟩ : BufTy).Contents (Elt F)),
    StableHlo.nary ![main_v40, main_v56, main_v72, main_v88, main_v104, main_v106] main_v107 (fun u => concatenate S100000x384 1 [⟨S100000x64, u 0⟩, ⟨S100000x64, u 1⟩, ⟨S100000x64, u 2⟩, ⟨S100000x64, u 3⟩, ⟨S100000x64, u 4⟩, ⟨S100000x64, u 5⟩] concatenates_S100000x64_S100000x64_S100000x64_S100000x64_S100000x64_S100000x64_S100000x384_d1) ]

/-- @main's 148 operations, in order: its 126 own, and where it calls the variance function the twenty-two that call runs. -/
abbrev ops : List (HloOp τ sig (Elt F)) := ops0 ++ ops1 ++ ops2

-- the callee's binds are re-associated under the chain: one rewrite per statement
set_option maxRecDepth 8192 in
set_option maxHeartbeats 4000000 in
/-- The first window is that straight line: the two functions' bodies unfolded at their calls and the records at
    their fields, sequencing re-associated. -/
theorem main_part0_eq (c : Dev nD) : main_part0 (F := F) c = seq ops0 := by
  simp only [main_part0, fn_var.body, fn_where.body, seq, bind_assoc, pure_bind]
  rfl
set_option maxRecDepth 8192 in
theorem main_part1_eq (c : Dev nD) : main_part1 (F := F) c = seq ops1 := rfl
set_option maxRecDepth 8192 in
theorem main_part2_eq (c : Dev nD) : main_part2 (F := F) c = seq ops2 := rfl
set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩

theorem ops1_sub : (ops1 : List (HloOp τ sig (Elt F))).Forall fun op => op.bufs ⊆ tcRefs τ sig :=
  ⟨ternary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub ..⟩

theorem ops2_sub : (ops2 : List (HloOp τ sig (Elt F))).Forall fun op => op.bufs ⊆ tcRefs τ sig :=
  ⟨unary_bufs_sub .., unary_bufs_sub .., binary_bufs_sub .., unary_bufs_sub .., binary_bufs_sub .., unary_bufs_sub .., nary_bufs_sub ..⟩

theorem ops_sub : (ops : List (HloOp τ sig (Elt F))).Forall fun op => op.bufs ⊆ tcRefs τ sig :=
  List.forall_iff_forall_mem.2 fun op h => by
    simp only [ops, List.mem_append] at h
    rcases h with (h | h) | h
    exacts [List.forall_iff_forall_mem.1 ops0_sub op h, List.forall_iff_forall_mem.1 ops1_sub op h, List.forall_iff_forall_mem.1 ops2_sub op h]

/-- The buffers @main's operations write: every value's, no argument's. -/
abbrev opsW : List (Ref sig .tc) := [main_v0, main_v1, main_v2, main_v3, main_v4, main_v5, main_cst, main_v6, main_cst_0, main_v7, main_v8, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v9, main_v10, main_v11, main_v12, main_cst_1, main_v13, main_v14, main_v15, main_v16, main_v17, main_v18, main_v19, main_v20, main_v21, main_v22, main_v23, main_v24, main_c_2, main_v25, main_v26, main_c_3, main_v27, main_v28, main_v29, main_v30, main_v31, main_cst_4, main_v32, main_v33, main_v34, main_v35, main_v36, main_v37, main_v38, main_v39, main_v40, main_c_5, main_v41, main_v42, main_c_6, main_v43, main_v44, main_v45, main_v46, main_v47, main_cst_7, main_v48, main_v49, main_v50, main_v51, main_v52, main_v53, main_v54, main_v55, main_v56, main_c_8, main_v57, main_v58, main_c_9, main_v59, main_v60, main_v61, main_v62, main_v63, main_cst_10, main_v64, main_v65, main_v66, main_v67, main_v68, main_v69, main_v70, main_v71, main_v72, main_c_11, main_v73, main_v74, main_c_12, main_v75, main_v76, main_v77, main_v78, main_v79, main_cst_13, main_v80, main_v81, main_v82, main_v83, main_v84, main_v85, main_v86, main_v87, main_v88, main_c_14, main_v89, main_v90, main_c_15, main_v91, main_v92, main_v93, main_v94, main_v95, main_cst_16, main_v96, main_v97, main_v98, main_v99, main_v100, main_v101, main_v102, main_v103, main_v104, main_v105, main_v106, main_v107]

set_option maxRecDepth 8192 in
theorem ops0_writes : (ops0 : List (HloOp τ sig (Elt F))).Forall fun op => op.writes ⊆ (opsW.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem ops1_writes : (ops1 : List (HloOp τ sig (Elt F))).Forall fun op => op.writes ⊆ (opsW.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
theorem ops2_writes : (ops2 : List (HloOp τ sig (Elt F))).Forall fun op => op.writes ⊆ (opsW.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

theorem ops_writes : (ops : List (HloOp τ sig (Elt F))).Forall fun op => op.writes ⊆ (opsW.map (Proc.devRef (τ := τ) .tc)).toFinset :=
  List.forall_iff_forall_mem.2 fun op h => by
    simp only [ops, List.mem_append] at h
    rcases h with (h | h) | h
    exacts [List.forall_iff_forall_mem.1 ops0_writes op h, List.forall_iff_forall_mem.1 ops1_writes op h, List.forall_iff_forall_mem.1 ops2_writes op h]

/-- A buffer no operation writes (an argument's) holds after the line what it held before. -/
theorem ops_keep (V : Valuation τ sig (Elt F)) (r : Ref sig .tc) (h : r ∉ opsW) :
    after ops V (Proc.devRef .tc r) = V (Proc.devRef .tc r) :=
  after_of_writes_sub ops V ops_writes h

/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v107) = after ops (fun b => m (c, b)) (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v107,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide)),
      (h c main_arg8).trans (ops_keep _ main_arg8 (by decide)),
      (h c main_arg9).trans (ops_keep _ main_arg9 (by decide)),
      (h c main_arg10).trans (ops_keep _ main_arg10 (by decide)),
      (h c main_arg11).trans (ops_keep _ main_arg11 (by decide)),
      (h c main_arg12).trans (ops_keep _ main_arg12 (by decide)),
      (h c main_arg13).trans (ops_keep _ main_arg13 (by decide)),
      (h c main_arg14).trans (ops_keep _ main_arg14 (by decide)),
      (h c main_arg15).trans (ops_keep _ main_arg15 (by decide))⟩)
    (run_seq scopedRefs_eq scopedSems_eq defs main (fun _ => ops) main_eq (fun _ => ops_sub) m ρ)

end Cert.ReferenceIdeal.RefRun

namespace Cert.Proof.RefRunClaims

open Idealize.ShloMosaic Idealize.SL.Sem

/-- The reference runs and leaves its arguments as they were: the run, its result's value dropped. -/
theorem frame_ri : Cert.frame_ReferenceIdeal := fun m ρ _ =>
  (θ_run Cert.ReferenceIdeal.defs _ _).mono (fun _ h c => (h c).2) (Cert.ReferenceIdeal.RefRun.run (F := Ideal) m ρ)

end Cert.Proof.RefRunClaims

end
-- ==== Proof.RefValue.lean ====
import proofs.«132860_j13426067767700_1_alg».proof.Proof.RefRun
import Idealize.ShloMosaic.PureOps.Ideal

/-! The value the reference leaves in its result buffer, as a term of its sixteen argument arrays built in layers: the
    edge rows, the scaled input, its column mean and variance, the normalization, five aggregate-and-map layers and
    the last map, and the six blocks side by side. Each layer is a definition; the operation list is cut into the
    pieces that compute them, each piece's result read off from any contents, and the pieces composed. -/

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

/-- An array of ideal values (extended reals) of shape `s`. -/
abbrev Cf (s : Shape) : Type := FVec Ideal s .f32
/-- An array of 32-bit integers of shape `s`. -/
abbrev Ci (s : Shape) : Type := IVec s 32

/-! ## The reference's value, layer by layer -/

/-- Row 0 of the edge array (the source node of each edge), as a vector. -/
def eSrc (E : Ci S2x1600000) : Ci S1600000 :=
  fun i => shapeCast S1600000 (extractStridedSlice S1x1600000 ![0, 0] E slices_S2x1600000_S1x1600000_0_0) shapeCasts_S1x1600000_S1600000 i
/-- Row 1 of the edge array (the destination node of each edge), as a vector. -/
def eDst (E : Ci S2x1600000) : Ci S1600000 :=
  fun i => shapeCast S1600000 (extractStridedSlice S1x1600000 ![1, 0] E slices_S2x1600000_S1x1600000_1_0) shapeCasts_S1x1600000_S1600000 i

/-- The input with row `n` scaled by `imp n`. -/
def xs (X : Cf S100000x128) (imp : Cf S100000x1) : Cf S100000x128 :=
  mulf (F := Ideal) (φ := .f32) X (broadcastInDim S100000x128 ![0, 1] bcast_S100000x1_S100000x128_0_1 imp)

/-- The column mean: the column sums over 100000. -/
def mean (x : Cf S100000x128) : Cf S128 :=
  Host.divf (F := Ideal) (φ := .f32) (Host.reduceAdd (F := Ideal) (φ := .f32) x (constant (F := Ideal) S_ .f32 0x00000000#32) reducesTo_S100000x128_S128_d0 h_S_) (broadcastInDim S128 ![] bcast_S_S128 (constant (F := Ideal) S_ .f32 0x47C35000#32))

/-- The variance's divisor: 100000 less the correction 0. -/
def varN : Cf S_ :=
  subf (F := Ideal) (φ := .f32) (constant (F := Ideal) S_ .f32 0x47C35000#32) (sitofp (F := Ideal) .f32 (constantI S_ 32 0#32))
/-- The input less its column mean (as the variance function computes it: the column sums, as a row, over 100000). -/
def varD (x : Cf S100000x128) : Cf S100000x128 :=
  subf (F := Ideal) (φ := .f32) x (broadcastInDim S100000x128 ![0, 1] bcast_S1x128_S100000x128_0_1 (Host.divf (F := Ideal) (φ := .f32) (broadcastInDim S1x128 ![1] bcast_S128_S1x128_1 (Host.reduceAdd (F := Ideal) (φ := .f32) x (constant (F := Ideal) S_ .f32 0x00000000#32) reducesTo_S100000x128_S128_d0 h_S_)) (broadcastInDim S1x128 ![] bcast_S_S1x128 (constant (F := Ideal) S_ .f32 0x47C35000#32))))
/-- The column variance: where the divisor is positive the column sums of the squared deviations over it, elsewhere NaN. -/
def var (x : Cf S100000x128) : Cf S128 :=
  select (broadcastInDim S128 ![] bcast_S_S128 (cmpf (F := Ideal) (φ := .f32) .ogt varN (constant (F := Ideal) S_ .f32 0x00000000#32)))
    (Host.divf (F := Ideal) (φ := .f32) (Host.reduceAdd (F := Ideal) (φ := .f32) (mulf (F := Ideal) (φ := .f32) (varD x) (varD x)) (constant (F := Ideal) S_ .f32 0x00000000#32) reducesTo_S100000x128_S128_d0 h_S_) (broadcastInDim S128 ![] bcast_S_S128 varN))
    (broadcastInDim S128 ![] bcast_S_S128 (constant (F := Ideal) S_ .f32 0x7FC00000#32))

/-- The normalization: `(x - mu) * rsqrt (v + ε) * gamma + beta`, column by column. -/
def bn (x : Cf S100000x128) (mu v gamma beta : Cf S128) : Cf S100000x128 :=
  addf (F := Ideal) (φ := .f32) (mulf (F := Ideal) (φ := .f32) (mulf (F := Ideal) (φ := .f32) (subf (F := Ideal) (φ := .f32) x (broadcastInDim S100000x128 ![0, 1] bcast_S1x128_S100000x128_0_1 (broadcastInDim S1x128 ![1] bcast_S128_S1x128_1 mu))) (broadcastInDim S100000x128 ![0, 1] bcast_S1x128_S100000x128_0_1 (broadcastInDim S1x128 ![1] bcast_S128_S1x128_1 (Host.rsqrt (F := Ideal) (φ := .f32) (addf (F := Ideal) (φ := .f32) v (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 gamma))) (broadcastInDim S100000x128 ![0, 1] bcast_S1x128_S100000x128_0_1 (broadcastInDim S1x128 ![1] bcast_S128_S1x128_1 beta))

/-- The gather's index column: the source vector, a negative entry wrapped by 100000, as one column. -/
def src (s : Ci S1600000) : Ci S1600000x1 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)
/-- The scatter's index column: the destination vector as one column. -/
def dst (d : Ci S1600000) : Ci S1600000x1 :=
  broadcastInDim S1600000x1 ![0] bcast_S1600000_S1600000x1_0 d

/-- The aggregation at width 128: the rows of `h` at the sources, summed into the destinations from zero. -/
def agg128 (h : Cf S100000x128) (s d : Ci S1600000) : Cf S100000x128 :=
  Host.scatterAdd (F := Ideal) (φ := .f32) scatter_S100000x128_S1600000x1_S1600000x128_1_0_0_1 (broadcastInDim S100000x128 ![] bcast_S_S100000x128 (constant (F := Ideal) S_ .f32 0x00000000#32)) (dst d) (Host.gather gather_S100000x128_S1600000x1_S1600000x128_1_0_n_n_0_1_1128 h (src s))
/-- The aggregation at width 64. -/
def agg64 (h : Cf S100000x64) (s d : Ci S1600000) : Cf S100000x64 :=
  Host.scatterAdd (F := Ideal) (φ := .f32) scatter_S100000x64_S1600000x1_S1600000x64_1_0_0_1 (broadcastInDim S100000x64 ![] bcast_S_S100000x64 (constant (F := Ideal) S_ .f32 0x00000000#32)) (dst d) (Host.gather gather_S100000x64_S1600000x1_S1600000x64_1_0_n_n_0_1_164 h (src s))

/-- The first layer: `tanh ((h + agg h) · W + b)`, from width 128 to 64. -/
def layer128 (h : Cf S100000x128) (s d : Ci S1600000) (W : Cf S128x64) (b : Cf S64) : Cf S100000x64 :=
  Host.tanh (F := Ideal) (φ := .f32) (addf (F := Ideal) (φ := .f32) (Host.dotGeneral (F := Ideal) (φ₁ := .f32) (φ₂ := .f32) dot_S100000x128_S128x64_S100000x64_1_0_0_1_n_n none (addf (F := Ideal) (φ := .f32) h (agg128 h s d)) W) (broadcastInDim S100000x64 ![0, 1] bcast_S1x64_S100000x64_0_1 (broadcastInDim S1x64 ![1] bcast_S64_S1x64_1 b)))
/-- A later layer: the same at width 64. -/
def layer64 (h : Cf S100000x64) (s d : Ci S1600000) (W : Cf S64x64) (b : Cf S64) : Cf S100000x64 :=
  Host.tanh (F := Ideal) (φ := .f32) (addf (F := Ideal) (φ := .f32) (Host.dotGeneral (F := Ideal) (φ₁ := .f32) (φ₂ := .f32) dot_S100000x64_S64x64_S100000x64_1_0_0_1_n_n none (addf (F := Ideal) (φ := .f32) h (agg64 h s d)) W) (broadcastInDim S100000x64 ![0, 1] bcast_S1x64_S100000x64_0_1 (broadcastInDim S1x64 ![1] bcast_S64_S1x64_1 b)))
/-- The last map: `tanh (h · W)`. -/
def final (h : Cf S100000x64) (W : Cf S64x64) : Cf S100000x64 :=
  Host.tanh (F := Ideal) (φ := .f32) (Host.dotGeneral (F := Ideal) (φ₁ := .f32) (φ₂ := .f32) dot_S100000x64_S64x64_S100000x64_1_0_0_1_n_n none h W)
/-- Six blocks of 64 columns side by side. -/
def cat6 (p1 p2 p3 p4 p5 p6 : Cf S100000x64) : Cf S100000x384 :=
  concatenate S100000x384 1 [⟨S100000x64, p1⟩, ⟨S100000x64, p2⟩, ⟨S100000x64, p3⟩, ⟨S100000x64, p4⟩, ⟨S100000x64, p5⟩, ⟨S100000x64, p6⟩] concatenates_S100000x64_S100000x64_S100000x64_S100000x64_S100000x64_S100000x64_S100000x384_d1

/-- The normalized scaled input, of the arguments. -/
def h0 (a0 : Cf S100000x128) (a1 : Cf S100000x1) (a3 a4 : Cf S128) : Cf S100000x128 :=
  bn (xs a0 a1) (mean (xs a0 a1)) (var (xs a0 a1)) a3 a4
/-- The first layer's output, of the arguments. -/
def hid1 (a0 : Cf S100000x128) (a1 : Cf S100000x1) (a2 : Ci S2x1600000) (a3 : Cf S128) (a4 : Cf S128) (a5 : Cf S128x64) (a6 : Cf S64) : Cf S100000x64 :=
  layer128 (h0 a0 a1 a3 a4) (eSrc a2) (eDst a2) a5 a6
/-- Layer 2's output, of the arguments. -/
def hid2 (a0 : Cf S100000x128) (a1 : Cf S100000x1) (a2 : Ci S2x1600000) (a3 : Cf S128) (a4 : Cf S128) (a5 : Cf S128x64) (a6 : Cf S64) (a7 : Cf S64x64) (a8 : Cf S64) : Cf S100000x64 :=
  layer64 (hid1 a0 a1 a2 a3 a4 a5 a6) (eSrc a2) (eDst a2) a7 a8
/-- Layer 3's output, of the arguments. -/
def hid3 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) : Cf S100000x64 :=
  layer64 (hid2 a0 a1 a2 a3 a4 a5 a6 a7 a8) (eSrc a2) (eDst a2) a9 a10
/-- Layer 4's output, of the arguments. -/
def hid4 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) : Cf S100000x64 :=
  layer64 (hid3 a0 a1 a2 a3 a4 a5 a6 a7 a8 a9 a10) (eSrc a2) (eDst a2) a11 a12
/-- Layer 5's output, of the arguments. -/
def hid5 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) : Cf S100000x64 :=
  layer64 (hid4 a0 a1 a2 a3 a4 a5 a6 a7 a8 a9 a10 a11 a12) (eSrc a2) (eDst a2) a13 a14
/-- The reference's result, of its sixteen arguments: the five layers' outputs and the last map of the fifth, side by side. -/
def out (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) (a15 : Cf S64x64) : Cf S100000x384 :=
  cat6 (hid1 a0 a1 a2 a3 a4 a5 a6) (hid2 a0 a1 a2 a3 a4 a5 a6 a7 a8) (hid3 a0 a1 a2 a3 a4 a5 a6 a7 a8 a9 a10) (hid4 a0 a1 a2 a3 a4 a5 a6 a7 a8 a9 a10 a11 a12) (hid5 a0 a1 a2 a3 a4 a5 a6 a7 a8 a9 a10 a11 a12 a13 a14)
    (final (hid5 a0 a1 a2 a3 a4 a5 a6 a7 a8 a9 a10 a11 a12 a13 a14) a15)

/-! ## The operations, cut where the layers are -/

section Pieces

variable {F : FTy → Type} [FloatOps F]

/-- Operations 1 … 4 of 148: the two rows of the edge array, each as a vector. -/
def cIdx : List (HloOp τ sig (Elt F)) :=
  [ StableHlo.unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
/-- The buffers they write. -/
abbrev cIdxW : List (Ref sig .tc) := [main_v0, main_v1, main_v2, main_v3]

/-- Operations 5 … 6 of 148: the input scaled row by row. -/
def cXs : List (HloOp τ sig (Elt F)) :=
  [ StableHlo.unary main_arg1 main_v4 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v4 main_v5 (mulf : (⟨S100000x128, .f32⟩ : BufTy).Contents (Elt F) → (⟨S100000x128, .f32⟩ : BufTy).Contents (Elt F) → (⟨S100000x128, .f32⟩ : BufTy).Contents (Elt F)) ]
/-- The buffers they write. -/
abbrev cXsW : List (Ref sig .tc) := [main_v4, main_v5]

/-- Operations 7 … 11 of 148: the column mean. -/
def cMean : List (HloOp τ sig (Elt F)) :=
  [ StableHlo.nullary main_cst (constant S_ .f32 0x00000000#32),
    StableHlo.binary main_v5 main_cst main_v6 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_0 (constant S_ .f32 0x47C35000#32),
    StableHlo.unary main_cst_0 main_v7 (broadcastInDim S128 ![] bcast_S_S128 : (⟨S_, .f32⟩ : BufTy).Contents (Elt F) → (⟨S128, .f32⟩ : BufTy).Contents (Elt F)),
    StableHlo.binary main_v6 main_v7 main_v8 (Host.divf : (⟨S128, .f32⟩ : BufTy).Contents (Elt F) → (⟨S128, .f32⟩ : BufTy).Contents (Elt F) → (⟨S128, .f32⟩ : BufTy).Contents (Elt F)) ]
/-- The buffers they write. -/
abbrev cMeanW : List (Ref sig .tc) := [main_cst, main_v6, main_cst_0, main_v7, main_v8]

/-- Operations 12 … 34 of 148: the column variance (the outlined function's operations). -/
def cVar : List (HloOp τ sig (Elt F)) :=
  [ StableHlo.nullary main_c (constantI S_ 32 0#32),
    StableHlo.TRef.nullary main_call0.cst (constant S_ .f32 0x00000000#32),
    StableHlo.TRef.binary (.of main_v5 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v5 : StableHlo.TRef sig ⟨S100000x128, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]
/-- The buffers they write. -/
abbrev cVarW : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v9]

/-- Operations 35 … 50 of 148: the normalization with scale and shift. -/
def cBn : List (HloOp τ sig (Elt F)) :=
  [ StableHlo.unary main_v8 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S100000x128 ![0, 1] bcast_S1x128_S100000x128_0_1 : (⟨S1x128, .f32⟩ : BufTy).Contents (Elt F) → (⟨S100000x128, .f32⟩ : BufTy).Contents (Elt F)),
    StableHlo.binary main_v5 main_v11 main_v12 (subf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3727C5AC#32),
    StableHlo.unary main_cst_1 main_v13 (broadcastInDim S128 ![] bcast_S_S128 : (⟨S_, .f32⟩ : BufTy).Contents (Elt F) → (⟨S128, .f32⟩ : BufTy).Contents (Elt F)),
    StableHlo.binary main_v9 main_v13 main_v14 (addf : (⟨S128, .f32⟩ : BufTy).Contents (Elt F) → (⟨S128, .f32⟩ : BufTy).Contents (Elt F) → (⟨S128, .f32⟩ : BufTy).Contents (Elt F)),
    StableHlo.unary main_v14 main_v15 (Host.rsqrt : (⟨S128, .f32⟩ : BufTy).Contents (Elt F) → (⟨S128, .f32⟩ : BufTy).Contents (Elt F)),
    StableHlo.unary main_v15 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S100000x128 ![0, 1] bcast_S1x128_S100000x128_0_1 : (⟨S1x128, .f32⟩ : BufTy).Contents (Elt F) → (⟨S100000x128, .f32⟩ : BufTy).Contents (Elt F)),
    StableHlo.binary main_v12 main_v17 main_v18 (mulf : (⟨S100000x128, .f32⟩ : BufTy).Contents (Elt F) → (⟨S100000x128, .f32⟩ : BufTy).Contents (Elt F) → (⟨S100000x128, .f32⟩ : BufTy).Contents (Elt F)),
    StableHlo.unary main_arg3 main_v19 (broadcastInDim S1x128 ![1] bcast_S128_S1x128_1 : (⟨S128, .f32⟩ : BufTy).Contents (Elt F) → (⟨S1x128, .f32⟩ : BufTy).Contents (Elt F)),
    StableHlo.unary main_v19 main_v20 (broadcastInDim S100000x128 ![0, 1] bcast_S1x128_S100000x128_0_1 : (⟨S1x128, .f32⟩ : BufTy).Contents (Elt F) → (⟨S100000x128, .f32⟩ : BufTy).Contents (Elt F)),
    StableHlo.binary main_v18 main_v20 main_v21 (mulf : (⟨S100000x128, .f32⟩ : BufTy).Contents (Elt F) → (⟨S100000x128, .f32⟩ : BufTy).Contents (Elt F) → (⟨S100000x128, .f32⟩ : BufTy).Contents (Elt F)),
    StableHlo.unary main_arg4 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S100000x128 ![0, 1] bcast_S1x128_S100000x128_0_1 : (⟨S1x128, .f32⟩ : BufTy).Contents (Elt F) → (⟨S100000x128, .f32⟩ : BufTy).Contents (Elt F)),
    StableHlo.binary main_v21 main_v23 main_v24 (addf : (⟨S100000x128, .f32⟩ : BufTy).Contents (Elt F) → (⟨S100000x128, .f32⟩ : BufTy).Contents (Elt F) → (⟨S100000x128, .f32⟩ : BufTy).Contents (Elt F)) ]
/-- The buffers they write. -/
abbrev cBnW : List (Ref sig .tc) := [main_v10, main_v11, main_v12, main_cst_1, main_v13, main_v14, main_v15, main_v16, main_v17, main_v18, main_v19, main_v20, main_v21, main_v22, main_v23, main_v24]

/-- Operations 51 … 69 of 148: the first layer. -/
def cL1 : List (HloOp τ sig (Elt F)) :=
  [ StableHlo.nullary main_c_2 (constantI S_ 32 0#32),
    StableHlo.unary main_c_2 main_v25 (broadcastInDim S1600000 ![] bcast_S_S1600000 : (⟨S_, .i32⟩ : BufTy).Contents (Elt F) → (⟨S1600000, .i32⟩ : BufTy).Contents (Elt F)),
    StableHlo.binary main_v1 main_v25 main_v26 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v27 (broadcastInDim S1600000 ![] bcast_S_S1600000 : (⟨S_, .i32⟩ : BufTy).Contents (Elt F) → (⟨S1600000, .i32⟩ : BufTy).Contents (Elt F)),
    StableHlo.binary main_v1 main_v27 main_v28 (addi : (⟨S1600000, .i32⟩ : BufTy).Contents (Elt F) → (⟨S1600000, .i32⟩ : BufTy).Contents (Elt F) → (⟨S1600000, .i32⟩ : BufTy).Contents (Elt F)),
    StableHlo.ternary main_v26 main_v28 main_v1 main_v29 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v29 main_v30 (broadcastInDim S1600000x1 ![0] bcast_S1600000_S1600000x1_0 : (⟨S1600000, .i32⟩ : BufTy).Contents (Elt F) → (⟨S1600000x1, .i32⟩ : BufTy).Contents (Elt F)),
    StableHlo.binary main_v24 main_v30 main_v31 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v32 (broadcastInDim S100000x128 ![] bcast_S_S100000x128 : (⟨S_, .f32⟩ : BufTy).Contents (Elt F) → (⟨S100000x128, .f32⟩ : BufTy).Contents (Elt F)),
    StableHlo.unary main_v3 main_v33 (broadcastInDim S1600000x1 ![0] bcast_S1600000_S1600000x1_0 : (⟨S1600000, .i32⟩ : BufTy).Contents (Elt F) → (⟨S1600000x1, .i32⟩ : BufTy).Contents (Elt F)),
    StableHlo.ternary main_v32 main_v33 main_v31 main_v34 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v24 main_v34 main_v35 (addf : (⟨S100000x128, .f32⟩ : BufTy).Contents (Elt F) → (⟨S100000x128, .f32⟩ : BufTy).Contents (Elt F) → (⟨S100000x128, .f32⟩ : BufTy).Contents (Elt F)),
    StableHlo.binary main_v35 main_arg5 main_v36 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg6 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)),
    StableHlo.unary main_v39 main_v40 (Host.tanh : (⟨S100000x64, .f32⟩ : BufTy).Contents (Elt F) → (⟨S100000x64, .f32⟩ : BufTy).Contents (Elt F)) ]
/-- The buffers they write. -/
abbrev cL1W : List (Ref sig .tc) := [main_c_2, main_v25, main_v26, main_c_3, main_v27, main_v28, main_v29, main_v30, main_v31, main_cst_4, main_v32, main_v33, main_v34, main_v35, main_v36, main_v37, main_v38, main_v39, main_v40]

/-- Operations 70 … 88 of 148: the second layer. -/
def cL2 : List (HloOp τ sig (Elt F)) :=
  [ StableHlo.nullary main_c_5 (constantI S_ 32 0#32),
    StableHlo.unary main_c_5 main_v41 (broadcastInDim S1600000 ![] bcast_S_S1600000 : (⟨S_, .i32⟩ : BufTy).Contents (Elt F) → (⟨S1600000, .i32⟩ : BufTy).Contents (Elt F)),
    StableHlo.binary main_v1 main_v41 main_v42 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v43 (broadcastInDim S1600000 ![] bcast_S_S1600000 : (⟨S_, .i32⟩ : BufTy).Contents (Elt F) → (⟨S1600000, .i32⟩ : BufTy).Contents (Elt F)),
    StableHlo.binary main_v1 main_v43 main_v44 (addi : (⟨S1600000, .i32⟩ : BufTy).Contents (Elt F) → (⟨S1600000, .i32⟩ : BufTy).Contents (Elt F) → (⟨S1600000, .i32⟩ : BufTy).Contents (Elt F)),
    StableHlo.ternary main_v42 main_v44 main_v1 main_v45 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v45 main_v46 (broadcastInDim S1600000x1 ![0] bcast_S1600000_S1600000x1_0 : (⟨S1600000, .i32⟩ : BufTy).Contents (Elt F) → (⟨S1600000x1, .i32⟩ : BufTy).Contents (Elt F)),
    StableHlo.binary main_v40 main_v46 main_v47 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v48 (broadcastInDim S100000x64 ![] bcast_S_S100000x64 : (⟨S_, .f32⟩ : BufTy).Contents (Elt F) → (⟨S100000x64, .f32⟩ : BufTy).Contents (Elt F)),
    StableHlo.unary main_v3 main_v49 (broadcastInDim S1600000x1 ![0] bcast_S1600000_S1600000x1_0 : (⟨S1600000, .i32⟩ : BufTy).Contents (Elt F) → (⟨S1600000x1, .i32⟩ : BufTy).Contents (Elt F)),
    StableHlo.ternary main_v48 main_v49 main_v47 main_v50 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v40 main_v50 main_v51 (addf : (⟨S100000x64, .f32⟩ : BufTy).Contents (Elt F) → (⟨S100000x64, .f32⟩ : BufTy).Contents (Elt F) → (⟨S100000x64, .f32⟩ : BufTy).Contents (Elt F)),
    StableHlo.binary main_v51 main_arg7 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v54 main_v55 (addf : (⟨S100000x64, .f32⟩ : BufTy).Contents (Elt F) → (⟨S100000x64, .f32⟩ : BufTy).Contents (Elt F) → (⟨S100000x64, .f32⟩ : BufTy).Contents (Elt F)),
    StableHlo.unary main_v55 main_v56 (Host.tanh : (⟨S100000x64, .f32⟩ : BufTy).Contents (Elt F) → (⟨S100000x64, .f32⟩ : BufTy).Contents (Elt F)) ]
/-- The buffers they write. -/
abbrev cL2W : List (Ref sig .tc) := [main_c_5, main_v41, main_v42, main_c_6, main_v43, main_v44, main_v45, main_v46, main_v47, main_cst_7, main_v48, main_v49, main_v50, main_v51, main_v52, main_v53, main_v54, main_v55, main_v56]

/-- Operations 89 … 107 of 148: the third layer. -/
def cL3 : List (HloOp τ sig (Elt F)) :=
  [ StableHlo.nullary main_c_8 (constantI S_ 32 0#32),
    StableHlo.unary main_c_8 main_v57 (broadcastInDim S1600000 ![] bcast_S_S1600000 : (⟨S_, .i32⟩ : BufTy).Contents (Elt F) → (⟨S1600000, .i32⟩ : BufTy).Contents (Elt F)),
    StableHlo.binary main_v1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v59 (broadcastInDim S1600000 ![] bcast_S_S1600000 : (⟨S_, .i32⟩ : BufTy).Contents (Elt F) → (⟨S1600000, .i32⟩ : BufTy).Contents (Elt F)),
    StableHlo.binary main_v1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v56 main_v62 main_v63 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_10 (constant S_ .f32 0x00000000#32),
    StableHlo.unary main_cst_10 main_v64 (broadcastInDim S100000x64 ![] bcast_S_S100000x64 : (⟨S_, .f32⟩ : BufTy).Contents (Elt F) → (⟨S100000x64, .f32⟩ : BufTy).Contents (Elt F)),
    StableHlo.unary main_v3 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v56 main_v66 main_v67 (addf : (⟨S100000x64, .f32⟩ : BufTy).Contents (Elt F) → (⟨S100000x64, .f32⟩ : BufTy).Contents (Elt F) → (⟨S100000x64, .f32⟩ : BufTy).Contents (Elt F)),
    StableHlo.binary main_v67 main_arg9 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg10 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.unary main_v71 main_v72 (Host.tanh : (⟨S100000x64, .f32⟩ : BufTy).Contents (Elt F) → (⟨S100000x64, .f32⟩ : BufTy).Contents (Elt F)) ]
/-- The buffers they write. -/
abbrev cL3W : List (Ref sig .tc) := [main_c_8, main_v57, main_v58, main_c_9, main_v59, main_v60, main_v61, main_v62, main_v63, main_cst_10, main_v64, main_v65, main_v66, main_v67, main_v68, main_v69, main_v70, main_v71, main_v72]

/-- Operations 108 … 126 of 148: the fourth layer. -/
def cL4 : List (HloOp τ sig (Elt F)) :=
  [ StableHlo.nullary main_c_11 (constantI S_ 32 0#32),
    StableHlo.unary main_c_11 main_v73 (broadcastInDim S1600000 ![] bcast_S_S1600000 : (⟨S_, .i32⟩ : BufTy).Contents (Elt F) → (⟨S1600000, .i32⟩ : BufTy).Contents (Elt F)),
    StableHlo.binary main_v1 main_v73 main_v74 (cmpi .slt : (⟨S1600000, .i32⟩ : BufTy).Contents (Elt F) → (⟨S1600000, .i32⟩ : BufTy).Contents (Elt F) → (⟨S1600000, .i1⟩ : BufTy).Contents (Elt F)),
    StableHlo.nullary main_c_12 (constantI S_ 32 100000#32),
    StableHlo.unary main_c_12 main_v75 (broadcastInDim S1600000 ![] bcast_S_S1600000 : (⟨S_, .i32⟩ : BufTy).Contents (Elt F) → (⟨S1600000, .i32⟩ : BufTy).Contents (Elt F)),
    StableHlo.binary main_v1 main_v75 main_v76 (addi : (⟨S1600000, .i32⟩ : BufTy).Contents (Elt F) → (⟨S1600000, .i32⟩ : BufTy).Contents (Elt F) → (⟨S1600000, .i32⟩ : BufTy).Contents (Elt F)),
    StableHlo.ternary main_v74 main_v76 main_v1 main_v77 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v77 main_v78 (broadcastInDim S1600000x1 ![0] bcast_S1600000_S1600000x1_0 : (⟨S1600000, .i32⟩ : BufTy).Contents (Elt F) → (⟨S1600000x1, .i32⟩ : BufTy).Contents (Elt F)),
    StableHlo.binary main_v72 main_v78 main_v79 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_13 (constant S_ .f32 0x00000000#32),
    StableHlo.unary main_cst_13 main_v80 (broadcastInDim S100000x64 ![] bcast_S_S100000x64 : (⟨S_, .f32⟩ : BufTy).Contents (Elt F) → (⟨S100000x64, .f32⟩ : BufTy).Contents (Elt F)),
    StableHlo.unary main_v3 main_v81 (broadcastInDim S1600000x1 ![0] bcast_S1600000_S1600000x1_0 : (⟨S1600000, .i32⟩ : BufTy).Contents (Elt F) → (⟨S1600000x1, .i32⟩ : BufTy).Contents (Elt F)),
    StableHlo.ternary main_v80 main_v81 main_v79 main_v82 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v72 main_v82 main_v83 (addf : (⟨S100000x64, .f32⟩ : BufTy).Contents (Elt F) → (⟨S100000x64, .f32⟩ : BufTy).Contents (Elt F) → (⟨S100000x64, .f32⟩ : BufTy).Contents (Elt F)),
    StableHlo.binary main_v83 main_arg11 main_v84 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v86 main_v87 (addf : (⟨S100000x64, .f32⟩ : BufTy).Contents (Elt F) → (⟨S100000x64, .f32⟩ : BufTy).Contents (Elt F) → (⟨S100000x64, .f32⟩ : BufTy).Contents (Elt F)),
    StableHlo.unary main_v87 main_v88 (Host.tanh : (⟨S100000x64, .f32⟩ : BufTy).Contents (Elt F) → (⟨S100000x64, .f32⟩ : BufTy).Contents (Elt F)) ]
/-- The buffers they write. -/
abbrev cL4W : List (Ref sig .tc) := [main_c_11, main_v73, main_v74, main_c_12, main_v75, main_v76, main_v77, main_v78, main_v79, main_cst_13, main_v80, main_v81, main_v82, main_v83, main_v84, main_v85, main_v86, main_v87, main_v88]

/-- Operations 127 … 145 of 148: the fifth layer. -/
def cL5 : List (HloOp τ sig (Elt F)) :=
  [ StableHlo.nullary main_c_14 (constantI S_ 32 0#32),
    StableHlo.unary main_c_14 main_v89 (broadcastInDim S1600000 ![] bcast_S_S1600000 : (⟨S_, .i32⟩ : BufTy).Contents (Elt F) → (⟨S1600000, .i32⟩ : BufTy).Contents (Elt F)),
    StableHlo.binary main_v1 main_v89 main_v90 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v91 (broadcastInDim S1600000 ![] bcast_S_S1600000 : (⟨S_, .i32⟩ : BufTy).Contents (Elt F) → (⟨S1600000, .i32⟩ : BufTy).Contents (Elt F)),
    StableHlo.binary main_v1 main_v91 main_v92 (addi : (⟨S1600000, .i32⟩ : BufTy).Contents (Elt F) → (⟨S1600000, .i32⟩ : BufTy).Contents (Elt F) → (⟨S1600000, .i32⟩ : BufTy).Contents (Elt F)),
    StableHlo.ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v93 main_v94 (broadcastInDim S1600000x1 ![0] bcast_S1600000_S1600000x1_0 : (⟨S1600000, .i32⟩ : BufTy).Contents (Elt F) → (⟨S1600000x1, .i32⟩ : BufTy).Contents (Elt F)),
    StableHlo.binary main_v88 main_v94 main_v95 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_16 (constant S_ .f32 0x00000000#32),
    StableHlo.unary main_cst_16 main_v96 (broadcastInDim S100000x64 ![] bcast_S_S100000x64 : (⟨S_, .f32⟩ : BufTy).Contents (Elt F) → (⟨S100000x64, .f32⟩ : BufTy).Contents (Elt F)),
    StableHlo.unary main_v3 main_v97 (broadcastInDim S1600000x1 ![0] bcast_S1600000_S1600000x1_0 : (⟨S1600000, .i32⟩ : BufTy).Contents (Elt F) → (⟨S1600000x1, .i32⟩ : BufTy).Contents (Elt F)),
    StableHlo.ternary main_v96 main_v97 main_v95 main_v98 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v88 main_v98 main_v99 (addf : (⟨S100000x64, .f32⟩ : BufTy).Contents (Elt F) → (⟨S100000x64, .f32⟩ : BufTy).Contents (Elt F) → (⟨S100000x64, .f32⟩ : BufTy).Contents (Elt F)),
    StableHlo.binary main_v99 main_arg13 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg14 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S100000x64 ![0, 1] bcast_S1x64_S100000x64_0_1 : (⟨S1x64, .f32⟩ : BufTy).Contents (Elt F) → (⟨S100000x64, .f32⟩ : BufTy).Contents (Elt F)),
    StableHlo.binary main_v100 main_v102 main_v103 (addf : (⟨S100000x64, .f32⟩ : BufTy).Contents (Elt F) → (⟨S100000x64, .f32⟩ : BufTy).Contents (Elt F) → (⟨S100000x64, .f32⟩ : BufTy).Contents (Elt F)),
    StableHlo.unary main_v103 main_v104 (Host.tanh : (⟨S100000x64, .f32⟩ : BufTy).Contents (Elt F) → (⟨S100000x64, .f32⟩ : BufTy).Contents (Elt F)) ]
/-- The buffers they write. -/
abbrev cL5W : List (Ref sig .tc) := [main_c_14, main_v89, main_v90, main_c_15, main_v91, main_v92, main_v93, main_v94, main_v95, main_cst_16, main_v96, main_v97, main_v98, main_v99, main_v100, main_v101, main_v102, main_v103, main_v104]

/-- Operations 146 … 148 of 148: the last product and tanh, and the concatenation. -/
def cFin : List (HloOp τ sig (Elt F)) :=
  [ StableHlo.binary main_v104 main_arg15 main_v105 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_v105 main_v106 (Host.tanh : (⟨S100000x64, .f32⟩ : BufTy).Contents (Elt F) → (⟨S100000x64, .f32⟩ : BufTy).Contents (Elt F)),
    StableHlo.nary ![main_v40, main_v56, main_v72, main_v88, main_v104, main_v106] main_v107 (fun u => concatenate S100000x384 1 [⟨S100000x64, u 0⟩, ⟨S100000x64, u 1⟩, ⟨S100000x64, u 2⟩, ⟨S100000x64, u 3⟩, ⟨S100000x64, u 4⟩, ⟨S100000x64, u 5⟩] concatenates_S100000x64_S100000x64_S100000x64_S100000x64_S100000x64_S100000x64_S100000x384_d1) ]
/-- The buffers they write. -/
abbrev cFinW : List (Ref sig .tc) := [main_v105, main_v106, main_v107]

/-- The fold over a concatenation is the folds in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
/-- The operation list is the eleven pieces in order. -/
theorem ops_flat : (ops : List (HloOp τ sig (Elt F))) = cIdx ++ cXs ++ cMean ++ cVar ++ cBn ++ cL1 ++ cL2 ++ cL3 ++ cL4 ++ cL5 ++ cFin := by
  simp only [ops, ops0, ops1, ops2, cIdx, cXs, cMean, cVar, cBn, cL1, cL2, cL3, cL4, cL5, cFin, List.cons_append, List.nil_append]

set_option maxRecDepth 8192 in
theorem cIdx_writes : (cIdx : List (HloOp τ sig (Elt F))).Forall fun op => op.writes ⊆ (cIdxW.map (Proc.devRef (τ := τ) .tc)).toFinset := by
  simp only [cIdx, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cIdx_keep (V : Valuation τ sig (Elt F)) (r : Ref sig .tc) (h : r ∉ cIdxW) :
    after cIdx V (no_index (Proc.devRef .tc r)) = V (Proc.devRef .tc r) :=
  after_of_writes_sub cIdx V cIdx_writes h

set_option maxRecDepth 8192 in
theorem cXs_writes : (cXs : List (HloOp τ sig (Elt F))).Forall fun op => op.writes ⊆ (cXsW.map (Proc.devRef (τ := τ) .tc)).toFinset := by
  simp only [cXs, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cXs_keep (V : Valuation τ sig (Elt F)) (r : Ref sig .tc) (h : r ∉ cXsW) :
    after cXs V (no_index (Proc.devRef .tc r)) = V (Proc.devRef .tc r) :=
  after_of_writes_sub cXs V cXs_writes h

set_option maxRecDepth 8192 in
theorem cMean_writes : (cMean : List (HloOp τ sig (Elt F))).Forall fun op => op.writes ⊆ (cMeanW.map (Proc.devRef (τ := τ) .tc)).toFinset := by
  simp only [cMean, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cMean_keep (V : Valuation τ sig (Elt F)) (r : Ref sig .tc) (h : r ∉ cMeanW) :
    after cMean V (no_index (Proc.devRef .tc r)) = V (Proc.devRef .tc r) :=
  after_of_writes_sub cMean V cMean_writes h

set_option maxRecDepth 8192 in
theorem cVar_writes : (cVar : List (HloOp τ sig (Elt F))).Forall fun op => op.writes ⊆ (cVarW.map (Proc.devRef (τ := τ) .tc)).toFinset := by
  simp only [cVar, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cVar_keep (V : Valuation τ sig (Elt F)) (r : Ref sig .tc) (h : r ∉ cVarW) :
    after cVar V (no_index (Proc.devRef .tc r)) = V (Proc.devRef .tc r) :=
  after_of_writes_sub cVar V cVar_writes h

set_option maxRecDepth 8192 in
theorem cBn_writes : (cBn : List (HloOp τ sig (Elt F))).Forall fun op => op.writes ⊆ (cBnW.map (Proc.devRef (τ := τ) .tc)).toFinset := by
  simp only [cBn, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cBn_keep (V : Valuation τ sig (Elt F)) (r : Ref sig .tc) (h : r ∉ cBnW) :
    after cBn V (no_index (Proc.devRef .tc r)) = V (Proc.devRef .tc r) :=
  after_of_writes_sub cBn V cBn_writes h

set_option maxRecDepth 8192 in
theorem cL1_writes : (cL1 : List (HloOp τ sig (Elt F))).Forall fun op => op.writes ⊆ (cL1W.map (Proc.devRef (τ := τ) .tc)).toFinset := by
  simp only [cL1, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cL1_keep (V : Valuation τ sig (Elt F)) (r : Ref sig .tc) (h : r ∉ cL1W) :
    after cL1 V (no_index (Proc.devRef .tc r)) = V (Proc.devRef .tc r) :=
  after_of_writes_sub cL1 V cL1_writes h

set_option maxRecDepth 8192 in
theorem cL2_writes : (cL2 : List (HloOp τ sig (Elt F))).Forall fun op => op.writes ⊆ (cL2W.map (Proc.devRef (τ := τ) .tc)).toFinset := by
  simp only [cL2, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cL2_keep (V : Valuation τ sig (Elt F)) (r : Ref sig .tc) (h : r ∉ cL2W) :
    after cL2 V (no_index (Proc.devRef .tc r)) = V (Proc.devRef .tc r) :=
  after_of_writes_sub cL2 V cL2_writes h

set_option maxRecDepth 8192 in
theorem cL3_writes : (cL3 : List (HloOp τ sig (Elt F))).Forall fun op => op.writes ⊆ (cL3W.map (Proc.devRef (τ := τ) .tc)).toFinset := by
  simp only [cL3, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cL3_keep (V : Valuation τ sig (Elt F)) (r : Ref sig .tc) (h : r ∉ cL3W) :
    after cL3 V (no_index (Proc.devRef .tc r)) = V (Proc.devRef .tc r) :=
  after_of_writes_sub cL3 V cL3_writes h

set_option maxRecDepth 8192 in
theorem cL4_writes : (cL4 : List (HloOp τ sig (Elt F))).Forall fun op => op.writes ⊆ (cL4W.map (Proc.devRef (τ := τ) .tc)).toFinset := by
  simp only [cL4, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cL4_keep (V : Valuation τ sig (Elt F)) (r : Ref sig .tc) (h : r ∉ cL4W) :
    after cL4 V (no_index (Proc.devRef .tc r)) = V (Proc.devRef .tc r) :=
  after_of_writes_sub cL4 V cL4_writes h

set_option maxRecDepth 8192 in
theorem cL5_writes : (cL5 : List (HloOp τ sig (Elt F))).Forall fun op => op.writes ⊆ (cL5W.map (Proc.devRef (τ := τ) .tc)).toFinset := by
  simp only [cL5, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cL5_keep (V : Valuation τ sig (Elt F)) (r : Ref sig .tc) (h : r ∉ cL5W) :
    after cL5 V (no_index (Proc.devRef .tc r)) = V (Proc.devRef .tc r) :=
  after_of_writes_sub cL5 V cL5_writes h

set_option maxRecDepth 8192 in
theorem cFin_writes : (cFin : List (HloOp τ sig (Elt F))).Forall fun op => op.writes ⊆ (cFinW.map (Proc.devRef (τ := τ) .tc)).toFinset := by
  simp only [cFin, List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer the piece does not write keeps its contents through it. -/
theorem cFin_keep (V : Valuation τ sig (Elt F)) (r : Ref sig .tc) (h : r ∉ cFinW) :
    after cFin V (no_index (Proc.devRef .tc r)) = V (Proc.devRef .tc r) :=
  after_of_writes_sub cFin V cFin_writes h

end Pieces

/-! ## What each piece computes, from any contents -/

set_option maxRecDepth 8192 in
set_option maxHeartbeats 2000000 in
theorem cIdx_main_v1 (V : Valuation τ sig (Elt Ideal)) :
    after (cIdx (F := Ideal)) V (no_index (Proc.devRef .tc main_v1)) = eSrc (V (Proc.devRef .tc main_arg2)) := by
  simp only [cIdx]
  after_results_simp
  rfl

set_option maxRecDepth 8192 in
set_option maxHeartbeats 2000000 in
theorem cIdx_main_v3 (V : Valuation τ sig (Elt Ideal)) :
    after (cIdx (F := Ideal)) V (no_index (Proc.devRef .tc main_v3)) = eDst (V (Proc.devRef .tc main_arg2)) := by
  simp only [cIdx]
  after_results_simp
  rfl

set_option maxRecDepth 8192 in
set_option maxHeartbeats 2000000 in
theorem cXs_main_v5 (V : Valuation τ sig (Elt Ideal)) :
    after (cXs (F := Ideal)) V (no_index (Proc.devRef .tc main_v5)) = xs (V (Proc.devRef .tc main_arg0)) (V (Proc.devRef .tc main_arg1)) := by
  simp only [cXs]
  after_results_simp
  rfl

set_option maxRecDepth 8192 in
set_option maxHeartbeats 2000000 in
theorem cMean_main_v8 (V : Valuation τ sig (Elt Ideal)) :
    after (cMean (F := Ideal)) V (no_index (Proc.devRef .tc main_v8)) = mean (V (Proc.devRef .tc main_v5)) := by
  simp only [cMean]
  after_results_simp
  rfl

set_option maxRecDepth 8192 in
set_option maxHeartbeats 2000000 in
theorem cVar_main_v9 (V : Valuation τ sig (Elt Ideal)) :
    after (cVar (F := Ideal)) V (no_index (Proc.devRef .tc main_v9)) = var (V (Proc.devRef .tc main_v5)) := by
  simp only [cVar]
  after_results_simp
  rfl

set_option maxRecDepth 8192 in
set_option maxHeartbeats 2000000 in
theorem cBn_main_v24 (V : Valuation τ sig (Elt Ideal)) :
    after (cBn (F := Ideal)) V (no_index (Proc.devRef .tc main_v24)) = bn (V (Proc.devRef .tc main_v5)) (V (Proc.devRef .tc main_v8)) (V (Proc.devRef .tc main_v9)) (V (Proc.devRef .tc main_arg3)) (V (Proc.devRef .tc main_arg4)) := by
  simp only [cBn]
  after_results_simp
  rfl

set_option maxRecDepth 8192 in
set_option maxHeartbeats 2000000 in
theorem cL1_main_v40 (V : Valuation τ sig (Elt Ideal)) :
    after (cL1 (F := Ideal)) V (no_index (Proc.devRef .tc main_v40)) = layer128 (V (Proc.devRef .tc main_v24)) (V (Proc.devRef .tc main_v1)) (V (Proc.devRef .tc main_v3)) (V (Proc.devRef .tc main_arg5)) (V (Proc.devRef .tc main_arg6)) := by
  simp only [cL1]
  after_results_simp
  rfl

set_option maxRecDepth 8192 in
set_option maxHeartbeats 2000000 in
theorem cL2_main_v56 (V : Valuation τ sig (Elt Ideal)) :
    after (cL2 (F := Ideal)) V (no_index (Proc.devRef .tc main_v56)) = layer64 (V (Proc.devRef .tc main_v40)) (V (Proc.devRef .tc main_v1)) (V (Proc.devRef .tc main_v3)) (V (Proc.devRef .tc main_arg7)) (V (Proc.devRef .tc main_arg8)) := by
  simp only [cL2]
  after_results_simp
  rfl

set_option maxRecDepth 8192 in
set_option maxHeartbeats 2000000 in
theorem cL3_main_v72 (V : Valuation τ sig (Elt Ideal)) :
    after (cL3 (F := Ideal)) V (no_index (Proc.devRef .tc main_v72)) = layer64 (V (Proc.devRef .tc main_v56)) (V (Proc.devRef .tc main_v1)) (V (Proc.devRef .tc main_v3)) (V (Proc.devRef .tc main_arg9)) (V (Proc.devRef .tc main_arg10)) := by
  simp only [cL3]
  after_results_simp
  rfl

set_option maxRecDepth 8192 in
set_option maxHeartbeats 2000000 in
theorem cL4_main_v88 (V : Valuation τ sig (Elt Ideal)) :
    after (cL4 (F := Ideal)) V (no_index (Proc.devRef .tc main_v88)) = layer64 (V (Proc.devRef .tc main_v72)) (V (Proc.devRef .tc main_v1)) (V (Proc.devRef .tc main_v3)) (V (Proc.devRef .tc main_arg11)) (V (Proc.devRef .tc main_arg12)) := by
  simp only [cL4]
  after_results_simp
  rfl

set_option maxRecDepth 8192 in
set_option maxHeartbeats 2000000 in
theorem cL5_main_v104 (V : Valuation τ sig (Elt Ideal)) :
    after (cL5 (F := Ideal)) V (no_index (Proc.devRef .tc main_v104)) = layer64 (V (Proc.devRef .tc main_v88)) (V (Proc.devRef .tc main_v1)) (V (Proc.devRef .tc main_v3)) (V (Proc.devRef .tc main_arg13)) (V (Proc.devRef .tc main_arg14)) := by
  simp only [cL5]
  after_results_simp
  rfl

set_option maxRecDepth 8192 in
set_option maxHeartbeats 2000000 in
theorem cFin_main_v107 (V : Valuation τ sig (Elt Ideal)) :
    after (cFin (F := Ideal)) V (no_index (Proc.devRef .tc main_v107)) = cat6 (V (Proc.devRef .tc main_v40)) (V (Proc.devRef .tc main_v56)) (V (Proc.devRef .tc main_v72)) (V (Proc.devRef .tc main_v88)) (V (Proc.devRef .tc main_v104)) (final (V (Proc.devRef .tc main_v104)) (V (Proc.devRef .tc main_arg15))) := by
  simp only [cFin]
  after_results_simp
  rfl

/-! ## The whole line -/

set_option maxRecDepth 8192 in
set_option maxHeartbeats 2000000 in
/-- The fold of @main's operations at the result buffer is `out` of the sixteen arguments' contents. -/
theorem after_eq (V : Valuation τ sig (Elt Ideal)) :
    after (ops : List (HloOp τ sig (Elt Ideal))) V (Proc.devRef .tc main_v107) = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [ops_flat]
  simp only [after_app]
  simp (disch := decide) only [cIdx_main_v1, cIdx_main_v3, cXs_main_v5, cMean_main_v8, cVar_main_v9, cBn_main_v24, cL1_main_v40, cL2_main_v56, cL3_main_v72, cL4_main_v88, cL5_main_v104, cFin_main_v107,
    cIdx_keep, cXs_keep, cMean_keep, cVar_keep, cBn_keep, cL1_keep, cL2_keep, cL3_keep, cL4_keep, cL5_keep, cFin_keep]
  rfl

/-- The same over a launch memory: device `c`'s result is `out` of its sixteen argument arrays. -/
theorem after_eq_mem (m : (ℓ : Loc nD τ sig) → Buf (Elt Ideal) ℓ) (c : Dev nD) :
    after (ops : List (HloOp τ sig (Elt Ideal))) (fun b => m (c, b)) (Proc.devRef .tc main_v107)
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  after_eq _

end Cert.ReferenceIdeal.RefValue

end
-- ==== Proof.KHost.lean ====
import proofs.«132860_j13426067767700_1_alg».proof.Proof.Gen.KernelIdeal.Launch
import proofs.«132860_j13426067767700_1_alg».proof.Proof.RefValue
import Idealize.ShloMosaic.Lib.StableHlo.Run
import Idealize.ShloMosaic.Lib.Pipeline.Value
import Idealize.ShloMosaic.Lib.ValueIdx
import Idealize.ShloMosaic.PureOps.Ideal

/-! The host stretches of the kernel program, each read as a function of the contents before it: the edge rows, the
    column mean and variance from the two column sums, the scale and shift as rows, each layer's gather and scatter-add,
    the bias as a row, and the six blocks side by side. The gather and scatter-add chain, the edge rows and the
    concatenation are the reference's functions. -/

noncomputable section

namespace Cert.KernelIdeal.KHost

open Cert.KernelIdeal Cert.KernelIdeal.Gen Idealize.ShloMosaic Idealize.ShloMosaic.TcCoe Idealize.SL.Sem Idealize.ShloMosaic.StableHlo
open Cert.ReferenceIdeal.RefValue (Cf Ci)

/-! ## The functions -/

/-- Row 0 of the edge array (the source node of each edge), as a vector. -/
def kSrc (E : Ci S2x1600000) : Ci S1600000 :=
  fun i => shapeCast S1600000 (extractStridedSlice S1x1600000 ![0, 0] E slices_S2x1600000_S1x1600000_0_0) shapeCasts_S1x1600000_S1600000 i
/-- Row 1 of the edge array (the destination node of each edge), as a vector. -/
def kDst (E : Ci S2x1600000) : Ci S1600000 :=
  fun i => shapeCast S1600000 (extractStridedSlice S1x1600000 ![1, 0] E slices_S2x1600000_S1x1600000_1_0) shapeCasts_S1x1600000_S1600000 i
/-- The gather's index column: the source vector, a negative entry wrapped by 100000, as one column. -/
def ksrc (s : Ci S1600000) : Ci S1600000x1 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)
/-- The scatter's index column: the destination vector as one column. -/
def kdst (d : Ci S1600000) : Ci S1600000x1 :=
  broadcastInDim S1600000x1 ![0] bcast_S1600000_S1600000x1_0 d
/-- The aggregation at width 128: the rows of `h` at the sources, summed into the destinations from zero. -/
def kagg128 (h : Cf S100000x128) (s d : Ci S1600000) : Cf S100000x128 :=
  Host.scatterAdd (F := Ideal) (φ := .f32) scatter_S100000x128_S1600000x1_S1600000x128_1_0_0_1 (broadcastInDim S100000x128 ![] bcast_S_S100000x128 (constant (F := Ideal) S_ .f32 0x00000000#32)) (kdst d) (Host.gather gather_S100000x128_S1600000x1_S1600000x128_1_0_n_n_0_1_1128 h (ksrc s))
/-- The aggregation at width 64. -/
def kagg64 (h : Cf S100000x64) (s d : Ci S1600000) : Cf S100000x64 :=
  Host.scatterAdd (F := Ideal) (φ := .f32) scatter_S100000x64_S1600000x1_S1600000x64_1_0_0_1 (broadcastInDim S100000x64 ![] bcast_S_S100000x64 (constant (F := Ideal) S_ .f32 0x00000000#32)) (kdst d) (Host.gather gather_S100000x64_S1600000x1_S1600000x64_1_0_n_n_0_1_164 h (ksrc s))
/-- Six blocks of 64 columns side by side. -/
def kcat6 (p1 p2 p3 p4 p5 p6 : Cf S100000x64) : Cf S100000x384 :=
  concatenate S100000x384 1 [⟨S100000x64, p1⟩, ⟨S100000x64, p2⟩, ⟨S100000x64, p3⟩, ⟨S100000x64, p4⟩, ⟨S100000x64, p5⟩, ⟨S100000x64, p6⟩] concatenates_S100000x64_S100000x64_S100000x64_S100000x64_S100000x64_S100000x64_S100000x384_d1
/-- A vector of 128 as one row. -/
def r128 (t : Cf S128) : Cf S1x128 :=
  fun i => shapeCast S1x128 t shapeCasts_S128_S1x128 i
/-- A vector of 64 as one row. -/
def r64 (t : Cf S64) : Cf S1x64 :=
  fun i => shapeCast S1x64 t shapeCasts_S64_S1x64 i

/-! ## What each host stretch leaves, from any contents -/

set_option maxRecDepth 8192 in
set_option maxHeartbeats 2000000 in
theorem ops0_v1 (V : Valuation τ sig (Elt Ideal)) :
    after (hostOps0 (F := Ideal)) V (Proc.devRef .tc main_v1) = kSrc (V (Proc.devRef .tc main_arg2)) := by
  after_results_simp
  all_goals rfl

set_option maxRecDepth 8192 in
set_option maxHeartbeats 2000000 in
theorem ops0_v3 (V : Valuation τ sig (Elt Ideal)) :
    after (hostOps0 (F := Ideal)) V (Proc.devRef .tc main_v3) = kDst (V (Proc.devRef .tc main_arg2)) := by
  after_results_simp
  all_goals rfl

set_option maxRecDepth 8192 in
set_option maxHeartbeats 2000000 in
theorem ops1_v6 (V : Valuation τ sig (Elt Ideal)) :
    after (hostOps1 (F := Ideal)) V (Proc.devRef .tc main_v6) = Host.divf (F := Ideal) (φ := .f32) (V (Proc.devRef .tc main_v4_0)) (broadcastInDim S1x128 ![] bcast_S_S1x128 (constant (F := Ideal) S_ .f32 0x47C35000#32)) := by
  after_results_simp
  all_goals rfl

set_option maxRecDepth 8192 in
set_option maxHeartbeats 2000000 in
theorem ops1_v10 (V : Valuation τ sig (Elt Ideal)) :
    after (hostOps1 (F := Ideal)) V (Proc.devRef .tc main_v10) = subf (F := Ideal) (φ := .f32) (Host.divf (F := Ideal) (φ := .f32) (V (Proc.devRef .tc main_v4_1)) (broadcastInDim S1x128 ![] bcast_S_S1x128 (constant (F := Ideal) S_ .f32 0x47C35000#32))) (mulf (F := Ideal) (φ := .f32) (Host.divf (F := Ideal) (φ := .f32) (V (Proc.devRef .tc main_v4_0)) (broadcastInDim S1x128 ![] bcast_S_S1x128 (constant (F := Ideal) S_ .f32 0x47C35000#32))) (Host.divf (F := Ideal) (φ := .f32) (V (Proc.devRef .tc main_v4_0)) (broadcastInDim S1x128 ![] bcast_S_S1x128 (constant (F := Ideal) S_ .f32 0x47C35000#32)))) := by
  after_results_simp
  all_goals rfl

set_option maxRecDepth 8192 in
set_option maxHeartbeats 2000000 in
theorem ops1_v11 (V : Valuation τ sig (Elt Ideal)) :
    after (hostOps1 (F := Ideal)) V (Proc.devRef .tc main_v11) = r128 (V (Proc.devRef .tc main_arg3)) := by
  after_results_simp
  all_goals rfl

set_option maxRecDepth 8192 in
set_option maxHeartbeats 2000000 in
theorem ops1_v12 (V : Valuation τ sig (Elt Ideal)) :
    after (hostOps1 (F := Ideal)) V (Proc.devRef .tc main_v12) = r128 (V (Proc.devRef .tc main_arg4)) := by
  after_results_simp
  all_goals rfl

set_option maxRecDepth 8192 in
set_option maxHeartbeats 2000000 in
theorem ops2_v23 (V : Valuation τ sig (Elt Ideal)) :
    after (hostOps2 (F := Ideal)) V (Proc.devRef .tc main_v23) = kagg128 (V (Proc.devRef .tc main_v13)) (V (Proc.devRef .tc main_v1)) (V (Proc.devRef .tc main_v3)) := by
  after_results_simp
  all_goals rfl

set_option maxRecDepth 8192 in
set_option maxHeartbeats 2000000 in
theorem ops2_v24 (V : Valuation τ sig (Elt Ideal)) :
    after (hostOps2 (F := Ideal)) V (Proc.devRef .tc main_v24) = r64 (V (Proc.devRef .tc main_arg6)) := by
  after_results_simp
  all_goals rfl

set_option maxRecDepth 8192 in
set_option maxHeartbeats 2000000 in
theorem ops3_v35 (V : Valuation τ sig (Elt Ideal)) :
    after (hostOps3 (F := Ideal)) V (Proc.devRef .tc main_v35) = kagg64 (V (Proc.devRef .tc main_v25)) (V (Proc.devRef .tc main_v1)) (V (Proc.devRef .tc main_v3)) := by
  after_results_simp
  all_goals rfl

set_option maxRecDepth 8192 in
set_option maxHeartbeats 2000000 in
theorem ops3_v36 (V : Valuation τ sig (Elt Ideal)) :
    after (hostOps3 (F := Ideal)) V (Proc.devRef .tc main_v36) = r64 (V (Proc.devRef .tc main_arg8)) := by
  after_results_simp
  all_goals rfl

set_option maxRecDepth 8192 in
set_option maxHeartbeats 2000000 in
theorem ops4_v47 (V : Valuation τ sig (Elt Ideal)) :
    after (hostOps4 (F := Ideal)) V (Proc.devRef .tc main_v47) = kagg64 (V (Proc.devRef .tc main_v37)) (V (Proc.devRef .tc main_v1)) (V (Proc.devRef .tc main_v3)) := by
  after_results_simp
  all_goals rfl

set_option maxRecDepth 8192 in
set_option maxHeartbeats 2000000 in
theorem ops4_v48 (V : Valuation τ sig (Elt Ideal)) :
    after (hostOps4 (F := Ideal)) V (Proc.devRef .tc main_v48) = r64 (V (Proc.devRef .tc main_arg10)) := by
  after_results_simp
  all_goals rfl

set_option maxRecDepth 8192 in
set_option maxHeartbeats 2000000 in
theorem ops5_v59 (V : Valuation τ sig (Elt Ideal)) :
    after (hostOps5 (F := Ideal)) V (Proc.devRef .tc main_v59) = kagg64 (V (Proc.devRef .tc main_v49)) (V (Proc.devRef .tc main_v1)) (V (Proc.devRef .tc main_v3)) := by
  after_results_simp
  all_goals rfl

set_option maxRecDepth 8192 in
set_option maxHeartbeats 2000000 in
theorem ops5_v60 (V : Valuation τ sig (Elt Ideal)) :
    after (hostOps5 (F := Ideal)) V (Proc.devRef .tc main_v60) = r64 (V (Proc.devRef .tc main_arg12)) := by
  after_results_simp
  all_goals rfl

set_option maxRecDepth 8192 in
set_option maxHeartbeats 2000000 in
theorem ops6_v71 (V : Valuation τ sig (Elt Ideal)) :
    after (hostOps6 (F := Ideal)) V (Proc.devRef .tc main_v71) = kagg64 (V (Proc.devRef .tc main_v61)) (V (Proc.devRef .tc main_v1)) (V (Proc.devRef .tc main_v3)) := by
  after_results_simp
  all_goals rfl

set_option maxRecDepth 8192 in
set_option maxHeartbeats 2000000 in
theorem ops6_v72 (V : Valuation τ sig (Elt Ideal)) :
    after (hostOps6 (F := Ideal)) V (Proc.devRef .tc main_v72) = r64 (V (Proc.devRef .tc main_arg14)) := by
  after_results_simp
  all_goals rfl

set_option maxRecDepth 8192 in
set_option maxHeartbeats 2000000 in
theorem ops8_v75 (V : Valuation τ sig (Elt Ideal)) :
    after (hostOps8 (F := Ideal)) V (Proc.devRef .tc main_v75) = kcat6 (V (Proc.devRef .tc main_v25)) (V (Proc.devRef .tc main_v37)) (V (Proc.devRef .tc main_v49)) (V (Proc.devRef .tc main_v61)) (V (Proc.devRef .tc main_v73)) (V (Proc.devRef .tc main_v74)) := by
  after_results_simp
  all_goals rfl

/-! ## A row read at an index -/

/-- The one row of `r128 t` at column `j` is `t` at `j`. -/
theorem r128_apply (t : Cf S128) (j : Fin 128) : r128 t (ValueIdx.ix2 (0 : Fin 1) j) = t (ValueIdx.ix1 j) := by
  unfold r128
  refine shapeCast_apply t _ _ _ ?_
  rw [Shape.rowMajor_val_one, Shape.rowMajor_val_two]
  show j.val = (0 : Fin 1).val * 128 + j.val
  simp
/-- The one row of `r64 t` at column `j` is `t` at `j`. -/
theorem r64_apply (t : Cf S64) (j : Fin 64) : r64 t (ValueIdx.ix2 (0 : Fin 1) j) = t (ValueIdx.ix1 j) := by
  unfold r64
  refine shapeCast_apply t _ _ _ ?_
  rw [Shape.rowMajor_val_one, Shape.rowMajor_val_two]
  show j.val = (0 : Fin 1).val * 64 + j.val
  simp

/-! ## The kernel program's host functions are the reference's -/

theorem kSrc_eq : kSrc = Cert.ReferenceIdeal.RefValue.eSrc := rfl
theorem kDst_eq : kDst = Cert.ReferenceIdeal.RefValue.eDst := rfl
theorem ksrc_eq : ksrc = Cert.ReferenceIdeal.RefValue.src := rfl
theorem kdst_eq : kdst = Cert.ReferenceIdeal.RefValue.dst := rfl
theorem kagg128_eq : kagg128 = Cert.ReferenceIdeal.RefValue.agg128 := rfl
theorem kagg64_eq : kagg64 = Cert.ReferenceIdeal.RefValue.agg64 := rfl
theorem kcat6_eq : kcat6 = Cert.ReferenceIdeal.RefValue.cat6 := rfl

end Cert.KernelIdeal.KHost

end
-- ==== Proof.RefRead.lean ====
/-
  The reference's whole-array host expressions are the specification's functions, index by index: a product with the
  row-broadcast importance column is the row scaling, a column sum over the row count is the column mean, the outlined
  variance function's term is the centred variance, the broadcast normalisation is the specification's, and a
  `dot_general` plus a broadcast bias under `tanh` is a graph layer.
-/
import proofs.«132860_j13426067767700_1_alg».proof.ReferenceIdeal
import proofs.«132860_j13426067767700_1_alg».proof.Proof.Gen.ReferenceIdeal
import proofs.«132860_j13426067767700_1_alg».proof.Proof.Spec
import proofs.«132860_j13426067767700_1_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefRead

open Cert.ReferenceIdeal Cert.ReferenceIdeal.Facts₀ Idealize.ShloMosaic Idealize.ShloMosaic.ValueIdx
open scoped BigOperators

/-! ## The two contractions at an index -/

section Dot64

theorem lhs64_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs64_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs64_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs64_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The [100000,64] × [64,64] contraction at `(p, q)`: the sum over the shared coordinate of the products. -/
theorem dot64_apply (l : FVec Ideal S100000x64 .f32) (r : FVec Ideal S64x64 .f32) (p : Fin 100000) (q : Fin 64) :
    Host.dotGeneral (F := Ideal) dot_S100000x64_S64x64_S100000x64_1_0_0_1_n_n none l r (ix2 p q)
      = ∑ κ : Fin 64, l (ix2 p κ) * r (ix2 κ q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q)
      ((contrEquiv1 dot_S100000x64_S64x64_S100000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S100000x64_S64x64_S100000x64_1_0_0_1_n_n.rhsIdx (ix2 p q)
      ((contrEquiv1 dot_S100000x64_S64x64_S100000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

end Dot64

section Dot128

theorem lhs128_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem lhs128_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs128_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs128_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The [100000,128] × [128,64] contraction at `(p, q)`: the sum over the shared coordinate of the products. -/
theorem dot128_apply (l : FVec Ideal S100000x128 .f32) (r : FVec Ideal S128x64 .f32) (p : Fin 100000) (q : Fin 64) :
    Host.dotGeneral (F := Ideal) dot_S100000x128_S128x64_S100000x64_1_0_0_1_n_n none l r (ix2 p q)
      = ∑ κ : Fin 128, l (ix2 p κ) * r (ix2 κ q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q)
      ((contrEquiv1 dot_S100000x128_S128x64_S100000x64_1_0_0_1_n_n 128 rfl rfl).symm k) = ix2 p k := funext fun a => Fin.ext (by
    match a with
    | ⟨0, _⟩ => exact lhs128_0 _ _
    | ⟨1, _⟩ => exact (lhs128_1 _ _).trans hk)
  have er : dot_S100000x128_S128x64_S100000x64_1_0_0_1_n_n.rhsIdx (ix2 p q)
      ((contrEquiv1 dot_S100000x128_S128x64_S100000x64_1_0_0_1_n_n 128 rfl rfl).symm k) = ix2 k q := funext fun a => Fin.ext (by
    match a with
    | ⟨0, _⟩ => exact (rhs128_0 _ _).trans hk
    | ⟨1, _⟩ => exact rhs128_1 _ _)
  rw [el, er]

end Dot128

/-! ## Broadcasts at an index -/

/-- A [64] vector broadcast to one row and that row to every row reads, at `(p, q)`, the vector at `q`. -/
theorem bias64_apply {α : Type} (b : S64.Idx → α) (p : Fin 100000) (q : Fin 64) :
    broadcastInDim S100000x64 ![0, 1] bcast_S1x64_S100000x64_0_1 (broadcastInDim S1x64 ![1] bcast_S64_S1x64_1 b) (ix2 p q)
      = b (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-! ## The layers -/

/-- A graph layer over 64 input features. -/
theorem layer64_eq (h agg : FVec Ideal S100000x64 .f32) (W : FVec Ideal S64x64 .f32) (b : FVec Ideal S64 .f32) :
    Host.tanh (F := Ideal) (addf (Host.dotGeneral (F := Ideal) dot_S100000x64_S64x64_S100000x64_1_0_0_1_n_n none (addf h agg) W)
      (broadcastInDim S100000x64 ![0, 1] bcast_S1x64_S100000x64_0_1 (broadcastInDim S1x64 ![1] bcast_S64_S1x64_1 b)))
      = Cert.Spec.layer h agg W b := by
  funext i
  obtain ⟨p, q, rfl⟩ : ∃ (p : Fin 100000) (q : Fin 64), i = ix2 p q := ⟨i 0, i 1, eq_ix2 i⟩
  show Ideal.tanh (Host.dotGeneral (F := Ideal) dot_S100000x64_S64x64_S100000x64_1_0_0_1_n_n none (addf h agg) W (ix2 p q)
    + broadcastInDim S100000x64 ![0, 1] bcast_S1x64_S100000x64_0_1 (broadcastInDim S1x64 ![1] bcast_S64_S1x64_1 b) (ix2 p q)) = _
  rw [dot64_apply, bias64_apply]
  rfl

/-- A graph layer over 128 input features. -/
theorem layer128_eq (h agg : FVec Ideal S100000x128 .f32) (W : FVec Ideal S128x64 .f32) (b : FVec Ideal S64 .f32) :
    Host.tanh (F := Ideal) (addf (Host.dotGeneral (F := Ideal) dot_S100000x128_S128x64_S100000x64_1_0_0_1_n_n none (addf h agg) W)
      (broadcastInDim S100000x64 ![0, 1] bcast_S1x64_S100000x64_0_1 (broadcastInDim S1x64 ![1] bcast_S64_S1x64_1 b)))
      = Cert.Spec.layer h agg W b := by
  funext i
  obtain ⟨p, q, rfl⟩ : ∃ (p : Fin 100000) (q : Fin 64), i = ix2 p q := ⟨i 0, i 1, eq_ix2 i⟩
  show Ideal.tanh (Host.dotGeneral (F := Ideal) dot_S100000x128_S128x64_S100000x64_1_0_0_1_n_n none (addf h agg) W (ix2 p q)
    + broadcastInDim S100000x64 ![0, 1] bcast_S1x64_S100000x64_0_1 (broadcastInDim S1x64 ![1] bcast_S64_S1x64_1 b) (ix2 p q)) = _
  rw [dot128_apply, bias64_apply]
  rfl

/-- The last projection. -/
theorem proj_eq (h : FVec Ideal S100000x64 .f32) (W : FVec Ideal S64x64 .f32) :
    Host.tanh (F := Ideal) (Host.dotGeneral (F := Ideal) dot_S100000x64_S64x64_S100000x64_1_0_0_1_n_n none h W)
      = Cert.Spec.proj h W := by
  funext i
  obtain ⟨p, q, rfl⟩ : ∃ (p : Fin 100000) (q : Fin 64), i = ix2 p q := ⟨i 0, i 1, eq_ix2 i⟩
  show Ideal.tanh (Host.dotGeneral (F := Ideal) dot_S100000x64_S64x64_S100000x64_1_0_0_1_n_n none h W (ix2 p q)) = _
  rw [dot64_apply]
  rfl

/-! ## The row scaling -/

/-- An importance column broadcast along the rows reads, at `(p, q)`, row `p`'s importance. -/
theorem impcast_apply {α : Type} (imp : S100000x1.Idx → α) (p : Fin 100000) (q : Fin 128) :
    broadcastInDim S100000x128 ![0, 1] bcast_S100000x1_S100000x128_0_1 imp (ix2 p q) = imp (ix2 p (0 : Fin 1)) :=
  broadcastInDim_apply _ bcast_S100000x1_S100000x128_0_1 imp (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- The scaled input. -/
theorem scaled_eq (X : FVec Ideal S100000x128 .f32) (imp : FVec Ideal S100000x1 .f32) :
    mulf X (broadcastInDim S100000x128 ![0, 1] bcast_S100000x1_S100000x128_0_1 imp) = Cert.Spec.scaled X imp := by
  funext i
  obtain ⟨p, q, rfl⟩ : ∃ (p : Fin 100000) (q : Fin 128), i = ix2 p q := ⟨i 0, i 1, eq_ix2 i⟩
  show X (ix2 p q) * broadcastInDim S100000x128 ![0, 1] bcast_S100000x1_S100000x128_0_1 imp (ix2 p q) = _
  rw [impcast_apply]
  rfl

/-! ## Column sums, the mean and the variance -/

/-- A [128] vector made a row reads, at `(0, q)`, the vector at `q`. -/
theorem unsq128_apply {α : Type} (v : S128.Idx → α) (q : Fin 128) :
    broadcastInDim S1x128 ![1] bcast_S128_S1x128_1 v (ix2 (0 : Fin 1) q) = v (ix1 q) :=
  broadcastInDim_apply _ bcast_S128_S1x128_1 v (ix2 (0 : Fin 1) q) (ix1 q) (fun a => match a with
    | ⟨0, _⟩ => by show q.val = if (128 : Nat) = 1 then 0 else q.val; rw [if_neg (by decide)])

/-- One row broadcast to every row reads, at `(p, q)`, the row at `q`. -/
theorem row128_apply {α : Type} (v : S1x128.Idx → α) (p : Fin 100000) (q : Fin 128) :
    broadcastInDim S100000x128 ![0, 1] bcast_S1x128_S100000x128_0_1 v (ix2 p q) = v (ix2 (0 : Fin 1) q) :=
  broadcastInDim_apply _ bcast_S1x128_S100000x128_0_1 v (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A [128] vector made a row and the row broadcast to every row reads, at `(p, q)`, the vector at `q`. -/
theorem rowcast128_apply {α : Type} (v : S128.Idx → α) (p : Fin 100000) (q : Fin 128) :
    broadcastInDim S100000x128 ![0, 1] bcast_S1x128_S100000x128_0_1 (broadcastInDim S1x128 ![1] bcast_S128_S1x128_1 v) (ix2 p q)
      = v (ix1 q) := by
  rw [row128_apply, unsq128_apply]

/-- The host's sum over the rows from the zero word is, at column `q`, the specification's column sum. -/
theorem reduce128_apply (x : FVec Ideal S100000x128 .f32) (q : Fin 128) :
    Host.reduceAdd (F := Ideal) x (constant (F := Ideal) S_ .f32 0x00000000#32) reducesTo_S100000x128_S128_d0 h_S_ (ix1 q)
      = Cert.Spec.colSum x q := by
  show Ideal.hostReduceAdd reducesTo_S100000x128_S128_d0 x (Ideal.ofBits .f32 0x00000000#32) (ix1 q) = _
  rw [Ideal.hostReduceAdd_single reducesTo_S100000x128_S128_d0 (by decide), Ideal.ofBits_zero_f32, zero_add]
  unfold Cert.Spec.colSum
  refine Finset.sum_congr rfl fun k _ => ?_
  exact congrArg x (funext fun a => Fin.ext (by match a with | ⟨0, _⟩ => rfl | ⟨1, _⟩ => rfl))

/-- The column mean. -/
theorem mean_eq (x : FVec Ideal S100000x128 .f32) :
    Host.divf (F := Ideal) (Host.reduceAdd (F := Ideal) x (constant (F := Ideal) S_ .f32 0x00000000#32) reducesTo_S100000x128_S128_d0 h_S_)
      (broadcastInDim S128 ![] bcast_S_S128 (constant (F := Ideal) S_ .f32 0x47C35000#32))
      = fun j => Cert.Spec.mean x (j 0) := by
  funext j
  obtain ⟨q, rfl⟩ : ∃ q : Fin 128, j = ix1 q := ⟨j 0, eq_ix1 j⟩
  show Ideal.div (Host.reduceAdd (F := Ideal) x (constant (F := Ideal) S_ .f32 0x00000000#32) reducesTo_S100000x128_S128_d0 h_S_ (ix1 q))
    (Ideal.ofBits .f32 0x47C35000#32) = _
  rw [reduce128_apply]
  rfl

/-- The host's quotient at an index is the quotient of the elements. -/
theorem hostDivf_apply {s : Shape} {φ : FTy} (a b : FVec Ideal s φ) (i : s.Idx) :
    Host.divf (F := Ideal) a b i = Ideal.div (a i) (b i) := rfl

/-- The deviations from the column mean, as the variance function forms them: the input minus the column sums made a
    row, divided by the row count and broadcast to every row. -/
abbrev refDev (x : FVec Ideal S100000x128 .f32) : FVec Ideal S100000x128 .f32 :=
  subf x (broadcastInDim S100000x128 ![0, 1] bcast_S1x128_S100000x128_0_1
          (Host.divf (F := Ideal)
            (broadcastInDim S1x128 ![1] bcast_S128_S1x128_1
              (Host.reduceAdd (F := Ideal) x (constant (F := Ideal) S_ .f32 0x00000000#32) reducesTo_S100000x128_S128_d0 h_S_))
            (broadcastInDim S1x128 ![] bcast_S_S1x128 (constant (F := Ideal) S_ .f32 0x47C35000#32))))

/-- The variance function's divisor: the row count minus the converted zero correction. -/
abbrev refCount : FVec Ideal S_ .f32 :=
  (subf (constant (F := Ideal) S_ .f32 0x47C35000#32) (sitofp (F := Ideal) .f32 (constantI S_ 32 0#32)))

/-- The variance function's result: the mean of the squared deviations where the divisor is positive, else the
    not-a-number word. -/
abbrev refVar (x : FVec Ideal S100000x128 .f32) : FVec Ideal S128 .f32 :=
  select (broadcastInDim S128 ![] bcast_S_S128 (cmpf .ogt refCount (constant (F := Ideal) S_ .f32 0x00000000#32)))
    (Host.divf (F := Ideal)
      (Host.reduceAdd (F := Ideal) (mulf (refDev x) (refDev x)) (constant (F := Ideal) S_ .f32 0x00000000#32)
        reducesTo_S100000x128_S128_d0 h_S_)
      (broadcastInDim S128 ![] bcast_S_S128 refCount))
    (broadcastInDim S128 ![] bcast_S_S128 (id (constant (F := Ideal) S_ .f32 0x7FC00000#32)))

/-- The divisor is the row count: the converted zero is zero. -/
theorem refCount_apply (k : S_.Idx) : refCount k = Cert.Spec.cnt := by
  show Ideal.ofBits .f32 0x47C35000#32 - (((0#32 : BitVec 32).toInt : ℝ) : EReal) = Cert.Spec.cnt
  have h0 : ((0#32 : BitVec 32).toInt : ℝ) = 0 := by simp
  rw [h0, EReal.coe_zero, sub_zero]
  rfl

/-- A deviation at `(p, q)` is the entry minus the specification's column mean. -/
theorem refDev_apply (x : FVec Ideal S100000x128 .f32) (p : Fin 100000) (q : Fin 128) :
    refDev x (ix2 p q) = x (ix2 p q) - Cert.Spec.mean x q := by
  unfold refDev
  rw [subf_apply, row128_apply, hostDivf_apply, unsq128_apply, reduce128_apply]
  rfl

/-- The variance function's result is the centred variance: its divisor is the positive row count, so the select takes
    the quotient. -/
theorem refVar_eq (x : FVec Ideal S100000x128 .f32) : refVar x = fun j => Cert.Spec.varCentered x (j 0) := by
  funext j
  obtain ⟨q, rfl⟩ : ∃ q : Fin 128, j = ix1 q := ⟨j 0, eq_ix1 j⟩
  unfold refVar
  rw [select_apply]
  have hc : broadcastInDim S128 ![] bcast_S_S128 (cmpf .ogt refCount (constant (F := Ideal) S_ .f32 0x00000000#32)) (ix1 q)
      = 1#1 := by
    show Ideal.cmp .ogt (refCount _) (Ideal.ofBits .f32 0x00000000#32) = 1#1
    rw [refCount_apply, Cert.Spec.cnt_eq, Ideal.ofBits_zero_f32]
    show BitVec.ofBool (decide ((0 : EReal) < ((100000 : ℝ) : EReal))) = 1#1
    rw [decide_eq_true (EReal.coe_pos.mpr (by norm_num))]
    rfl
  rw [hc, select_one, hostDivf_apply, reduce128_apply]
  show Ideal.div _ (refCount _) = _
  rw [refCount_apply]
  unfold Cert.Spec.varCentered Cert.Spec.colSum
  refine congrArg (Ideal.div · Cert.Spec.cnt) (Finset.sum_congr rfl fun k _ => ?_)
  show refDev x (ix2 k q) * refDev x (ix2 k q) = _
  rw [refDev_apply]

/-- The same with the variance function's term written out. -/
theorem var_eq_ref (x : FVec Ideal S100000x128 .f32) :
    select
      (broadcastInDim S128 ![] bcast_S_S128
        (cmpf .ogt (subf (constant (F := Ideal) S_ .f32 0x47C35000#32) (sitofp (F := Ideal) .f32 (constantI S_ 32 0#32)))
          (constant (F := Ideal) S_ .f32 0x00000000#32)))
      (Host.divf (F := Ideal)
        (Host.reduceAdd (F := Ideal)
          (mulf
            (subf x (broadcastInDim S100000x128 ![0, 1] bcast_S1x128_S100000x128_0_1
          (Host.divf (F := Ideal)
            (broadcastInDim S1x128 ![1] bcast_S128_S1x128_1
              (Host.reduceAdd (F := Ideal) x (constant (F := Ideal) S_ .f32 0x00000000#32) reducesTo_S100000x128_S128_d0 h_S_))
            (broadcastInDim S1x128 ![] bcast_S_S1x128 (constant (F := Ideal) S_ .f32 0x47C35000#32)))))
            (subf x (broadcastInDim S100000x128 ![0, 1] bcast_S1x128_S100000x128_0_1
          (Host.divf (F := Ideal)
            (broadcastInDim S1x128 ![1] bcast_S128_S1x128_1
              (Host.reduceAdd (F := Ideal) x (constant (F := Ideal) S_ .f32 0x00000000#32) reducesTo_S100000x128_S128_d0 h_S_))
            (broadcastInDim S1x128 ![] bcast_S_S1x128 (constant (F := Ideal) S_ .f32 0x47C35000#32))))))
          (constant (F := Ideal) S_ .f32 0x00000000#32) reducesTo_S100000x128_S128_d0 h_S_)
        (broadcastInDim S128 ![] bcast_S_S128
          (subf (constant (F := Ideal) S_ .f32 0x47C35000#32) (sitofp (F := Ideal) .f32 (constantI S_ 32 0#32)))))
      (broadcastInDim S128 ![] bcast_S_S128 (id (constant (F := Ideal) S_ .f32 0x7FC00000#32)))
      = fun j => Cert.Spec.varCentered x (j 0) :=
  refVar_eq x

/-! ## The normalisation -/

/-- The normalised, scaled and shifted input. -/
theorem normalize_eq (x : FVec Ideal S100000x128 .f32) (mu var gamma beta : FVec Ideal S128 .f32) :
    addf
      (mulf
        (mulf (subf x (broadcastInDim S100000x128 ![0, 1] bcast_S1x128_S100000x128_0_1 (broadcastInDim S1x128 ![1] bcast_S128_S1x128_1 mu)))
          (broadcastInDim S100000x128 ![0, 1] bcast_S1x128_S100000x128_0_1 (broadcastInDim S1x128 ![1] bcast_S128_S1x128_1 (Host.rsqrt (F := Ideal) (addf var (broadcastInDim S128 ![] bcast_S_S128 (constant (F := Ideal) S_ .f32 0x3727C5AC#32)))))))
        (broadcastInDim S100000x128 ![0, 1] bcast_S1x128_S100000x128_0_1 (broadcastInDim S1x128 ![1] bcast_S128_S1x128_1 gamma)))
      (broadcastInDim S100000x128 ![0, 1] bcast_S1x128_S100000x128_0_1 (broadcastInDim S1x128 ![1] bcast_S128_S1x128_1 beta))
      = Cert.Spec.normalize x (fun j => mu (ix1 j)) (fun j => var (ix1 j)) gamma beta := by
  funext i
  obtain ⟨p, q, rfl⟩ : ∃ (p : Fin 100000) (q : Fin 128), i = ix2 p q := ⟨i 0, i 1, eq_ix2 i⟩
  rw [addf_apply, mulf_apply, mulf_apply, subf_apply, rowcast128_apply, rowcast128_apply, rowcast128_apply, rowcast128_apply]
  rfl

end Cert.ReferenceIdeal.RefRead

end
-- ==== Proof.Bridge.lean ====
/-
  The kernel program's result, written over the specification's functions, is the reference's result: the column mean
  and the variance from the two column sums are the specification's mean and, on finite entries, its centred variance;
  the scale, shift and bias rows read back as the vectors they were cast from; each layer is the reference's layer; and
  the six blocks are concatenated by the same function.
-/
import proofs.«132860_j13426067767700_1_alg».proof.Proof.KHost
import proofs.«132860_j13426067767700_1_alg».proof.Proof.RefValue
import proofs.«132860_j13426067767700_1_alg».proof.Proof.RefRead
import proofs.«132860_j13426067767700_1_alg».proof.Proof.Spec
import proofs.«132860_j13426067767700_1_alg».proof.Proof.SpecLaws

noncomputable section

namespace Cert.KernelIdeal.Bridge

open Cert.KernelIdeal Cert.KernelIdeal.Gen Cert.KernelIdeal.KHost Idealize.ShloMosaic Idealize.ShloMosaic.ValueIdx
open Cert.ReferenceIdeal.RefValue (Cf Ci)

/-! ## The kernel program's result over the specification's functions -/

/-- The row count as a row. -/
def cnt2 : Cf S1x128 := broadcastInDim S1x128 ![] bcast_S_S1x128 (constant (F := Ideal) S_ .f32 0x47C35000#32)
/-- The column sums of the scaled input, as a row. -/
def sum1 (X : Cf S100000x128) (imp : Cf S100000x1) : Cf S1x128 :=
  fun i => Cert.Spec.colSum (Cert.Spec.scaled X imp) (i 1)
/-- The column sums of the scaled input's squares, as a row. -/
def sum2 (X : Cf S100000x128) (imp : Cf S100000x1) : Cf S1x128 :=
  fun i => Cert.Spec.colSum (fun k => Cert.Spec.scaled X imp k * Cert.Spec.scaled X imp k) (i 1)
/-- The column mean, as a row. -/
def mu2 (X : Cf S100000x128) (imp : Cf S100000x1) : Cf S1x128 := Host.divf (F := Ideal) (sum1 X imp) cnt2
/-- The column variance as mean of squares minus squared mean, as a row. -/
def var2 (X : Cf S100000x128) (imp : Cf S100000x1) : Cf S1x128 :=
  subf (Host.divf (F := Ideal) (sum2 X imp) cnt2) (mulf (mu2 X imp) (mu2 X imp))
/-- The normalised scaled input. -/
def k0 (X : Cf S100000x128) (imp : Cf S100000x1) (g be : Cf S128) : Cf S100000x128 :=
  Cert.Spec.normalize (Cert.Spec.scaled X imp) (fun j => mu2 X imp (ix2 0 j)) (fun j => var2 X imp (ix2 0 j))
    (fun j => r128 g (ix2 0 (j 0))) (fun j => r128 be (ix2 0 (j 0)))
/-- The first layer, from width 128 to 64. -/
def kl128 (h : Cf S100000x128) (E : Ci S2x1600000) (W : Cf S128x64) (b : Cf S64) : Cf S100000x64 :=
  Cert.Spec.layer h (kagg128 h (kSrc E) (kDst E)) W (fun j => r64 b (ix2 0 (j 0)))
/-- A later layer, at width 64. -/
def kl64 (h : Cf S100000x64) (E : Ci S2x1600000) (W : Cf S64x64) (b : Cf S64) : Cf S100000x64 :=
  Cert.Spec.layer h (kagg64 h (kSrc E) (kDst E)) W (fun j => r64 b (ix2 0 (j 0)))
/-- The five layers' outputs, each of all the arguments so far. -/
def kh1 (a0 : Cf S100000x128) (a1 : Cf S100000x1) (a2 : Ci S2x1600000) (a3 : Cf S128) (a4 : Cf S128) (a5 : Cf S128x64) (a6 : Cf S64) : Cf S100000x64 :=
  kl128 (k0 a0 a1 a3 a4) a2 a5 a6
def kh2 (a0 : Cf S100000x128) (a1 : Cf S100000x1) (a2 : Ci S2x1600000) (a3 : Cf S128) (a4 : Cf S128) (a5 : Cf S128x64) (a6 : Cf S64) (a7 : Cf S64x64) (a8 : Cf S64) : Cf S100000x64 :=
  kl64 (kh1 a0 a1 a2 a3 a4 a5 a6) a2 a7 a8
def kh3 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) : Cf S100000x64 :=
  kl64 (kh2 a0 a1 a2 a3 a4 a5 a6 a7 a8) a2 a9 a10
def kh4 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) : Cf S100000x64 :=
  kl64 (kh3 a0 a1 a2 a3 a4 a5 a6 a7 a8 a9 a10) a2 a11 a12
def kh5 (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) : Cf S100000x64 :=
  kl64 (kh4 a0 a1 a2 a3 a4 a5 a6 a7 a8 a9 a10 a11 a12) a2 a13 a14
/-- The result: the five layers' outputs and the last projection of the fifth, side by side. -/
def kout (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) (a15 : Cf S64x64) : Cf S100000x384 :=
  kcat6 (kh1 a0 a1 a2 a3 a4 a5 a6) (kh2 a0 a1 a2 a3 a4 a5 a6 a7 a8) (kh3 a0 a1 a2 a3 a4 a5 a6 a7 a8 a9 a10) (kh4 a0 a1 a2 a3 a4 a5 a6 a7 a8 a9 a10 a11 a12) (kh5 a0 a1 a2 a3 a4 a5 a6 a7 a8 a9 a10 a11 a12 a13 a14)
    (Cert.Spec.proj (kh5 a0 a1 a2 a3 a4 a5 a6 a7 a8 a9 a10 a11 a12 a13 a14) a15)

/-! ## The statistics -/

/-- The mean row at column `j` is the specification's column mean. -/
theorem mu2_apply (X : Cf S100000x128) (imp : Cf S100000x1) (j : Fin 128) :
    mu2 X imp (ix2 (0 : Fin 1) j) = Cert.Spec.mean (Cert.Spec.scaled X imp) j := rfl

/-- The variance row at column `j` is the specification's variance by moments. -/
theorem var2_apply (X : Cf S100000x128) (imp : Cf S100000x1) (j : Fin 128) :
    var2 X imp (ix2 (0 : Fin 1) j) = Cert.Spec.varMoments (Cert.Spec.scaled X imp) j := rfl

/-- A vector of 128 cast to a row and read back along the row is the vector. -/
theorem r128_back (g : Cf S128) : (fun j : S128.Idx => r128 g (ix2 (0 : Fin 1) (j 0))) = g := by
  funext j
  obtain ⟨q, rfl⟩ : ∃ q : Fin 128, j = ix1 q := ⟨j 0, eq_ix1 j⟩
  exact r128_apply g q

/-- A vector of 64 cast to a row and read back along the row is the vector. -/
theorem r64_back (b : Cf S64) : (fun j : S64.Idx => r64 b (ix2 (0 : Fin 1) (j 0))) = b := by
  funext j
  obtain ⟨q, rfl⟩ : ∃ q : Fin 64, j = ix1 q := ⟨j 0, eq_ix1 j⟩
  exact r64_apply b q

/-! ## The normalisation -/

/-- The reference's normalised scaled input, over the specification's functions. -/
theorem h0_eq (a0 : Cf S100000x128) (a1 : Cf S100000x1) (a3 a4 : Cf S128) :
    Cert.ReferenceIdeal.RefValue.h0 a0 a1 a3 a4
      = Cert.Spec.normalize (Cert.Spec.scaled a0 a1) (Cert.Spec.mean (Cert.Spec.scaled a0 a1))
          (Cert.Spec.varCentered (Cert.Spec.scaled a0 a1)) a3 a4 := by
  have hxs : Cert.ReferenceIdeal.RefValue.xs a0 a1 = Cert.Spec.scaled a0 a1 := Cert.ReferenceIdeal.RefRead.scaled_eq a0 a1
  have hmean : ∀ x, Cert.ReferenceIdeal.RefValue.mean x = fun j => Cert.Spec.mean x (j 0) :=
    fun x => Cert.ReferenceIdeal.RefRead.mean_eq x
  have hvar : ∀ x, Cert.ReferenceIdeal.RefValue.var x = fun j => Cert.Spec.varCentered x (j 0) :=
    fun x => Cert.ReferenceIdeal.RefRead.refVar_eq x
  have hbn : ∀ x mu v gamma beta, Cert.ReferenceIdeal.RefValue.bn x mu v gamma beta
      = Cert.Spec.normalize x (fun j => mu (ix1 j)) (fun j => v (ix1 j)) gamma beta :=
    fun x mu v gamma beta => Cert.ReferenceIdeal.RefRead.normalize_eq x mu v gamma beta
  unfold Cert.ReferenceIdeal.RefValue.h0
  rw [hxs, hmean, hvar, hbn]

/-- The kernel program's normalised scaled input is the reference's, on finite entries. -/
theorem k0_eq (a0 : Cf S100000x128) (a1 : Cf S100000x1) (a3 a4 : Cf S128) (hx : ∀ i, ∃ r : ℝ, Cert.Spec.scaled a0 a1 i = (r : EReal)) :
    k0 a0 a1 a3 a4 = Cert.ReferenceIdeal.RefValue.h0 a0 a1 a3 a4 := by
  have hmu : (fun j : Fin 128 => mu2 a0 a1 (ix2 (0 : Fin 1) j)) = Cert.Spec.mean (Cert.Spec.scaled a0 a1) := rfl
  have hvar : (fun j : Fin 128 => var2 a0 a1 (ix2 (0 : Fin 1) j)) = Cert.Spec.varCentered (Cert.Spec.scaled a0 a1) := by
    funext j
    rw [var2_apply]
    exact Cert.Spec.var_eq (Cert.Spec.scaled a0 a1) hx j
  rw [h0_eq]
  unfold k0
  rw [hmu, hvar, r128_back, r128_back]

/-! ## The layers -/

/-- The first layer is the reference's. -/
theorem kl128_eq (h : Cf S100000x128) (E : Ci S2x1600000) (W : Cf S128x64) (b : Cf S64) :
    kl128 h E W b = Cert.ReferenceIdeal.RefValue.layer128 h (Cert.ReferenceIdeal.RefValue.eSrc E)
      (Cert.ReferenceIdeal.RefValue.eDst E) W b := by
  have href : ∀ s d, Cert.ReferenceIdeal.RefValue.layer128 h s d W b
      = Cert.Spec.layer h (Cert.ReferenceIdeal.RefValue.agg128 h s d) W b :=
    fun s d => Cert.ReferenceIdeal.RefRead.layer128_eq h (Cert.ReferenceIdeal.RefValue.agg128 h s d) W b
  rw [href]
  unfold kl128
  rw [r64_back, kagg128_eq, kSrc_eq, kDst_eq]

/-- A later layer is the reference's. -/
theorem kl64_eq (h : Cf S100000x64) (E : Ci S2x1600000) (W : Cf S64x64) (b : Cf S64) :
    kl64 h E W b = Cert.ReferenceIdeal.RefValue.layer64 h (Cert.ReferenceIdeal.RefValue.eSrc E)
      (Cert.ReferenceIdeal.RefValue.eDst E) W b := by
  have href : ∀ s d, Cert.ReferenceIdeal.RefValue.layer64 h s d W b
      = Cert.Spec.layer h (Cert.ReferenceIdeal.RefValue.agg64 h s d) W b :=
    fun s d => Cert.ReferenceIdeal.RefRead.layer64_eq h (Cert.ReferenceIdeal.RefValue.agg64 h s d) W b
  rw [href]
  unfold kl64
  rw [r64_back, kagg64_eq, kSrc_eq, kDst_eq]

/-- The last projection is the reference's. -/
theorem proj_eq_final (h : Cf S100000x64) (W : Cf S64x64) :
    Cert.Spec.proj h W = Cert.ReferenceIdeal.RefValue.final h W :=
  (Cert.ReferenceIdeal.RefRead.proj_eq h W).symm

theorem kh1_eq (a0 : Cf S100000x128) (a1 : Cf S100000x1) (a2 : Ci S2x1600000) (a3 : Cf S128) (a4 : Cf S128) (a5 : Cf S128x64) (a6 : Cf S64) (hx : ∀ i, ∃ r : ℝ, Cert.Spec.scaled a0 a1 i = (r : EReal)) :
    kh1 a0 a1 a2 a3 a4 a5 a6 = Cert.ReferenceIdeal.RefValue.hid1 a0 a1 a2 a3 a4 a5 a6 := by
  unfold kh1 Cert.ReferenceIdeal.RefValue.hid1
  rw [k0_eq a0 a1 a3 a4 hx, kl128_eq]

theorem kh2_eq (a0 : Cf S100000x128) (a1 : Cf S100000x1) (a2 : Ci S2x1600000) (a3 : Cf S128) (a4 : Cf S128) (a5 : Cf S128x64) (a6 : Cf S64) (a7 : Cf S64x64) (a8 : Cf S64) (hx : ∀ i, ∃ r : ℝ, Cert.Spec.scaled a0 a1 i = (r : EReal)) :
    kh2 a0 a1 a2 a3 a4 a5 a6 a7 a8 = Cert.ReferenceIdeal.RefValue.hid2 a0 a1 a2 a3 a4 a5 a6 a7 a8 := by
  unfold kh2 Cert.ReferenceIdeal.RefValue.hid2
  rw [kh1_eq a0 a1 a2 a3 a4 a5 a6 hx, kl64_eq]

theorem kh3_eq (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (hx : ∀ i, ∃ r : ℝ, Cert.Spec.scaled a0 a1 i = (r : EReal)) :
    kh3 a0 a1 a2 a3 a4 a5 a6 a7 a8 a9 a10 = Cert.ReferenceIdeal.RefValue.hid3 a0 a1 a2 a3 a4 a5 a6 a7 a8 a9 a10 := by
  unfold kh3 Cert.ReferenceIdeal.RefValue.hid3
  rw [kh2_eq a0 a1 a2 a3 a4 a5 a6 a7 a8 hx, kl64_eq]

theorem kh4_eq (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (hx : ∀ i, ∃ r : ℝ, Cert.Spec.scaled a0 a1 i = (r : EReal)) :
    kh4 a0 a1 a2 a3 a4 a5 a6 a7 a8 a9 a10 a11 a12 = Cert.ReferenceIdeal.RefValue.hid4 a0 a1 a2 a3 a4 a5 a6 a7 a8 a9 a10 a11 a12 := by
  unfold kh4 Cert.ReferenceIdeal.RefValue.hid4
  rw [kh3_eq a0 a1 a2 a3 a4 a5 a6 a7 a8 a9 a10 hx, kl64_eq]

theorem kh5_eq (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) (hx : ∀ i, ∃ r : ℝ, Cert.Spec.scaled a0 a1 i = (r : EReal)) :
    kh5 a0 a1 a2 a3 a4 a5 a6 a7 a8 a9 a10 a11 a12 a13 a14 = Cert.ReferenceIdeal.RefValue.hid5 a0 a1 a2 a3 a4 a5 a6 a7 a8 a9 a10 a11 a12 a13 a14 := by
  unfold kh5 Cert.ReferenceIdeal.RefValue.hid5
  rw [kh4_eq a0 a1 a2 a3 a4 a5 a6 a7 a8 a9 a10 a11 a12 hx, kl64_eq]

/-- The kernel program's result is the reference's, on finite entries of the scaled input. -/
theorem kout_eq_ref (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) (a15 : Cf S64x64) (hx : ∀ i, ∃ r : ℝ, Cert.Spec.scaled a0 a1 i = (r : EReal)) :
    kout a0 a1 a2 a3 a4 a5 a6 a7 a8 a9 a10 a11 a12 a13 a14 a15 = Cert.ReferenceIdeal.RefValue.out a0 a1 a2 a3 a4 a5 a6 a7 a8 a9 a10 a11 a12 a13 a14 a15 := by
  unfold kout Cert.ReferenceIdeal.RefValue.out
  rw [kh1_eq a0 a1 a2 a3 a4 a5 a6 hx, kh2_eq a0 a1 a2 a3 a4 a5 a6 a7 a8 hx, kh3_eq a0 a1 a2 a3 a4 a5 a6 a7 a8 a9 a10 hx, kh4_eq a0 a1 a2 a3 a4 a5 a6 a7 a8 a9 a10 a11 a12 hx, kh5_eq a0 a1 a2 a3 a4 a5 a6 a7 a8 a9 a10 a11 a12 a13 a14 hx,
    proj_eq_final, kcat6_eq]

end Cert.KernelIdeal.Bridge

end
-- ==== Proof.KVal.lean ====
import proofs.«132860_j13426067767700_1_alg».proof.Proof.RunDefs
import proofs.«132860_j13426067767700_1_alg».proof.Proof.Val0
import proofs.«132860_j13426067767700_1_alg».proof.Proof.Val1
import proofs.«132860_j13426067767700_1_alg».proof.Proof.Val2
import proofs.«132860_j13426067767700_1_alg».proof.Proof.Val3
import proofs.«132860_j13426067767700_1_alg».proof.Proof.Val4
import proofs.«132860_j13426067767700_1_alg».proof.Proof.Val5
import proofs.«132860_j13426067767700_1_alg».proof.Proof.Val6
import proofs.«132860_j13426067767700_1_alg».proof.Proof.Val7
import proofs.«132860_j13426067767700_1_alg».proof.Proof.KHost
import proofs.«132860_j13426067767700_1_alg».proof.Proof.Bridge

/-! The kernel program's result buffer, read through the chain of contents between its host stretches and its
    regions: each buffer that a later item reads is followed from the item that writes it — a host stretch's as the
    function of the contents before it, a region's as what its pipeline leaves — to the items that read it, and the
    last concatenation's six operands are the five layers' outputs and the projection of the fifth. -/

set_option maxRecDepth 16384

noncomputable section

namespace Cert.KernelIdeal.KVal

open Cert.KernelIdeal Cert.KernelIdeal.Gen Cert.KernelIdeal.Frm Cert.KernelIdeal.Val Cert.KernelIdeal.KHost Cert.KernelIdeal.Bridge
open Idealize.ShloMosaic Idealize.ShloMosaic.TcCoe Idealize.SL.Sem Idealize.ShloMosaic.ValueIdx
open Cert.ReferenceIdeal.RefValue (Cf Ci)

variable (m : (ℓ : Loc nD τ sig) → Buf (Elt Ideal) ℓ) (c : Dev nD)

/-! ## The arguments, as far as each is read -/
theorem arg0_0 : V0 m c main_arg0 = (m ((c.tc : Thread nD τ).loc main_arg0)) :=
  rfl
theorem arg0_1 : V1 m c main_arg0 = (m ((c.tc : Thread nD τ).loc main_arg0)) :=
  (V1_of m c main_arg0 (by decide)).trans (arg0_0 m c)
theorem arg0_2 : V2 m (outs m) c main_arg0 = (m ((c.tc : Thread nD τ).loc main_arg0)) :=
  (V2_of m (outs m) c main_arg0 (by decide)).trans (arg0_1 m c)
theorem arg0_3 : V3 m (outs m) c main_arg0 = (m ((c.tc : Thread nD τ).loc main_arg0)) :=
  (V3_of m (outs m) c main_arg0 (by decide)).trans (arg0_2 m c)
theorem arg1_0 : V0 m c main_arg1 = (m ((c.tc : Thread nD τ).loc main_arg1)) :=
  rfl
theorem arg1_1 : V1 m c main_arg1 = (m ((c.tc : Thread nD τ).loc main_arg1)) :=
  (V1_of m c main_arg1 (by decide)).trans (arg1_0 m c)
theorem arg1_2 : V2 m (outs m) c main_arg1 = (m ((c.tc : Thread nD τ).loc main_arg1)) :=
  (V2_of m (outs m) c main_arg1 (by decide)).trans (arg1_1 m c)
theorem arg1_3 : V3 m (outs m) c main_arg1 = (m ((c.tc : Thread nD τ).loc main_arg1)) :=
  (V3_of m (outs m) c main_arg1 (by decide)).trans (arg1_2 m c)
theorem arg3_0 : V0 m c main_arg3 = (m ((c.tc : Thread nD τ).loc main_arg3)) :=
  rfl
theorem arg3_1 : V1 m c main_arg3 = (m ((c.tc : Thread nD τ).loc main_arg3)) :=
  (V1_of m c main_arg3 (by decide)).trans (arg3_0 m c)
theorem arg3_2 : V2 m (outs m) c main_arg3 = (m ((c.tc : Thread nD τ).loc main_arg3)) :=
  (V2_of m (outs m) c main_arg3 (by decide)).trans (arg3_1 m c)
theorem arg4_0 : V0 m c main_arg4 = (m ((c.tc : Thread nD τ).loc main_arg4)) :=
  rfl
theorem arg4_1 : V1 m c main_arg4 = (m ((c.tc : Thread nD τ).loc main_arg4)) :=
  (V1_of m c main_arg4 (by decide)).trans (arg4_0 m c)
theorem arg4_2 : V2 m (outs m) c main_arg4 = (m ((c.tc : Thread nD τ).loc main_arg4)) :=
  (V2_of m (outs m) c main_arg4 (by decide)).trans (arg4_1 m c)
theorem arg5_0 : V0 m c main_arg5 = (m ((c.tc : Thread nD τ).loc main_arg5)) :=
  rfl
theorem arg5_1 : V1 m c main_arg5 = (m ((c.tc : Thread nD τ).loc main_arg5)) :=
  (V1_of m c main_arg5 (by decide)).trans (arg5_0 m c)
theorem arg5_2 : V2 m (outs m) c main_arg5 = (m ((c.tc : Thread nD τ).loc main_arg5)) :=
  (V2_of m (outs m) c main_arg5 (by decide)).trans (arg5_1 m c)
theorem arg5_3 : V3 m (outs m) c main_arg5 = (m ((c.tc : Thread nD τ).loc main_arg5)) :=
  (V3_of m (outs m) c main_arg5 (by decide)).trans (arg5_2 m c)
theorem arg5_4 : V4 m (outs m) c main_arg5 = (m ((c.tc : Thread nD τ).loc main_arg5)) :=
  (V4_of m (outs m) c main_arg5 (by decide)).trans (arg5_3 m c)
theorem arg5_5 : V5 m (outs m) c main_arg5 = (m ((c.tc : Thread nD τ).loc main_arg5)) :=
  (V5_of m (outs m) c main_arg5 (by decide)).trans (arg5_4 m c)
theorem arg6_0 : V0 m c main_arg6 = (m ((c.tc : Thread nD τ).loc main_arg6)) :=
  rfl
theorem arg6_1 : V1 m c main_arg6 = (m ((c.tc : Thread nD τ).loc main_arg6)) :=
  (V1_of m c main_arg6 (by decide)).trans (arg6_0 m c)
theorem arg6_2 : V2 m (outs m) c main_arg6 = (m ((c.tc : Thread nD τ).loc main_arg6)) :=
  (V2_of m (outs m) c main_arg6 (by decide)).trans (arg6_1 m c)
theorem arg6_3 : V3 m (outs m) c main_arg6 = (m ((c.tc : Thread nD τ).loc main_arg6)) :=
  (V3_of m (outs m) c main_arg6 (by decide)).trans (arg6_2 m c)
theorem arg6_4 : V4 m (outs m) c main_arg6 = (m ((c.tc : Thread nD τ).loc main_arg6)) :=
  (V4_of m (outs m) c main_arg6 (by decide)).trans (arg6_3 m c)
theorem arg7_0 : V0 m c main_arg7 = (m ((c.tc : Thread nD τ).loc main_arg7)) :=
  rfl
theorem arg7_1 : V1 m c main_arg7 = (m ((c.tc : Thread nD τ).loc main_arg7)) :=
  (V1_of m c main_arg7 (by decide)).trans (arg7_0 m c)
theorem arg7_2 : V2 m (outs m) c main_arg7 = (m ((c.tc : Thread nD τ).loc main_arg7)) :=
  (V2_of m (outs m) c main_arg7 (by decide)).trans (arg7_1 m c)
theorem arg7_3 : V3 m (outs m) c main_arg7 = (m ((c.tc : Thread nD τ).loc main_arg7)) :=
  (V3_of m (outs m) c main_arg7 (by decide)).trans (arg7_2 m c)
theorem arg7_4 : V4 m (outs m) c main_arg7 = (m ((c.tc : Thread nD τ).loc main_arg7)) :=
  (V4_of m (outs m) c main_arg7 (by decide)).trans (arg7_3 m c)
theorem arg7_5 : V5 m (outs m) c main_arg7 = (m ((c.tc : Thread nD τ).loc main_arg7)) :=
  (V5_of m (outs m) c main_arg7 (by decide)).trans (arg7_4 m c)
theorem arg7_6 : V6 m (outs m) c main_arg7 = (m ((c.tc : Thread nD τ).loc main_arg7)) :=
  (V6_of m (outs m) c main_arg7 (by decide)).trans (arg7_5 m c)
theorem arg7_7 : V7 m (outs m) c main_arg7 = (m ((c.tc : Thread nD τ).loc main_arg7)) :=
  (V7_of m (outs m) c main_arg7 (by decide)).trans (arg7_6 m c)
theorem arg8_0 : V0 m c main_arg8 = (m ((c.tc : Thread nD τ).loc main_arg8)) :=
  rfl
theorem arg8_1 : V1 m c main_arg8 = (m ((c.tc : Thread nD τ).loc main_arg8)) :=
  (V1_of m c main_arg8 (by decide)).trans (arg8_0 m c)
theorem arg8_2 : V2 m (outs m) c main_arg8 = (m ((c.tc : Thread nD τ).loc main_arg8)) :=
  (V2_of m (outs m) c main_arg8 (by decide)).trans (arg8_1 m c)
theorem arg8_3 : V3 m (outs m) c main_arg8 = (m ((c.tc : Thread nD τ).loc main_arg8)) :=
  (V3_of m (outs m) c main_arg8 (by decide)).trans (arg8_2 m c)
theorem arg8_4 : V4 m (outs m) c main_arg8 = (m ((c.tc : Thread nD τ).loc main_arg8)) :=
  (V4_of m (outs m) c main_arg8 (by decide)).trans (arg8_3 m c)
theorem arg8_5 : V5 m (outs m) c main_arg8 = (m ((c.tc : Thread nD τ).loc main_arg8)) :=
  (V5_of m (outs m) c main_arg8 (by decide)).trans (arg8_4 m c)
theorem arg8_6 : V6 m (outs m) c main_arg8 = (m ((c.tc : Thread nD τ).loc main_arg8)) :=
  (V6_of m (outs m) c main_arg8 (by decide)).trans (arg8_5 m c)
theorem arg9_0 : V0 m c main_arg9 = (m ((c.tc : Thread nD τ).loc main_arg9)) :=
  rfl
theorem arg9_1 : V1 m c main_arg9 = (m ((c.tc : Thread nD τ).loc main_arg9)) :=
  (V1_of m c main_arg9 (by decide)).trans (arg9_0 m c)
theorem arg9_2 : V2 m (outs m) c main_arg9 = (m ((c.tc : Thread nD τ).loc main_arg9)) :=
  (V2_of m (outs m) c main_arg9 (by decide)).trans (arg9_1 m c)
theorem arg9_3 : V3 m (outs m) c main_arg9 = (m ((c.tc : Thread nD τ).loc main_arg9)) :=
  (V3_of m (outs m) c main_arg9 (by decide)).trans (arg9_2 m c)
theorem arg9_4 : V4 m (outs m) c main_arg9 = (m ((c.tc : Thread nD τ).loc main_arg9)) :=
  (V4_of m (outs m) c main_arg9 (by decide)).trans (arg9_3 m c)
theorem arg9_5 : V5 m (outs m) c main_arg9 = (m ((c.tc : Thread nD τ).loc main_arg9)) :=
  (V5_of m (outs m) c main_arg9 (by decide)).trans (arg9_4 m c)
theorem arg9_6 : V6 m (outs m) c main_arg9 = (m ((c.tc : Thread nD τ).loc main_arg9)) :=
  (V6_of m (outs m) c main_arg9 (by decide)).trans (arg9_5 m c)
theorem arg9_7 : V7 m (outs m) c main_arg9 = (m ((c.tc : Thread nD τ).loc main_arg9)) :=
  (V7_of m (outs m) c main_arg9 (by decide)).trans (arg9_6 m c)
theorem arg9_8 : V8 m (outs m) c main_arg9 = (m ((c.tc : Thread nD τ).loc main_arg9)) :=
  (V8_of m (outs m) c main_arg9 (by decide)).trans (arg9_7 m c)
theorem arg9_9 : V9 m (outs m) c main_arg9 = (m ((c.tc : Thread nD τ).loc main_arg9)) :=
  (V9_of m (outs m) c main_arg9 (by decide)).trans (arg9_8 m c)
theorem arg10_0 : V0 m c main_arg10 = (m ((c.tc : Thread nD τ).loc main_arg10)) :=
  rfl
theorem arg10_1 : V1 m c main_arg10 = (m ((c.tc : Thread nD τ).loc main_arg10)) :=
  (V1_of m c main_arg10 (by decide)).trans (arg10_0 m c)
theorem arg10_2 : V2 m (outs m) c main_arg10 = (m ((c.tc : Thread nD τ).loc main_arg10)) :=
  (V2_of m (outs m) c main_arg10 (by decide)).trans (arg10_1 m c)
theorem arg10_3 : V3 m (outs m) c main_arg10 = (m ((c.tc : Thread nD τ).loc main_arg10)) :=
  (V3_of m (outs m) c main_arg10 (by decide)).trans (arg10_2 m c)
theorem arg10_4 : V4 m (outs m) c main_arg10 = (m ((c.tc : Thread nD τ).loc main_arg10)) :=
  (V4_of m (outs m) c main_arg10 (by decide)).trans (arg10_3 m c)
theorem arg10_5 : V5 m (outs m) c main_arg10 = (m ((c.tc : Thread nD τ).loc main_arg10)) :=
  (V5_of m (outs m) c main_arg10 (by decide)).trans (arg10_4 m c)
theorem arg10_6 : V6 m (outs m) c main_arg10 = (m ((c.tc : Thread nD τ).loc main_arg10)) :=
  (V6_of m (outs m) c main_arg10 (by decide)).trans (arg10_5 m c)
theorem arg10_7 : V7 m (outs m) c main_arg10 = (m ((c.tc : Thread nD τ).loc main_arg10)) :=
  (V7_of m (outs m) c main_arg10 (by decide)).trans (arg10_6 m c)
theorem arg10_8 : V8 m (outs m) c main_arg10 = (m ((c.tc : Thread nD τ).loc main_arg10)) :=
  (V8_of m (outs m) c main_arg10 (by decide)).trans (arg10_7 m c)
theorem arg11_0 : V0 m c main_arg11 = (m ((c.tc : Thread nD τ).loc main_arg11)) :=
  rfl
theorem arg11_1 : V1 m c main_arg11 = (m ((c.tc : Thread nD τ).loc main_arg11)) :=
  (V1_of m c main_arg11 (by decide)).trans (arg11_0 m c)
theorem arg11_2 : V2 m (outs m) c main_arg11 = (m ((c.tc : Thread nD τ).loc main_arg11)) :=
  (V2_of m (outs m) c main_arg11 (by decide)).trans (arg11_1 m c)
theorem arg11_3 : V3 m (outs m) c main_arg11 = (m ((c.tc : Thread nD τ).loc main_arg11)) :=
  (V3_of m (outs m) c main_arg11 (by decide)).trans (arg11_2 m c)
theorem arg11_4 : V4 m (outs m) c main_arg11 = (m ((c.tc : Thread nD τ).loc main_arg11)) :=
  (V4_of m (outs m) c main_arg11 (by decide)).trans (arg11_3 m c)
theorem arg11_5 : V5 m (outs m) c main_arg11 = (m ((c.tc : Thread nD τ).loc main_arg11)) :=
  (V5_of m (outs m) c main_arg11 (by decide)).trans (arg11_4 m c)
theorem arg11_6 : V6 m (outs m) c main_arg11 = (m ((c.tc : Thread nD τ).loc main_arg11)) :=
  (V6_of m (outs m) c main_arg11 (by decide)).trans (arg11_5 m c)
theorem arg11_7 : V7 m (outs m) c main_arg11 = (m ((c.tc : Thread nD τ).loc main_arg11)) :=
  (V7_of m (outs m) c main_arg11 (by decide)).trans (arg11_6 m c)
theorem arg11_8 : V8 m (outs m) c main_arg11 = (m ((c.tc : Thread nD τ).loc main_arg11)) :=
  (V8_of m (outs m) c main_arg11 (by decide)).trans (arg11_7 m c)
theorem arg11_9 : V9 m (outs m) c main_arg11 = (m ((c.tc : Thread nD τ).loc main_arg11)) :=
  (V9_of m (outs m) c main_arg11 (by decide)).trans (arg11_8 m c)
theorem arg11_10 : V10 m (outs m) c main_arg11 = (m ((c.tc : Thread nD τ).loc main_arg11)) :=
  (V10_of m (outs m) c main_arg11 (by decide)).trans (arg11_9 m c)
theorem arg11_11 : V11 m (outs m) c main_arg11 = (m ((c.tc : Thread nD τ).loc main_arg11)) :=
  (V11_of m (outs m) c main_arg11 (by decide)).trans (arg11_10 m c)
theorem arg12_0 : V0 m c main_arg12 = (m ((c.tc : Thread nD τ).loc main_arg12)) :=
  rfl
theorem arg12_1 : V1 m c main_arg12 = (m ((c.tc : Thread nD τ).loc main_arg12)) :=
  (V1_of m c main_arg12 (by decide)).trans (arg12_0 m c)
theorem arg12_2 : V2 m (outs m) c main_arg12 = (m ((c.tc : Thread nD τ).loc main_arg12)) :=
  (V2_of m (outs m) c main_arg12 (by decide)).trans (arg12_1 m c)
theorem arg12_3 : V3 m (outs m) c main_arg12 = (m ((c.tc : Thread nD τ).loc main_arg12)) :=
  (V3_of m (outs m) c main_arg12 (by decide)).trans (arg12_2 m c)
theorem arg12_4 : V4 m (outs m) c main_arg12 = (m ((c.tc : Thread nD τ).loc main_arg12)) :=
  (V4_of m (outs m) c main_arg12 (by decide)).trans (arg12_3 m c)
theorem arg12_5 : V5 m (outs m) c main_arg12 = (m ((c.tc : Thread nD τ).loc main_arg12)) :=
  (V5_of m (outs m) c main_arg12 (by decide)).trans (arg12_4 m c)
theorem arg12_6 : V6 m (outs m) c main_arg12 = (m ((c.tc : Thread nD τ).loc main_arg12)) :=
  (V6_of m (outs m) c main_arg12 (by decide)).trans (arg12_5 m c)
theorem arg12_7 : V7 m (outs m) c main_arg12 = (m ((c.tc : Thread nD τ).loc main_arg12)) :=
  (V7_of m (outs m) c main_arg12 (by decide)).trans (arg12_6 m c)
theorem arg12_8 : V8 m (outs m) c main_arg12 = (m ((c.tc : Thread nD τ).loc main_arg12)) :=
  (V8_of m (outs m) c main_arg12 (by decide)).trans (arg12_7 m c)
theorem arg12_9 : V9 m (outs m) c main_arg12 = (m ((c.tc : Thread nD τ).loc main_arg12)) :=
  (V9_of m (outs m) c main_arg12 (by decide)).trans (arg12_8 m c)
theorem arg12_10 : V10 m (outs m) c main_arg12 = (m ((c.tc : Thread nD τ).loc main_arg12)) :=
  (V10_of m (outs m) c main_arg12 (by decide)).trans (arg12_9 m c)
theorem arg13_0 : V0 m c main_arg13 = (m ((c.tc : Thread nD τ).loc main_arg13)) :=
  rfl
theorem arg13_1 : V1 m c main_arg13 = (m ((c.tc : Thread nD τ).loc main_arg13)) :=
  (V1_of m c main_arg13 (by decide)).trans (arg13_0 m c)
theorem arg13_2 : V2 m (outs m) c main_arg13 = (m ((c.tc : Thread nD τ).loc main_arg13)) :=
  (V2_of m (outs m) c main_arg13 (by decide)).trans (arg13_1 m c)
theorem arg13_3 : V3 m (outs m) c main_arg13 = (m ((c.tc : Thread nD τ).loc main_arg13)) :=
  (V3_of m (outs m) c main_arg13 (by decide)).trans (arg13_2 m c)
theorem arg13_4 : V4 m (outs m) c main_arg13 = (m ((c.tc : Thread nD τ).loc main_arg13)) :=
  (V4_of m (outs m) c main_arg13 (by decide)).trans (arg13_3 m c)
theorem arg13_5 : V5 m (outs m) c main_arg13 = (m ((c.tc : Thread nD τ).loc main_arg13)) :=
  (V5_of m (outs m) c main_arg13 (by decide)).trans (arg13_4 m c)
theorem arg13_6 : V6 m (outs m) c main_arg13 = (m ((c.tc : Thread nD τ).loc main_arg13)) :=
  (V6_of m (outs m) c main_arg13 (by decide)).trans (arg13_5 m c)
theorem arg13_7 : V7 m (outs m) c main_arg13 = (m ((c.tc : Thread nD τ).loc main_arg13)) :=
  (V7_of m (outs m) c main_arg13 (by decide)).trans (arg13_6 m c)
theorem arg13_8 : V8 m (outs m) c main_arg13 = (m ((c.tc : Thread nD τ).loc main_arg13)) :=
  (V8_of m (outs m) c main_arg13 (by decide)).trans (arg13_7 m c)
theorem arg13_9 : V9 m (outs m) c main_arg13 = (m ((c.tc : Thread nD τ).loc main_arg13)) :=
  (V9_of m (outs m) c main_arg13 (by decide)).trans (arg13_8 m c)
theorem arg13_10 : V10 m (outs m) c main_arg13 = (m ((c.tc : Thread nD τ).loc main_arg13)) :=
  (V10_of m (outs m) c main_arg13 (by decide)).trans (arg13_9 m c)
theorem arg13_11 : V11 m (outs m) c main_arg13 = (m ((c.tc : Thread nD τ).loc main_arg13)) :=
  (V11_of m (outs m) c main_arg13 (by decide)).trans (arg13_10 m c)
theorem arg13_12 : V12 m (outs m) c main_arg13 = (m ((c.tc : Thread nD τ).loc main_arg13)) :=
  (V12_of m (outs m) c main_arg13 (by decide)).trans (arg13_11 m c)
theorem arg13_13 : V13 m (outs m) c main_arg13 = (m ((c.tc : Thread nD τ).loc main_arg13)) :=
  (V13_of m (outs m) c main_arg13 (by decide)).trans (arg13_12 m c)
theorem arg14_0 : V0 m c main_arg14 = (m ((c.tc : Thread nD τ).loc main_arg14)) :=
  rfl
theorem arg14_1 : V1 m c main_arg14 = (m ((c.tc : Thread nD τ).loc main_arg14)) :=
  (V1_of m c main_arg14 (by decide)).trans (arg14_0 m c)
theorem arg14_2 : V2 m (outs m) c main_arg14 = (m ((c.tc : Thread nD τ).loc main_arg14)) :=
  (V2_of m (outs m) c main_arg14 (by decide)).trans (arg14_1 m c)
theorem arg14_3 : V3 m (outs m) c main_arg14 = (m ((c.tc : Thread nD τ).loc main_arg14)) :=
  (V3_of m (outs m) c main_arg14 (by decide)).trans (arg14_2 m c)
theorem arg14_4 : V4 m (outs m) c main_arg14 = (m ((c.tc : Thread nD τ).loc main_arg14)) :=
  (V4_of m (outs m) c main_arg14 (by decide)).trans (arg14_3 m c)
theorem arg14_5 : V5 m (outs m) c main_arg14 = (m ((c.tc : Thread nD τ).loc main_arg14)) :=
  (V5_of m (outs m) c main_arg14 (by decide)).trans (arg14_4 m c)
theorem arg14_6 : V6 m (outs m) c main_arg14 = (m ((c.tc : Thread nD τ).loc main_arg14)) :=
  (V6_of m (outs m) c main_arg14 (by decide)).trans (arg14_5 m c)
theorem arg14_7 : V7 m (outs m) c main_arg14 = (m ((c.tc : Thread nD τ).loc main_arg14)) :=
  (V7_of m (outs m) c main_arg14 (by decide)).trans (arg14_6 m c)
theorem arg14_8 : V8 m (outs m) c main_arg14 = (m ((c.tc : Thread nD τ).loc main_arg14)) :=
  (V8_of m (outs m) c main_arg14 (by decide)).trans (arg14_7 m c)
theorem arg14_9 : V9 m (outs m) c main_arg14 = (m ((c.tc : Thread nD τ).loc main_arg14)) :=
  (V9_of m (outs m) c main_arg14 (by decide)).trans (arg14_8 m c)
theorem arg14_10 : V10 m (outs m) c main_arg14 = (m ((c.tc : Thread nD τ).loc main_arg14)) :=
  (V10_of m (outs m) c main_arg14 (by decide)).trans (arg14_9 m c)
theorem arg14_11 : V11 m (outs m) c main_arg14 = (m ((c.tc : Thread nD τ).loc main_arg14)) :=
  (V11_of m (outs m) c main_arg14 (by decide)).trans (arg14_10 m c)
theorem arg14_12 : V12 m (outs m) c main_arg14 = (m ((c.tc : Thread nD τ).loc main_arg14)) :=
  (V12_of m (outs m) c main_arg14 (by decide)).trans (arg14_11 m c)
theorem arg15_0 : V0 m c main_arg15 = (m ((c.tc : Thread nD τ).loc main_arg15)) :=
  rfl
theorem arg15_1 : V1 m c main_arg15 = (m ((c.tc : Thread nD τ).loc main_arg15)) :=
  (V1_of m c main_arg15 (by decide)).trans (arg15_0 m c)
theorem arg15_2 : V2 m (outs m) c main_arg15 = (m ((c.tc : Thread nD τ).loc main_arg15)) :=
  (V2_of m (outs m) c main_arg15 (by decide)).trans (arg15_1 m c)
theorem arg15_3 : V3 m (outs m) c main_arg15 = (m ((c.tc : Thread nD τ).loc main_arg15)) :=
  (V3_of m (outs m) c main_arg15 (by decide)).trans (arg15_2 m c)
theorem arg15_4 : V4 m (outs m) c main_arg15 = (m ((c.tc : Thread nD τ).loc main_arg15)) :=
  (V4_of m (outs m) c main_arg15 (by decide)).trans (arg15_3 m c)
theorem arg15_5 : V5 m (outs m) c main_arg15 = (m ((c.tc : Thread nD τ).loc main_arg15)) :=
  (V5_of m (outs m) c main_arg15 (by decide)).trans (arg15_4 m c)
theorem arg15_6 : V6 m (outs m) c main_arg15 = (m ((c.tc : Thread nD τ).loc main_arg15)) :=
  (V6_of m (outs m) c main_arg15 (by decide)).trans (arg15_5 m c)
theorem arg15_7 : V7 m (outs m) c main_arg15 = (m ((c.tc : Thread nD τ).loc main_arg15)) :=
  (V7_of m (outs m) c main_arg15 (by decide)).trans (arg15_6 m c)
theorem arg15_8 : V8 m (outs m) c main_arg15 = (m ((c.tc : Thread nD τ).loc main_arg15)) :=
  (V8_of m (outs m) c main_arg15 (by decide)).trans (arg15_7 m c)
theorem arg15_9 : V9 m (outs m) c main_arg15 = (m ((c.tc : Thread nD τ).loc main_arg15)) :=
  (V9_of m (outs m) c main_arg15 (by decide)).trans (arg15_8 m c)
theorem arg15_10 : V10 m (outs m) c main_arg15 = (m ((c.tc : Thread nD τ).loc main_arg15)) :=
  (V10_of m (outs m) c main_arg15 (by decide)).trans (arg15_9 m c)
theorem arg15_11 : V11 m (outs m) c main_arg15 = (m ((c.tc : Thread nD τ).loc main_arg15)) :=
  (V11_of m (outs m) c main_arg15 (by decide)).trans (arg15_10 m c)
theorem arg15_12 : V12 m (outs m) c main_arg15 = (m ((c.tc : Thread nD τ).loc main_arg15)) :=
  (V12_of m (outs m) c main_arg15 (by decide)).trans (arg15_11 m c)
theorem arg15_13 : V13 m (outs m) c main_arg15 = (m ((c.tc : Thread nD τ).loc main_arg15)) :=
  (V13_of m (outs m) c main_arg15 (by decide)).trans (arg15_12 m c)
theorem arg15_14 : V14 m (outs m) c main_arg15 = (m ((c.tc : Thread nD τ).loc main_arg15)) :=
  (V14_of m (outs m) c main_arg15 (by decide)).trans (arg15_13 m c)

/-! ## The edge rows -/
theorem v1_1 : V1 m c main_v1 = kSrc (m ((c.tc : Thread nD τ).loc main_arg2)) :=
  ops0_v1 (V0 m c)
theorem v1_2 : V2 m (outs m) c main_v1 = kSrc (m ((c.tc : Thread nD τ).loc main_arg2)) :=
  (V2_of m (outs m) c main_v1 (by decide)).trans (v1_1 m c)
theorem v1_3 : V3 m (outs m) c main_v1 = kSrc (m ((c.tc : Thread nD τ).loc main_arg2)) :=
  (V3_of m (outs m) c main_v1 (by decide)).trans (v1_2 m c)
theorem v1_4 : V4 m (outs m) c main_v1 = kSrc (m ((c.tc : Thread nD τ).loc main_arg2)) :=
  (V4_of m (outs m) c main_v1 (by decide)).trans (v1_3 m c)
theorem v1_5 : V5 m (outs m) c main_v1 = kSrc (m ((c.tc : Thread nD τ).loc main_arg2)) :=
  (V5_of m (outs m) c main_v1 (by decide)).trans (v1_4 m c)
theorem v1_6 : V6 m (outs m) c main_v1 = kSrc (m ((c.tc : Thread nD τ).loc main_arg2)) :=
  (V6_of m (outs m) c main_v1 (by decide)).trans (v1_5 m c)
theorem v1_7 : V7 m (outs m) c main_v1 = kSrc (m ((c.tc : Thread nD τ).loc main_arg2)) :=
  (V7_of m (outs m) c main_v1 (by decide)).trans (v1_6 m c)
theorem v1_8 : V8 m (outs m) c main_v1 = kSrc (m ((c.tc : Thread nD τ).loc main_arg2)) :=
  (V8_of m (outs m) c main_v1 (by decide)).trans (v1_7 m c)
theorem v1_9 : V9 m (outs m) c main_v1 = kSrc (m ((c.tc : Thread nD τ).loc main_arg2)) :=
  (V9_of m (outs m) c main_v1 (by decide)).trans (v1_8 m c)
theorem v1_10 : V10 m (outs m) c main_v1 = kSrc (m ((c.tc : Thread nD τ).loc main_arg2)) :=
  (V10_of m (outs m) c main_v1 (by decide)).trans (v1_9 m c)
theorem v1_11 : V11 m (outs m) c main_v1 = kSrc (m ((c.tc : Thread nD τ).loc main_arg2)) :=
  (V11_of m (outs m) c main_v1 (by decide)).trans (v1_10 m c)
theorem v1_12 : V12 m (outs m) c main_v1 = kSrc (m ((c.tc : Thread nD τ).loc main_arg2)) :=
  (V12_of m (outs m) c main_v1 (by decide)).trans (v1_11 m c)
theorem v3_1 : V1 m c main_v3 = kDst (m ((c.tc : Thread nD τ).loc main_arg2)) :=
  ops0_v3 (V0 m c)
theorem v3_2 : V2 m (outs m) c main_v3 = kDst (m ((c.tc : Thread nD τ).loc main_arg2)) :=
  (V2_of m (outs m) c main_v3 (by decide)).trans (v3_1 m c)
theorem v3_3 : V3 m (outs m) c main_v3 = kDst (m ((c.tc : Thread nD τ).loc main_arg2)) :=
  (V3_of m (outs m) c main_v3 (by decide)).trans (v3_2 m c)
theorem v3_4 : V4 m (outs m) c main_v3 = kDst (m ((c.tc : Thread nD τ).loc main_arg2)) :=
  (V4_of m (outs m) c main_v3 (by decide)).trans (v3_3 m c)
theorem v3_5 : V5 m (outs m) c main_v3 = kDst (m ((c.tc : Thread nD τ).loc main_arg2)) :=
  (V5_of m (outs m) c main_v3 (by decide)).trans (v3_4 m c)
theorem v3_6 : V6 m (outs m) c main_v3 = kDst (m ((c.tc : Thread nD τ).loc main_arg2)) :=
  (V6_of m (outs m) c main_v3 (by decide)).trans (v3_5 m c)
theorem v3_7 : V7 m (outs m) c main_v3 = kDst (m ((c.tc : Thread nD τ).loc main_arg2)) :=
  (V7_of m (outs m) c main_v3 (by decide)).trans (v3_6 m c)
theorem v3_8 : V8 m (outs m) c main_v3 = kDst (m ((c.tc : Thread nD τ).loc main_arg2)) :=
  (V8_of m (outs m) c main_v3 (by decide)).trans (v3_7 m c)
theorem v3_9 : V9 m (outs m) c main_v3 = kDst (m ((c.tc : Thread nD τ).loc main_arg2)) :=
  (V9_of m (outs m) c main_v3 (by decide)).trans (v3_8 m c)
theorem v3_10 : V10 m (outs m) c main_v3 = kDst (m ((c.tc : Thread nD τ).loc main_arg2)) :=
  (V10_of m (outs m) c main_v3 (by decide)).trans (v3_9 m c)
theorem v3_11 : V11 m (outs m) c main_v3 = kDst (m ((c.tc : Thread nD τ).loc main_arg2)) :=
  (V11_of m (outs m) c main_v3 (by decide)).trans (v3_10 m c)
theorem v3_12 : V12 m (outs m) c main_v3 = kDst (m ((c.tc : Thread nD τ).loc main_arg2)) :=
  (V12_of m (outs m) c main_v3 (by decide)).trans (v3_11 m c)

/-! ## Region 0: the column sums; the mean and the variance; the scale and shift as rows -/
theorem V2_v4_0 : V2 m (outs m) c main_v4_0 = outs m 2 main_v4_0 c :=
  (Function.update_of_ne (StableHlo.devRef_ne_of_ne (by decide) : (Proc.devRef .tc main_v4_0 : DevRef τ sig) ≠ Proc.devRef .tc main_v4_1) _ _).trans (Function.update_self _ _ _)
theorem V2_v4_1 : V2 m (outs m) c main_v4_1 = outs m 2 main_v4_1 c :=
  Function.update_self _ _ _
theorem out0_2 : outs m 2 main_v4_0 c = (dat0 (fun c b => V1 m c b) c).arrAt 2 cfg0.N :=
  (show L0 m c (Proc.devRef .tc (Pipeline.arrRef spec0 2)) = _ from
    Pipeline.withArrays_arr spec0 launch0.win.arr_inj c (S1 m c) (fun w => (dat0 (fun c b => S1 m c b) c).arrAt w cfg0.N) 2).trans
    (congrArg (fun V => (dat0 V c).arrAt 2 cfg0.N) (stage1_fun m))
theorem out0_3 : outs m 2 main_v4_1 c = (dat0 (fun c b => V1 m c b) c).arrAt 3 cfg0.N :=
  (show L0 m c (Proc.devRef .tc (Pipeline.arrRef spec0 3)) = _ from
    Pipeline.withArrays_arr spec0 launch0.win.arr_inj c (S1 m c) (fun w => (dat0 (fun c b => S1 m c b) c).arrAt w cfg0.N) 3).trans
    (congrArg (fun V => (dat0 V c).arrAt 3 cfg0.N) (stage1_fun m))
theorem v4_0_2 : V2 m (outs m) c main_v4_0 = sum1 (m ((c.tc : Thread nD τ).loc main_arg0)) (m ((c.tc : Thread nD τ).loc main_arg1)) :=
  (V2_v4_0 m c).trans <| (out0_2 m c).trans <| (final0_2 (fun c b => V1 m c b) c).trans (by (try dsimp only); rw [arg0_1 m c, arg1_1 m c]; all_goals rfl)
theorem v4_1_2 : V2 m (outs m) c main_v4_1 = sum2 (m ((c.tc : Thread nD τ).loc main_arg0)) (m ((c.tc : Thread nD τ).loc main_arg1)) :=
  (V2_v4_1 m c).trans <| (out0_3 m c).trans <| (final0_3 (fun c b => V1 m c b) c).trans (by (try dsimp only); rw [arg0_1 m c, arg1_1 m c]; all_goals rfl)
theorem v6_3 : V3 m (outs m) c main_v6 = mu2 (m ((c.tc : Thread nD τ).loc main_arg0)) (m ((c.tc : Thread nD τ).loc main_arg1)) :=
  (ops1_v6 (V2 m (outs m) c)).trans (by (try dsimp only); rw [v4_0_2 m c]; all_goals rfl)
theorem v10_3 : V3 m (outs m) c main_v10 = var2 (m ((c.tc : Thread nD τ).loc main_arg0)) (m ((c.tc : Thread nD τ).loc main_arg1)) :=
  (ops1_v10 (V2 m (outs m) c)).trans (by (try dsimp only); rw [v4_1_2 m c, v4_0_2 m c]; all_goals rfl)
theorem v11_3 : V3 m (outs m) c main_v11 = r128 (m ((c.tc : Thread nD τ).loc main_arg3)) :=
  (ops1_v11 (V2 m (outs m) c)).trans (by (try dsimp only); rw [arg3_2 m c]; all_goals rfl)
theorem v12_3 : V3 m (outs m) c main_v12 = r128 (m ((c.tc : Thread nD τ).loc main_arg4)) :=
  (ops1_v12 (V2 m (outs m) c)).trans (by (try dsimp only); rw [arg4_2 m c]; all_goals rfl)

/-! ## Region 1: the normalization -/
theorem V4_v13 : V4 m (outs m) c main_v13 = outs m 4 main_v13 c :=
  Function.update_self _ _ _
theorem out1_6 : outs m 4 main_v13 c = (dat1 (fun c b => V3 m (outs m) c b) c).arrAt 6 cfg1.N :=
  (show L1 m c (Proc.devRef .tc (Pipeline.arrRef spec1 6)) = _ from
    Pipeline.withArrays_arr spec1 launch1.win.arr_inj c (S3 m c) (fun w => (dat1 (fun c b => S3 m c b) c).arrAt w cfg1.N) 6).trans
    (congrArg (fun V => (dat1 V c).arrAt 6 cfg1.N) (stage3_fun m))
theorem v13_4 : V4 m (outs m) c main_v13 = k0 (m ((c.tc : Thread nD τ).loc main_arg0)) (m ((c.tc : Thread nD τ).loc main_arg1)) (m ((c.tc : Thread nD τ).loc main_arg3)) (m ((c.tc : Thread nD τ).loc main_arg4)) :=
  (V4_v13 m c).trans <| (out1_6 m c).trans <| (final1 (fun c b => V3 m (outs m) c b) c).trans (by (try dsimp only); rw [arg0_3 m c, arg1_3 m c, v6_3 m c, v10_3 m c, v11_3 m c, v12_3 m c]; all_goals rfl)
theorem v13_5 : V5 m (outs m) c main_v13 = k0 (m ((c.tc : Thread nD τ).loc main_arg0)) (m ((c.tc : Thread nD τ).loc main_arg1)) (m ((c.tc : Thread nD τ).loc main_arg3)) (m ((c.tc : Thread nD τ).loc main_arg4)) :=
  (V5_of m (outs m) c main_v13 (by decide)).trans (v13_4 m c)

/-! ## Layer 1: the aggregation and the bias row on the host, then region 2 -/
theorem v23_5 : V5 m (outs m) c main_v23 = kagg128 (k0 (m ((c.tc : Thread nD τ).loc main_arg0)) (m ((c.tc : Thread nD τ).loc main_arg1)) (m ((c.tc : Thread nD τ).loc main_arg3)) (m ((c.tc : Thread nD τ).loc main_arg4))) (kSrc (m ((c.tc : Thread nD τ).loc main_arg2))) (kDst (m ((c.tc : Thread nD τ).loc main_arg2))) :=
  (ops2_v23 (V4 m (outs m) c)).trans (by (try dsimp only); rw [v13_4 m c, v1_4 m c, v3_4 m c]; all_goals rfl)
theorem v24_5 : V5 m (outs m) c main_v24 = r64 (m ((c.tc : Thread nD τ).loc main_arg6)) :=
  (ops2_v24 (V4 m (outs m) c)).trans (by (try dsimp only); rw [arg6_4 m c]; all_goals rfl)
theorem V6_v25 : V6 m (outs m) c main_v25 = outs m 6 main_v25 c :=
  Function.update_self _ _ _
theorem out2_4 : outs m 6 main_v25 c = (dat2 (fun c b => V5 m (outs m) c b) c).arrAt 4 cfg2.N :=
  (show L2 m c (Proc.devRef .tc (Pipeline.arrRef spec2 4)) = _ from
    Pipeline.withArrays_arr spec2 launch2.win.arr_inj c (S5 m c) (fun w => (dat2 (fun c b => S5 m c b) c).arrAt w cfg2.N) 4).trans
    (congrArg (fun V => (dat2 V c).arrAt 4 cfg2.N) (stage5_fun m))
theorem v25_6 : V6 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V6_v25 m c).trans <| (out2_4 m c).trans <| (final2 (fun c b => V5 m (outs m) c b) c).trans (by (try dsimp only); rw [v13_5 m c, v23_5 m c, arg5_5 m c, v24_5 m c]; all_goals rfl)
theorem v25_7 : V7 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V7_of m (outs m) c main_v25 (by decide)).trans (v25_6 m c)
theorem v25_8 : V8 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V8_of m (outs m) c main_v25 (by decide)).trans (v25_7 m c)
theorem v25_9 : V9 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V9_of m (outs m) c main_v25 (by decide)).trans (v25_8 m c)
theorem v25_10 : V10 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V10_of m (outs m) c main_v25 (by decide)).trans (v25_9 m c)
theorem v25_11 : V11 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V11_of m (outs m) c main_v25 (by decide)).trans (v25_10 m c)
theorem v25_12 : V12 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V12_of m (outs m) c main_v25 (by decide)).trans (v25_11 m c)
theorem v25_13 : V13 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V13_of m (outs m) c main_v25 (by decide)).trans (v25_12 m c)
theorem v25_14 : V14 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V14_of m (outs m) c main_v25 (by decide)).trans (v25_13 m c)
theorem v25_15 : V15 m (outs m) c main_v25 = kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (V15_of m (outs m) c main_v25 (by decide)).trans (v25_14 m c)

/-! ## Layer 2: the aggregation and the bias row on the host, then region 3 -/
theorem v35_7 : V7 m (outs m) c main_v35 = kagg64 (kh1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (kSrc (m ((c.tc : Thread nD τ).loc main_arg2))) (kDst (m ((c.tc : Thread nD τ).loc main_arg2))) :=
  (ops3_v35 (V6 m (outs m) c)).trans (by (try dsimp only); rw [v25_6 m c, v1_6 m c, v3_6 m c]; all_goals rfl)
theorem v36_7 : V7 m (outs m) c main_v36 = r64 (m ((c.tc : Thread nD τ).loc main_arg8)) :=
  (ops3_v36 (V6 m (outs m) c)).trans (by (try dsimp only); rw [arg8_6 m c]; all_goals rfl)
theorem V8_v37 : V8 m (outs m) c main_v37 = outs m 8 main_v37 c :=
  Function.update_self _ _ _
theorem out3_4 : outs m 8 main_v37 c = (dat3 (fun c b => V7 m (outs m) c b) c).arrAt 4 cfg3.N :=
  (show L3 m c (Proc.devRef .tc (Pipeline.arrRef spec3 4)) = _ from
    Pipeline.withArrays_arr spec3 launch3.win.arr_inj c (S7 m c) (fun w => (dat3 (fun c b => S7 m c b) c).arrAt w cfg3.N) 4).trans
    (congrArg (fun V => (dat3 V c).arrAt 4 cfg3.N) (stage7_fun m))
theorem v37_8 : V8 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V8_v37 m c).trans <| (out3_4 m c).trans <| (final3 (fun c b => V7 m (outs m) c b) c).trans (by (try dsimp only); rw [v25_7 m c, v35_7 m c, arg7_7 m c, v36_7 m c]; all_goals rfl)
theorem v37_9 : V9 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V9_of m (outs m) c main_v37 (by decide)).trans (v37_8 m c)
theorem v37_10 : V10 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V10_of m (outs m) c main_v37 (by decide)).trans (v37_9 m c)
theorem v37_11 : V11 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V11_of m (outs m) c main_v37 (by decide)).trans (v37_10 m c)
theorem v37_12 : V12 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V12_of m (outs m) c main_v37 (by decide)).trans (v37_11 m c)
theorem v37_13 : V13 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V13_of m (outs m) c main_v37 (by decide)).trans (v37_12 m c)
theorem v37_14 : V14 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V14_of m (outs m) c main_v37 (by decide)).trans (v37_13 m c)
theorem v37_15 : V15 m (outs m) c main_v37 = kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (V15_of m (outs m) c main_v37 (by decide)).trans (v37_14 m c)

/-! ## Layer 3: the aggregation and the bias row on the host, then region 4 -/
theorem v47_9 : V9 m (outs m) c main_v47 = kagg64 (kh2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (kSrc (m ((c.tc : Thread nD τ).loc main_arg2))) (kDst (m ((c.tc : Thread nD τ).loc main_arg2))) :=
  (ops4_v47 (V8 m (outs m) c)).trans (by (try dsimp only); rw [v37_8 m c, v1_8 m c, v3_8 m c]; all_goals rfl)
theorem v48_9 : V9 m (outs m) c main_v48 = r64 (m ((c.tc : Thread nD τ).loc main_arg10)) :=
  (ops4_v48 (V8 m (outs m) c)).trans (by (try dsimp only); rw [arg10_8 m c]; all_goals rfl)
theorem V10_v49 : V10 m (outs m) c main_v49 = outs m 10 main_v49 c :=
  Function.update_self _ _ _
theorem out4_4 : outs m 10 main_v49 c = (dat4 (fun c b => V9 m (outs m) c b) c).arrAt 4 cfg4.N :=
  (show L4 m c (Proc.devRef .tc (Pipeline.arrRef spec4 4)) = _ from
    Pipeline.withArrays_arr spec4 launch4.win.arr_inj c (S9 m c) (fun w => (dat4 (fun c b => S9 m c b) c).arrAt w cfg4.N) 4).trans
    (congrArg (fun V => (dat4 V c).arrAt 4 cfg4.N) (stage9_fun m))
theorem v49_10 : V10 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V10_v49 m c).trans <| (out4_4 m c).trans <| (final4 (fun c b => V9 m (outs m) c b) c).trans (by (try dsimp only); rw [v37_9 m c, v47_9 m c, arg9_9 m c, v48_9 m c]; all_goals rfl)
theorem v49_11 : V11 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V11_of m (outs m) c main_v49 (by decide)).trans (v49_10 m c)
theorem v49_12 : V12 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V12_of m (outs m) c main_v49 (by decide)).trans (v49_11 m c)
theorem v49_13 : V13 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V13_of m (outs m) c main_v49 (by decide)).trans (v49_12 m c)
theorem v49_14 : V14 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V14_of m (outs m) c main_v49 (by decide)).trans (v49_13 m c)
theorem v49_15 : V15 m (outs m) c main_v49 = kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (V15_of m (outs m) c main_v49 (by decide)).trans (v49_14 m c)

/-! ## Layer 4: the aggregation and the bias row on the host, then region 5 -/
theorem v59_11 : V11 m (outs m) c main_v59 = kagg64 (kh3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (kSrc (m ((c.tc : Thread nD τ).loc main_arg2))) (kDst (m ((c.tc : Thread nD τ).loc main_arg2))) :=
  (ops5_v59 (V10 m (outs m) c)).trans (by (try dsimp only); rw [v49_10 m c, v1_10 m c, v3_10 m c]; all_goals rfl)
theorem v60_11 : V11 m (outs m) c main_v60 = r64 (m ((c.tc : Thread nD τ).loc main_arg12)) :=
  (ops5_v60 (V10 m (outs m) c)).trans (by (try dsimp only); rw [arg12_10 m c]; all_goals rfl)
theorem V12_v61 : V12 m (outs m) c main_v61 = outs m 12 main_v61 c :=
  Function.update_self _ _ _
theorem out5_4 : outs m 12 main_v61 c = (dat5 (fun c b => V11 m (outs m) c b) c).arrAt 4 cfg5.N :=
  (show L5 m c (Proc.devRef .tc (Pipeline.arrRef spec5 4)) = _ from
    Pipeline.withArrays_arr spec5 launch5.win.arr_inj c (S11 m c) (fun w => (dat5 (fun c b => S11 m c b) c).arrAt w cfg5.N) 4).trans
    (congrArg (fun V => (dat5 V c).arrAt 4 cfg5.N) (stage11_fun m))
theorem v61_12 : V12 m (outs m) c main_v61 = kh4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (V12_v61 m c).trans <| (out5_4 m c).trans <| (final5 (fun c b => V11 m (outs m) c b) c).trans (by (try dsimp only); rw [v49_11 m c, v59_11 m c, arg11_11 m c, v60_11 m c]; all_goals rfl)
theorem v61_13 : V13 m (outs m) c main_v61 = kh4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (V13_of m (outs m) c main_v61 (by decide)).trans (v61_12 m c)
theorem v61_14 : V14 m (outs m) c main_v61 = kh4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (V14_of m (outs m) c main_v61 (by decide)).trans (v61_13 m c)
theorem v61_15 : V15 m (outs m) c main_v61 = kh4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (V15_of m (outs m) c main_v61 (by decide)).trans (v61_14 m c)

/-! ## Layer 5: the aggregation and the bias row on the host, then region 6 -/
theorem v71_13 : V13 m (outs m) c main_v71 = kagg64 (kh4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (kSrc (m ((c.tc : Thread nD τ).loc main_arg2))) (kDst (m ((c.tc : Thread nD τ).loc main_arg2))) :=
  (ops6_v71 (V12 m (outs m) c)).trans (by (try dsimp only); rw [v61_12 m c, v1_12 m c, v3_12 m c]; all_goals rfl)
theorem v72_13 : V13 m (outs m) c main_v72 = r64 (m ((c.tc : Thread nD τ).loc main_arg14)) :=
  (ops6_v72 (V12 m (outs m) c)).trans (by (try dsimp only); rw [arg14_12 m c]; all_goals rfl)
theorem V14_v73 : V14 m (outs m) c main_v73 = outs m 14 main_v73 c :=
  Function.update_self _ _ _
theorem out6_4 : outs m 14 main_v73 c = (dat6 (fun c b => V13 m (outs m) c b) c).arrAt 4 cfg6.N :=
  (show L6 m c (Proc.devRef .tc (Pipeline.arrRef spec6 4)) = _ from
    Pipeline.withArrays_arr spec6 launch6.win.arr_inj c (S13 m c) (fun w => (dat6 (fun c b => S13 m c b) c).arrAt w cfg6.N) 4).trans
    (congrArg (fun V => (dat6 V c).arrAt 4 cfg6.N) (stage13_fun m))
theorem v73_14 : V14 m (outs m) c main_v73 = kh5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (V14_v73 m c).trans <| (out6_4 m c).trans <| (final6 (fun c b => V13 m (outs m) c b) c).trans (by (try dsimp only); rw [v61_13 m c, v71_13 m c, arg13_13 m c, v72_13 m c]; all_goals rfl)
theorem v73_15 : V15 m (outs m) c main_v73 = kh5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  (V15_of m (outs m) c main_v73 (by decide)).trans (v73_14 m c)

/-! ## Region 7: the last projection; the concatenation -/
theorem V15_v74 : V15 m (outs m) c main_v74 = outs m 15 main_v74 c :=
  Function.update_self _ _ _
theorem out7_2 : outs m 15 main_v74 c = (dat7 (fun c b => V14 m (outs m) c b) c).arrAt 2 cfg7.N :=
  (show L7 m c (Proc.devRef .tc (Pipeline.arrRef spec7 2)) = _ from
    Pipeline.withArrays_arr spec7 launch7.win.arr_inj c (S14 m c) (fun w => (dat7 (fun c b => S14 m c b) c).arrAt w cfg7.N) 2).trans
    (congrArg (fun V => (dat7 V c).arrAt 2 cfg7.N) (stage14_fun m))
theorem v74_15 : V15 m (outs m) c main_v74 = Cert.Spec.proj (kh5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) (m ((c.tc : Thread nD τ).loc main_arg15)) :=
  (V15_v74 m c).trans <| (out7_2 m c).trans <| (final7 (fun c b => V14 m (outs m) c b) c).trans (by (try dsimp only); rw [v73_14 m c, arg15_14 m c]; all_goals rfl)

/-- The kernel program's result buffer at the end of its run is `kout` of the sixteen argument arrays. -/
theorem result_eq : V16 m (outs m) c main_v75 = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (ops8_v75 (V15 m (outs m) c)).trans (by rw [v25_15 m c, v37_15 m c, v49_15 m c, v61_15 m c, v73_15 m c, v74_15 m c]; all_goals rfl)

end Cert.KernelIdeal.KVal

end
-- ==== Proof.Finite.lean ====
/-
  From the precondition (every argument array has only finite entries: each `|x| < +∞` holds everywhere) to the facts
  the variance law needs: every entry of the node features and of the importance column is a real, and so is every
  entry of their row-scaled product.
-/
import proofs.«132860_j13426067767700_1_alg».proof.Defs
import proofs.«132860_j13426067767700_1_alg».proof.Proof.Gen.Pre_finite_inputs
import proofs.«132860_j13426067767700_1_alg».proof.Proof.Spec
import proofs.«132860_j13426067767700_1_alg».proof.Proof.SpecLaws
import Idealize.ShloMosaic.Lib.ReduceAll
import Idealize.ShloMosaic.Lib.ValueIdx

noncomputable section

namespace Cert.KernelIdeal.Fin

open Idealize.ShloMosaic Idealize.SL.Sem Idealize.ShloMosaic.ValueIdx

/-- The scalar shape has one index. -/
theorem subsingleton_scalar : Subsingleton Cert.Pre_finite_inputs.S_.Idx := ⟨fun a b => funext fun d => d.elim0⟩

/-- An extended real whose absolute value compares below the word of `+∞` is a real. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have hlt : max a (-a) < ⊤ := by
    by_contra hn
    have h0 : Ideal.cmp .olt (max a (-a)) ⊤ = 0#1 := by
      show BitVec.ofBool (decide (max a (-a) < ⊤)) = 0#1
      rw [decide_eq_false hn]; rfl
    rw [h0] at h
    exact absurd h (by decide)
  induction a using EReal.rec with
  | bot => simp at hlt
  | coe r => exact ⟨r, rfl⟩
  | top => simp at hlt

/-- Where the conjunction over all entries of `|x| < +∞` came out 1, every entry of `x` is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf (F := Ideal) x)
          (broadcastInDim s ![] hb (constant (F := Ideal) Cert.Pre_finite_inputs.S_ .f32 0x7F800000#32)))
        (constantI Cert.Pre_finite_inputs.S_ 1 1#1) hr hu ix0 = 1#1) (i : s.Idx) :
    ∃ r : ℝ, x i = (r : EReal) := by
  haveI := subsingleton_scalar
  exact real_of_abs_lt_top (x i) (Host.reduce_andi_all _ _ hr hu ix0 h i)

section
variable (m : (ℓ : Loc Cert.KernelIdeal.nD Cert.KernelIdeal.τ Cert.KernelIdeal.sig) → Buf (Elt Ideal) ℓ)

/-- The first two conjuncts of the precondition: the node features' and the importance column's conjunctions over
    all entries are 1. -/
theorem pre_split (h : @Cert.Pre_KernelIdeal Cert.Pre_finite_inputs.Gen.facts m) (c : Dev Cert.KernelIdeal.nD) :
    Host.reduce IntOp.andi
        (cmpf .olt (Host.absf (F := Ideal) (m ((c.tc : Thread Cert.KernelIdeal.nD Cert.KernelIdeal.τ).loc Cert.KernelIdeal.main_arg0) : FVec Ideal Cert.Pre_finite_inputs.S100000x128 .f32))
          (broadcastInDim Cert.Pre_finite_inputs.S100000x128 ![] Cert.Pre_finite_inputs.Gen.facts.bcast_S_S100000x128
            (constant (F := Ideal) Cert.Pre_finite_inputs.S_ .f32 0x7F800000#32)))
        (constantI Cert.Pre_finite_inputs.S_ 1 1#1) Cert.Pre_finite_inputs.Gen.facts.reducesTo_S100000x128_S_d0_1
        Cert.Pre_finite_inputs.Gen.facts.h_S_ ix0 = 1#1
    ∧ Host.reduce IntOp.andi
        (cmpf .olt (Host.absf (F := Ideal) (m ((c.tc : Thread Cert.KernelIdeal.nD Cert.KernelIdeal.τ).loc Cert.KernelIdeal.main_arg1) : FVec Ideal Cert.Pre_finite_inputs.S100000x1 .f32))
          (broadcastInDim Cert.Pre_finite_inputs.S100000x1 ![] Cert.Pre_finite_inputs.Gen.facts.bcast_S_S100000x1
            (constant (F := Ideal) Cert.Pre_finite_inputs.S_ .f32 0x7F800000#32)))
        (constantI Cert.Pre_finite_inputs.S_ 1 1#1) Cert.Pre_finite_inputs.Gen.facts.reducesTo_S100000x1_S_d0_1
        Cert.Pre_finite_inputs.Gen.facts.h_S_ ix0 = 1#1 := by
  have h0 := congrFun (h c) ix0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := (IntOp.andi_eq_one.1 h6).1
  have h8 := (IntOp.andi_eq_one.1 h7).1
  have h9 := (IntOp.andi_eq_one.1 h8).1
  have h10 := (IntOp.andi_eq_one.1 h9).1
  have h11 := (IntOp.andi_eq_one.1 h10).1
  have h12 := (IntOp.andi_eq_one.1 h11).1
  have h13 := (IntOp.andi_eq_one.1 h12).1
  exact IntOp.andi_eq_one.1 h13

/-- Every entry of the node features is a real. -/
theorem finite_X (h : @Cert.Pre_KernelIdeal Cert.Pre_finite_inputs.Gen.facts m) (c : Dev Cert.KernelIdeal.nD)
    (i : Cert.KernelIdeal.S100000x128.Idx) :
    ∃ r : ℝ, (m ((c.tc : Thread Cert.KernelIdeal.nD Cert.KernelIdeal.τ).loc Cert.KernelIdeal.main_arg0) :
      Cert.KernelIdeal.S100000x128.Idx → EReal) i = (r : EReal) :=
  real_of_all (s := Cert.Pre_finite_inputs.S100000x128) _ _ _ _ (pre_split m h c).1 i

/-- Every entry of the importance column is a real. -/
theorem finite_imp (h : @Cert.Pre_KernelIdeal Cert.Pre_finite_inputs.Gen.facts m) (c : Dev Cert.KernelIdeal.nD)
    (i : Cert.KernelIdeal.S100000x1.Idx) :
    ∃ r : ℝ, (m ((c.tc : Thread Cert.KernelIdeal.nD Cert.KernelIdeal.τ).loc Cert.KernelIdeal.main_arg1) :
      Cert.KernelIdeal.S100000x1.Idx → EReal) i = (r : EReal) :=
  real_of_all (s := Cert.Pre_finite_inputs.S100000x1) _ _ _ _ (pre_split m h c).2 i

/-- Every entry of the row-scaled node features is a real. -/
theorem finite_scaled (h : @Cert.Pre_KernelIdeal Cert.Pre_finite_inputs.Gen.facts m) (c : Dev Cert.KernelIdeal.nD) :
    ∀ i, ∃ r : ℝ, Cert.Spec.scaled
      (m ((c.tc : Thread Cert.KernelIdeal.nD Cert.KernelIdeal.τ).loc Cert.KernelIdeal.main_arg0) :
        Cert.KernelIdeal.S100000x128.Idx → EReal)
      (m ((c.tc : Thread Cert.KernelIdeal.nD Cert.KernelIdeal.τ).loc Cert.KernelIdeal.main_arg1) :
        Cert.KernelIdeal.S100000x1.Idx → EReal) i = (r : EReal) :=
  fun i => Cert.Spec.finite_mul (finite_X m h c i) (finite_imp m h c _)

end

end Cert.KernelIdeal.Fin

end
-- ==== Proof.Claims.lean ====
/-
  The certificate's five claims. The word-level program and the program at the ideal values run and leave their
  arguments unchanged (the frame of the regions' run); the reference likewise; the idealization rewrote nothing; and at
  the ideal values the two results agree, because on finite inputs the mean of squares minus the squared mean is the mean
  of squared deviations and a column sum may be grouped in blocks.
-/
import proofs.«132860_j13426067767700_1_alg».proof.Defs
import proofs.«132860_j13426067767700_1_alg».proof.Proof.Gen.Kernel
import proofs.«132860_j13426067767700_1_alg».proof.Proof.Gen.KernelIdeal
import proofs.«132860_j13426067767700_1_alg».proof.Proof.Gen.ReferenceIdeal
import proofs.«132860_j13426067767700_1_alg».proof.Proof.Gen.Pre_finite_inputs
import proofs.«132860_j13426067767700_1_alg».proof.Proof.RunMain
import proofs.«132860_j13426067767700_1_alg».proof.Proof.KRunMain
import proofs.«132860_j13426067767700_1_alg».proof.Proof.KVal
import proofs.«132860_j13426067767700_1_alg».proof.Proof.RefRun
import proofs.«132860_j13426067767700_1_alg».proof.Proof.RefValue
import proofs.«132860_j13426067767700_1_alg».proof.Proof.Bridge
import proofs.«132860_j13426067767700_1_alg».proof.Proof.Finite

noncomputable section

namespace Cert.Proof.Claims

open Idealize.ShloMosaic Idealize.ShloMosaic.TcCoe Idealize.SL.Sem

section Agree
open Cert.KernelIdeal
open Cert.ReferenceIdeal.RefValue (Cf Ci)

/-- The reference's term of arguments equal to the kernel program's is the kernel program's result. -/
theorem out_eq_kout_of_agree (a0 : Cf S100000x128) (a1 : Cf S100000x1) (a2 : Ci S2x1600000) (a3 : Cf S128) (a4 : Cf S128) (a5 : Cf S128x64) (a6 : Cf S64) (a7 : Cf S64x64) (a8 : Cf S64) (a9 : Cf S64x64) (a10 : Cf S64) (a11 : Cf S64x64) (a12 : Cf S64) (a13 : Cf S64x64) (a14 : Cf S64) (a15 : Cf S64x64)
    (b0 : Cf S100000x128) (b1 : Cf S100000x1) (b2 : Ci S2x1600000) (b3 : Cf S128) (b4 : Cf S128) (b5 : Cf S128x64) (b6 : Cf S64) (b7 : Cf S64x64) (b8 : Cf S64) (b9 : Cf S64x64) (b10 : Cf S64) (b11 : Cf S64x64) (b12 : Cf S64) (b13 : Cf S64x64) (b14 : Cf S64) (b15 : Cf S64x64)
    (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) (e13 : b13 = a13) (e14 : b14 = a14) (e15 : b15 = a15)
    (hx : ∀ i, ∃ r : ℝ, Cert.Spec.scaled a0 a1 i = (r : EReal)) :
    Cert.ReferenceIdeal.RefValue.out b0 b1 b2 b3 b4 b5 b6 b7 b8 b9 b10 b11 b12 b13 b14 b15 = Cert.KernelIdeal.Bridge.kout a0 a1 a2 a3 a4 a5 a6 a7 a8 a9 a10 a11 a12 a13 a14 a15 := by
  subst e0 e1 e2 e3 e4 e5 e6 e7 e8 e9 e10 e11 e12 e13 e14 e15
  exact (Cert.KernelIdeal.Bridge.kout_eq_ref b0 b1 b2 b3 b4 b5 b6 b7 b8 b9 b10 b11 b12 b13 b14 b15 hx).symm

end Agree

/-- The word-level program runs and leaves its arguments as they were. -/
theorem frame_k : Cert.frame_Kernel := fun m ρ _ => Cert.Kernel.Frm.frame (F := Bits) m ρ

/-- The program at the ideal values runs and leaves its arguments as they were. -/
theorem frame_ki : Cert.frame_KernelIdeal := fun m ρ _ => Cert.KernelIdeal.Frm.frame (F := Ideal) m ρ

/-- The reference runs and leaves its arguments as they were. -/
theorem frame_ri : Cert.frame_ReferenceIdeal := Cert.Proof.RefRunClaims.frame_ri

/-- The idealization rewrote no operation: nothing to preserve. -/
theorem preserves : Cert.preserves_Kernel_KernelIdeal := trivial

/-- At the ideal values, from memories that agree on the sixteen arguments whose entries are finite, the two programs
    end with the same result: the kernel program's is the specification's function of the arguments, the reference's is
    its own term of them, and the two are equal because the variance by moments is the centred variance on finite
    entries and a column sum does not depend on how its rows are grouped. -/
theorem algebraic : Cert.algebraic_KernelIdeal_ReferenceIdeal := by
  intro m ρ m' ρ' hpre hagree
  refine ⟨fun c => Cert.KernelIdeal.Bridge.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun r h c =>
      ⟨(h c _ (Cert.KernelIdeal.Frm.mem_uc Cert.KernelIdeal.main_v75 (by decide))).trans (Cert.KernelIdeal.KVal.result_eq m c),
      (h c _ (Cert.KernelIdeal.Frm.mem_uc Cert.KernelIdeal.main_arg0 (by decide))).trans (Cert.KernelIdeal.Gen.V16_main_arg0 m (Cert.KernelIdeal.Frm.outs m) c),
      (h c _ (Cert.KernelIdeal.Frm.mem_uc Cert.KernelIdeal.main_arg1 (by decide))).trans (Cert.KernelIdeal.Gen.V16_main_arg1 m (Cert.KernelIdeal.Frm.outs m) c),
      (h c _ (Cert.KernelIdeal.Frm.mem_uc Cert.KernelIdeal.main_arg2 (by decide))).trans (Cert.KernelIdeal.Gen.V16_main_arg2 m (Cert.KernelIdeal.Frm.outs m) c),
      (h c _ (Cert.KernelIdeal.Frm.mem_uc Cert.KernelIdeal.main_arg3 (by decide))).trans (Cert.KernelIdeal.Gen.V16_main_arg3 m (Cert.KernelIdeal.Frm.outs m) c),
      (h c _ (Cert.KernelIdeal.Frm.mem_uc Cert.KernelIdeal.main_arg4 (by decide))).trans (Cert.KernelIdeal.Gen.V16_main_arg4 m (Cert.KernelIdeal.Frm.outs m) c),
      (h c _ (Cert.KernelIdeal.Frm.mem_uc Cert.KernelIdeal.main_arg5 (by decide))).trans (Cert.KernelIdeal.Gen.V16_main_arg5 m (Cert.KernelIdeal.Frm.outs m) c),
      (h c _ (Cert.KernelIdeal.Frm.mem_uc Cert.KernelIdeal.main_arg6 (by decide))).trans (Cert.KernelIdeal.Gen.V16_main_arg6 m (Cert.KernelIdeal.Frm.outs m) c),
      (h c _ (Cert.KernelIdeal.Frm.mem_uc Cert.KernelIdeal.main_arg7 (by decide))).trans (Cert.KernelIdeal.Gen.V16_main_arg7 m (Cert.KernelIdeal.Frm.outs m) c),
      (h c _ (Cert.KernelIdeal.Frm.mem_uc Cert.KernelIdeal.main_arg8 (by decide))).trans (Cert.KernelIdeal.Gen.V16_main_arg8 m (Cert.KernelIdeal.Frm.outs m) c),
      (h c _ (Cert.KernelIdeal.Frm.mem_uc Cert.KernelIdeal.main_arg9 (by decide))).trans (Cert.KernelIdeal.Gen.V16_main_arg9 m (Cert.KernelIdeal.Frm.outs m) c),
      (h c _ (Cert.KernelIdeal.Frm.mem_uc Cert.KernelIdeal.main_arg10 (by decide))).trans (Cert.KernelIdeal.Gen.V16_main_arg10 m (Cert.KernelIdeal.Frm.outs m) c),
      (h c _ (Cert.KernelIdeal.Frm.mem_uc Cert.KernelIdeal.main_arg11 (by decide))).trans (Cert.KernelIdeal.Gen.V16_main_arg11 m (Cert.KernelIdeal.Frm.outs m) c),
      (h c _ (Cert.KernelIdeal.Frm.mem_uc Cert.KernelIdeal.main_arg12 (by decide))).trans (Cert.KernelIdeal.Gen.V16_main_arg12 m (Cert.KernelIdeal.Frm.outs m) c),
      (h c _ (Cert.KernelIdeal.Frm.mem_uc Cert.KernelIdeal.main_arg13 (by decide))).trans (Cert.KernelIdeal.Gen.V16_main_arg13 m (Cert.KernelIdeal.Frm.outs m) c),
      (h c _ (Cert.KernelIdeal.Frm.mem_uc Cert.KernelIdeal.main_arg14 (by decide))).trans (Cert.KernelIdeal.Gen.V16_main_arg14 m (Cert.KernelIdeal.Frm.outs m) c),
      (h c _ (Cert.KernelIdeal.Frm.mem_uc Cert.KernelIdeal.main_arg15 (by decide))).trans (Cert.KernelIdeal.Gen.V16_main_arg15 m (Cert.KernelIdeal.Frm.outs m) c)⟩)
      (Cert.KernelIdeal.Frm.run_main (F := Ideal) m ρ)
  · refine (θ_run Cert.ReferenceIdeal.defs _ _).mono (fun r h c => ⟨(h c).1.trans ?_, (h c).2⟩)
      (Cert.ReferenceIdeal.RefRun.run (F := Ideal) m' ρ')
    refine (Cert.ReferenceIdeal.RefValue.after_eq_mem m' c).trans ?_
    obtain ⟨e0, e1, e2, e3, e4, e5, e6, e7, e8, e9, e10, e11, e12, e13, e14, e15⟩ := hagree c
    exact out_eq_kout_of_agree _ _ _ _ _ _ _ _ _ _ _ _ _ _ _ _ _ _ _ _ _ _ _ _ _ _ _ _ _ _ _ _
      e0 e1 e2 e3 e4 e5 e6 e7 e8 e9 e10 e11 e12 e13 e14 e15 (Cert.KernelIdeal.Fin.finite_scaled m hpre c)

end Cert.Proof.Claims

end
-- ==== Proof.lean ====
/- The certificate's proof. Both kernel programs (word-level and at the ideal values) and the reference run and keep
   their arguments; the idealization rewrote nothing; and at the ideal values the kernel program's result — the node
   features scaled row-wise, normalised by their batch statistics, pushed through five aggregate-and-map layers and a
   projection, the six blocks side by side — is the reference's, the variance by moments agreeing with the centred
   variance on finite entries and a column sum not depending on how its rows are grouped. -/
import proofs.«132860_j13426067767700_1_alg».proof.Defs
import proofs.«132860_j13426067767700_1_alg».proof.Proof.Gen.Kernel
import proofs.«132860_j13426067767700_1_alg».proof.Proof.Gen.Kernel.Skeleton
import proofs.«132860_j13426067767700_1_alg».proof.Proof.Gen.Kernel.Launch
import proofs.«132860_j13426067767700_1_alg».proof.Proof.Gen.Kernel.Regions
import proofs.«132860_j13426067767700_1_alg».proof.Proof.Gen.Kernel.Points
import proofs.«132860_j13426067767700_1_alg».proof.Proof.Gen.KernelIdeal
import proofs.«132860_j13426067767700_1_alg».proof.Proof.Gen.KernelIdeal.Skeleton
import proofs.«132860_j13426067767700_1_alg».proof.Proof.Gen.KernelIdeal.Launch
import proofs.«132860_j13426067767700_1_alg».proof.Proof.Gen.KernelIdeal.Regions
import proofs.«132860_j13426067767700_1_alg».proof.Proof.Gen.KernelIdeal.Points
import proofs.«132860_j13426067767700_1_alg».proof.Proof.Gen.ReferenceIdeal
import proofs.«132860_j13426067767700_1_alg».proof.Proof.Gen.Pre_finite_inputs
import proofs.«132860_j13426067767700_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
